-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.truncf_extf.Statement Cert.KernelIdeal.S1x32 .f32 .bf16
  ∧ IdealRules.truncf_extf.Statement Cert.KernelIdeal.S1x32 .f32 .bf16
  ∧ IdealRules.truncf_extf.Statement Cert.KernelIdeal.S40x304 .f32 .bf16
  ∧ IdealRules.truncf_extf.Statement Cert.KernelIdeal.S40x304 .f32 .bf16
  ∧ IdealRules.truncf_extf.Statement Cert.KernelIdeal.S1x1 .f32 .bf16
  ∧ IdealRules.truncf_extf.Statement Cert.KernelIdeal.S1x1 .f32 .bf16
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)
  ∧ IdealRules.named_const.Statement Cert.KernelIdeal.κ "inv_300000" .f32 0x365FB23B#32 ((1 / 300000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x4 : Shape := ⟨2, ![1000, 4]⟩
abbrev S1000x64 : Shape := ⟨2, ![1000, 64]⟩
abbrev S300x4 : Shape := ⟨2, ![300, 4]⟩
abbrev S300x64 : Shape := ⟨2, ![300, 64]⟩
abbrev S2 : Shape := ⟨1, ![2]⟩
abbrev S2x32 : Shape := ⟨2, ![2, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1000x2 : Shape := ⟨2, ![1000, 2]⟩
abbrev S300x2 : Shape := ⟨2, ![300, 2]⟩

class Facts : Prop where
  bcast_S_S1000x4 : S_.BroadcastsInDim S1000x4 (![] : Fin 0 → Fin S1000x4.rank)
  reducesTo_S1000x4_S_d0_1 : S1000x4.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S300x4 : S_.BroadcastsInDim S300x4 (![] : Fin 0 → Fin S300x4.rank)
  reducesTo_S300x4_S_d0_1 : S300x4.ReducesTo [0, 1] S_
  bcast_S_S300x64 : S_.BroadcastsInDim S300x64 (![] : Fin 0 → Fin S300x64.rank)
  reducesTo_S300x64_S_d0_1 : S300x64.ReducesTo [0, 1] S_
  bcast_S_S2 : S_.BroadcastsInDim S2 (![] : Fin 0 → Fin S2.rank)
  reducesTo_S2_S_d0 : S2.ReducesTo [0] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S1000x4_S1000x2_0_0 : S1000x4.Slices ![0, 0] S1000x2
  slices_S1000x4_S1000x2_0_2 : S1000x4.Slices ![0, 2] S1000x2
  reducesTo_S1000x2_S_d0_1 : S1000x2.ReducesTo [0, 1] S_
  slices_S300x4_S300x2_0_0 : S300x4.Slices ![0, 0] S300x2
  slices_S300x4_S300x2_0_2 : S300x4.Slices ![0, 2] S300x2
  reducesTo_S300x2_S_d0_1 : S300x2.ReducesTo [0, 1] S_

variable [Facts]

def fn_part6 {F : FTy → Type} [FloatOps F] (main_arg2 : FVec F S300x4 .f32) (main_v98 : IVec S_ 1) (main_v102 : IVec S_ 1) : IVec S_ 1 :=
  let main_v103 : IVec S_ 1 := andi main_v98 main_v102
  let main_v104 : FVec F S300x2 .f32 := (extractStridedSlice S300x2 ![0, 0] · slices_S300x4_S300x2_0_0) main_arg2
  let main_v105 : FVec F S300x2 .f32 := (extractStridedSlice S300x2 ![0, 2] · slices_S300x4_S300x2_0_2) main_arg2
  let main_v106 : IVec S300x2 1 := cmpf .ole main_v104 main_v105
  let main_c_39 : IVec S_ 1 := constantI S_ 1 1#1
  let main_v107 : IVec S_ 1 := (fun x v => Host.reduce IntOp.andi x v reducesTo_S300x2_S_d0_1 h_S_) main_v106 main_c_39
  let main_v108 : IVec S_ 1 := andi main_v103 main_v107
  main_v108

def fn_part5 {F : FTy → Type} [FloatOps F] (main_arg0 : FVec F S1000x4 .f32) (main_arg2 : FVec F S300x4 .f32) (main_arg18 : FVec F S64x64 .f32) (main_arg19 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1000x2 .f32 := (extractStridedSlice S1000x2 ![0, 0] · slices_S1000x4_S1000x2_0_0) main_arg0
  let main_v100 : FVec F S1000x2 .f32 := (extractStridedSlice S1000x2 ![0, 2] · slices_S1000x4_S1000x2_0_2) main_arg0
  let main_v101 : IVec S1000x2 1 := cmpf .ole main_v99 main_v100
  let main_c_38 : IVec S_ 1 := constantI S_ 1 1#1
  let main_v102 : IVec S_ 1 := (fun x v => Host.reduce IntOp.andi x v reducesTo_S1000x2_S_d0_1 h_S_) main_v101 main_c_38
  fn_part6 (F := F) main_arg2 main_v98 main_v102

def fn_part4 {F : FTy → Type} [FloatOps F] (main_arg0 : FVec F S1000x4 .f32) (main_arg2 : FVec F S300x4 .f32) (main_arg14 : FVec F S32x64 .f32) (main_arg15 : FVec F S64 .f32) (main_arg16 : FVec F S64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S32x64 .f32 := Host.absf main_arg14
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg0 main_arg2 main_arg18 main_arg19 main_v83 main_v84 main_cst_32

def fn_part3 {F : FTy → Type} [FloatOps F] (main_arg0 : FVec F S1000x4 .f32) (main_arg2 : FVec F S300x4 .f32) (main_arg11 : FVec F S32 .f32) (main_arg12 : FVec F S32 .f32) (main_arg13 : FVec F S32 .f32) (main_arg14 : FVec F S32x64 .f32) (main_arg15 : FVec F S64 .f32) (main_arg16 : FVec F S64 .f32) (main_arg17 : FVec F S64 .f32) (main_arg18 : FVec F S64x64 .f32) (main_arg19 : FVec F S64 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg0 main_arg2 main_arg14 main_arg15 main_arg16 main_arg17 main_arg18 main_arg19 main_v63 main_v67

def fn_part2 {F : FTy → Type} [FloatOps F] (main_arg0 : FVec F S1000x4 .f32) (main_arg2 : FVec F S300x4 .f32) (main_arg7 : FVec F S32 .f32) (main_arg8 : FVec F S32 .f32) (main_arg9 : FVec F S32 .f32) (main_arg10 : FVec F S32x32 .f32) (main_arg11 : FVec F S32 .f32) (main_arg12 : FVec F S32 .f32) (main_arg13 : FVec F S32 .f32) (main_arg14 : FVec F S32x64 .f32) (main_arg15 : FVec F S64 .f32) (main_arg16 : FVec F S64 .f32) (main_arg17 : FVec F S64 .f32) (main_arg18 : FVec F S64x64 .f32) (main_arg19 : FVec F S64 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg0 main_arg2 main_arg11 main_arg12 main_arg13 main_arg14 main_arg15 main_arg16 main_arg17 main_arg18 main_arg19 main_v48 main_v49 main_v50

def fn_part1 {F : FTy → Type} [FloatOps F] (main_arg0 : FVec F S1000x4 .f32) (main_arg2 : FVec F S300x4 .f32) (main_arg4 : FVec F S2 .f32) (main_arg5 : FVec F S2 .f32) (main_arg6 : FVec F S2x32 .f32) (main_arg7 : FVec F S32 .f32) (main_arg8 : FVec F S32 .f32) (main_arg9 : FVec F S32 .f32) (main_arg10 : FVec F S32x32 .f32) (main_arg11 : FVec F S32 .f32) (main_arg12 : FVec F S32 .f32) (main_arg13 : FVec F S32 .f32) (main_arg14 : FVec F S32x64 .f32) (main_arg15 : FVec F S64 .f32) (main_arg16 : FVec F S64 .f32) (main_arg17 : FVec F S64 .f32) (main_arg18 : FVec F S64x64 .f32) (main_arg19 : FVec F S64 .f32) (main_v13 : IVec S_ 1) (main_v16 : IVec S300x64 1) : IVec S_ 1 :=
  let main_c_5 : IVec S_ 1 := constantI S_ 1 1#1
  let main_v17 : IVec S_ 1 := (fun x v => Host.reduce IntOp.andi x v reducesTo_S300x64_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x32 .f32 := Host.absf main_arg6
  let main_cst_10 : FVec F S_ .f32 := constant S_ .f32 0x7F800000#32
  let main_v30 : FVec F S2x32 .f32 := broadcastInDim S2x32 ![] bcast_S_S2x32 main_cst_10
  let main_v31 : IVec S2x32 1 := cmpf .olt main_v29 main_v30
  let main_c_11 : IVec S_ 1 := constantI S_ 1 1#1
  let main_v32 : IVec S_ 1 := (fun x v => Host.reduce IntOp.andi x v reducesTo_S2x32_S_d0_1 h_S_) main_v31 main_c_11
  let main_v33 : IVec S_ 1 := andi main_v28 main_v32
  fn_part2 (F := F) main_arg0 main_arg2 main_arg7 main_arg8 main_arg9 main_arg10 main_arg11 main_arg12 main_arg13 main_arg14 main_arg15 main_arg16 main_arg17 main_arg18 main_arg19 main_v33

def fn {F : FTy → Type} [FloatOps F] (main_arg0 : FVec F S1000x4 .f32) (main_arg1 : FVec F S1000x64 .f32) (main_arg2 : FVec F S300x4 .f32) (main_arg3 : FVec F S300x64 .f32) (main_arg4 : FVec F S2 .f32) (main_arg5 : FVec F S2 .f32) (main_arg6 : FVec F S2x32 .f32) (main_arg7 : FVec F S32 .f32) (main_arg8 : FVec F S32 .f32) (main_arg9 : FVec F S32 .f32) (main_arg10 : FVec F S32x32 .f32) (main_arg11 : FVec F S32 .f32) (main_arg12 : FVec F S32 .f32) (main_arg13 : FVec F S32 .f32) (main_arg14 : FVec F S32x64 .f32) (main_arg15 : FVec F S64 .f32) (main_arg16 : FVec F S64 .f32) (main_arg17 : FVec F S64 .f32) (main_arg18 : FVec F S64x64 .f32) (main_arg19 : FVec F S64 .f32) : IVec S_ 1 :=
  let main_v0 : FVec F S1000x4 .f32 := Host.absf main_arg0
  let main_cst : FVec F S_ .f32 := constant S_ .f32 0x7F800000#32
  let main_v1 : FVec F S1000x4 .f32 := broadcastInDim S1000x4 ![] bcast_S_S1000x4 main_cst
  let main_v2 : IVec S1000x4 1 := cmpf .olt main_v0 main_v1
  let main_c : IVec S_ 1 := constantI S_ 1 1#1
  let main_v3 : IVec S_ 1 := (fun x v => Host.reduce IntOp.andi x v reducesTo_S1000x4_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S300x4 .f32 := Host.absf main_arg2
  let main_cst_2 : FVec F S_ .f32 := constant S_ .f32 0x7F800000#32
  let main_v10 : FVec F S300x4 .f32 := broadcastInDim S300x4 ![] bcast_S_S300x4 main_cst_2
  let main_v11 : IVec S300x4 1 := cmpf .olt main_v9 main_v10
  let main_c_3 : IVec S_ 1 := constantI S_ 1 1#1
  let main_v12 : IVec S_ 1 := (fun x v => Host.reduce IntOp.andi x v reducesTo_S300x4_S_d0_1 h_S_) main_v11 main_c_3
  let main_v13 : IVec S_ 1 := andi main_v8 main_v12
  let main_v14 : FVec F S300x64 .f32 := Host.absf main_arg3
  let main_cst_4 : FVec F S_ .f32 := constant S_ .f32 0x7F800000#32
  let main_v15 : FVec F S300x64 .f32 := broadcastInDim S300x64 ![] bcast_S_S300x64 main_cst_4
  let main_v16 : IVec S300x64 1 := cmpf .olt main_v14 main_v15
  fn_part1 (F := F) main_arg0 main_arg2 main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S1000x4 : Shape := ⟨2, ![1000, 4]⟩
abbrev S1000x64 : Shape := ⟨2, ![1000, 64]⟩
abbrev S300x4 : Shape := ⟨2, ![300, 4]⟩
abbrev S300x64 : Shape := ⟨2, ![300, 64]⟩
abbrev S2 : Shape := ⟨1, ![2]⟩
abbrev S2x32 : Shape := ⟨2, ![2, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S_ : Shape := ⟨0, ![]⟩
abbrev S64x304 : Shape := ⟨2, ![64, 304]⟩
abbrev S64x300 : Shape := ⟨2, ![64, 300]⟩
abbrev S1 : Shape := ⟨1, ![1]⟩
abbrev S4x304 : Shape := ⟨2, ![4, 304]⟩
abbrev S4x300 : Shape := ⟨2, ![4, 300]⟩
abbrev S1000x304 : Shape := ⟨2, ![1000, 304]⟩
abbrev S2x128 : Shape := ⟨2, ![2, 128]⟩
abbrev S1x2 : Shape := ⟨2, ![1, 2]⟩
abbrev S1x32 : Shape := ⟨2, ![1, 32]⟩
abbrev S304000x32 : Shape := ⟨2, ![304000, 32]⟩
abbrev S3x128 : Shape := ⟨2, ![3, 128]⟩
abbrev S1x64 : Shape := ⟨2, ![1, 64]⟩
abbrev S1000x300x64 : Shape := ⟨3, ![1000, 300, 64]⟩
abbrev S200x4 : Shape := ⟨2, ![200, 4]⟩
abbrev S200x64 : Shape := ⟨2, ![200, 64]⟩
abbrev S200x304 : Shape := ⟨2, ![200, 304]⟩
abbrev S200 : Shape := ⟨1, ![200]⟩
abbrev S200x1 : Shape := ⟨2, ![200, 1]⟩
abbrev S304 : Shape := ⟨1, ![304]⟩
abbrev S1x304 : Shape := ⟨2, ![1, 304]⟩
abbrev S1x1 : Shape := ⟨2, ![1, 1]⟩
abbrev S1x200x304 : Shape := ⟨3, ![1, 200, 304]⟩
abbrev S1x1x1 : Shape := ⟨3, ![1, 1, 1]⟩
abbrev S40x304 : Shape := ⟨2, ![40, 304]⟩
abbrev S12160x32 : Shape := ⟨2, ![12160, 32]⟩
abbrev S40x304x1 : Shape := ⟨3, ![40, 304, 1]⟩
abbrev S40x304x2 : Shape := ⟨3, ![40, 304, 2]⟩
abbrev S12160x2 : Shape := ⟨2, ![12160, 2]⟩
abbrev S15200x32 : Shape := ⟨2, ![15200, 32]⟩
abbrev S15200x64 : Shape := ⟨2, ![15200, 64]⟩
abbrev S50x300x64 : Shape := ⟨3, ![50, 300, 64]⟩
abbrev S50x304x64 : Shape := ⟨3, ![50, 304, 64]⟩

abbrev nBuf : Space → Nat
  | .hbm => 56
  | .vmem => 55
  | .smem => 0
  | _ => 0

abbrev bufTy : (tb : Table) → Fin (tcTables nBuf tb) → BufTy
  | .hbm, ⟨0, _⟩ => ⟨S1000x4, .f32⟩
  | .hbm, ⟨1, _⟩ => ⟨S1000x64, .f32⟩
  | .hbm, ⟨2, _⟩ => ⟨S300x4, .f32⟩
  | .hbm, ⟨3, _⟩ => ⟨S300x64, .f32⟩
  | .hbm, ⟨4, _⟩ => ⟨S2, .f32⟩
  | .hbm, ⟨5, _⟩ => ⟨S2, .f32⟩
  | .hbm, ⟨6, _⟩ => ⟨S2x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S_, .f32⟩
  | .hbm, ⟨21, _⟩ => ⟨S64x304, .f32⟩
  | .hbm, ⟨22, _⟩ => ⟨S64x300, .f32⟩
  | .hbm, ⟨23, _⟩ => ⟨S_, .i32⟩
  | .hbm, ⟨24, _⟩ => ⟨S1, .i32⟩
  | .hbm, ⟨25, _⟩ => ⟨S64x304, .f32⟩
  | .hbm, ⟨26, _⟩ => ⟨S_, .f32⟩
  | .hbm, ⟨27, _⟩ => ⟨S4x304, .f32⟩
  | .hbm, ⟨28, _⟩ => ⟨S4x300, .f32⟩
  | .hbm, ⟨29, _⟩ => ⟨S_, .i32⟩
  | .hbm, ⟨30, _⟩ => ⟨S1, .i32⟩
  | .hbm, ⟨31, _⟩ => ⟨S4x304, .f32⟩
  | .hbm, ⟨32, _⟩ => ⟨S1000x304, .f32⟩
  | .hbm, ⟨33, _⟩ => ⟨S1000x304, .f32⟩
  | .hbm, ⟨34, _⟩ => ⟨S2x128, .f32⟩
  | .hbm, ⟨35, _⟩ => ⟨S1x2, .f32⟩
  | .hbm, ⟨36, _⟩ => ⟨S1x2, .f32⟩
  | .hbm, ⟨37, _⟩ => ⟨S1x32, .f32⟩
  | .hbm, ⟨38, _⟩ => ⟨S304000x32, .f32⟩
  | .hbm, ⟨39, _⟩ => ⟨S3x128, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S304000x32, .f32⟩
  | .hbm, ⟨44, _⟩ => ⟨S3x128, .f32⟩
  | .hbm, ⟨45, _⟩ => ⟨S1x32, .f32⟩
  | .hbm, ⟨46, _⟩ => ⟨S1x32, .f32⟩
  | .hbm, ⟨47, _⟩ => ⟨S1x64, .f32⟩
  | .hbm, ⟨48, _⟩ => ⟨S3x128, .f32⟩
  | .hbm, ⟨49, _⟩ => ⟨S1x32, .f32⟩
  | .hbm, ⟨50, _⟩ => ⟨S1x32, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1000x300x64, .f32⟩
  | .local _ .vmem, ⟨0, _⟩ => ⟨S200x4, .f32⟩
  | .local _ .vmem, ⟨1, _⟩ => ⟨S200x4, .f32⟩
  | .local _ .vmem, ⟨2, _⟩ => ⟨S200x64, .f32⟩
  | .local _ .vmem, ⟨3, _⟩ => ⟨S200x64, .f32⟩
  | .local _ .vmem, ⟨4, _⟩ => ⟨S64x304, .f32⟩
  | .local _ .vmem, ⟨5, _⟩ => ⟨S4x304, .f32⟩
  | .local _ .vmem, ⟨6, _⟩ => ⟨S200x304, .f32⟩
  | .local _ .vmem, ⟨7, _⟩ => ⟨S200x304, .f32⟩
  | .local _ .vmem, ⟨8, _⟩ => ⟨S200x304, .f32⟩
  | .local _ .vmem, ⟨9, _⟩ => ⟨S200x304, .f32⟩
  | .local _ .vmem, ⟨10, _⟩ => ⟨S2x128, .f32⟩
  | .local _ .vmem, ⟨11, _⟩ => ⟨S40x304, .f32⟩
  | .local _ .vmem, ⟨12, _⟩ => ⟨S40x304, .f32⟩
  | .local _ .vmem, ⟨13, _⟩ => ⟨S40x304, .f32⟩
  | .local _ .vmem, ⟨14, _⟩ => ⟨S40x304, .f32⟩
  | .local _ .vmem, ⟨15, _⟩ => ⟨S2x128, .f32⟩
  | .local _ .vmem, ⟨16, _⟩ => ⟨S1x2, .f32⟩
  | .local _ .vmem, ⟨17, _⟩ => ⟨S1x2, .f32⟩
  | .local _ .vmem, ⟨18, _⟩ => ⟨S2x32, .f32⟩
  | .local _ .vmem, ⟨19, _⟩ => ⟨S1x32, .f32⟩
  | .local _ .vmem, ⟨20, _⟩ => ⟨S12160x32, .f32⟩
  | .local _ .vmem, ⟨21, _⟩ => ⟨S12160x32, .f32⟩
  | .local _ .vmem, ⟨22, _⟩ => ⟨S3x128, .f32⟩
  | .local _ .vmem, ⟨23, _⟩ => ⟨S15200x32, .f32⟩
  | .local _ .vmem, ⟨24, _⟩ => ⟨S15200x32, .f32⟩
  | .local _ .vmem, ⟨25, _⟩ => ⟨S3x128, .f32⟩
  | .local _ .vmem, ⟨26, _⟩ => ⟨S1x32, .f32⟩
  | .local _ .vmem, ⟨27, _⟩ => ⟨S1x32, .f32⟩
  | .local _ .vmem, ⟨28, _⟩ => ⟨S32x32, .f32⟩
  | .local _ .vmem, ⟨29, _⟩ => ⟨S1x32, .f32⟩
  | .local _ .vmem, ⟨30, _⟩ => ⟨S15200x32, .f32⟩
  | .local _ .vmem, ⟨31, _⟩ => ⟨S15200x32, .f32⟩
  | .local _ .vmem, ⟨32, _⟩ => ⟨S3x128, .f32⟩
  | .local _ .vmem, ⟨33, _⟩ => ⟨S15200x32, .f32⟩
  | .local _ .vmem, ⟨34, _⟩ => ⟨S15200x32, .f32⟩
  | .local _ .vmem, ⟨35, _⟩ => ⟨S3x128, .f32⟩
  | .local _ .vmem, ⟨36, _⟩ => ⟨S1x32, .f32⟩
  | .local _ .vmem, ⟨37, _⟩ => ⟨S1x32, .f32⟩
  | .local _ .vmem, ⟨38, _⟩ => ⟨S32x64, .f32⟩
  | .local _ .vmem, ⟨39, _⟩ => ⟨S1x64, .f32⟩
  | .local _ .vmem, ⟨40, _⟩ => ⟨S3x128, .f32⟩
  | .local _ .vmem, ⟨41, _⟩ => ⟨S15200x32, .f32⟩
  | .local _ .vmem, ⟨42, _⟩ => ⟨S15200x32, .f32⟩
  | .local _ .vmem, ⟨43, _⟩ => ⟨S3x128, .f32⟩
  | .local _ .vmem, ⟨44, _⟩ => ⟨S3x128, .f32⟩
  | .local _ .vmem, ⟨45, _⟩ => ⟨S1x32, .f32⟩
  | .local _ .vmem, ⟨46, _⟩ => ⟨S1x32, .f32⟩
  | .local _ .vmem, ⟨47, _⟩ => ⟨S32x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S64x64, .f32⟩
  | .local _ .vmem, ⟨52, _⟩ => ⟨S1x64, .f32⟩
  | .local _ .vmem, ⟨53, _⟩ => ⟨S50x300x64, .f32⟩
  | .local _ .vmem, ⟨54, _⟩ => ⟨S50x300x64, .f32⟩
  | _, _ => ⟨S1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_c : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_v6 : Ref sig .tc := ⟨.hbm, 30, rfl⟩
abbrev main_call0_v7 : Ref sig .tc := ⟨.hbm, 31, rfl⟩
abbrev main_call0_v8_0 : Ref sig .tc := ⟨.hbm, 32, rfl⟩
abbrev main_call0_v8_1 : Ref sig .tc := ⟨.hbm, 33, rfl⟩
abbrev main_call0_v8_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12_0 : Ref sig .tc := ⟨.hbm, 38, rfl⟩
abbrev main_call0_v12_1 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16_0 : Ref sig .tc := ⟨.hbm, 43, rfl⟩
abbrev main_call0_v16_1 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_v0 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg10_0 : Ref sig .tc := ⟨.vmem, 52, rfl⟩
abbrev cc4_stg11_0 : Ref sig .tc := ⟨.vmem, 53, rfl⟩
abbrev cc4_stg11_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem9_0 : DmaSem sig := 51
abbrev cc4_sem10_0 : DmaSem sig := 52
abbrev cc4_sem11_0 : DmaSem sig := 53
abbrev cc4_sem11_1 : DmaSem sig := 54

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S40x304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x304 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S12160x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S3x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S15200x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S15200x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S3x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S15200x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S15200x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S50x300x64 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  bcast_S_S64x304 : S_.BroadcastsInDim S64x304 (![] : Fin 0 → Fin S64x304.rank)
  transposes_S300x64_S64x300_1_0 : S300x64.Transposes [1, 0] S64x300
  bcast_S_S1 : S_.BroadcastsInDim S1 (![] : Fin 0 → Fin S1.rank)
  bcast_S_S4x304 : S_.BroadcastsInDim S4x304 (![] : Fin 0 → Fin S4x304.rank)
  transposes_S300x4_S4x300_1_0 : S300x4.Transposes [1, 0] S4x300
  shapeCasts_S2_S1x2 : S2.ShapeCasts S1x2
  shapeCasts_S32_S1x32 : S32.ShapeCasts S1x32
  shapeCasts_S64_S1x64 : S64.ShapeCasts S1x64
  inb_S2x128_S2x128_0_0 : ∀ a, (![0, 0] : Fin 2 → Nat) a + S2x128.size a ≤ S2x128.size a
  h_S2x128 : 0 < S2x128.numel
  inb_S200x64_S200x64_0_0 : ∀ a, (![0, 0] : Fin 2 → Nat) a + S200x64.size a ≤ S200x64.size a
  h_S200x64 : 0 < S200x64.numel
  reduces_S200x64_S200 : S200x64.Reduces [1] S200
  shapeCasts_S200_S200x1 : S200.ShapeCasts S200x1
  broadcasts_S200x1_S200x64 : S200x1.Broadcasts S200x64
  inb_S64x304_S64x304_0_0 : ∀ a, (![0, 0] : Fin 2 → Nat) a + S64x304.size a ≤ S64x304.size a
  h_S64x304 : 0 < S64x304.numel
  shapeCasts_S64x304_S64x304 : S64x304.ShapeCasts S64x304
  reduces_S64x304_S304 : S64x304.Reduces [0] S304
  shapeCasts_S304_S1x304 : S304.ShapeCasts S1x304
  broadcasts_S1x304_S64x304 : S1x304.Broadcasts S64x304
  bitsLt_bf16_f32 : FTy.bits .bf16 < FTy.bits .f32
  inb_S200x4_S200x4_0_0 : ∀ a, (![0, 0] : Fin 2 → Nat) a + S200x4.size a ≤ S200x4.size a
  h_S200x4 : 0 < S200x4.numel
  slices_S200x4_o0_0_S200x1 : S200x4.Slices ![0, 0] S200x1
  slices_S200x4_o0_1_S200x1 : S200x4.Slices ![0, 1] S200x1
  slices_S200x4_o0_2_S200x1 : S200x4.Slices ![0, 2] S200x1
  slices_S200x4_o0_3_S200x1 : S200x4.Slices ![0, 3] S200x1
  inb_S4x304_S4x304_0_0 : ∀ a, (![0, 0] : Fin 2 → Nat) a + S4x304.size a ≤ S4x304.size a
  h_S4x304 : 0 < S4x304.numel
  shapeCasts_S4x304_S4x304 : S4x304.ShapeCasts S4x304
  slices_S4x304_o0_0_S1x304 : S4x304.Slices ![0, 0] S1x304
  slices_S4x304_o1_0_S1x304 : S4x304.Slices ![1, 0] S1x304
  slices_S4x304_o2_0_S1x304 : S4x304.Slices ![2, 0] S1x304
  slices_S4x304_o3_0_S1x304 : S4x304.Slices ![3, 0] S1x304
  broadcasts_S200x1_S200x304 : S200x1.Broadcasts S200x304
  broadcasts_S1x304_S200x304 : S1x304.Broadcasts S200x304
  inb_S200x304_S200x304_0_0 : ∀ a, (![0, 0] : Fin 2 → Nat) a + S200x304.size a ≤ S200x304.size a
  h_S200x304 : 0 < S200x304.numel
  inb_S2x128_S1x1_0_0 : ∀ a, (![0, 0] : Fin 2 → Nat) a + S1x1.size a ≤ S2x128.size a
  h_S1x1 : 0 < S1x1.numel
  shapeCasts_S1x1_S1x1 : S1x1.ShapeCasts S1x1
  shapeCasts_S200x304_S1x200x304 : S200x304.ShapeCasts S1x200x304
  reduces_S1x200x304_S1 : S1x200x304.Reduces [1, 2] S1
  shapeCasts_S1_S1x1x1 : S1.ShapeCasts S1x1x1
  inpos_S1x1x1_p0_0_0 : ∀ a, (![0, 0, 0] : Fin 3 → Nat) a < S1x1x1.size a
  inb_S2x128_S1x1_0_1 : ∀ a, (![0, 1] : Fin 2 → Nat) a + S1x1.size a ≤ S2x128.size a
  inb_S2x128_S1x1_1_0 : ∀ a, (![1, 0] : Fin 2 → Nat) a + S1x1.size a ≤ S2x128.size a
  inb_S2x128_S1x1_1_1 : ∀ a, (![1, 1] : Fin 2 → Nat) a + S1x1.size a ≤ S2x128.size a
  inb_S3x128_S3x128_0_0 : ∀ a, (![0, 0] : Fin 2 → Nat) a + S3x128.size a ≤ S3x128.size a
  h_S3x128 : 0 < S3x128.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S2x128_S1x2_0_0 : ∀ a, (![0, 0] : Fin 2 → Nat) a + S1x2.size a ≤ S2x128.size a
  inb_S2x128_S1x2_1_0 : ∀ a, (![1, 0] : Fin 2 → Nat) a + S1x2.size a ≤ S2x128.size a
  inb_S2x32_S2x32_0_0 : ∀ a, (![0, 0] : Fin 2 → Nat) a + S2x32.size a ≤ S2x32.size a
  h_S2x32 : 0 < S2x32.numel
  slices_S2x32_o0_0_S1x32 : S2x32.Slices ![0, 0] S1x32
  slices_S2x32_o1_0_S1x32 : S2x32.Slices ![1, 0] S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S40x304_S40x304_0_0 : ∀ a, (![0, 0] : Fin 2 → Nat) a + S40x304.size a ≤ S40x304.size a
  h_S40x304 : 0 < S40x304.numel
  shapeCasts_S40x304_S40x304 : S40x304.ShapeCasts S40x304
  slices_S1x2_o0_0_S1x1 : S1x2.Slices ![0, 0] S1x1
  broadcasts_S1x1_S40x304 : S1x1.Broadcasts S40x304
  slices_S1x2_o0_1_S1x1 : S1x2.Slices ![0, 1] S1x1
  shapeCasts_S40x304_S40x304x1 : S40x304.ShapeCasts S40x304x1
  concatenates_S40x304x1_S40x304x1_S40x304x2_d2 : Shape.Concatenates [S40x304x1, S40x304x1] S40x304x2 2
  shapeCasts_S40x304x2_S12160x2 : S40x304x2.ShapeCasts S12160x2
  broadcasts_S1x32_S12160x32 : S1x32.Broadcasts S12160x32
  inb_S12160x32_S12160x32_0_0 : ∀ a, (![0, 0] : Fin 2 → Nat) a + S12160x32.size a ≤ S12160x32.size a
  h_S12160x32 : 0 < S12160x32.numel
  inb_S3x128_S1x32_0_0 : ∀ a, (![0, 0] : Fin 2 → Nat) a + S1x32.size a ≤ S3x128.size a
  reduces_S12160x32_S32 : S12160x32.Reduces [0] S32
  inb_S3x128_S1x32_1_0 : ∀ a, (![1, 0] : Fin 2 → Nat) a + S1x32.size a ≤ S3x128.size a
  broadcasts_S1x1_S1x32 : S1x1.Broadcasts S1x32
  inb_S3x128_S1x32_2_0 : ∀ a, (![2, 0] : Fin 2 → Nat) a + S1x32.size a ≤ S3x128.size a
  inb_S32x32_S32x32_0_0 : ∀ a, (![0, 0] : Fin 2 → Nat) a + S32x32.size a ≤ S32x32.size a
  h_S32x32 : 0 < S32x32.numel
  inb_S15200x32_S15200x32_0_0 : ∀ a, (![0, 0] : Fin 2 → Nat) a + S15200x32.size a ≤ S15200x32.size a
  h_S15200x32 : 0 < S15200x32.numel
  shapeCasts_S15200x32_S15200x32 : S15200x32.ShapeCasts S15200x32
  broadcasts_S1x32_S15200x32 : S1x32.Broadcasts S15200x32
  reduces_S15200x32_S32 : S15200x32.Reduces [0] S32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S15200x64 : S1x64.Broadcasts S15200x64
  inb_S3x128_S1x64_0_0 : ∀ a, (![0, 0] : Fin 2 → Nat) a + S1x64.size a ≤ S3x128.size a
  reduces_S15200x64_S64 : S15200x64.Reduces [0] S64
  inb_S3x128_S1x64_1_0 : ∀ a, (![1, 0] : Fin 2 → Nat) a + S1x64.size a ≤ S3x128.size a
  inb_S3x128_S1x64_2_0 : ∀ a, (![2, 0] : Fin 2 → Nat) a + S1x64.size a ≤ S3x128.size a
  inb_S64x64_S64x64_0_0 : ∀ a, (![0, 0] : Fin 2 → Nat) a + S64x64.size a ≤ S64x64.size a
  h_S64x64 : 0 < S64x64.numel
  shapeCasts_S15200x64_S50x304x64 : S15200x64.ShapeCasts S50x304x64
  slices_S50x304x64_o0_0_0_S50x300x64 : S50x304x64.Slices ![0, 0, 0] S50x300x64
  inb_S50x300x64_S50x300x64_0_0_0 : ∀ a, (![0, 0, 0] : Fin 3 → Nat) a + S50x300x64.size a ≤ S50x300x64.size a
  h_S50x300x64 : 0 < S50x300x64.numel
  scatter_S64x304_S1_S64x300_01_n_1_0_wf : ScatterDims.WF S64x304 S1 S64x300 [0, 1] [] [1] 0
  scatter_S4x304_S1_S4x300_01_n_1_0_wf : ScatterDims.WF S4x304 S1 S4x300 [0, 1] [] [1] 0
  dot_S200x64_S64x304_S200x304_1_0_0_1_n_n_wf : DotDims.WF S200x64 S64x304 S200x304 [1] [0] [0] [1] [] []
  dot_S12160x2_S2x32_S12160x32_1_0_0_1_n_n_wf : DotDims.WF S12160x2 S2x32 S12160x32 [1] [0] [0] [1] [] []
  dot_S15200x32_S32x32_S15200x32_1_0_0_1_n_n_wf : DotDims.WF S15200x32 S32x32 S15200x32 [1] [0] [0] [1] [] []
  dot_S1x32_S32x32_S1x32_1_0_0_1_n_n_wf : DotDims.WF S1x32 S32x32 S1x32 [1] [0] [0] [1] [] []
  dot_S15200x32_S32x64_S15200x64_1_0_0_1_n_n_wf : DotDims.WF S15200x32 S32x64 S15200x64 [1] [0] [0] [1] [] []
  dot_S1x32_S32x64_S1x64_1_0_0_1_n_n_wf : DotDims.WF S1x32 S32x64 S1x64 [1] [0] [0] [1] [] []
  dot_S15200x64_S64x64_S15200x64_1_0_0_1_n_n_wf : DotDims.WF S15200x64 S64x64 S15200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x4.size a ≤ S1000x4.size a
  hwx0_0 : ∀ i : grid0.Coords, EltTy.bits .f32 = 32 ∨ (Rect.block (s := S1000x4) S200x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S1000x64.size a
  hwx0_1 : ∀ i : grid0.Coords, EltTy.bits .f32 = 32 ∨ (Rect.block (s := S1000x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x304.size a ≤ S64x304.size a
  hwx0_2 : ∀ i : grid0.Coords, EltTy.bits .f32 = 32 ∨ (Rect.block (s := S64x304) S64x304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x304.size a ≤ S4x304.size a
  hwx0_3 : ∀ i : grid0.Coords, EltTy.bits .f32 = 32 ∨ (Rect.block (s := S4x304) S4x304.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x304.size a ≤ S1000x304.size a
  hwx0_4 : ∀ i : grid0.Coords, EltTy.bits .f32 = 32 ∨ (Rect.block (s := S1000x304) S200x304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x304.size a ≤ S1000x304.size a
  hwx0_5 : ∀ i : grid0.Coords, EltTy.bits .f32 = 32 ∨ (Rect.block (s := S1000x304) S200x304.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S40x304.size a ≤ S1000x304.size a
  hwx1_0 : ∀ i : grid1.Coords, EltTy.bits .f32 = 32 ∨ (Rect.block (s := S1000x304) S40x304.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S40x304.size a ≤ S1000x304.size a
  hwx1_1 : ∀ i : grid1.Coords, EltTy.bits .f32 = 32 ∨ (Rect.block (s := S1000x304) S40x304.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x32.size a ≤ S2x32.size a
  hwx1_5 : ∀ i : grid1.Coords, EltTy.bits .f32 = 32 ∨ (Rect.block (s := S2x32) S2x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S12160x32.size a ≤ S304000x32.size a
  hwx1_7 : ∀ i : grid1.Coords, EltTy.bits .f32 = 32 ∨ (Rect.block (s := S304000x32) S12160x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x128.size a ≤ S3x128.size a
  hwx1_8 : ∀ i : grid1.Coords, EltTy.bits .f32 = 32 ∨ (Rect.block (s := S3x128) S3x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S15200x32.size a ≤ S304000x32.size a
  hwx2_0 : ∀ i : grid2.Coords, EltTy.bits .f32 = 32 ∨ (Rect.block (s := S304000x32) S15200x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128.size a ≤ S3x128.size a
  hwx2_1 : ∀ i : grid2.Coords, EltTy.bits .f32 = 32 ∨ (Rect.block (s := S3x128) S3x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S15200x32.size a ≤ S304000x32.size a
  hwx2_6 : ∀ i : grid2.Coords, EltTy.bits .f32 = 32 ∨ (Rect.block (s := S304000x32) S15200x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x128.size a ≤ S3x128.size a
  hwx2_7 : ∀ i : grid2.Coords, EltTy.bits .f32 = 32 ∨ (Rect.block (s := S3x128) S3x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S15200x32.size a ≤ S304000x32.size a
  hwx3_0 : ∀ i : grid3.Coords, EltTy.bits .f32 = 32 ∨ (Rect.block (s := S304000x32) S15200x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S3x128.size a ≤ S3x128.size a
  hwx3_1 : ∀ i : grid3.Coords, EltTy.bits .f32 = 32 ∨ (Rect.block (s := S3x128) S3x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x64.size a ≤ S32x64.size a
  hwx3_4 : ∀ i : grid3.Coords, EltTy.bits .f32 = 32 ∨ (Rect.block (s := S32x64) S32x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3x128.size a ≤ S3x128.size a
  hwx3_6 : ∀ i : grid3.Coords, EltTy.bits .f32 = 32 ∨ (Rect.block (s := S3x128) S3x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S15200x32.size a ≤ S304000x32.size a
  hwx4_0 : ∀ i : grid4.Coords, EltTy.bits .f32 = 32 ∨ (Rect.block (s := S304000x32) S15200x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3x128.size a ≤ S3x128.size a
  hwx4_1 : ∀ i : grid4.Coords, EltTy.bits .f32 = 32 ∨ (Rect.block (s := S3x128) S3x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x128.size a ≤ S3x128.size a
  hwx4_2 : ∀ i : grid4.Coords, EltTy.bits .f32 = 32 ∨ (Rect.block (s := S3x128) S3x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x64.size a ≤ S32x64.size a
  hwx4_5 : ∀ i : grid4.Coords, EltTy.bits .f32 = 32 ∨ (Rect.block (s := S32x64) S32x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .f32 = 32 ∨ (Rect.block (s := S64x64) S64x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S50x300x64.size a ≤ S1000x300x64.size a
  hwx4_11 : ∀ i : grid4.Coords, EltTy.bits .f32 = 32 ∨ (Rect.block (s := S1000x300x64) S50x300x64.size (cc4_transform_11 i) (hinb4_11 i)).WholeWords (EltTy.packing .f32)

variable [Facts₀]

def scatter_S64x304_S1_S64x300_01_n_1_0 : ScatterDims S64x304 S1 S64x300 where
  updateWindowDims := [0, 1]
  insertedWindowDims := []
  scatterDimsToOperandDims := [1]
  indexVectorDim := 0
  wf := scatter_S64x304_S1_S64x300_01_n_1_0_wf
def scatter_S4x304_S1_S4x300_01_n_1_0 : ScatterDims S4x304 S1 S4x300 where
  updateWindowDims := [0, 1]
  insertedWindowDims := []
  scatterDimsToOperandDims := [1]
  indexVectorDim := 0
  wf := scatter_S4x304_S1_S4x300_01_n_1_0_wf
def dot_S200x64_S64x304_S200x304_1_0_0_1_n_n : DotDims S200x64 S64x304 S200x304 where
  lhsContracting := [1]
  rhsContracting := [0]
  lhsNonContracting := [0]
  rhsNonContracting := [1]
  lhsBatch := []
  rhsBatch := []
  wf := dot_S200x64_S64x304_S200x304_1_0_0_1_n_n_wf
def dot_S12160x2_S2x32_S12160x32_1_0_0_1_n_n : DotDims S12160x2 S2x32 S12160x32 where
  lhsContracting := [1]
  rhsContracting := [0]
  lhsNonContracting := [0]
  rhsNonContracting := [1]
  lhsBatch := []
  rhsBatch := []
  wf := dot_S12160x2_S2x32_S12160x32_1_0_0_1_n_n_wf
def dot_S15200x32_S32x32_S15200x32_1_0_0_1_n_n : DotDims S15200x32 S32x32 S15200x32 where
  lhsContracting := [1]
  rhsContracting := [0]
  lhsNonContracting := [0]
  rhsNonContracting := [1]
  lhsBatch := []
  rhsBatch := []
  wf := dot_S15200x32_S32x32_S15200x32_1_0_0_1_n_n_wf
def dot_S1x32_S32x32_S1x32_1_0_0_1_n_n : DotDims S1x32 S32x32 S1x32 where
  lhsContracting := [1]
  rhsContracting := [0]
  lhsNonContracting := [0]
  rhsNonContracting := [1]
  lhsBatch := []
  rhsBatch := []
  wf := dot_S1x32_S32x32_S1x32_1_0_0_1_n_n_wf
def dot_S15200x32_S32x64_S15200x64_1_0_0_1_n_n : DotDims S15200x32 S32x64 S15200x64 where
  lhsContracting := [1]
  rhsContracting := [0]
  lhsNonContracting := [0]
  rhsNonContracting := [1]
  lhsBatch := []
  rhsBatch := []
  wf := dot_S15200x32_S32x64_S15200x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S15200x64_S64x64_S15200x64_1_0_0_1_n_n : DotDims S15200x64 S64x64 S15200x64 where
  lhsContracting := [1]
  rhsContracting := [0]
  lhsNonContracting := [0]
  rhsNonContracting := [1]
  lhsBatch := []
  rhsBatch := []
  wf := dot_S15200x64_S64x64_S15200x64_1_0_0_1_n_n_wf

abbrev win0_0 : Pipeline.Window sig grid0 :=
  Pipeline.Window.ofSpec (Memref.whole main_arg0) S200x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S64x304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S4x304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8_0) S200x304.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8_1) S200x304.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8_2) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v8_0) S40x304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8_1) S40x304.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v8_2) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v10) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S2x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v11) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v12_0) S12160x32.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_call0_v12_1) S3x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_call0_v12_0) S15200x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12_1) S3x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v13) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v14) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v15) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v16_0) S15200x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_call0_v16_1) S3x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v16_0) S15200x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v16_1) S3x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v17) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v18) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S32x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v19) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v20) S3x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_call0_v16_0) S15200x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v16_1) S3x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v20) S3x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v21) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v22) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S32x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v23) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v24) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_call0_v25) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg18) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_call0_v26) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v0) S50x300x64.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S1000x4 : Shape := ⟨2, ![1000, 4]⟩
abbrev S1000x64 : Shape := ⟨2, ![1000, 64]⟩
abbrev S300x4 : Shape := ⟨2, ![300, 4]⟩
abbrev S300x64 : Shape := ⟨2, ![300, 64]⟩
abbrev S2 : Shape := ⟨1, ![2]⟩
abbrev S2x32 : Shape := ⟨2, ![2, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1000 : Shape := ⟨1, ![1000]⟩
abbrev S1000x1 : Shape := ⟨2, ![1000, 1]⟩
abbrev S300 : Shape := ⟨1, ![300]⟩
abbrev S300x1 : Shape := ⟨2, ![300, 1]⟩
abbrev S64x300 : Shape := ⟨2, ![64, 300]⟩
abbrev S1000x300 : Shape := ⟨2, ![1000, 300]⟩
abbrev S1000x2 : Shape := ⟨2, ![1000, 2]⟩
abbrev S1000x1x2 : Shape := ⟨3, ![1000, 1, 2]⟩
abbrev S300x2 : Shape := ⟨2, ![300, 2]⟩
abbrev S1x300x2 : Shape := ⟨3, ![1, 300, 2]⟩
abbrev S1000x300x2 : Shape := ⟨3, ![1000, 300, 2]⟩
abbrev S1000x300x1 : Shape := ⟨3, ![1000, 300, 1]⟩
abbrev S1x300 : Shape := ⟨2, ![1, 300]⟩
abbrev S300000x2 : Shape := ⟨2, ![300000, 2]⟩
abbrev S1x2 : Shape := ⟨2, ![1, 2]⟩
abbrev S300000x32 : Shape := ⟨2, ![300000, 32]⟩
abbrev S1x32 : Shape := ⟨2, ![1, 32]⟩
abbrev S300000x64 : Shape := ⟨2, ![300000, 64]⟩
abbrev S1x64 : Shape := ⟨2, ![1, 64]⟩
abbrev S1000x300x64 : Shape := ⟨3, ![1000, 300, 64]⟩

abbrev nBuf : Space → Nat
  | .hbm => 304
  | .vmem => 0
  | .smem => 0
  | _ => 0

abbrev hbmTy0_0 (i : Nat) : BufTy := match i % 128 with
  | 0 => ⟨S1000x4, .f32⟩
  | 1 => ⟨S1000x64, .f32⟩
  | 2 => ⟨S300x4, .f32⟩
  | 3 => ⟨S300x64, .f32⟩
  | 4 => ⟨S2, .f32⟩
  | 5 => ⟨S2, .f32⟩
  | 6 => ⟨S2x32, .f32⟩
  | 7 => ⟨S32, .f32⟩
  | 8 => ⟨S32, .f32⟩
  | 9 => ⟨S32, .f32⟩
  | 10 => ⟨S32x32, .f32⟩
  | 11 => ⟨S32, .f32⟩
  | 12 => ⟨S32, .f32⟩
  | 13 => ⟨S32, .f32⟩
  | 14 => ⟨S32x64, .f32⟩
  | 15 => ⟨S64, .f32⟩
  | 16 => ⟨S64, .f32⟩
  | 17 => ⟨S64, .f32⟩
  | 18 => ⟨S64x64, .f32⟩
  | 19 => ⟨S64, .f32⟩
  | 20 => ⟨S1000x64, .f32⟩
  | 21 => ⟨S_, .f32⟩
  | 22 => ⟨S1000, .f32⟩
  | 23 => ⟨S1000x1, .f32⟩
  | 24 => ⟨S1000x1, .f32⟩
  | 25 => ⟨S_, .f32⟩
  | 26 => ⟨S1000x1, .f32⟩
  | 27 => ⟨S1000x1, .f32⟩
  | 28 => ⟨S1000x64, .f32⟩
  | 29 => ⟨S1000x64, .f32⟩
  | 30 => ⟨S300x64, .f32⟩
  | 31 => ⟨S_, .f32⟩
  | 32 => ⟨S300, .f32⟩
  | 33 => ⟨S300x1, .f32⟩
  | 34 => ⟨S300x1, .f32⟩
  | 35 => ⟨S_, .f32⟩
  | 36 => ⟨S300x1, .f32⟩
  | 37 => ⟨S300x1, .f32⟩
  | 38 => ⟨S300x64, .f32⟩
  | 39 => ⟨S300x64, .f32⟩
  | 40 => ⟨S64x300, .f32⟩
  | 41 => ⟨S1000x300, .f32⟩
  | 42 => ⟨S1000x2, .f32⟩
  | 43 => ⟨S1000x1x2, .f32⟩
  | 44 => ⟨S300x2, .f32⟩
  | 45 => ⟨S1x300x2, .f32⟩
  | 46 => ⟨S1000x300x2, .f32⟩
  | 47 => ⟨S1000x300x2, .f32⟩
  | 48 => ⟨S1000x300x2, .f32⟩
  | 49 => ⟨S1000x2, .f32⟩
  | 50 => ⟨S1000x1x2, .f32⟩
  | 51 => ⟨S300x2, .f32⟩
  | 52 => ⟨S1x300x2, .f32⟩
  | 53 => ⟨S1000x300x2, .f32⟩
  | 54 => ⟨S1000x300x2, .f32⟩
  | 55 => ⟨S1000x300x2, .f32⟩
  | 56 => ⟨S1000x300x2, .f32⟩
  | 57 => ⟨S_, .f32⟩
  | 58 => ⟨S_, .f32⟩
  | 59 => ⟨S1000x300x2, .f32⟩
  | 60 => ⟨S1000x300x2, .f32⟩
  | 61 => ⟨S1000x300x1, .f32⟩
  | 62 => ⟨S1000x300, .f32⟩
  | 63 => ⟨S1000x300x1, .f32⟩
  | 64 => ⟨S1000x300, .f32⟩
  | 65 => ⟨S1000x300, .f32⟩
  | 66 => ⟨S1000x1, .f32⟩
  | 67 => ⟨S1000, .f32⟩
  | 68 => ⟨S1000x1, .f32⟩
  | 69 => ⟨S1000, .f32⟩
  | 70 => ⟨S1000, .f32⟩
  | 71 => ⟨S1000x1, .f32⟩
  | 72 => ⟨S1000, .f32⟩
  | 73 => ⟨S1000x1, .f32⟩
  | 74 => ⟨S1000, .f32⟩
  | 75 => ⟨S1000, .f32⟩
  | 76 => ⟨S1000, .f32⟩
  | 77 => ⟨S300x1, .f32⟩
  | 78 => ⟨S300, .f32⟩
  | 79 => ⟨S300x1, .f32⟩
  | 80 => ⟨S300, .f32⟩
  | 81 => ⟨S300, .f32⟩
  | 82 => ⟨S300x1, .f32⟩
  | 83 => ⟨S300, .f32⟩
  | 84 => ⟨S300x1, .f32⟩
  | 85 => ⟨S300, .f32⟩
  | 86 => ⟨S300, .f32⟩
  | 87 => ⟨S300, .f32⟩
  | 88 => ⟨S1000x1, .f32⟩
  | 89 => ⟨S1x300, .f32⟩
  | 90 => ⟨S1000x300, .f32⟩
  | 91 => ⟨S1000x300, .f32⟩
  | 92 => ⟨S1000x300, .f32⟩
  | 93 => ⟨S1000x300, .f32⟩
  | 94 => ⟨S_, .f32⟩
  | 95 => ⟨S1000x300, .f32⟩
  | 96 => ⟨S1000x300, .f32⟩
  | 97 => ⟨S1000x300, .f32⟩
  | 98 => ⟨S1000x300x1, .f32⟩
  | 99 => ⟨S1000x300x1, .f32⟩
  | 100 => ⟨S1000x300x2, .f32⟩
  | 101 => ⟨S300000x2, .f32⟩
  | 102 => ⟨S_, .f32⟩
  | 103 => ⟨S2, .f32⟩
  | 104 => ⟨S1x2, .f32⟩
  | 105 => ⟨S_, .f32⟩
  | 106 => ⟨S1x2, .f32⟩
  | 107 => ⟨S1x2, .f32⟩
  | 108 => ⟨S_, .i32⟩
  | 109 => ⟨S_, .f32⟩
  | 110 => ⟨S2, .f32⟩
  | 111 => ⟨S1x2, .f32⟩
  | 112 => ⟨S_, .f32⟩
  | 113 => ⟨S1x2, .f32⟩
  | 114 => ⟨S1x2, .f32⟩
  | 115 => ⟨S300000x2, .f32⟩
  | 116 => ⟨S300000x2, .f32⟩
  | 117 => ⟨S300000x2, .f32⟩
  | 118 => ⟨S_, .f32⟩
  | 119 => ⟨S_, .f32⟩
  | 120 => ⟨S_, .f32⟩
  | 121 => ⟨S_, .f32⟩
  | 122 => ⟨S2, .f32⟩
  | 123 => ⟨S1x2, .f32⟩
  | 124 => ⟨S1x2, .f32⟩
  | 125 => ⟨S1x2, .f32⟩
  | 126 => ⟨S_, .f32⟩
  | 127 => ⟨S_, .i1⟩
  | _ => ⟨S1000x4, .f32⟩

abbrev hbmTy0_1 (i : Nat) : BufTy := match i % 128 with
  | 0 => ⟨S_, .f32⟩
  | 1 => ⟨S_, .f32⟩
  | 2 => ⟨S1x2, .f32⟩
  | 3 => ⟨S1x2, .f32⟩
  | 4 => ⟨S300000x2, .f32⟩
  | 5 => ⟨S300000x2, .f32⟩
  | 6 => ⟨S_, .f32⟩
  | 7 => ⟨S1x2, .f32⟩
  | 8 => ⟨S1x2, .f32⟩
  | 9 => ⟨S1x2, .f32⟩
  | 10 => ⟨S300000x2, .f32⟩
  | 11 => ⟨S300000x2, .f32⟩
  | 12 => ⟨S1x2, .f32⟩
  | 13 => ⟨S300000x2, .f32⟩
  | 14 => ⟨S300000x2, .f32⟩
  | 15 => ⟨S1x2, .f32⟩
  | 16 => ⟨S300000x2, .f32⟩
  | 17 => ⟨S300000x2, .f32⟩
  | 18 => ⟨S300000x32, .f32⟩
  | 19 => ⟨S1x32, .f32⟩
  | 20 => ⟨S300000x32, .f32⟩
  | 21 => ⟨S300000x32, .f32⟩
  | 22 => ⟨S_, .f32⟩
  | 23 => ⟨S300000x32, .f32⟩
  | 24 => ⟨S300000x32, .f32⟩
  | 25 => ⟨S_, .f32⟩
  | 26 => ⟨S32, .f32⟩
  | 27 => ⟨S1x32, .f32⟩
  | 28 => ⟨S_, .f32⟩
  | 29 => ⟨S1x32, .f32⟩
  | 30 => ⟨S1x32, .f32⟩
  | 31 => ⟨S_, .i32⟩
  | 32 => ⟨S_, .f32⟩
  | 33 => ⟨S32, .f32⟩
  | 34 => ⟨S1x32, .f32⟩
  | 35 => ⟨S_, .f32⟩
  | 36 => ⟨S1x32, .f32⟩
  | 37 => ⟨S1x32, .f32⟩
  | 38 => ⟨S300000x32, .f32⟩
  | 39 => ⟨S300000x32, .f32⟩
  | 40 => ⟨S300000x32, .f32⟩
  | 41 => ⟨S_, .f32⟩
  | 42 => ⟨S_, .f32⟩
  | 43 => ⟨S_, .f32⟩
  | 44 => ⟨S_, .f32⟩
  | 45 => ⟨S32, .f32⟩
  | 46 => ⟨S1x32, .f32⟩
  | 47 => ⟨S1x32, .f32⟩
  | 48 => ⟨S1x32, .f32⟩
  | 49 => ⟨S_, .f32⟩
  | 50 => ⟨S_, .i1⟩
  | 51 => ⟨S_, .f32⟩
  | 52 => ⟨S_, .f32⟩
  | 53 => ⟨S1x32, .f32⟩
  | 54 => ⟨S1x32, .f32⟩
  | 55 => ⟨S300000x32, .f32⟩
  | 56 => ⟨S300000x32, .f32⟩
  | 57 => ⟨S_, .f32⟩
  | 58 => ⟨S1x32, .f32⟩
  | 59 => ⟨S1x32, .f32⟩
  | 60 => ⟨S1x32, .f32⟩
  | 61 => ⟨S300000x32, .f32⟩
  | 62 => ⟨S300000x32, .f32⟩
  | 63 => ⟨S1x32, .f32⟩
  | 64 => ⟨S300000x32, .f32⟩
  | 65 => ⟨S300000x32, .f32⟩
  | 66 => ⟨S1x32, .f32⟩
  | 67 => ⟨S300000x32, .f32⟩
  | 68 => ⟨S300000x32, .f32⟩
  | 69 => ⟨S300000x32, .f32⟩
  | 70 => ⟨S1x32, .f32⟩
  | 71 => ⟨S300000x32, .f32⟩
  | 72 => ⟨S300000x32, .f32⟩
  | 73 => ⟨S_, .f32⟩
  | 74 => ⟨S300000x32, .f32⟩
  | 75 => ⟨S300000x32, .f32⟩
  | 76 => ⟨S_, .f32⟩
  | 77 => ⟨S32, .f32⟩
  | 78 => ⟨S1x32, .f32⟩
  | 79 => ⟨S_, .f32⟩
  | 80 => ⟨S1x32, .f32⟩
  | 81 => ⟨S1x32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S300000x32, .f32⟩
  | 90 => ⟨S300000x32, .f32⟩
  | 91 => ⟨S300000x32, .f32⟩
  | 92 => ⟨S_, .f32⟩
  | 93 => ⟨S_, .f32⟩
  | 94 => ⟨S_, .f32⟩
  | 95 => ⟨S_, .f32⟩
  | 96 => ⟨S32, .f32⟩
  | 97 => ⟨S1x32, .f32⟩
  | 98 => ⟨S1x32, .f32⟩
  | 99 => ⟨S1x32, .f32⟩
  | 100 => ⟨S_, .f32⟩
  | 101 => ⟨S_, .i1⟩
  | 102 => ⟨S_, .f32⟩
  | 103 => ⟨S_, .f32⟩
  | 104 => ⟨S1x32, .f32⟩
  | 105 => ⟨S1x32, .f32⟩
  | 106 => ⟨S300000x32, .f32⟩
  | 107 => ⟨S300000x32, .f32⟩
  | 108 => ⟨S_, .f32⟩
  | 109 => ⟨S1x32, .f32⟩
  | 110 => ⟨S1x32, .f32⟩
  | 111 => ⟨S1x32, .f32⟩
  | 112 => ⟨S300000x32, .f32⟩
  | 113 => ⟨S300000x32, .f32⟩
  | 114 => ⟨S1x32, .f32⟩
  | 115 => ⟨S300000x32, .f32⟩
  | 116 => ⟨S300000x32, .f32⟩
  | 117 => ⟨S1x32, .f32⟩
  | 118 => ⟨S300000x32, .f32⟩
  | 119 => ⟨S300000x32, .f32⟩
  | 120 => ⟨S300000x64, .f32⟩
  | 121 => ⟨S1x64, .f32⟩
  | 122 => ⟨S300000x64, .f32⟩
  | 123 => ⟨S300000x64, .f32⟩
  | 124 => ⟨S_, .f32⟩
  | 125 => ⟨S300000x64, .f32⟩
  | 126 => ⟨S300000x64, .f32⟩
  | 127 => ⟨S_, .f32⟩
  | _ => ⟨S1000x4, .f32⟩

abbrev hbmTy0_2 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S300000x64, .f32⟩
  | 13 => ⟨S300000x64, .f32⟩
  | 14 => ⟨S300000x64, .f32⟩
  | 15 => ⟨S_, .f32⟩
  | 16 => ⟨S_, .f32⟩
  | 17 => ⟨S_, .f32⟩
  | 18 => ⟨S_, .f32⟩
  | 19 => ⟨S64, .f32⟩
  | 20 => ⟨S1x64, .f32⟩
  | 21 => ⟨S1x64, .f32⟩
  | 22 => ⟨S1x64, .f32⟩
  | 23 => ⟨S_, .f32⟩
  | 24 => ⟨S_, .i1⟩
  | 25 => ⟨S_, .f32⟩
  | 26 => ⟨S_, .f32⟩
  | 27 => ⟨S1x64, .f32⟩
  | 28 => ⟨S1x64, .f32⟩
  | 29 => ⟨S300000x64, .f32⟩
  | 30 => ⟨S300000x64, .f32⟩
  | 31 => ⟨S_, .f32⟩
  | 32 => ⟨S1x64, .f32⟩
  | 33 => ⟨S1x64, .f32⟩
  | 34 => ⟨S1x64, .f32⟩
  | 35 => ⟨S300000x64, .f32⟩
  | 36 => ⟨S300000x64, .f32⟩
  | 37 => ⟨S1x64, .f32⟩
  | 38 => ⟨S300000x64, .f32⟩
  | 39 => ⟨S300000x64, .f32⟩
  | 40 => ⟨S1x64, .f32⟩
  | 41 => ⟨S300000x64, .f32⟩
  | 42 => ⟨S300000x64, .f32⟩
  | 43 => ⟨S300000x64, .f32⟩
  | 44 => ⟨S1x64, .f32⟩
  | 45 => ⟨S300000x64, .f32⟩
  | 46 => ⟨S300000x64, .f32⟩
  | 47 => ⟨S1000x300x64, .f32⟩
  | _ => ⟨S1000x4, .f32⟩

abbrev hbmTy (i : Nat) : BufTy := match i / 128 with
  | 0 => hbmTy0_0 i
  | 1 => hbmTy0_1 i
  | 2 => hbmTy0_2 i
  | _ => ⟨S1000x4, .f32⟩

abbrev bufTy : (tb : Table) → Fin (tcTables nBuf tb) → BufTy
  | .hbm, ⟨i, _⟩ => hbmTy i
  | _, _ => ⟨S1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_2 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_3 : Ref sig .tc := ⟨.hbm, 102, rfl⟩
abbrev main_v68 : Ref sig .tc := ⟨.hbm, 103, rfl⟩
abbrev main_v69 : Ref sig .tc := ⟨.hbm, 104, rfl⟩
abbrev main_cst_4 : Ref sig .tc := ⟨.hbm, 105, rfl⟩
abbrev main_v70 : Ref sig .tc := ⟨.hbm, 106, rfl⟩
abbrev main_v71 : Ref sig .tc := ⟨.hbm, 107, rfl⟩
abbrev main_c : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_cst_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_cst_1 : Ref sig .tc := ⟨.hbm, 119, rfl⟩
abbrev main_call3_v8 : Ref sig .tc := ⟨.hbm, 120, rfl⟩
abbrev main_call3_cst_2 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_v12 : Ref sig .tc := ⟨.hbm, 125, rfl⟩
abbrev main_call3_cst_3 : Ref sig .tc := ⟨.hbm, 126, rfl⟩
abbrev main_call3_v13 : Ref sig .tc := ⟨.hbm, 127, rfl⟩
abbrev main_call3_cst_4 : Ref sig .tc := ⟨.hbm, 128, rfl⟩
abbrev main_call3_call0_v0 : Ref sig .tc := ⟨.hbm, 129, rfl⟩
abbrev main_call3_call0_v1 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_5 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call4_cst : Ref sig .tc := ⟨.hbm, 150, rfl⟩
abbrev main_call4_v0 : Ref sig .tc := ⟨.hbm, 151, rfl⟩
abbrev main_v90 : Ref sig .tc := ⟨.hbm, 152, rfl⟩
abbrev main_cst_6 : Ref sig .tc := ⟨.hbm, 153, rfl⟩
abbrev main_v91 : Ref sig .tc := ⟨.hbm, 154, rfl⟩
abbrev main_v92 : Ref sig .tc := ⟨.hbm, 155, rfl⟩
abbrev main_cst_7 : Ref sig .tc := ⟨.hbm, 156, rfl⟩
abbrev main_v93 : Ref sig .tc := ⟨.hbm, 157, rfl⟩
abbrev main_v94 : Ref sig .tc := ⟨.hbm, 158, rfl⟩
abbrev main_c_8 : Ref sig .tc := ⟨.hbm, 159, rfl⟩
abbrev main_call5_cst : Ref sig .tc := ⟨.hbm, 160, rfl⟩
abbrev main_call5_v0 : Ref sig .tc := ⟨.hbm, 161, rfl⟩
abbrev main_call5_v1 : Ref sig .tc := ⟨.hbm, 162, rfl⟩
abbrev main_call5_cst_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_cst_1 : Ref sig .tc := ⟨.hbm, 170, rfl⟩
abbrev main_call5_v8 : Ref sig .tc := ⟨.hbm, 171, rfl⟩
abbrev main_call5_cst_2 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_v12 : Ref sig .tc := ⟨.hbm, 176, rfl⟩
abbrev main_call5_cst_3 : Ref sig .tc := ⟨.hbm, 177, rfl⟩
abbrev main_call5_v13 : Ref sig .tc := ⟨.hbm, 178, rfl⟩
abbrev main_call5_cst_4 : Ref sig .tc := ⟨.hbm, 179, rfl⟩
abbrev main_call5_call0_v0 : Ref sig .tc := ⟨.hbm, 180, rfl⟩
abbrev main_call5_call0_v1 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_9 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_call6_cst : Ref sig .tc := ⟨.hbm, 201, rfl⟩
abbrev main_call6_v0 : Ref sig .tc := ⟨.hbm, 202, rfl⟩
abbrev main_v113 : Ref sig .tc := ⟨.hbm, 203, rfl⟩
abbrev main_cst_10 : Ref sig .tc := ⟨.hbm, 204, rfl⟩
abbrev main_v114 : Ref sig .tc := ⟨.hbm, 205, rfl⟩
abbrev main_v115 : Ref sig .tc := ⟨.hbm, 206, rfl⟩
abbrev main_cst_11 : Ref sig .tc := ⟨.hbm, 207, rfl⟩
abbrev main_v116 : Ref sig .tc := ⟨.hbm, 208, rfl⟩
abbrev main_v117 : Ref sig .tc := ⟨.hbm, 209, rfl⟩
abbrev main_c_12 : Ref sig .tc := ⟨.hbm, 210, rfl⟩
abbrev main_call7_cst : Ref sig .tc := ⟨.hbm, 211, rfl⟩
abbrev main_call7_v0 : Ref sig .tc := ⟨.hbm, 212, rfl⟩
abbrev main_call7_v1 : Ref sig .tc := ⟨.hbm, 213, rfl⟩
abbrev main_call7_cst_0 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_call7_v5 : Ref sig .tc := ⟨.hbm, 218, rfl⟩
abbrev main_call7_v6 : Ref sig .tc := ⟨.hbm, 219, rfl⟩
abbrev main_call7_v7 : Ref sig .tc := ⟨.hbm, 220, rfl⟩
abbrev main_call7_cst_1 : Ref sig .tc := ⟨.hbm, 221, rfl⟩
abbrev main_call7_v8 : Ref sig .tc := ⟨.hbm, 222, rfl⟩
abbrev main_call7_cst_2 : Ref sig .tc := ⟨.hbm, 223, rfl⟩
abbrev main_call7_v9 : Ref sig .tc := ⟨.hbm, 224, rfl⟩
abbrev main_call7_v10 : Ref sig .tc := ⟨.hbm, 225, rfl⟩
abbrev main_call7_v11 : Ref sig .tc := ⟨.hbm, 226, rfl⟩
abbrev main_call7_v12 : Ref sig .tc := ⟨.hbm, 227, rfl⟩
abbrev main_call7_cst_3 : Ref sig .tc := ⟨.hbm, 228, rfl⟩
abbrev main_call7_v13 : Ref sig .tc := ⟨.hbm, 229, rfl⟩
abbrev main_call7_cst_4 : Ref sig .tc := ⟨.hbm, 230, rfl⟩
abbrev main_call7_call0_v0 : Ref sig .tc := ⟨.hbm, 231, rfl⟩
abbrev main_call7_call0_v1 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_cst_13 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_call8_cst : Ref sig .tc := ⟨.hbm, 252, rfl⟩
abbrev main_call8_v0 : Ref sig .tc := ⟨.hbm, 253, rfl⟩
abbrev main_v136 : Ref sig .tc := ⟨.hbm, 254, rfl⟩
abbrev main_cst_14 : Ref sig .tc := ⟨.hbm, 255, rfl⟩
abbrev main_v137 : Ref sig .tc := ⟨.hbm, 256, rfl⟩
abbrev main_v138 : Ref sig .tc := ⟨.hbm, 257, rfl⟩
abbrev main_cst_15 : Ref sig .tc := ⟨.hbm, 258, rfl⟩
abbrev main_v139 : Ref sig .tc := ⟨.hbm, 259, rfl⟩
abbrev main_v140 : Ref sig .tc := ⟨.hbm, 260, rfl⟩
abbrev main_c_16 : Ref sig .tc := ⟨.hbm, 261, rfl⟩
abbrev main_call9_cst : Ref sig .tc := ⟨.hbm, 262, rfl⟩
abbrev main_call9_v0 : Ref sig .tc := ⟨.hbm, 263, rfl⟩
abbrev main_call9_v1 : Ref sig .tc := ⟨.hbm, 264, rfl⟩
abbrev main_call9_cst_0 : Ref sig .tc := ⟨.hbm, 265, rfl⟩
abbrev main_call9_v2 : Ref sig .tc := ⟨.hbm, 266, rfl⟩
abbrev main_call9_v3 : Ref sig .tc := ⟨.hbm, 267, rfl⟩
abbrev main_call9_v4 : Ref sig .tc := ⟨.hbm, 268, rfl⟩
abbrev main_call9_v5 : Ref sig .tc := ⟨.hbm, 269, rfl⟩
abbrev main_call9_v6 : Ref sig .tc := ⟨.hbm, 270, rfl⟩
abbrev main_call9_v7 : Ref sig .tc := ⟨.hbm, 271, rfl⟩
abbrev main_call9_cst_1 : Ref sig .tc := ⟨.hbm, 272, rfl⟩
abbrev main_call9_v8 : Ref sig .tc := ⟨.hbm, 273, rfl⟩
abbrev main_call9_cst_2 : Ref sig .tc := ⟨.hbm, 274, rfl⟩
abbrev main_call9_v9 : Ref sig .tc := ⟨.hbm, 275, rfl⟩
abbrev main_call9_v10 : Ref sig .tc := ⟨.hbm, 276, rfl⟩
abbrev main_call9_v11 : Ref sig .tc := ⟨.hbm, 277, rfl⟩
abbrev main_call9_v12 : Ref sig .tc := ⟨.hbm, 278, rfl⟩
abbrev main_call9_cst_3 : Ref sig .tc := ⟨.hbm, 279, rfl⟩
abbrev main_call9_v13 : Ref sig .tc := ⟨.hbm, 280, rfl⟩
abbrev main_call9_cst_4 : Ref sig .tc := ⟨.hbm, 281, rfl⟩
abbrev main_call9_call0_v0 : Ref sig .tc := ⟨.hbm, 282, rfl⟩
abbrev main_call9_call0_v1 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_17 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_v152 : Ref sig .tc := ⟨.hbm, 296, rfl⟩
abbrev main_v153 : Ref sig .tc := ⟨.hbm, 297, rfl⟩
abbrev main_v154 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩

abbrev nD : Nat := 1
abbrev τ : Topo := Topo.v7x

variable {F : FTy → Type} [FloatOps F]

class Facts₀ : Prop where
  reducesTo_S1000x64_S1000_d1 : S1000x64.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  reducesTo_S300x64_S300_d1 : S300x64.ReducesTo [1] S300
  bcast_S300_S300x1_0 : S300.BroadcastsInDim S300x1 (![0] : Fin 1 → Fin S300x1.rank)
  bcast_S_S300x1 : S_.BroadcastsInDim S300x1 (![] : Fin 0 → Fin S300x1.rank)
  bcast_S300x1_S300x64_0_1 : S300x1.BroadcastsInDim S300x64 (![0, 1] : Fin 2 → Fin S300x64.rank)
  transposes_S300x64_S64x300_1_0 : S300x64.Transposes [1, 0] S64x300
  slices_S1000x4_S1000x2_0_0 : S1000x4.Slices ![0, 0] S1000x2
  bcast_S1000x2_S1000x1x2_0_2 : S1000x2.BroadcastsInDim S1000x1x2 (![0, 2] : Fin 2 → Fin S1000x1x2.rank)
  slices_S300x4_S300x2_0_0 : S300x4.Slices ![0, 0] S300x2
  bcast_S300x2_S1x300x2_1_2 : S300x2.BroadcastsInDim S1x300x2 (![1, 2] : Fin 2 → Fin S1x300x2.rank)
  bcast_S1000x1x2_S1000x300x2_0_1_2 : S1000x1x2.BroadcastsInDim S1000x300x2 (![0, 1, 2] : Fin 3 → Fin S1000x300x2.rank)
  bcast_S1x300x2_S1000x300x2_0_1_2 : S1x300x2.BroadcastsInDim S1000x300x2 (![0, 1, 2] : Fin 3 → Fin S1000x300x2.rank)
  slices_S1000x4_S1000x2_0_2 : S1000x4.Slices ![0, 2] S1000x2
  slices_S300x4_S300x2_0_2 : S300x4.Slices ![0, 2] S300x2
  bcast_S_S1000x300x2 : S_.BroadcastsInDim S1000x300x2 (![] : Fin 0 → Fin S1000x300x2.rank)
  slices_S1000x300x2_S1000x300x1_0_0_0 : S1000x300x2.Slices ![0, 0, 0] S1000x300x1
  shapeCasts_S1000x300x1_S1000x300 : S1000x300x1.ShapeCasts S1000x300
  slices_S1000x300x2_S1000x300x1_0_0_1 : S1000x300x2.Slices ![0, 0, 1] S1000x300x1
  slices_S1000x4_S1000x1_0_2 : S1000x4.Slices ![0, 2] S1000x1
  shapeCasts_S1000x1_S1000 : S1000x1.ShapeCasts S1000
  slices_S1000x4_S1000x1_0_0 : S1000x4.Slices ![0, 0] S1000x1
  slices_S1000x4_S1000x1_0_3 : S1000x4.Slices ![0, 3] S1000x1
  slices_S1000x4_S1000x1_0_1 : S1000x4.Slices ![0, 1] S1000x1
  slices_S300x4_S300x1_0_2 : S300x4.Slices ![0, 2] S300x1
  shapeCasts_S300x1_S300 : S300x1.ShapeCasts S300
  slices_S300x4_S300x1_0_0 : S300x4.Slices ![0, 0] S300x1
  slices_S300x4_S300x1_0_3 : S300x4.Slices ![0, 3] S300x1
  slices_S300x4_S300x1_0_1 : S300x4.Slices ![0, 1] S300x1
  bcast_S300_S1x300_1 : S300.BroadcastsInDim S1x300 (![1] : Fin 1 → Fin S1x300.rank)
  bcast_S1000x1_S1000x300_0_1 : S1000x1.BroadcastsInDim S1000x300 (![0, 1] : Fin 2 → Fin S1000x300.rank)
  bcast_S1x300_S1000x300_0_1 : S1x300.BroadcastsInDim S1000x300 (![0, 1] : Fin 2 → Fin S1000x300.rank)
  bcast_S_S1000x300 : S_.BroadcastsInDim S1000x300 (![] : Fin 0 → Fin S1000x300.rank)
  bcast_S1000x300_S1000x300x1_0_1 : S1000x300.BroadcastsInDim S1000x300x1 (![0, 1] : Fin 2 → Fin S1000x300x1.rank)
  concatenates_S1000x300x1_S1000x300x1_S1000x300x2_d2 : Shape.Concatenates [S1000x300x1, S1000x300x1] S1000x300x2 2
  shapeCasts_S1000x300x2_S300000x2 : S1000x300x2.ShapeCasts S300000x2
  reducesTo_S300000x2_S2_d0 : S300000x2.ReducesTo [0] S2
  bcast_S2_S1x2_1 : S2.BroadcastsInDim S1x2 (![1] : Fin 1 → Fin S1x2.rank)
  bcast_S_S1x2 : S_.BroadcastsInDim S1x2 (![] : Fin 0 → Fin S1x2.rank)
  bcast_S1x2_S300000x2_0_1 : S1x2.BroadcastsInDim S300000x2 (![0, 1] : Fin 2 → Fin S300000x2.rank)
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  bcast_S_S300000x32 : S_.BroadcastsInDim S300000x32 (![] : Fin 0 → Fin S300000x32.rank)
  reducesTo_S300000x32_S32_d0 : S300000x32.ReducesTo [0] S32
  bcast_S_S1x32 : S_.BroadcastsInDim S1x32 (![] : Fin 0 → Fin S1x32.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  reducesTo_S300000x64_S64_d0 : S300000x64.ReducesTo [0] S64
  bcast_S_S1x64 : S_.BroadcastsInDim S1x64 (![] : Fin 0 → Fin S1x64.rank)
  shapeCasts_S300000x64_S1000x300x64 : S300000x64.ShapeCasts S1000x300x64
  dot_S1000x64_S64x300_S1000x300_1_0_0_1_n_n_wf : DotDims.WF S1000x64 S64x300 S1000x300 [1] [0] [0] [1] [] []
  dot_S300000x2_S2x32_S300000x32_1_0_0_1_n_n_wf : DotDims.WF S300000x2 S2x32 S300000x32 [1] [0] [0] [1] [] []
  dot_S300000x32_S32x32_S300000x32_1_0_0_1_n_n_wf : DotDims.WF S300000x32 S32x32 S300000x32 [1] [0] [0] [1] [] []
  dot_S300000x32_S32x64_S300000x64_1_0_0_1_n_n_wf : DotDims.WF S300000x32 S32x64 S300000x64 [1] [0] [0] [1] [] []
  dot_S300000x64_S64x64_S300000x64_1_0_0_1_n_n_wf : DotDims.WF S300000x64 S64x64 S300000x64 [1] [0] [0] [1] [] []

variable [Facts₀]

def dot_S1000x64_S64x300_S1000x300_1_0_0_1_n_n : DotDims S1000x64 S64x300 S1000x300 where
  lhsContracting := [1]
  rhsContracting := [0]
  lhsNonContracting := [0]
  rhsNonContracting := [1]
  lhsBatch := []
  rhsBatch := []
  wf := dot_S1000x64_S64x300_S1000x300_1_0_0_1_n_n_wf
def dot_S300000x2_S2x32_S300000x32_1_0_0_1_n_n : DotDims S300000x2 S2x32 S300000x32 where
  lhsContracting := [1]
  rhsContracting := [0]
  lhsNonContracting := [0]
  rhsNonContracting := [1]
  lhsBatch := []
  rhsBatch := []
  wf := dot_S300000x2_S2x32_S300000x32_1_0_0_1_n_n_wf
def dot_S300000x32_S32x32_S300000x32_1_0_0_1_n_n : DotDims S300000x32 S32x32 S300000x32 where
  lhsContracting := [1]
  rhsContracting := [0]
  lhsNonContracting := [0]
  rhsNonContracting := [1]
  lhsBatch := []
  rhsBatch := []
  wf := dot_S300000x32_S32x32_S300000x32_1_0_0_1_n_n_wf
def dot_S300000x32_S32x64_S300000x64_1_0_0_1_n_n : DotDims S300000x32 S32x64 S300000x64 where
  lhsContracting := [1]
  rhsContracting := [0]
  lhsNonContracting := [0]
  rhsNonContracting := [1]
  lhsBatch := []
  rhsBatch := []
  wf := dot_S300000x32_S32x64_S300000x64_1_0_0_1_n_n_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf

class Facts : Prop extends Facts₀ where

variable [Facts]
-- ==== Proof.LibBatchNorm.lean ====
/-
  Batch normalisation with batch statistics, on the extended reals, for REAL data.

  A column of n > 0 real numbers x is normalised in two ways.

  * From the raw moments S1 = ∑ x and S2 = ∑ x², with a folded reciprocal c = 1/n:
      mean = S1 · c,  var = max (S2 · c − mean · mean) 0,
      s = g · rsqrt (var + ε),  t = b − mean · s,   and the result is  x · s + t.
  * From the centred column:
      m = S1 / n,  v = (∑ (x − m)²) / n,   and the result is  (x − m) / sqrt (v + ε) · g + b.

  Over the reals the two agree: S2/n − (S1/n)² is the mean of the squared deviations, which is
  non-negative, so the `max` is the identity and v + ε > 0. The lemmas below first say that each of the
  operations involved, applied to real numbers inside the extended reals, is the real operation (so an
  expression built from them can be read as one real number), and then state the law.

  A second, independent fact: a sum over a padded index set whose padded entries all hold one constant,
  corrected by that constant times the number of padded entries, is the sum over the unpadded part.

  Imports only the exact instance of the float operations.
-/
import Idealize.ShloMosaic.PureOps.Ideal

noncomputable section

namespace Cert.BatchNorm

open Idealize.ShloMosaic

/-! ## Real numbers inside the extended reals: each operation is the real one -/

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

/-- The square root of a non-negative real. -/
theorem sqrt_coe_nonneg {a : ℝ} (ha : 0 ≤ a) : Ideal.sqrt (a : EReal) = ((Real.sqrt a : ℝ) : EReal) := by
  rw [Ideal.sqrt_coe, if_neg (not_lt.2 ha)]

/-- The reciprocal square root of a positive real. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- The larger of two reals. -/
theorem max_coe_coe (a b : ℝ) : max (a : EReal) (b : EReal) = ((max a b : ℝ) : EReal) :=
  (EReal.coe_strictMono.monotone.map_max (a := a) (b := b)).symm

/-! ## The law over the reals -/

section Real

variable {ι : Type*} [Fintype ι]

/-- The mean of the squares minus the square of the mean is the mean of the squared deviations. -/
theorem moments_eq_centred (x : ι → ℝ) {n : ℝ} (hn : n = Fintype.card ι) (hpos : 0 < n) :
    (∑ j, x j * x j) * (1 / n) - ((∑ j, x j) * (1 / n)) * ((∑ j, x j) * (1 / n))
      = (∑ j, (x j - (∑ k, x k) / n) * (x j - (∑ k, x k) / n)) / n := by
  have hne : n ≠ 0 := hpos.ne'
  have hcard : (∑ _j : ι, (1 : ℝ)) = n := by simp [hn]
  set S := ∑ k, x k with hS
  have hexp : (∑ j, (x j - S / n) * (x j - S / n))
      = (∑ j, x j * x j) - 2 * (S / n) * S + (S / n) * (S / n) * n := by
    have : ∀ j, (x j - S / n) * (x j - S / n) = x j * x j - 2 * (S / n) * x j + (S / n) * (S / n) * 1 := by
      intro j; ring
    rw [Finset.sum_congr rfl fun j _ => this j, Finset.sum_add_distrib, Finset.sum_sub_distrib,
      ← Finset.mul_sum, ← Finset.mul_sum, hcard]
  rw [hexp]
  field_simp
  ring

/-- The mean of the squared deviations is non-negative. -/
theorem centred_nonneg (x : ι → ℝ) {n : ℝ} (hpos : 0 < n) (m : ℝ) :
    0 ≤ (∑ j, (x j - m) * (x j - m)) / n :=
  div_nonneg (Finset.sum_nonneg fun j _ => mul_self_nonneg _) hpos.le

/-- THE LAW over the reals: scale-and-shift from the raw moments is the normalisation of the centred column. -/
theorem affine_eq_real (x : ι → ℝ) {n : ℝ} (hn : n = Fintype.card ι) (hpos : 0 < n) (g b ε : ℝ) (hε : 0 < ε) (y : ℝ) :
    let S1 := ∑ j, x j
    let S2 := ∑ j, x j * x j
    let mean := S1 * (1 / n)
    let var := max (S2 * (1 / n) - mean * mean) 0
    let s := g * (Real.sqrt (var + ε))⁻¹
    y * s + (b - mean * s)
      = (y - S1 / n) / Real.sqrt ((∑ j, (x j - S1 / n) * (x j - S1 / n)) / n + ε) * g + b := by
  intro S1 S2 mean var s
  have hv : S2 * (1 / n) - mean * mean = (∑ j, (x j - S1 / n) * (x j - S1 / n)) / n :=
    moments_eq_centred x hn hpos
  have hv0 : 0 ≤ (∑ j, (x j - S1 / n) * (x j - S1 / n)) / n := centred_nonneg x hpos _
  have hvar : var = (∑ j, (x j - S1 / n) * (x j - S1 / n)) / n := by
    show max (S2 * (1 / n) - mean * mean) 0 = _
    rw [hv, max_eq_left hv0]
  have hsq : 0 < Real.sqrt ((∑ j, (x j - S1 / n) * (x j - S1 / n)) / n + ε) :=
    Real.sqrt_pos.2 (by linarith)
  show y * (g * (Real.sqrt (var + ε))⁻¹) + (b - S1 * (1 / n) * (g * (Real.sqrt (var + ε))⁻¹)) = _
  rw [hvar]
  generalize Real.sqrt ((∑ j, (x j - S1 / n) * (x j - S1 / n)) / n + ε) = r at hsq ⊢
  have hr : r ≠ 0 := hsq.ne'
  have hne : n ≠ 0 := hpos.ne'
  field_simp
  ring

end Real

/-! ## The law on the extended reals, in the operations the two programs use -/

section Ext

variable {ι : Type*} [Fintype ι]

/-- THE LAW on the extended reals, for a column of real numbers: with the exact division, square root and reciprocal
    square root, scale-and-shift from the raw moments (the reciprocal `1/n` folded) is the normalisation of the centred
    column. Every intermediate value is a real number, so the real law applies. -/
theorem affine_eq (x : ι → ℝ) {n : ℝ} (hn : n = Fintype.card ι) (hpos : 0 < n) (g b ε : ℝ) (hε : 0 < ε) (y : ℝ) :
    let S1 : EReal := ∑ j, (x j : EReal)
    let S2 : EReal := ∑ j, (x j : EReal) * (x j : EReal)
    let c : EReal := ((1 / n : ℝ) : EReal)
    let mean : EReal := S1 * c
    let var : EReal := max (S2 * c - mean * mean) 0
    let s : EReal := (g : EReal) * Ideal.rsqrt (var + (ε : EReal))
    let m : EReal := Ideal.div S1 (n : EReal)
    let v : EReal := Ideal.div (∑ j, ((x j : EReal) - m) * ((x j : EReal) - m)) (n : EReal)
    (y : EReal) * s + ((b : EReal) - mean * s)
      = Ideal.div ((y : EReal) - m) (Ideal.sqrt (v + (ε : EReal))) * (g : EReal) + (b : EReal) := by
  intro S1 S2 c mean var s m v
  have hne : n ≠ 0 := hpos.ne'
  -- the raw moments and what is built from them are real numbers
  have hS1 : S1 = ((∑ j, x j : ℝ) : EReal) := (coe_sum _ _).symm
  have hS2 : S2 = ((∑ j, x j * x j : ℝ) : EReal) := by
    show ∑ j, (x j : EReal) * (x j : EReal) = _
    rw [coe_sum]; exact Finset.sum_congr rfl fun j _ => (EReal.coe_mul _ _).symm
  have hmean : mean = (((∑ j, x j) * (1 / n) : ℝ) : EReal) := by
    show S1 * c = _; rw [hS1, ← EReal.coe_mul]
  have hvar : var = ((max ((∑ j, x j * x j) * (1 / n) - ((∑ j, x j) * (1 / n)) * ((∑ j, x j) * (1 / n))) 0 : ℝ) : EReal) := by
    show max (S2 * c - mean * mean) 0 = _
    rw [hS2, hmean, ← EReal.coe_mul, ← EReal.coe_mul, ← EReal.coe_sub, ← EReal.coe_zero, max_coe_coe]
  have hvpos : 0 < max ((∑ j, x j * x j) * (1 / n) - ((∑ j, x j) * (1 / n)) * ((∑ j, x j) * (1 / n))) 0 + ε :=
    add_pos_of_nonneg_of_pos (le_max_right _ _) hε
  have hs : s = ((g * (Real.sqrt (max ((∑ j, x j * x j) * (1 / n) - ((∑ j, x j) * (1 / n)) * ((∑ j, x j) * (1 / n))) 0 + ε))⁻¹ : ℝ) : EReal) := by
    show (g : EReal) * Ideal.rsqrt (var + (ε : EReal)) = _
    rw [hvar, ← EReal.coe_add, rsqrt_coe_pos hvpos, ← EReal.coe_mul]
  -- the centred column is real too
  have hm : m = (((∑ j, x j) / n : ℝ) : EReal) := by
    show Ideal.div S1 (n : EReal) = _; rw [hS1, div_coe_coe _ hne]
  have hm' : Ideal.div (∑ j, (x j : EReal)) (n : EReal) = (((∑ j, x j) / n : ℝ) : EReal) := by
    rw [← coe_sum, div_coe_coe _ hne]
  have hv : v = (((∑ j, (x j - (∑ k, x k) / n) * (x j - (∑ k, x k) / n)) / n : ℝ) : EReal) := by
    show Ideal.div (∑ j, ((x j : EReal) - Ideal.div (∑ i, (x i : EReal)) (n : EReal))
      * ((x j : EReal) - Ideal.div (∑ i, (x i : EReal)) (n : EReal))) (n : EReal) = _
    rw [hm']
    have hsum : (∑ j, ((x j : EReal) - (((∑ k, x k) / n : ℝ) : EReal)) * ((x j : EReal) - (((∑ k, x k) / n : ℝ) : EReal)))
        = ((∑ j, (x j - (∑ k, x k) / n) * (x j - (∑ k, x k) / n) : ℝ) : EReal) := by
      rw [coe_sum]; exact Finset.sum_congr rfl fun j _ => by rw [← EReal.coe_sub, ← EReal.coe_mul]
    rw [hsum, div_coe_coe _ hne]
  have hv0 : 0 ≤ (∑ j, (x j - (∑ k, x k) / n) * (x j - (∑ k, x k) / n)) / n + ε :=
    (add_pos_of_nonneg_of_pos (centred_nonneg x hpos _) hε).le
  have hsq : Real.sqrt ((∑ j, (x j - (∑ k, x k) / n) * (x j - (∑ k, x k) / n)) / n + ε) ≠ 0 :=
    (Real.sqrt_pos.2 (add_pos_of_nonneg_of_pos (centred_nonneg x hpos _) hε)).ne'
  rw [hs, hmean, hm, hv, ← EReal.coe_add, sqrt_coe_nonneg hv0, ← EReal.coe_sub, div_coe_coe _ hsq,
    ← EReal.coe_mul, ← EReal.coe_mul, ← EReal.coe_mul, ← EReal.coe_sub, ← EReal.coe_add, ← EReal.coe_add]
  exact congrArg _ (affine_eq_real x hn hpos g b ε hε y)

end Ext

/-! ## A padded sum, corrected -/

/-- If every padded entry of `f` holds the constant `c`, the sum over all entries plus `−(number of padded
    entries) · c` is the sum over the entries that are not padded. -/
theorem sum_pad_correct {ι : Type*} [Fintype ι] [DecidableEq ι] (pad : Finset ι) (f : ι → ℝ) (c : ℝ)
    (hpad : ∀ i ∈ pad, f i = c) (k : ℝ) (hk : k = pad.card) :
    (∑ i, f i) + (-k) * c = ∑ i ∈ Finset.univ \ pad, f i := by
  have h1 : (∑ i, f i) = (∑ i ∈ Finset.univ \ pad, f i) + ∑ i ∈ pad, f i := by
    rw [Finset.sum_sdiff (Finset.subset_univ pad)]
  have h2 : (∑ i ∈ pad, f i) = k * c := by
    rw [Finset.sum_congr rfl hpad, Finset.sum_const, nsmul_eq_mul, hk]
  rw [h1, h2]; ring

end Cert.BatchNorm

end
-- ==== Proof.LibBnLayer.lean ====
/-
  One layer of a network that normalises with batch statistics, computed on a PADDED batch, against the same layer on
  the unpadded batch, on the extended reals, for REAL data.

  The rows of the unpadded batch are indexed by ι, those of the padded batch by ρ, and e : ι ↪ ρ places the former among
  the latter. Every padded row (a row outside the image of e) holds one constant row cpad. The padded computation forms
  the raw moments of each column over ALL rows of ρ and removes the padded rows' contribution (their number, card ρ −
  card ι, times the constant, and times its square): what is left are the raw moments S1, S2 of the unpadded column. From
  them it normalises by scale and shift, sc = g · rsqrt (max (S2/n − (S1/n)²) 0 + ε), sh = b − (S1/n) · sc, and applies an
  affine map and an activation. The unpadded computation normalises the centred column, (x − m) / sqrt (v + ε) · g + b.

  * On the rows of the image of e the two results agree (the law of normalisation from raw moments).
  * On every padded row the padded computation's result is again one constant row, cnext.
  * Every entry of both is a real number, provided the activation maps reals to reals.

  The first part of the file says that each operation involved maps real numbers to real numbers.
-/
import proofs.«139309_g56014963475156_cont_9to1_m_1179_16_alg».proof.Proof.LibBatchNorm
import Idealize.ShloMosaic.PureOps.Ideal

noncomputable section

namespace Cert.BnLayer

open Idealize.ShloMosaic

/-- An extended real that is a real number. -/
def IsReal (x : EReal) : Prop := ∃ r : ℝ, x = (r : EReal)

/-! ## The operations keep real numbers real -/

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, Cert.BatchNorm.max_coe_coe a b⟩

/-- The positive part of a real number is a real number. -/
theorem isReal_relu {x : EReal} (hx : IsReal x) : IsReal (max x 0) := isReal_max hx isReal_zero

/-- A finite sum of real numbers is a real number. -/
theorem isReal_sum {α : Type*} (s : Finset α) (f : α → EReal) (h : ∀ a ∈ s, IsReal (f a)) : IsReal (∑ a ∈ s, f a) := by
  classical
  induction s using Finset.induction_on with
  | empty => exact ⟨0, by simp⟩
  | insert a s ha ih =>
    rw [Finset.sum_insert ha]
    exact isReal_add (h a (Finset.mem_insert_self a s)) (ih fun c hc => h c (Finset.mem_insert_of_mem hc))

/-- The quotient of a real number by a real number that is not zero. -/
theorem isReal_div {x : EReal} (hx : IsReal x) {b : ℝ} (hb : b ≠ 0) : IsReal (Ideal.div x (b : EReal)) := by
  obtain ⟨a, rfl⟩ := hx; exact ⟨a / b, Cert.BatchNorm.div_coe_coe a hb⟩

/-- The square root of a non-negative real number. -/
theorem isReal_sqrt {a : ℝ} (ha : 0 ≤ a) : IsReal (Ideal.sqrt (a : EReal)) := ⟨_, Cert.BatchNorm.sqrt_coe_nonneg ha⟩

/-- The reciprocal square root of a positive real number. -/
theorem isReal_rsqrt {a : ℝ} (ha : 0 < a) : IsReal (Ideal.rsqrt (a : EReal)) := ⟨_, Cert.BatchNorm.rsqrt_coe_pos ha⟩

/-- The reciprocal square root of the positive part of a real number plus a positive real number: the argument is
    positive, so the result is a real number. -/
theorem isReal_rsqrt_relu_add {x : EReal} (hx : IsReal x) {ε : ℝ} (hε : 0 < ε) :
    IsReal (Ideal.rsqrt (max x 0 + (ε : EReal))) := by
  obtain ⟨a, rfl⟩ := hx
  rw [← EReal.coe_zero, Cert.BatchNorm.max_coe_coe, ← EReal.coe_add]
  exact isReal_rsqrt (add_pos_of_nonneg_of_pos (le_max_right a 0) hε)

/-! ## A padded sum, corrected, on the extended reals -/

/-- If f holds the real number u i at the i-th row of the image of e and the real constant c at every row outside the
    image, the sum of f over all rows, corrected by −(number of rows outside the image) · c, is the sum of the u i. The rows
    outside the image number card ρ − card ι. -/
theorem sum_embedding_pad {ι ρ : Type} [Fintype ι] [Fintype ρ] [DecidableEq ρ] (e : ι ↪ ρ) (f : ρ → EReal)
    (u : ι → ℝ) (c : ℝ) (hemb : ∀ i, f (e i) = (u i : EReal)) (hpad : ∀ p, p ∉ Set.range e → f p = (c : EReal))
    (npad : ℝ) (hnpad : npad = (Fintype.card ρ : ℝ) - (Fintype.card ι : ℝ)) :
    (∑ p, f p) + ((-npad : ℝ) : EReal) * (c : EReal) = ∑ i, (u i : EReal) := by
  have hcompl : ∀ p ∈ (Finset.univ.map e)ᶜ, f p = (c : EReal) := fun p hp =>
    hpad p fun ⟨i, hi⟩ => (Finset.mem_compl.1 hp) (Finset.mem_map.2 ⟨i, Finset.mem_univ i, hi⟩)
  have hcard : (((Finset.univ.map e)ᶜ).card : ℝ) = npad := by
    rw [Finset.card_compl, Finset.card_map, Finset.card_univ, Nat.cast_sub (Fintype.card_le_of_embedding e), hnpad]
  have h1 : ∑ p ∈ Finset.univ.map e, f p = ((∑ i, u i : ℝ) : EReal) := by
    rw [Finset.sum_map, Cert.BatchNorm.coe_sum]; exact Finset.sum_congr rfl fun i _ => hemb i
  have h2 : ∑ p ∈ (Finset.univ.map e)ᶜ, f p = ((npad * c : ℝ) : EReal) := by
    rw [Finset.sum_congr rfl hcompl, ← Cert.BatchNorm.coe_sum, Finset.sum_const, nsmul_eq_mul, hcard]
  rw [← Finset.sum_add_sum_compl (Finset.univ.map e) f, h1, h2, ← EReal.coe_mul, ← EReal.coe_add, ← EReal.coe_add,
    ← Cert.BatchNorm.coe_sum]
  congr 1; ring

/-! ## The layer -/

/-- ONE LAYER. The padded computation (moments over all rows, the padded rows' share removed; scale and shift; affine map;
    activation) agrees with the unpadded one (centred normalisation; affine map; activation) on the rows of the image of
    e, is one constant row on every padded row, and all these entries are real numbers. -/
theorem layer {ι ρ : Type} [Fintype ι] [Fintype ρ] [DecidableEq ρ] {K Q : ℕ}
    (e : ι ↪ ρ) (xr : ι → Fin K → EReal) (xk : ρ → Fin K → EReal) (cpad : Fin K → EReal)
    (hreal : ∀ i k, IsReal (xr i k)) (hcpad : ∀ k, IsReal (cpad k))
    (hemb : ∀ i k, xk (e i) k = xr i k) (hpad : ∀ p, p ∉ Set.range e → ∀ k, xk p k = cpad k)
    (n : ℝ) (hn : n = Fintype.card ι) (hpos : 0 < n) (npad : ℝ)
    (hnpad : npad = (Fintype.card ρ : ℝ) - (Fintype.card ι : ℝ))
    (cinv eps : EReal) (hcinv : cinv = ((1 / n : ℝ) : EReal)) (ε : ℝ) (hε : 0 < ε) (heps : eps = (ε : EReal))
    (g b : Fin K → EReal) (hg : ∀ k, IsReal (g k)) (hb : ∀ k, IsReal (b k))
    (S1 S2 : Fin K → EReal)
    (hS1 : ∀ k, S1 k = (∑ p, xk p k) + ((-npad : ℝ) : EReal) * cpad k)
    (hS2 : ∀ k, S2 k = (∑ p, xk p k * xk p k) + ((-npad : ℝ) : EReal) * (cpad k * cpad k))
    (W : Fin K → Fin Q → EReal) (bias : Fin Q → EReal) (hW : ∀ k q, IsReal (W k q)) (hbias : ∀ q, IsReal (bias q))
    (act : EReal → EReal) (hact : ∀ x, IsReal x → IsReal (act x)) :
    let sc : Fin K → EReal := fun k => g k * Ideal.rsqrt (max (S2 k * cinv - (S1 k * cinv) * (S1 k * cinv)) 0 + eps)
    let sh : Fin K → EReal := fun k => b k - (S1 k * cinv) * sc k
    let yk : ρ → Fin Q → EReal := fun p q => act ((∑ k, (xk p k * sc k + sh k) * W k q) + bias q)
    let m : Fin K → EReal := fun k => Ideal.div (∑ i, xr i k) (n : EReal)
    let v : Fin K → EReal := fun k => Ideal.div (∑ i, (xr i k - m k) * (xr i k - m k)) (n : EReal)
    let yr : ι → Fin Q → EReal := fun i q =>
      act ((∑ k, (Ideal.div (xr i k - m k) (Ideal.sqrt (v k + eps)) * g k + b k) * W k q) + bias q)
    let cnext : Fin Q → EReal := fun q => act ((∑ k, (cpad k * sc k + sh k) * W k q) + bias q)
    (∀ i q, yk (e i) q = yr i q) ∧ (∀ p, p ∉ Set.range e → ∀ q, yk p q = cnext q) ∧ (∀ i q, IsReal (yr i q))
      ∧ (∀ q, IsReal (cnext q)) := by
  -- the real numbers behind the data
  choose x hx using hreal
  choose cp hcp using hcpad
  choose gr hgr using hg
  choose br hbr using hb
  -- the corrected sums are the raw moments of the unpadded columns
  have hS1e : ∀ k, S1 k = ∑ i, (x i k : EReal) := fun k => by
    rw [hS1 k, hcp k]
    exact sum_embedding_pad e (fun p => xk p k) (fun i => x i k) (cp k) (fun i => (hemb i k).trans (hx i k))
      (fun p hp => (hpad p hp k).trans (hcp k)) npad hnpad
  have hS2e : ∀ k, S2 k = ∑ i, (x i k : EReal) * (x i k : EReal) := fun k => by
    rw [hS2 k, hcp k, ← EReal.coe_mul]
    refine (sum_embedding_pad e (fun p => xk p k * xk p k) (fun i => x i k * x i k) (cp k * cp k) (fun i => ?_)
      (fun p hp => ?_) npad hnpad).trans (Finset.sum_congr rfl fun i _ => EReal.coe_mul _ _)
    · show xk (e i) k * xk (e i) k = _
      rw [hemb i k, hx i k, EReal.coe_mul]
    · show xk p k * xk p k = _
      rw [hpad p hp k, hcp k, EReal.coe_mul]
  clear hS1 hS2
  obtain rfl : S1 = fun k => ∑ i, (x i k : EReal) := funext hS1e
  obtain rfl : S2 = fun k => ∑ i, (x i k : EReal) * (x i k : EReal) := funext hS2e
  obtain rfl : xr = fun i k => (x i k : EReal) := funext fun i => funext fun k => hx i k
  obtain rfl : g = fun k => (gr k : EReal) := funext hgr
  obtain rfl : b = fun k => (br k : EReal) := funext hbr
  subst hcinv heps
  intro sc sh yk m v yr cnext
  -- the law of normalisation from raw moments, column by column
  have hkey : ∀ (k : Fin K) (y : ℝ), (y : EReal) * sc k + sh k
      = Ideal.div ((y : EReal) - m k) (Ideal.sqrt (v k + (ε : EReal))) * (gr k : EReal) + (br k : EReal) :=
    fun k y => Cert.BatchNorm.affine_eq (fun j => x j k) hn hpos (gr k) (br k) ε hε y
  -- scale and shift are real numbers
  have hS1r : ∀ k, IsReal (∑ i, (x i k : EReal)) := fun k => isReal_sum _ _ fun i _ => isReal_coe _
  have hS2r : ∀ k, IsReal (∑ i, (x i k : EReal) * (x i k : EReal)) := fun k =>
    isReal_sum _ _ fun i _ => isReal_mul (isReal_coe _) (isReal_coe _)
  have hsc : ∀ k, IsReal (sc k) := fun k =>
    isReal_mul (isReal_coe (gr k)) (isReal_rsqrt_relu_add (isReal_sub (isReal_mul (hS2r k) (isReal_coe _))
      (isReal_mul (isReal_mul (hS1r k) (isReal_coe _)) (isReal_mul (hS1r k) (isReal_coe _)))) hε)
  have hsh : ∀ k, IsReal (sh k) := fun k =>
    isReal_sub (isReal_coe (br k)) (isReal_mul (isReal_mul (hS1r k) (isReal_coe _)) (hsc k))
  -- a real row goes to a real row
  have hrow : ∀ z : Fin K → EReal, (∀ k, IsReal (z k)) → ∀ q,
      IsReal (act ((∑ k, (z k * sc k + sh k) * W k q) + bias q)) := fun z hz q =>
    hact _ (isReal_add (isReal_sum _ _ fun k _ => isReal_mul (isReal_add (isReal_mul (hz k) (hsc k)) (hsh k)) (hW k q))
      (hbias q))
  have hfirst : ∀ i q, yk (e i) q = yr i q := by
    intro i q
    show act ((∑ k, (xk (e i) k * sc k + sh k) * W k q) + bias q)
      = act ((∑ k, (Ideal.div ((x i k : EReal) - m k) (Ideal.sqrt (v k + (ε : EReal))) * (gr k : EReal) + (br k : EReal))
          * W k q) + bias q)
    refine congrArg act (congrArg (· + bias q) (Finset.sum_congr rfl fun k _ => ?_))
    rw [hemb i k]
    exact congrArg (· * W k q) (hkey k (x i k))
  have hsecond : ∀ p, p ∉ Set.range e → ∀ q, yk p q = cnext q := by
    intro p hp q
    show act ((∑ k, (xk p k * sc k + sh k) * W k q) + bias q) = act ((∑ k, (cpad k * sc k + sh k) * W k q) + bias q)
    refine congrArg act (congrArg (· + bias q) (Finset.sum_congr rfl fun k _ => ?_))
    rw [hpad p hp k]
  refine ⟨hfirst, hsecond, fun i q => ?_, fun q => hrow cpad (fun k => ⟨cp k, hcp k⟩) q⟩
  rw [← hfirst i q]
  exact hrow (xk (e i)) (fun k => by rw [hemb i k]; exact isReal_coe _) q

end Cert.BnLayer

end
-- ==== Proof.Consts.lean ====
/-
  The float constants the two programs spell, as the extended reals their words denote, stated once.

  Zero; the pair count 300000 (the reference's divisor); −4000 (the number of padded pairs, negated); the three small
  positive constants under the square roots and in the quotients (they round from 1e-5, 1e-8 and 1e-9; only their
  positivity matters); and the kernel's named reciprocal of the pair count, which the table gives the exact value 1/300000.
-/
import Idealize.ShloMosaic.PureOps.Ideal
import Idealize.ShloMosaic.PureOps.IdealRules
import proofs.«139309_g56014963475156_cont_9to1_m_1179_16_alg».proof.KernelIdeal

noncomputable section

namespace Cert.Consts

open Idealize.ShloMosaic

theorem ofBits_zero : Ideal.ofBits .f32 0x00000000#32 = 0 := by
  simp [Ideal.ofBits, Ideal.ieee]

theorem ofBits_count : Ideal.ofBits .f32 0x48927C00#32 = ((300000 : ℝ) : EReal) := by
  simp [Ideal.ofBits, Ideal.ieee, -EReal.coe_mul]; norm_num

theorem ofBits_m4000 : Ideal.ofBits .f32 0xC57A0000#32 = ((-4000 : ℝ) : EReal) := by
  simp [Ideal.ofBits, Ideal.ieee, -EReal.coe_mul]; norm_num

/-- The constant under the normalisations' square roots. -/
def epsBn : ℝ := 10995116 * (2 ^ 40)⁻¹
theorem epsBn_pos : 0 < epsBn := by unfold epsBn; positivity
theorem ofBits_epsBn : Ideal.ofBits .f32 0x3727C5AC#32 = ((epsBn : ℝ) : EReal) := by
  unfold epsBn; simp [Ideal.ofBits, Ideal.ieee, -EReal.coe_mul]

/-- The floor under a row's norm. -/
def epsNorm : ℝ := 11258999 * (2 ^ 50)⁻¹
theorem epsNorm_pos : 0 < epsNorm := by unfold epsNorm; positivity
theorem ofBits_epsNorm : Ideal.ofBits .f32 0x322BCC77#32 = ((epsNorm : ℝ) : EReal) := by
  unfold epsNorm; simp [Ideal.ofBits, Ideal.ieee, -EReal.coe_mul]

/-- The constant added to the union's area. -/
def epsIou : ℝ := 9007199 * (2 ^ 53)⁻¹
theorem epsIou_pos : 0 < epsIou := by unfold epsIou; positivity
theorem ofBits_epsIou : Ideal.ofBits .f32 0x3089705F#32 = ((epsIou : ℝ) : EReal) := by
  unfold epsIou; simp [Ideal.ofBits, Ideal.ieee, -EReal.coe_mul]

/-- The kernel's reciprocal of the pair count, by its name in the table. -/
theorem named_inv : Named.named (F := Ideal) Cert.KernelIdeal.κ "inv_300000" (φ := .f32) 0x365FB23B#32 = ((1 / 300000 : ℝ) : EReal) :=
  IdealRules.named_const.ideal_named_scalar _ _ _ _ rfl

end Cert.Consts

end
-- ==== Proof.Net.lean ====
/-
  The pair-association head as plain mathematics on the extended reals: the function both programs compute.

  For detection n and reference j: the cosine of the two embedding rows (each row divided by the larger of its Euclidean
  norm and a small constant) and the overlap ratio of the two boxes (overlap area over union area plus a small
  constant). The 1000 × 300 pairs are the rows i = 300·n + j of a two-column array. Four times a normalisation of the
  columns with the statistics of the 300000 rows, (x − mean) / sqrt (variance + ε) · g + b, is followed by a matrix
  product with a bias; the first three products are followed by x ↦ max x 0.
-/
import proofs.«139309_g56014963475156_cont_9to1_m_1179_16_alg».proof.Proof.LibBnLayer
import proofs.«139309_g56014963475156_cont_9to1_m_1179_16_alg».proof.Proof.Consts

noncomputable section

namespace Cert.Net

open Idealize.ShloMosaic

/-- The number of pairs, the normalisations' ε, the floor under a norm, the constant added to a union's area. -/
abbrev cnt : EReal := ((300000 : ℝ) : EReal)
abbrev epsB : EReal := ((Cert.Consts.epsBn : ℝ) : EReal)
abbrev epsN : EReal := ((Cert.Consts.epsNorm : ℝ) : EReal)
abbrev epsI : EReal := ((Cert.Consts.epsIou : ℝ) : EReal)

/-- x ↦ max x 0. -/
def relu (x : EReal) : EReal := max x 0

/-- One normalisation of the columns of `x` over all its rows, then the product with `W`, the bias, and `act`. -/
def bnlin {ι : Type} [Fintype ι] {K Q : ℕ} (act : EReal → EReal) (x : ι → Fin K → EReal) (g b : Fin K → EReal)
    (W : Fin K → Fin Q → EReal) (bias : Fin Q → EReal) : ι → Fin Q → EReal := fun i q =>
  act ((∑ k, (Ideal.div (x i k - Ideal.div (∑ i', x i' k) cnt)
        (Ideal.sqrt (Ideal.div (∑ i', (x i' k - Ideal.div (∑ i'', x i'' k) cnt) * (x i' k - Ideal.div (∑ i'', x i'' k) cnt)) cnt + epsB))
      * g k + b k) * W k q) + bias q)

/-- A row divided by the larger of its norm and the floor. -/
def unit {N : ℕ} (x : Fin N → Fin 64 → EReal) (n : Fin N) (d : Fin 64) : EReal :=
  Ideal.div (x n d) (max (Ideal.sqrt (∑ d' : Fin 64, x n d' * x n d')) epsN)

/-- The cosine of detection n's and reference j's embeddings. -/
def cosS (e : Fin 1000 → Fin 64 → EReal) (r : Fin 300 → Fin 64 → EReal) (n : Fin 1000) (j : Fin 300) : EReal :=
  ∑ d : Fin 64, unit e n d * unit r j d

/-- The overlap area of two boxes given by their corners. -/
def inter (ax1 ay1 ax2 ay2 bx1 by1 bx2 by2 : EReal) : EReal :=
  max (min ax2 bx2 - max ax1 bx1) 0 * max (min ay2 by2 - max ay1 by1) 0

/-- The overlap ratio of detection n's and reference j's boxes. -/
def iouS (a : Fin 1000 → Fin 4 → EReal) (b : Fin 300 → Fin 4 → EReal) (n : Fin 1000) (j : Fin 300) : EReal :=
  Ideal.div (inter (a n 0) (a n 1) (a n 2) (a n 3) (b j 0) (b j 1) (b j 2) (b j 3))
    ((((a n 2 - a n 0) * (a n 3 - a n 1) + (b j 2 - b j 0) * (b j 3 - b j 1))
      - inter (a n 0) (a n 1) (a n 2) (a n 3) (b j 0) (b j 1) (b j 2) (b j 3)) + epsI)

/-- Pair row i is detection i / 300 and reference i % 300. -/
def detOf (i : Fin 300000) : Fin 1000 := ⟨i.val / 300, by have := i.isLt; omega⟩
def refOf (i : Fin 300000) : Fin 300 := ⟨i.val % 300, Nat.mod_lt _ (by decide)⟩

/-- The two pair features. -/
def feat (a : Fin 1000 → Fin 4 → EReal) (e : Fin 1000 → Fin 64 → EReal) (b : Fin 300 → Fin 4 → EReal) (r : Fin 300 → Fin 64 → EReal) :
    Fin 300000 → Fin 2 → EReal := fun i k =>
  if k.val = 0 then cosS e r (detOf i) (refOf i) else iouS a b (detOf i) (refOf i)

/-- The whole head: the result at pair row i, column q. -/
def net (x0 : Fin 300000 → Fin 2 → EReal) (g0 b0 : Fin 2 → EReal) (W1 : Fin 2 → Fin 32 → EReal) (c1 : Fin 32 → EReal)
    (g1 b1 : Fin 32 → EReal) (W2 : Fin 32 → Fin 32 → EReal) (c2 : Fin 32 → EReal)
    (g2 b2 : Fin 32 → EReal) (W3 : Fin 32 → Fin 64 → EReal) (c3 : Fin 64 → EReal)
    (g3 b3 : Fin 64 → EReal) (W4 : Fin 64 → Fin 64 → EReal) (c4 : Fin 64 → EReal) : Fin 300000 → Fin 64 → EReal :=
  bnlin id (bnlin relu (bnlin relu (bnlin relu x0 g0 b0 W1 c1) g1 b1 W2 c2) g2 b2 W3 c3) g3 b3 W4 c4

end Cert.Net

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.LibLinearAt.lean ====
/-
  Affine maps between rows, read at one entry.

  A matrix product of an M × K array with a K × N array, plus a bias given as ONE ROW (1 × N) repeated down the
  M rows, has at entry (p, q) the value  (∑ k, x (p, k) * w (k, q)) + b (0, q).  The two ways the programs spell it —
  a product accumulated from the zero array with the row cast and repeated, and a contraction with the row laid along
  both axes — are read here at an entry, each as that same expression, for every M, K, N.  A change of number format
  is the identity on the extended reals, so the lemmas apply as they stand to operands that were converted first.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«139309_g56014963475156_cont_9to1_m_1179_16_alg».proof.Proof.LibArrays

noncomputable section

namespace Cert.LinearAt

open Idealize.ShloMosaic Idealize.ShloMosaic.ValueIdx

/-- A product of an M × K array with a K × N array, accumulated from the zero array: entry (p, q) is the sum over the
    shared axis.  The contraction record is any one that is the plain rows-by-columns contraction. -/
theorem matmul_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (matmul d none x w (constant ⟨2, ![M, N]⟩ .f32 0x00000000#32) : FVec Ideal ⟨2, ![M, N]⟩ .f32) (ix2 p q)
      = ∑ k : Fin K, x (ix2 p k) * w (ix2 k q) := by
  subst hd
  exact Cert.Decoder.Lib.matmul_rows_apply M K N x w p q

/-- The same product written as a contraction with no accumulator: entry (p, q) is the same sum. -/
theorem dot_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂) (p : Fin M) (q : Fin N) :
    (Host.dotGeneral d none x w : FVec Ideal ⟨2, ![M, N]⟩ .f32) (ix2 p q) = ∑ k : Fin K, x (ix2 p k) * w (ix2 k q) := by
  subst hd
  exact StackMember.dotGeneral_plain_apply none x w p q

/-- One row, cast to its own shape and repeated down M rows, reads at (p, q) the row's entry q. -/
theorem row_repeat_apply {α : Type} (M N : Nat) (b : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix2 (0 : Fin 1) q) := by
  rw [shapeCast_self]
  exact broadcastTo_1b_ab_apply b h2 p q

/-- One row laid along both axes of an M × N array (its row axis of extent one stretched) reads at (p, q) the row's
    entry q. -/
theorem row_stretch_apply {α : Type} (M N : Nat) (b : (⟨2, ![1, N]⟩ : Shape).Idx → α)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    broadcastInDim ⟨2, ![M, N]⟩ dims h b (ix2 p q) = b (ix2 (0 : Fin 1) q) := by
  refine broadcastInDim_apply dims h b (ix2 p q) (ix2 (0 : Fin 1) q) fun a => ?_
  match a with
  | ⟨0, _⟩ => rfl
  | ⟨1, _⟩ =>
    have e : dims 1 = (1 : Fin 2) := Fin.ext hdims
    show q.val = if N = 1 then 0 else ((ix2 p q : (⟨2, ![M, N]⟩ : Shape).Idx) (dims 1)).val
    rw [e]
    show q.val = if N = 1 then 0 else q.val
    split
    · have := q.isLt; omega
    · rfl

/-- Product accumulated from zero plus the repeated row, at entry (p, q). -/
theorem matmul_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (q : Fin N) :
    (addf (matmul d none x w (constant ⟨2, ![M, N]⟩ .f32 0x00000000#32))
        (broadcastTo ⟨2, ![M, N]⟩ (shapeCast ⟨2, ![1, N]⟩ b h1) h2) : FVec Ideal ⟨2, ![M, N]⟩ .f32) (ix2 p q)
      = (∑ k : Fin K, x (ix2 p k) * w (ix2 k q)) + b (ix2 (0 : Fin 1) q) := by
  rw [addf_apply, matmul_apply M K N d hd x w p q, row_repeat_apply M N b h1 h2 p q]

/-- Contraction plus the stretched row, at entry (p, q). -/
theorem dot_bias_apply {φ₁ φ₂ : FTy} (M K N : Nat) (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32)
    (dims : Fin (⟨2, ![1, N]⟩ : Shape).rank → Fin (⟨2, ![M, N]⟩ : Shape).rank) (hdims : (dims 1).val = 1)
    (h : (⟨2, ![1, N]⟩ : Shape).BroadcastsInDim ⟨2, ![M, N]⟩ dims) (p : Fin M) (q : Fin N) :
    (addf (Host.dotGeneral d none x w) (broadcastInDim ⟨2, ![M, N]⟩ dims h b) : FVec Ideal ⟨2, ![M, N]⟩ .f32) (ix2 p q)
      = (∑ k : Fin K, x (ix2 p k) * w (ix2 k q)) + b (ix2 (0 : Fin 1) q) := by
  rw [addf_apply, dot_apply M K N d hd x w p q, row_stretch_apply M N b dims hdims h p q]

end Cert.LinearAt

end
-- ==== Proof.R4Payload.lean ====
/-
  The last launch, one tile: what its two payloads hold at an entry.

  A tile is 15200 pair rows of the second hidden layer's activations a (32 columns). With the pair count's reciprocal c,
  a column's raw moments (s1, s2) and its normalisation's weight and bias (g, b) give the column's scale and shift
      scale = g · rsqrt (max (s2 · c − (s1 · c)²) 0 + eps),   shift = b − (s1 · c) · scale.
  The first payload is the third layer on the tile: at row r, column q,
      max ((∑ k, (a (r,k) · scale₂ k + shift₂ k) · W3 (k,q)) + b3 q) 0;
  the second is the fourth layer of it, the 15200 rows read as 50 detections × 304 reference slots and cut to the 300 real
  slots: at (p, j, q) it is row 304·p + j of
      (∑ k, (h (r,k) · scale₃ k + shift₃ k) · W4 (k,q)) + b4 q.
-/
import proofs.«139309_g56014963475156_cont_9to1_m_1179_16_alg».proof.Proof.Gen.KernelIdeal.Skeleton
import proofs.«139309_g56014963475156_cont_9to1_m_1179_16_alg».proof.Proof.LibLinearAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R4

open Cert.KernelIdeal Cert.KernelIdeal.Gen
open Idealize.ShloMosaic Idealize.ShloMosaic.ValueIdx

/-- The pair count's reciprocal as the program spells it (a named constant). -/
abbrev cinv : EReal := Named.named (F := Ideal) κ "inv_300000" (φ := .f32) 0x365FB23B#32
/-- The normalisation's epsilon and the zero, as the program spells them. -/
abbrev eps : EReal := Scalar.ofBits (F := Ideal) .f32 0x3727C5AC#32
abbrev zer : EReal := Scalar.ofBits (F := Ideal) .f32 0x00000000#32

/-- A column's scale from its weight and raw moments. -/
def scale (g s1 s2 : EReal) : EReal := g * Ideal.rsqrt (max (s2 * cinv - (s1 * cinv) * (s1 * cinv)) zer + eps)
/-- A column's shift from its weight, bias and raw moments. -/
def shift (g b s1 s2 : EReal) : EReal := b - (s1 * cinv) * scale g s1 s2

/-- The third layer on a tile, at row r and column q. -/
theorem pay2_apply (v0 v2 v4 v8 : Vec Ideal S1x32 .f32) (v22 : Vec Ideal S15200x32 .f32) (v29 : Vec Ideal S32x64 .f32)
    (v32 : Vec Ideal S1x64 .f32) (r : Fin 15200) (q : Fin 64) :
    k4_pay2 (F := Ideal) v0 v2 v4 v8 v22 v29 v32 (ix2 r q)
      = max ((∑ k : Fin 32, (v22 (ix2 r k) * scale (v0 (ix2 (0 : Fin 1) k)) (v4 (ix2 (0 : Fin 1) k)) (v8 (ix2 (0 : Fin 1) k))
            + shift (v0 (ix2 (0 : Fin 1) k)) (v2 (ix2 (0 : Fin 1) k)) (v4 (ix2 (0 : Fin 1) k)) (v8 (ix2 (0 : Fin 1) k))) * v29 (ix2 k q))
          + v32 (ix2 (0 : Fin 1) q)) zer := by
  unfold k4_pay2
  rw [maximumf_apply, broadcast_apply,
    Cert.LinearAt.matmul_bias_apply 15200 32 64 dot_S15200x32_S32x64_S15200x64_1_0_0_1_n_n rfl]
  refine congrArg (fun z => max (z + _) _) (Finset.sum_congr rfl fun k _ => ?_)
  rw [truncf_apply, truncf_apply, addf_apply, mulf_apply]
  simp only [shapeCast_self]
  rw [broadcastTo_1b_ab_apply _ broadcasts_S1x32_S15200x32, broadcastTo_1b_ab_apply _ broadcasts_S1x32_S15200x32]
  rfl

/-- The fourth layer on a tile, the rows read as 50 × 304 and cut to 50 × 300: at (p, j, q), row 304·p + j. -/
theorem pay1_apply (v37 : FVec Ideal S15200x64 .f32) (v38 v40 v42 v46 : Vec Ideal S1x64 .f32) (v65 : Vec Ideal S64x64 .f32)
    (v68 : Vec Ideal S1x64 .f32) (p : Fin 50) (j : Fin 300) (q : Fin 64) (r : Fin 15200) (hr : r.val = 304 * p.val + j.val) :
    k4_pay1 (F := Ideal) v37 v38 v40 v42 v46 v65 v68 (ix3 p j q)
      = (∑ k : Fin 64, (v37 (ix2 r k) * scale (v38 (ix2 (0 : Fin 1) k)) (v42 (ix2 (0 : Fin 1) k)) (v46 (ix2 (0 : Fin 1) k))
            + shift (v38 (ix2 (0 : Fin 1) k)) (v40 (ix2 (0 : Fin 1) k)) (v42 (ix2 (0 : Fin 1) k)) (v46 (ix2 (0 : Fin 1) k))) * v65 (ix2 k q))
          + v68 (ix2 (0 : Fin 1) q) := by
  unfold k4_pay1
  have hj : j.val < 304 := by have := j.isLt; omega
  rw [extractStridedSlice_apply ![0, 0, 0] _ slices_S50x304x64_o0_0_0_S50x300x64 (ix3 p j q) (ix3 p (⟨j.val, hj⟩ : Fin 304) q)
      (fun a => by match a with
        | ⟨0, _⟩ => exact (Nat.zero_add _).symm
        | ⟨1, _⟩ => exact (Nat.zero_add _).symm
        | ⟨2, _⟩ => exact (Nat.zero_add _).symm),
    shapeCast_apply _ shapeCasts_S15200x64_S50x304x64 (ix3 p (⟨j.val, hj⟩ : Fin 304) q) (ix2 r q)
      (by rw [Shape.rowMajor_val_two, Shape.rowMajor_val_three]
          show r.val * 64 + q.val = (p.val * 304 + j.val) * 64 + q.val
          rw [hr]; ring),
    Cert.LinearAt.matmul_bias_apply 15200 64 64 dot_S15200x64_S64x64_S15200x64_1_0_0_1_n_n rfl]
  refine congrArg (fun z => z + _) (Finset.sum_congr rfl fun k _ => ?_)
  rw [truncf_apply, truncf_apply, addf_apply, mulf_apply]
  simp only [shapeCast_self]
  rw [broadcastTo_1b_ab_apply _ broadcasts_S1x64_S15200x64, broadcastTo_1b_ab_apply _ broadcasts_S1x64_S15200x64]
  rfl

end Cert.KernelIdeal.R4

end
-- ==== Proof.LibColSums.lean ====
/-
  Column sums of a matrix-shaped vector.

  A lane reduction by addition over the FIRST axis of an M × N array, read at column q, is the sum over the M rows of
  the entries of that column; kept as a 1 × N row it reads the same at (0, q). For every M and N, on the extended reals.
-/
import Idealize.ShloMosaic.Lib.ValueIdx
import Idealize.ShloMosaic.Lib.ValueLayout
import Idealize.ShloMosaic.PureOps.Ideal.Laws

noncomputable section

namespace Cert.ColSums

open Idealize.ShloMosaic Idealize.ShloMosaic.ValueIdx

/-- The sum down the rows, at column q. -/
theorem colsum_apply {φ : FTy} (M N : Nat) (x : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (q : Fin N) :
    multiReduction .add [0] ⟨1, ![N]⟩ x acc h hφ hacc (ix1 q) = ∑ r : Fin M, x (ix2 r q) := by
  refine (Ideal.multiReduction_add_single x acc h hφ hacc (ix1 q)).trans ?_
  refine Finset.sum_congr rfl fun r _ => congrArg x (funext fun a => Fin.ext ?_)
  match a with
  | ⟨0, _⟩ => rfl
  | ⟨1, _⟩ => rfl

/-- The same kept as one row: at (0, q). -/
theorem colsum_row_apply {φ : FTy} (M N : Nat) (x : FVec Ideal ⟨2, ![M, N]⟩ φ) (acc : BitVec φ.bits)
    (h : Shape.Reduces ⟨2, ![M, N]⟩ [0] ⟨1, ![N]⟩) (hφ : FKind.Formats φ) (hacc : acc = FKind.add.neutral φ hφ)
    (hc : (⟨1, ![N]⟩ : Shape).ShapeCasts ⟨2, ![1, N]⟩) (q : Fin N) :
    shapeCast ⟨2, ![1, N]⟩ (multiReduction .add [0] ⟨1, ![N]⟩ x acc h hφ hacc) hc (ix2 (0 : Fin 1) q) = ∑ r : Fin M, x (ix2 r q) :=
  (shapeCast_a_1a_apply _ hc 0 q).trans (colsum_apply M N x acc h hφ hacc q)

end Cert.ColSums

end
-- ==== Proof.R3Payload.lean ====
/-
  The fourth launch (moments of the third layer), one tile: its payloads at an entry.

  On a tile of 15200 pair rows, A (r, q) is the third layer's activation of row r, column q (the same function of the
  second layer's activations, moments and parameters as in the last launch). The launch adds, into row 0 and row 1 of its
  3 × 128 block of moments, the column sums of A and of A². At the last grid point it also computes the activation row c
  every padded pair carries (from the padded constant of the layer before, row 2 of the incoming moments), adds −4000 · c
  and −4000 · c² to rows 0 and 1, and stores c in row 2.
-/
import proofs.«139309_g56014963475156_cont_9to1_m_1179_16_alg».proof.Proof.Gen.KernelIdeal.Skeleton
import proofs.«139309_g56014963475156_cont_9to1_m_1179_16_alg».proof.Proof.R4Payload
import proofs.«139309_g56014963475156_cont_9to1_m_1179_16_alg».proof.Proof.LibColSums

set_option maxRecDepth 16384

noncomputable section

namespace Cert.KernelIdeal.R3

open Cert.KernelIdeal Cert.KernelIdeal.Gen
open Idealize.ShloMosaic Idealize.ShloMosaic.ValueIdx
open Cert.KernelIdeal.R4 (scale shift zer cinv eps)

/-- The padded rows' count, negated, as the program spells it. -/
abbrev m4000 : EReal := Scalar.ofBits (F := Ideal) .f32 0xC57A0000#32

/-- A column's scale, read off the payload that computes it. -/
theorem pay9_apply (g s1 s2 : Vec Ideal S1x32 .f32) (k : Fin 32) :
    k3_pay9 (F := Ideal) g s1 s2 (ix2 (0 : Fin 1) k) = scale (g (ix2 (0 : Fin 1) k)) (s1 (ix2 (0 : Fin 1) k)) (s2 (ix2 (0 : Fin 1) k)) := by
  unfold k3_pay9 k3_pay8
  simp only [shapeCast_self]
  rfl

/-- A column's shift. -/
theorem pay10_apply (g b s1 s2 : Vec Ideal S1x32 .f32) (k : Fin 32) :
    k3_pay10 (F := Ideal) g b s1 s2 (ix2 (0 : Fin 1) k)
      = shift (g (ix2 (0 : Fin 1) k)) (b (ix2 (0 : Fin 1) k)) (s1 (ix2 (0 : Fin 1) k)) (s2 (ix2 (0 : Fin 1) k)) := by
  unfold k3_pay10 k3_pay9 k3_pay8
  simp only [shapeCast_self]
  rfl

/-- The third layer's activation on the tile, at row r and column q. -/
theorem act_apply (g b s1 s2 : Vec Ideal S1x32 .f32) (W : Vec Ideal S32x64 .f32) (bias : Vec Ideal S1x64 .f32)
    (a : Vec Ideal S15200x32 .f32) (r : Fin 15200) (q : Fin 64) :
    k3_pay1 (F := Ideal) (k3_pay12 bias) (k3_pay13 g b s1 s2 W a) (ix2 r q)
      = max ((∑ k : Fin 32, (a (ix2 r k) * scale (g (ix2 (0 : Fin 1) k)) (s1 (ix2 (0 : Fin 1) k)) (s2 (ix2 (0 : Fin 1) k))
            + shift (g (ix2 (0 : Fin 1) k)) (b (ix2 (0 : Fin 1) k)) (s1 (ix2 (0 : Fin 1) k)) (s2 (ix2 (0 : Fin 1) k))) * W (ix2 k q))
          + bias (ix2 (0 : Fin 1) q)) zer := by
  unfold k3_pay1 k3_pay12 k3_pay13 k3_pay11
  rw [maximumf_apply, broadcast_apply,
    Cert.LinearAt.matmul_bias_apply 15200 32 64 dot_S15200x32_S32x64_S15200x64_1_0_0_1_n_n rfl]
  refine congrArg (fun z => max (z + _) _) (Finset.sum_congr rfl fun k _ => ?_)
  rw [truncf_apply, truncf_apply, addf_apply, mulf_apply]
  simp only [shapeCast_self]
  rw [broadcastTo_1b_ab_apply _ broadcasts_S1x32_S15200x32, broadcastTo_1b_ab_apply _ broadcasts_S1x32_S15200x32,
    pay9_apply, pay10_apply]

/-- Row 0's store: the previous row plus the column sums of the activations. -/
theorem pay2_apply (P12 : FVec Ideal S1x64 .f32) (P13 : FVec Ideal S15200x64 .f32) (prev : Vec Ideal S1x64 .f32) (q : Fin 64) :
    k3_pay2 (F := Ideal) P12 P13 prev (ix2 (0 : Fin 1) q) = prev (ix2 (0 : Fin 1) q) + ∑ r : Fin 15200, k3_pay1 (F := Ideal) P12 P13 (ix2 r q) := by
  unfold k3_pay2
  rw [addf_apply, shapeCast_self]
  exact congrArg (fun z => _ + z) (Cert.ColSums.colsum_row_apply 15200 64 _ _ _ _ _ _ q)

/-- Row 1's store: the previous row plus the column sums of the squared activations. -/
theorem pay3_apply (P12 : FVec Ideal S1x64 .f32) (P13 : FVec Ideal S15200x64 .f32) (prev : Vec Ideal S1x64 .f32) (q : Fin 64) :
    k3_pay3 (F := Ideal) P12 P13 prev (ix2 (0 : Fin 1) q)
      = prev (ix2 (0 : Fin 1) q) + ∑ r : Fin 15200, k3_pay1 (F := Ideal) P12 P13 (ix2 r q) * k3_pay1 (F := Ideal) P12 P13 (ix2 r q) := by
  unfold k3_pay3
  rw [addf_apply, shapeCast_self]
  exact congrArg (fun z => _ + z) (Cert.ColSums.colsum_row_apply 15200 64 _ _ _ _ _ _ q)

/-- The padded pairs' activation row, from the padded constant of the layer before. -/
theorem pay4_apply (P9 P10 : FVec Ideal S1x32 .f32) (W : Vec Ideal S32x64 .f32) (P12 : FVec Ideal S1x64 .f32) (cp : Vec Ideal S1x32 .f32) (q : Fin 64) :
    k3_pay4 (F := Ideal) P9 P10 (k3_pay11 W) P12 cp (ix2 (0 : Fin 1) q)
      = max ((∑ k : Fin 32, (cp (ix2 (0 : Fin 1) k) * P9 (ix2 (0 : Fin 1) k) + P10 (ix2 (0 : Fin 1) k)) * W (ix2 k q)) + P12 (ix2 (0 : Fin 1) q)) zer := by
  unfold k3_pay4 k3_pay11
  rw [maximumf_apply, broadcast_apply, addf_apply,
    Cert.LinearAt.matmul_apply 1 32 64 dot_S1x32_S32x64_S1x64_1_0_0_1_n_n rfl]
  refine congrArg (fun z => max (z + _) _) (Finset.sum_congr rfl fun k _ => ?_)
  rw [truncf_apply, truncf_apply, addf_apply, mulf_apply, shapeCast_self]

/-- Row 0's correction at the last point. -/
theorem pay5_apply (P9 P10 : FVec Ideal S1x32 .f32) (P11 : FVec Ideal S32x64 .bf16) (P12 : FVec Ideal S1x64 .f32) (cp : Vec Ideal S1x32 .f32)
    (prev : Vec Ideal S1x64 .f32) (q : Fin 64) :
    k3_pay5 (F := Ideal) P9 P10 P11 P12 cp prev (ix2 (0 : Fin 1) q)
      = prev (ix2 (0 : Fin 1) q) + m4000 * k3_pay4 (F := Ideal) P9 P10 P11 P12 cp (ix2 (0 : Fin 1) q) := by
  unfold k3_pay5
  rw [addf_apply, shapeCast_self, mulf_apply, broadcast_apply]

/-- Row 1's correction at the last point. -/
theorem pay6_apply (P9 P10 : FVec Ideal S1x32 .f32) (P11 : FVec Ideal S32x64 .bf16) (P12 : FVec Ideal S1x64 .f32) (cp : Vec Ideal S1x32 .f32)
    (prev : Vec Ideal S1x64 .f32) (q : Fin 64) :
    k3_pay6 (F := Ideal) P9 P10 P11 P12 cp prev (ix2 (0 : Fin 1) q)
      = prev (ix2 (0 : Fin 1) q) + m4000 * (k3_pay4 (F := Ideal) P9 P10 P11 P12 cp (ix2 (0 : Fin 1) q) * k3_pay4 (F := Ideal) P9 P10 P11 P12 cp (ix2 (0 : Fin 1) q)) := by
  unfold k3_pay6
  rw [addf_apply, shapeCast_self, mulf_apply, broadcast_apply, mulf_apply]

end Cert.KernelIdeal.R3

end
-- ==== Proof.KStage.lean ====
/-
  One stage of the kernel, against the specification.

  The kernel keeps 304000 pair rows: the 300000 real pairs (pair 300·n + j at row 304·n + j) and 4000 padded rows that all
  hold one constant row. Its moments are sums over ALL rows, corrected by −4000 times the constant (and its square), and
  it normalises by scale and shift computed from them with the reciprocal of the pair count. On the real rows this is
  the specification's normalisation of the real pairs; on the padded rows it is again one constant row. Everything is
  a real number when the incoming rows are.
-/
import proofs.«139309_g56014963475156_cont_9to1_m_1179_16_alg».proof.Proof.LibBnLayer
import proofs.«139309_g56014963475156_cont_9to1_m_1179_16_alg».proof.Proof.Net
import proofs.«139309_g56014963475156_cont_9to1_m_1179_16_alg».proof.Proof.Consts
import proofs.«139309_g56014963475156_cont_9to1_m_1179_16_alg».proof.Proof.R3Payload

noncomputable section

namespace Cert.KStage

open Cert.BnLayer Cert.Net Idealize.ShloMosaic
open Cert.KernelIdeal.R4 (scale shift zer cinv eps)
open Cert.KernelIdeal.R3 (m4000)

/-- Pair 300·n + j sits at padded row 304·n + j. -/
def pe : Fin 300000 ↪ Fin 304000 where
  toFun i := ⟨304 * (i.val / 300) + i.val % 300, by have := i.isLt; omega⟩
  inj' i j h := by
    have h' : 304 * (i.val / 300) + i.val % 300 = 304 * (j.val / 300) + j.val % 300 := congrArg Fin.val h
    apply Fin.ext; omega

theorem zer_eq : zer = 0 := Cert.Consts.ofBits_zero
theorem cinv_eq : cinv = ((1 / 300000 : ℝ) : EReal) := Cert.Consts.named_inv
theorem eps_eq : eps = epsB := Cert.Consts.ofBits_epsBn
theorem m4000_eq : m4000 = ((-4000 : ℝ) : EReal) := Cert.Consts.ofBits_m4000

theorem scale_eq (g s1 s2 : EReal) :
    scale g s1 s2 = g * Ideal.rsqrt (max (s2 * ((1 / 300000 : ℝ) : EReal) - (s1 * ((1 / 300000 : ℝ) : EReal)) * (s1 * ((1 / 300000 : ℝ) : EReal))) 0 + epsB) := by
  unfold scale; rw [zer_eq, cinv_eq, eps_eq]

theorem shift_eq (g b s1 s2 : EReal) :
    shift g b s1 s2 = b - (s1 * ((1 / 300000 : ℝ) : EReal)) * scale g s1 s2 := by
  unfold shift; rw [cinv_eq]

/-- THE STAGE. -/
theorem stage {K Q : ℕ} (xk : Fin 304000 → Fin K → EReal) (xr : Fin 300000 → Fin K → EReal) (cpad : Fin K → EReal)
    (hreal : ∀ i k, IsReal (xr i k)) (hcpad : ∀ k, IsReal (cpad k))
    (hemb : ∀ i k, xk (pe i) k = xr i k) (hpad : ∀ p, p ∉ Set.range pe → ∀ k, xk p k = cpad k)
    (g b : Fin K → EReal) (hg : ∀ k, IsReal (g k)) (hb : ∀ k, IsReal (b k)) (S1 S2 : Fin K → EReal)
    (hS1 : ∀ k, S1 k = (zer + ∑ p, xk p k) + m4000 * cpad k)
    (hS2 : ∀ k, S2 k = (zer + ∑ p, xk p k * xk p k) + m4000 * (cpad k * cpad k))
    (W : Fin K → Fin Q → EReal) (bias : Fin Q → EReal) (hW : ∀ k q, IsReal (W k q)) (hbias : ∀ q, IsReal (bias q))
    (act : EReal → EReal) (hact : ∀ x, IsReal x → IsReal (act x)) :
    (∀ i q, act ((∑ k, (xk (pe i) k * scale (g k) (S1 k) (S2 k) + shift (g k) (b k) (S1 k) (S2 k)) * W k q) + bias q)
        = bnlin act xr g b W bias i q)
    ∧ (∀ p, p ∉ Set.range pe → ∀ q,
        act ((∑ k, (xk p k * scale (g k) (S1 k) (S2 k) + shift (g k) (b k) (S1 k) (S2 k)) * W k q) + bias q)
          = act ((∑ k, (cpad k * scale (g k) (S1 k) (S2 k) + shift (g k) (b k) (S1 k) (S2 k)) * W k q) + bias q))
    ∧ (∀ i q, IsReal (bnlin act xr g b W bias i q))
    ∧ (∀ q, IsReal (act ((∑ k, (cpad k * scale (g k) (S1 k) (S2 k) + shift (g k) (b k) (S1 k) (S2 k)) * W k q) + bias q))) := by
  have hS1' : ∀ k, S1 k = (∑ p, xk p k) + ((-(4000 : ℝ) : ℝ) : EReal) * cpad k := fun k => by
    rw [hS1 k, zer_eq, zero_add, m4000_eq]
  have hS2' : ∀ k, S2 k = (∑ p, xk p k * xk p k) + ((-(4000 : ℝ) : ℝ) : EReal) * (cpad k * cpad k) := fun k => by
    rw [hS2 k, zer_eq, zero_add, m4000_eq]
  have L := layer pe xr xk cpad hreal hcpad hemb hpad (300000 : ℝ) (by simp) (by norm_num) (4000 : ℝ) (by simp; norm_num)
    ((1 / 300000 : ℝ) : EReal) epsB rfl Cert.Consts.epsBn Cert.Consts.epsBn_pos rfl g b hg hb S1 S2 hS1' hS2' W bias hW hbias act hact
  simp only [scale_eq, shift_eq]
  exact L

/-- What is known of one activation array of the kernel (304000 rows, K columns, as a function) together with its 3 × 128
    block of moments: on the real rows it is the specification's array `xr`, on the padded rows the constant row `cp`;
    all of these are real numbers; rows 0 and 1 of the moments are the corrected sums over all rows, row 2 is `cp`. -/
structure Fact {K : ℕ} (col : Fin K → Fin 128) (aK : Fin 304000 → Fin K → EReal)
    (stK : (⟨2, ![3, 128]⟩ : Shape).Idx → EReal) (xr : Fin 300000 → Fin K → EReal) (cp : Fin K → EReal) : Prop where
  emb : ∀ i k, aK (pe i) k = xr i k
  pad : ∀ p, p ∉ Set.range pe → ∀ k, aK p k = cp k
  real : ∀ i k, IsReal (xr i k)
  creal : ∀ k, IsReal (cp k)
  s1 : ∀ k, stK (ValueIdx.ix2 (0 : Fin 3) (col k)) = (zer + ∑ p, aK p k) + m4000 * cp k
  s2 : ∀ k, stK (ValueIdx.ix2 (1 : Fin 3) (col k)) = (zer + ∑ p, aK p k * aK p k) + m4000 * (cp k * cp k)
  s3 : ∀ k, stK (ValueIdx.ix2 (2 : Fin 3) (col k)) = cp k

/-- The next stage's activations and padded constant, as the kernel computes them from an array and its moments. -/
def nextA {K Q : ℕ} (col : Fin K → Fin 128) (aK : Fin 304000 → Fin K → EReal) (stK : (⟨2, ![3, 128]⟩ : Shape).Idx → EReal)
    (g b : Fin K → EReal) (W : Fin K → Fin Q → EReal) (bias : Fin Q → EReal) (act : EReal → EReal) : Fin 304000 → Fin Q → EReal := fun p q =>
  act ((∑ k, (aK p k * scale (g k) (stK (ValueIdx.ix2 (0 : Fin 3) (col k))) (stK (ValueIdx.ix2 (1 : Fin 3) (col k)))
      + shift (g k) (b k) (stK (ValueIdx.ix2 (0 : Fin 3) (col k))) (stK (ValueIdx.ix2 (1 : Fin 3) (col k)))) * W k q) + bias q)

def nextC {K Q : ℕ} (col : Fin K → Fin 128) (stK : (⟨2, ![3, 128]⟩ : Shape).Idx → EReal)
    (g b : Fin K → EReal) (W : Fin K → Fin Q → EReal) (bias : Fin Q → EReal) (act : EReal → EReal) : Fin Q → EReal := fun q =>
  act ((∑ k, (stK (ValueIdx.ix2 (2 : Fin 3) (col k)) * scale (g k) (stK (ValueIdx.ix2 (0 : Fin 3) (col k))) (stK (ValueIdx.ix2 (1 : Fin 3) (col k)))
      + shift (g k) (b k) (stK (ValueIdx.ix2 (0 : Fin 3) (col k))) (stK (ValueIdx.ix2 (1 : Fin 3) (col k)))) * W k q) + bias q)

/-- The first three conclusions of a stage, from what is known of the stage before. -/
theorem Fact.next_values {K Q : ℕ} {col : Fin K → Fin 128} {aK : Fin 304000 → Fin K → EReal}
    {stK : (⟨2, ![3, 128]⟩ : Shape).Idx → EReal} {xr : Fin 300000 → Fin K → EReal} {cp : Fin K → EReal} (h : Fact col aK stK xr cp)
    (g b : Fin K → EReal) (hg : ∀ k, IsReal (g k)) (hb : ∀ k, IsReal (b k))
    (W : Fin K → Fin Q → EReal) (bias : Fin Q → EReal) (hW : ∀ k q, IsReal (W k q)) (hbias : ∀ q, IsReal (bias q))
    (act : EReal → EReal) (hact : ∀ x, IsReal x → IsReal (act x)) :
    (∀ i q, nextA col aK stK g b W bias act (pe i) q = bnlin act xr g b W bias i q)
    ∧ (∀ p, p ∉ Set.range pe → ∀ q, nextA col aK stK g b W bias act p q = nextC col stK g b W bias act q)
    ∧ (∀ i q, IsReal (bnlin act xr g b W bias i q))
    ∧ (∀ q, IsReal (nextC col stK g b W bias act q)) := by
  have L := stage aK xr cp h.real h.creal h.emb h.pad g b hg hb
    (fun k => stK (ValueIdx.ix2 (0 : Fin 3) (col k))) (fun k => stK (ValueIdx.ix2 (1 : Fin 3) (col k))) h.s1 h.s2 W bias hW hbias act hact
  refine ⟨L.1, ?_, L.2.2.1, ?_⟩
  · intro p hp q
    unfold nextC
    simp only [h.s3]
    exact L.2.1 p hp q
  · intro q
    unfold nextC
    simp only [h.s3]
    exact L.2.2.2 q

/-- THE STEP: an array and its moments that the kernel computes as `nextA` / corrected sums / `nextC` are known in the
    same way, against the specification's next array. -/
theorem Fact.next {K Q : ℕ} {col : Fin K → Fin 128} {aK : Fin 304000 → Fin K → EReal}
    {stK : (⟨2, ![3, 128]⟩ : Shape).Idx → EReal} {xr : Fin 300000 → Fin K → EReal} {cp : Fin K → EReal} (h : Fact col aK stK xr cp)
    (g b : Fin K → EReal) (hg : ∀ k, IsReal (g k)) (hb : ∀ k, IsReal (b k))
    (W : Fin K → Fin Q → EReal) (bias : Fin Q → EReal) (hW : ∀ k q, IsReal (W k q)) (hbias : ∀ q, IsReal (bias q))
    (act : EReal → EReal) (hact : ∀ x, IsReal x → IsReal (act x))
    (col' : Fin Q → Fin 128) (aN : Fin 304000 → Fin Q → EReal) (stN : (⟨2, ![3, 128]⟩ : Shape).Idx → EReal)
    (hA : ∀ p q, aN p q = nextA col aK stK g b W bias act p q)
    (h1 : ∀ q, stN (ValueIdx.ix2 (0 : Fin 3) (col' q)) = (zer + ∑ p, aN p q) + m4000 * nextC col stK g b W bias act q)
    (h2 : ∀ q, stN (ValueIdx.ix2 (1 : Fin 3) (col' q)) = (zer + ∑ p, aN p q * aN p q) + m4000 * (nextC col stK g b W bias act q * nextC col stK g b W bias act q))
    (h3 : ∀ q, stN (ValueIdx.ix2 (2 : Fin 3) (col' q)) = nextC col stK g b W bias act q) :
    Fact col' aN stN (bnlin act xr g b W bias) (nextC col stK g b W bias act) := by
  obtain ⟨e1, e2, e3, e4⟩ := h.next_values g b hg hb W bias hW hbias act hact
  exact ⟨fun i q => (hA _ _).trans (e1 i q), fun p hp q => (hA _ _).trans (e2 p hp q), e3, e4, h1, h2, h3⟩

end Cert.KStage

end
-- ==== Proof.R0Payload.lean ====
/-
  The first launch, one tile: what its stored values hold at an entry.

  A tile is 200 detections against the 304 reference slots.  With e the detection's embedding (64 numbers) and k the
  slot's, each divided by the larger of its Euclidean norm and a small constant, the first stored value at (r, m) is
  the inner product of the two scaled vectors.  With (ax1, ay1, ax2, ay2) the detection's box and (bx1, by1, bx2, by2)
  the slot's, the second stored value is the overlap
      w = max (min ax2 bx2 − max ax1 bx1) 0,   h = max (min ay2 by2 − max ay1 by1) 0,
      (w · h) / ((ax2 − ax1)(ay2 − ay1) + (bx2 − bx1)(by2 − by1) − w · h + small constant).
-/
import proofs.«139309_g56014963475156_cont_9to1_m_1179_16_alg».proof.Proof.Gen.KernelIdeal.Skeleton
import proofs.«139309_g56014963475156_cont_9to1_m_1179_16_alg».proof.Proof.LibLinearAt
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0

open Cert.KernelIdeal Cert.KernelIdeal.Gen
open Idealize.ShloMosaic Idealize.ShloMosaic.ValueIdx

/-- The norm's floor, the zero, and the overlap's guard, as the program spells them. -/
abbrev epsn : EReal := Scalar.ofBits (F := Ideal) .f32 0x322BCC77#32
abbrev zer : EReal := Scalar.ofBits (F := Ideal) .f32 0x00000000#32
abbrev epsi : EReal := Scalar.ofBits (F := Ideal) .f32 0x3089705F#32

/-- Coordinate d of a vector divided by the larger of its Euclidean norm and the floor. -/
def unitAt (x : Fin 64 → EReal) (d : Fin 64) : EReal :=
  Ideal.div (x d) (max (Ideal.sqrt (∑ d' : Fin 64, x d' * x d')) epsn)

/-- The inner product of two vectors, each scaled so. -/
def cosOf (a b : Fin 64 → EReal) : EReal := ∑ d : Fin 64, unitAt a d * unitAt b d

/-- The overlap of two boxes over the guarded area of their union. -/
def iouOf (ax1 ay1 ax2 ay2 bx1 by1 bx2 by2 : EReal) : EReal :=
  Ideal.div (max (min ax2 bx2 - max ax1 bx1) zer * max (min ay2 by2 - max ay1 by1) zer)
    ((((ax2 - ax1) * (ay2 - ay1) + (bx2 - bx1) * (by2 - by1))
        - max (min ax2 bx2 - max ax1 bx1) zer * max (min ay2 by2 - max ay1 by1) zer) + epsi)

/-- A column repeated along the rows reads at (p, c) the column's entry p. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The squares of a 200 × 64 array summed along each row, as a column: entry (r, 0) is row r's sum. -/
theorem rowsq_apply (x : FVec Ideal S200x64 .f32) (h : S200x64.Reduces [1] S200) (hφ : FKind.Formats .f32)
    (hacc : (0x00000000#32 : BitVec 32) = FKind.add.neutral .f32 hφ) (hc : S200.ShapeCasts S200x1) (r : Fin 200) :
    shapeCast S200x1 (multiReduction .add [1] S200 x 0x00000000#32 h hφ hacc) hc (ix2 r (0 : Fin 1))
      = ∑ d : Fin 64, x (ix2 r d) := by
  refine (shapeCast_apply _ hc (ix2 r (0 : Fin 1)) (ix1 r) (by
    rw [Shape.rowMajor_val_one, Shape.rowMajor_val_two]; show r.val = r.val * 1 + 0; omega)).trans ?_
  refine (Ideal.multiReduction_add_single x _ h hφ hacc (ix1 r)).trans ?_
  refine Finset.sum_congr rfl fun d _ => congrArg x (funext fun a => ?_)
  match a with
  | ⟨0, _⟩ => rfl
  | ⟨1, _⟩ => rfl

/-- The squares of a 64 × 304 array summed down each column, as a row: entry (0, m) is column m's sum. -/
theorem colsq_apply (x : FVec Ideal S64x304 .f32) (h : S64x304.Reduces [0] S304) (hφ : FKind.Formats .f32)
    (hacc : (0x00000000#32 : BitVec 32) = FKind.add.neutral .f32 hφ) (hc : S304.ShapeCasts S1x304) (m : Fin 304) :
    shapeCast S1x304 (multiReduction .add [0] S304 x 0x00000000#32 h hφ hacc) hc (ix2 (0 : Fin 1) m)
      = ∑ d : Fin 64, x (ix2 d m) := by
  refine (shapeCast_apply _ hc (ix2 (0 : Fin 1) m) (ix1 m) (by
    rw [Shape.rowMajor_val_one, Shape.rowMajor_val_two]; show m.val = 0 * 304 + m.val; omega)).trans ?_
  refine (Ideal.multiReduction_add_single x _ h hφ hacc (ix1 m)).trans ?_
  refine Finset.sum_congr rfl fun d _ => congrArg x (funext fun a => ?_)
  match a with
  | ⟨0, _⟩ => rfl
  | ⟨1, _⟩ => rfl

/-- The first stored value at row r and slot m. -/
theorem pay5_apply (v3 : Vec Ideal S200x64 .f32) (v12 : Vec Ideal S64x304 .f32) (r : Fin 200) (m : Fin 304) :
    k0_pay5 (F := Ideal) v3 v12 (ix2 r m) = cosOf (fun d => v3 (ix2 r d)) (fun d => v12 (ix2 d m)) := by
  unfold k0_pay5
  rw [Cert.LinearAt.matmul_apply 200 64 304 dot_S200x64_S64x304_S200x304_1_0_0_1_n_n rfl]
  refine Finset.sum_congr rfl fun d _ => ?_
  rw [truncf_apply, truncf_apply, divf_apply, divf_apply, bcol_apply, broadcastTo_1b_ab_apply, maximumf_apply, maximumf_apply]
  simp only [shapeCast_self]
  refine congrArg₂ (fun a b => Ideal.div (v3 (ix2 r d)) (max (Ideal.sqrt a) epsn) * Ideal.div (v12 (ix2 d m)) (max (Ideal.sqrt b) epsn))
    (rowsq_apply _ _ _ _ _ r) (colsq_apply _ _ _ _ _ m)

/-! ## The overlap -/

/-- Each coordinate of the detections' boxes is cut out as a column, each of the slots' boxes as a row. -/
theorem pay6_apply (v25 : Vec Ideal S200x4 .f32) (r : Fin 200) :
    k0_pay6 (F := Ideal) v25 (ix2 r (0 : Fin 1)) = v25 (ix2 r (0 : Fin 4)) := by
  unfold k0_pay6
  exact extractStridedSlice_apply ![0, 0] v25 slices_S200x4_o0_0_S200x1 (ix2 r (0 : Fin 1)) (ix2 r (0 : Fin 4))
    (fun a => match a with | ⟨0, _⟩ => (Nat.zero_add _).symm | ⟨1, _⟩ => rfl)
theorem pay7_apply (v25 : Vec Ideal S200x4 .f32) (r : Fin 200) :
    k0_pay7 (F := Ideal) v25 (ix2 r (0 : Fin 1)) = v25 (ix2 r (1 : Fin 4)) := by
  unfold k0_pay7
  exact extractStridedSlice_apply ![0, 1] v25 slices_S200x4_o0_1_S200x1 (ix2 r (0 : Fin 1)) (ix2 r (1 : Fin 4))
    (fun a => match a with | ⟨0, _⟩ => (Nat.zero_add _).symm | ⟨1, _⟩ => rfl)
theorem pay8_apply (v25 : Vec Ideal S200x4 .f32) (r : Fin 200) :
    k0_pay8 (F := Ideal) v25 (ix2 r (0 : Fin 1)) = v25 (ix2 r (2 : Fin 4)) := by
  unfold k0_pay8
  exact extractStridedSlice_apply ![0, 2] v25 slices_S200x4_o0_2_S200x1 (ix2 r (0 : Fin 1)) (ix2 r (2 : Fin 4))
    (fun a => match a with | ⟨0, _⟩ => (Nat.zero_add _).symm | ⟨1, _⟩ => rfl)
theorem pay9_apply (v25 : Vec Ideal S200x4 .f32) (r : Fin 200) :
    k0_pay9 (F := Ideal) v25 (ix2 r (0 : Fin 1)) = v25 (ix2 r (3 : Fin 4)) := by
  unfold k0_pay9
  exact extractStridedSlice_apply ![0, 3] v25 slices_S200x4_o0_3_S200x1 (ix2 r (0 : Fin 1)) (ix2 r (3 : Fin 4))
    (fun a => match a with | ⟨0, _⟩ => (Nat.zero_add _).symm | ⟨1, _⟩ => rfl)
theorem pay11_apply (v30 : Vec Ideal S4x304 .f32) (m : Fin 304) :
    k0_pay11 (F := Ideal) v30 (ix2 (0 : Fin 1) m) = v30 (ix2 (0 : Fin 4) m) := by
  unfold k0_pay11 k0_pay10
  rw [shapeCast_self]
  exact extractStridedSlice_apply ![0, 0] v30 slices_S4x304_o0_0_S1x304 (ix2 (0 : Fin 1) m) (ix2 (0 : Fin 4) m)
    (fun a => match a with | ⟨0, _⟩ => rfl | ⟨1, _⟩ => (Nat.zero_add _).symm)
theorem pay12_apply (v30 : Vec Ideal S4x304 .f32) (m : Fin 304) :
    k0_pay12 (F := Ideal) v30 (ix2 (0 : Fin 1) m) = v30 (ix2 (1 : Fin 4) m) := by
  unfold k0_pay12 k0_pay10
  rw [shapeCast_self]
  exact extractStridedSlice_apply ![1, 0] v30 slices_S4x304_o1_0_S1x304 (ix2 (0 : Fin 1) m) (ix2 (1 : Fin 4) m)
    (fun a => match a with | ⟨0, _⟩ => rfl | ⟨1, _⟩ => (Nat.zero_add _).symm)
theorem pay13_apply (v30 : Vec Ideal S4x304 .f32) (m : Fin 304) :
    k0_pay13 (F := Ideal) v30 (ix2 (0 : Fin 1) m) = v30 (ix2 (2 : Fin 4) m) := by
  unfold k0_pay13 k0_pay10
  rw [shapeCast_self]
  exact extractStridedSlice_apply ![2, 0] v30 slices_S4x304_o2_0_S1x304 (ix2 (0 : Fin 1) m) (ix2 (2 : Fin 4) m)
    (fun a => match a with | ⟨0, _⟩ => rfl | ⟨1, _⟩ => (Nat.zero_add _).symm)
theorem pay14_apply (v30 : Vec Ideal S4x304 .f32) (m : Fin 304) :
    k0_pay14 (F := Ideal) v30 (ix2 (0 : Fin 1) m) = v30 (ix2 (3 : Fin 4) m) := by
  unfold k0_pay14 k0_pay10
  rw [shapeCast_self]
  exact extractStridedSlice_apply ![3, 0] v30 slices_S4x304_o3_0_S1x304 (ix2 (0 : Fin 1) m) (ix2 (3 : Fin 4) m)
    (fun a => match a with | ⟨0, _⟩ => rfl | ⟨1, _⟩ => (Nat.zero_add _).symm)

/-- The horizontal extent of the intersection before clamping. -/
theorem pay15_apply (v25 : Vec Ideal S200x4 .f32) (v30 : Vec Ideal S4x304 .f32) (r : Fin 200) (m : Fin 304) :
    k0_pay15 (F := Ideal) v25 v30 (ix2 r m)
      = min (v25 (ix2 r (2 : Fin 4))) (v30 (ix2 (2 : Fin 4) m)) - max (v25 (ix2 r (0 : Fin 4))) (v30 (ix2 (0 : Fin 4) m)) := by
  unfold k0_pay15
  rw [subf_apply, minimumf_apply, maximumf_apply, bcol_apply, bcol_apply, broadcastTo_1b_ab_apply, broadcastTo_1b_ab_apply,
    pay8_apply, pay13_apply, pay6_apply, pay11_apply]

/-- The second stored value from the cut-out columns and rows and the horizontal extent. -/
theorem pay16_apply (v26 v27 v28 v29 : FVec Ideal S200x1 .f32) (v32 v33 v34 v35 : FVec Ideal S1x304 .f32) (v42 : FVec Ideal S200x304 .f32)
    (r : Fin 200) (m : Fin 304) :
    k0_pay16 (F := Ideal) v26 v27 v28 v29 v32 v33 v34 v35 v42 (ix2 r m)
      = Ideal.div (max (v42 (ix2 r m)) zer
            * max (min (v29 (ix2 r (0 : Fin 1))) (v35 (ix2 (0 : Fin 1) m)) - max (v27 (ix2 r (0 : Fin 1))) (v33 (ix2 (0 : Fin 1) m))) zer)
          ((((v28 (ix2 r (0 : Fin 1)) - v26 (ix2 r (0 : Fin 1))) * (v29 (ix2 r (0 : Fin 1)) - v27 (ix2 r (0 : Fin 1)))
              + (v34 (ix2 (0 : Fin 1) m) - v32 (ix2 (0 : Fin 1) m)) * (v35 (ix2 (0 : Fin 1) m) - v33 (ix2 (0 : Fin 1) m)))
            - max (v42 (ix2 r m)) zer
              * max (min (v29 (ix2 r (0 : Fin 1))) (v35 (ix2 (0 : Fin 1) m)) - max (v27 (ix2 r (0 : Fin 1))) (v33 (ix2 (0 : Fin 1) m))) zer)
            + epsi) := by
  unfold k0_pay16
  rw [divf_apply, addf_apply, subf_apply, addf_apply, mulf_apply, maximumf_apply, maximumf_apply, subf_apply, minimumf_apply,
    maximumf_apply, bcol_apply, bcol_apply, bcol_apply, broadcastTo_1b_ab_apply, broadcastTo_1b_ab_apply, broadcastTo_1b_ab_apply]
  rfl

/-- The second stored value at row r and slot m, from the tile's boxes. -/
theorem iou_apply (v25 : Vec Ideal S200x4 .f32) (v30 : Vec Ideal S4x304 .f32) (r : Fin 200) (m : Fin 304) :
    k0_pay16 (F := Ideal) (k0_pay6 v25) (k0_pay7 v25) (k0_pay8 v25) (k0_pay9 v25) (k0_pay11 v30) (k0_pay12 v30) (k0_pay13 v30)
        (k0_pay14 v30) (k0_pay15 v25 v30) (ix2 r m)
      = iouOf (v25 (ix2 r (0 : Fin 4))) (v25 (ix2 r (1 : Fin 4))) (v25 (ix2 r (2 : Fin 4))) (v25 (ix2 r (3 : Fin 4)))
          (v30 (ix2 (0 : Fin 4) m)) (v30 (ix2 (1 : Fin 4) m)) (v30 (ix2 (2 : Fin 4) m)) (v30 (ix2 (3 : Fin 4) m)) := by
  rw [pay16_apply, pay15_apply, pay6_apply, pay7_apply, pay8_apply, pay9_apply, pay11_apply, pay12_apply, pay13_apply, pay14_apply]
  rfl

end Cert.KernelIdeal.R0

end
-- ==== Proof.R0Value.lean ====
/-
  The first launch: its two similarity arrays as functions of the arrays it finds.

  Grid point t handles detections 200·t … 200·t + 199 against all 304 reference slots; the slots' embeddings and boxes are
  whole at every point.  Whatever the point's control case, what it writes back to the first array is its block of one
  function Gcos of the detections' and the slots' embeddings — entry (n, m) the inner product of detection n's and slot
  m's scaled embeddings — and to the second its block of Giou of the two families of boxes — entry (n, m) the guarded
  overlap ratio of detection n's box and slot m's.  The five blocks tile each array, so after the run the arrays are Gcos
  and Giou.
-/
import proofs.«139309_g56014963475156_cont_9to1_m_1179_16_alg».proof.Proof.Gen.KernelIdeal.Frame
import proofs.«139309_g56014963475156_cont_9to1_m_1179_16_alg».proof.Proof.R0Payload

set_option maxRecDepth 16384

noncomputable section

namespace Cert.KernelIdeal.R0

open Cert.KernelIdeal Cert.KernelIdeal.Gen
open Idealize.ShloMosaic Idealize.ShloMosaic.ValueIdx Idealize.ShloMosaic.TcCoe Idealize.ShloMosaic.Tactic
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Entry (n, m) of the first array: the inner product of detection n's and slot m's scaled embeddings. -/
def Gcos (emb : S1000x64.Idx → EReal) (keT : S64x304.Idx → EReal) : S1000x304.Idx → EReal := fun i =>
  cosOf (fun d => emb (ix2 (i 0) d)) (fun d => keT (ix2 d (i 1)))

/-- Entry (n, m) of the second array: the guarded overlap ratio of detection n's box and slot m's. -/
def Giou (det : S1000x4.Idx → EReal) (rbT : S4x304.Idx → EReal) : S1000x304.Idx → EReal := fun i =>
  iouOf (det (ix2 (i 0) (0 : Fin 4))) (det (ix2 (i 0) (1 : Fin 4))) (det (ix2 (i 0) (2 : Fin 4))) (det (ix2 (i 0) (3 : Fin 4)))
    (rbT (ix2 (0 : Fin 4) (i 1))) (rbT (ix2 (1 : Fin 4) (i 1))) (rbT (ix2 (2 : Fin 4) (i 1))) (rbT (ix2 (3 : Fin 4) (i 1)))

/-- The printed index maps over the grid: the detections' windows and the two similarity arrays' move with the point,
    the slots' windows and the moments' stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-! ## What each case leaves in the two similarity buffers -/

theorem out_A_4 (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : cond0_0 i) (x0 : Vec Ideal S200x4 .f32) (x1 : Vec Ideal S200x64 .f32) (x2 : Vec Ideal S64x304 .f32) (x3 : Vec Ideal S4x304 .f32) :
    out0_A_4 (F := Ideal) c i arg1 harg1 arg2 harg2 arg3 harg3 arg4 harg4 arg5 harg5 arg6 harg6 arg7 harg7 hc0 x0 x1 x2 x3 = k0_pay5 (F := Ideal) x1 x2 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, View.ld_unit_zero (S := S200x64) hz2,
    View.ld_unit_zero (S := S64x304) hz2]

theorem out_B_4 (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : ¬cond0_0 i) (x0 : Vec Ideal S200x4 .f32) (x1 : Vec Ideal S200x64 .f32) (x2 : Vec Ideal S64x304 .f32) (x3 : Vec Ideal S4x304 .f32) (xo6 : Vec Ideal S2x128 .f32) :
    out0_B_4 (F := Ideal) c i arg1 harg1 arg2 harg2 arg3 harg3 arg4 harg4 arg5 harg5 arg6 harg6 arg7 harg7 hc0 x0 x1 x2 x3 xo6 = k0_pay5 (F := Ideal) x1 x2 := by
  unfold out0_B_4
  rw [View.read_writes_eq_canon _ _ _ (cover0_B_4 c i arg1 harg1 arg2 harg2 arg3 harg3 arg4 harg4 arg5 harg5 arg6 harg6 arg7 harg7 hc0 x0 x1 x2 x3 xo6)]
  unfold kernelRun0_B
  dsimp only
  sl_unfold_words
  rw [View.canon_unit_zero hz2]
  simp only [View.readAt_eq_ld, harg2.read_unread, harg3.read_unread, View.ld_unit_zero (S := S200x64) hz2,
    View.ld_unit_zero (S := S64x304) hz2]

theorem out_A_5 (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : cond0_0 i) (x0 : Vec Ideal S200x4 .f32) (x1 : Vec Ideal S200x64 .f32) (x2 : Vec Ideal S64x304 .f32) (x3 : Vec Ideal S4x304 .f32) :
    out0_A_5 (F := Ideal) c i arg1 harg1 arg2 harg2 arg3 harg3 arg4 harg4 arg5 harg5 arg6 harg6 arg7 harg7 hc0 x0 x1 x2 x3 = k0_pay16 (F := Ideal) (k0_pay6 x0) (k0_pay7 x0) (k0_pay8 x0) (k0_pay9 x0) (k0_pay11 x3) (k0_pay12 x3) (k0_pay13 x3) (k0_pay14 x3) (k0_pay15 x0 x3) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg1.read_unread, harg4.read_unread, View.ld_unit_zero (S := S200x4) hz2,
    View.ld_unit_zero (S := S4x304) hz2]

theorem out_B_5 (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : ¬cond0_0 i) (x0 : Vec Ideal S200x4 .f32) (x1 : Vec Ideal S200x64 .f32) (x2 : Vec Ideal S64x304 .f32) (x3 : Vec Ideal S4x304 .f32) (xo6 : Vec Ideal S2x128 .f32) :
    out0_B_5 (F := Ideal) c i arg1 harg1 arg2 harg2 arg3 harg3 arg4 harg4 arg5 harg5 arg6 harg6 arg7 harg7 hc0 x0 x1 x2 x3 xo6 = k0_pay16 (F := Ideal) (k0_pay6 x0) (k0_pay7 x0) (k0_pay8 x0) (k0_pay9 x0) (k0_pay11 x3) (k0_pay12 x3) (k0_pay13 x3) (k0_pay14 x3) (k0_pay15 x0 x3) := by
  unfold out0_B_5
  rw [View.read_writes_eq_canon _ _ _ (cover0_B_5 c i arg1 harg1 arg2 harg2 arg3 harg3 arg4 harg4 arg5 harg5 arg6 harg6 arg7 harg7 hc0 x0 x1 x2 x3 xo6)]
  unfold kernelRun0_B
  dsimp only
  sl_unfold_words
  rw [View.canon_unit_zero hz2]
  simp only [View.readAt_eq_ld, harg1.read_unread, harg4.read_unread, View.ld_unit_zero (S := S200x4) hz2,
    View.ld_unit_zero (S := S4x304) hz2]

/-- After any point the first similarity buffer holds the inner products of the point's blocks, -/
theorem after_cos (c : Dev nD) (t : Fin cfg0.N) :
    (outsAt0 (F := Ideal) V c t.val t.isLt).1 = k0_pay5 (F := Ideal) (iblk0 V c 1 t) (iblk0 V c 2 t) := by
  by_cases h0 : t.val % 5 = 0
  · rw [outsAt0_A V c t h0]; dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]; dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-- and the second the overlap ratios of the point's blocks. -/
theorem after_iou (c : Dev nD) (t : Fin cfg0.N) :
    (outsAt0 (F := Ideal) V c t.val t.isLt).2.1 = k0_pay16 (F := Ideal) (k0_pay6 (iblk0 V c 0 t)) (k0_pay7 (iblk0 V c 0 t)) (k0_pay8 (iblk0 V c 0 t)) (k0_pay9 (iblk0 V c 0 t)) (k0_pay11 (iblk0 V c 3 t)) (k0_pay12 (iblk0 V c 3 t)) (k0_pay13 (iblk0 V c 3 t)) (k0_pay14 (iblk0 V c 3 t)) (k0_pay15 (iblk0 V c 0 t) (iblk0 V c 3 t)) := by
  by_cases h0 : t.val % 5 = 0
  · rw [outsAt0_A V c t h0]; dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]; dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2

/-! ## Each block entry is an array entry -/

/-- Detection r of point t's tile, as a row of the whole arrays. -/
def rowOf (t : Fin cfg0.N) (r : Fin 200) : Fin 1000 :=
  ⟨200 * t.val + r.val, by have ht : t.val < 5 := t.isLt; have := r.isLt; omega⟩

theorem blk_det (c : Dev nD) (t : Fin cfg0.N) (r : Fin 200) (k : Fin 4) :
    iblk0 V c 0 t (ix2 r k) = V c main_arg0 (ix2 (rowOf t r) k) := by
  obtain ⟨e0, e1, -⟩ := idx_facts t
  show V c main_arg0 (((cfg0.win 0).blk t).view.emb (ix2 r k)) = _
  refine congrArg _ (funext fun a => Fin.ext ?_)
  match a with
  | ⟨0, _⟩ => show win0_0.index t (0 : Fin 2) * 200 + 1 * r.val = 200 * t.val + r.val; rw [e0]; ring
  | ⟨1, _⟩ => show win0_0.index t (1 : Fin 2) * 4 + 1 * k.val = k.val; rw [e1]; ring

theorem blk_emb (c : Dev nD) (t : Fin cfg0.N) (r : Fin 200) (d : Fin 64) :
    iblk0 V c 1 t (ix2 r d) = V c main_arg1 (ix2 (rowOf t r) d) := by
  obtain ⟨-, -, e0, e1, -⟩ := idx_facts t
  show V c main_arg1 (((cfg0.win 1).blk t).view.emb (ix2 r d)) = _
  refine congrArg _ (funext fun a => Fin.ext ?_)
  match a with
  | ⟨0, _⟩ => show win0_1.index t (0 : Fin 2) * 200 + 1 * r.val = 200 * t.val + r.val; rw [e0]; ring
  | ⟨1, _⟩ => show win0_1.index t (1 : Fin 2) * 64 + 1 * d.val = d.val; rw [e1]; ring

theorem blk_keT (c : Dev nD) (t : Fin cfg0.N) (d : Fin 64) (m : Fin 304) :
    iblk0 V c 2 t (ix2 d m) = V c main_call0_v3 (ix2 d m) := by
  obtain ⟨-, -, -, -, e0, e1, -⟩ := idx_facts t
  show V c main_call0_v3 (((cfg0.win 2).blk t).view.emb (ix2 d m)) = _
  refine congrArg _ (funext fun a => Fin.ext ?_)
  match a with
  | ⟨0, _⟩ => show win0_2.index t (0 : Fin 2) * 64 + 1 * d.val = d.val; rw [e0]; ring
  | ⟨1, _⟩ => show win0_2.index t (1 : Fin 2) * 304 + 1 * m.val = m.val; rw [e1]; ring

theorem blk_rbT (c : Dev nD) (t : Fin cfg0.N) (k : Fin 4) (m : Fin 304) :
    iblk0 V c 3 t (ix2 k m) = V c main_call0_v7 (ix2 k m) := by
  obtain ⟨-, -, -, -, -, -, e0, e1, -⟩ := idx_facts t
  show V c main_call0_v7 (((cfg0.win 3).blk t).view.emb (ix2 k m)) = _
  refine congrArg _ (funext fun a => Fin.ext ?_)
  match a with
  | ⟨0, _⟩ => show win0_3.index t (0 : Fin 2) * 4 + 1 * k.val = k.val; rw [e0]; ring
  | ⟨1, _⟩ => show win0_3.index t (1 : Fin 2) * 304 + 1 * m.val = m.val; rw [e1]; ring

/-! ## What a point writes back -/

/-- Where entry (r, m) of point t's block of either similarity array sits in the array. -/
theorem emb_cos (t : Fin cfg0.N) (r : Fin 200) (m : Fin 304) :
    ((cfg0.win 4).blk t).view.emb (ix2 r m) = (ix2 (rowOf t r) m : S1000x304.Idx) := by
  obtain ⟨-, -, -, -, -, -, -, -, e0, e1, -⟩ := idx_facts t
  refine funext fun a => Fin.ext ?_
  match a with
  | ⟨0, _⟩ => show win0_4.index t (0 : Fin 2) * 200 + 1 * r.val = 200 * t.val + r.val; rw [e0]; ring
  | ⟨1, _⟩ => show win0_4.index t (1 : Fin 2) * 304 + 1 * m.val = m.val; rw [e1]; ring

theorem emb_iou (t : Fin cfg0.N) (r : Fin 200) (m : Fin 304) :
    ((cfg0.win 5).blk t).view.emb (ix2 r m) = (ix2 (rowOf t r) m : S1000x304.Idx) := by
  obtain ⟨-, -, -, -, -, -, -, -, -, -, e0, e1, -⟩ := idx_facts t
  refine funext fun a => Fin.ext ?_
  match a with
  | ⟨0, _⟩ => show win0_5.index t (0 : Fin 2) * 200 + 1 * r.val = 200 * t.val + r.val; rw [e0]; ring
  | ⟨1, _⟩ => show win0_5.index t (1 : Fin 2) * 304 + 1 * m.val = m.val; rw [e1]; ring

/-- WHAT POINT t WRITES BACK to the first array is block t of `Gcos` of the embeddings as the launch finds them. -/
theorem flushed_cos (c : Dev nD) (t : Fin cfg0.N) :
    (dat0 (F := Ideal) V c).flushed 4 t
      = ((cfg0.win 4).blk t).view.read (Elt Ideal) (Gcos (V c main_arg1) (V c main_call0_v3)) := by
  show (cfg0.win 4).cut (grid0.coords t) ((dat0 V c).after 4 t) = _
  rw [after0_4, after_cos]
  funext y
  obtain ⟨r, m, rfl⟩ : ∃ r m, y = ix2 r m := ⟨y 0, y 1, eq_ix2 y⟩
  show k0_pay5 (F := Ideal) _ _ (ix2 r m) = Gcos _ _ (((cfg0.win 4).blk t).view.emb (ix2 r m))
  rw [pay5_apply, emb_cos]
  simp only [blk_emb, blk_keT]
  rfl

/-- WHAT POINT t WRITES BACK to the second array is block t of `Giou` of the boxes as the launch finds them. -/
theorem flushed_iou (c : Dev nD) (t : Fin cfg0.N) :
    (dat0 (F := Ideal) V c).flushed 5 t
      = ((cfg0.win 5).blk t).view.read (Elt Ideal) (Giou (V c main_arg0) (V c main_call0_v7)) := by
  show (cfg0.win 5).cut (grid0.coords t) ((dat0 V c).after 5 t) = _
  rw [after0_5, after_iou]
  funext y
  obtain ⟨r, m, rfl⟩ : ∃ r m, y = ix2 r m := ⟨y 0, y 1, eq_ix2 y⟩
  show k0_pay16 (F := Ideal) _ _ _ _ _ _ _ _ _ (ix2 r m) = Giou _ _ (((cfg0.win 5).blk t).view.emb (ix2 r m))
  rw [iou_apply, emb_iou]
  simp only [blk_det, blk_rbT]
  rfl

/-! ## The blocks tile the arrays -/

theorem mem_blk_cos (t : Fin cfg0.N) (i : S1000x304.Idx) :
    i ∈ ((cfg0.win 4).blk t).view.set ↔ ∀ a : Fin 2, win0_4.index t a * S200x304.size a ≤ (i a).val
      ∧ (i a).val < win0_4.index t a * S200x304.size a + S200x304.size a := by
  show i ∈ ((View.whole main_call0_v8_0).slice (win0_4.rect t)).set ↔ _
  rw [View.set_slice_whole, Rect.mem_set_unit]
  exact Iff.rfl

theorem mem_blk_iou (t : Fin cfg0.N) (i : S1000x304.Idx) :
    i ∈ ((cfg0.win 5).blk t).view.set ↔ ∀ a : Fin 2, win0_5.index t a * S200x304.size a ≤ (i a).val
      ∧ (i a).val < win0_5.index t a * S200x304.size a + S200x304.size a := by
  show i ∈ ((View.whole main_call0_v8_1).slice (win0_5.rect t)).set ↔ _
  rw [View.set_slice_whole, Rect.mem_set_unit]
  exact Iff.rfl

/-- Detection n is in the block of point n / 200. -/
theorem cover_cos (i : S1000x304.Idx) : ∃ t : Fin cfg0.N, (cfg0.win 4).flush t = true ∧ i ∈ ((cfg0.win 4).blk t).view.set := by
  have h0 : (i 0).val < 1000 := (i 0).isLt
  have h1 : (i 1).val < 304 := (i 1).isLt
  let t : Fin cfg0.N := ⟨(i 0).val / 200, by show (i 0).val / 200 < 5; omega⟩
  obtain ⟨-, -, -, -, -, -, -, -, e0, e1, -⟩ := idx_facts t
  refine ⟨t, flush0_4 t, ?_⟩
  rw [mem_blk_cos]
  intro a
  match a with
  | ⟨0, _⟩ => show win0_4.index t (0 : Fin 2) * 200 ≤ (i 0).val ∧ (i 0).val < win0_4.index t (0 : Fin 2) * 200 + 200
              rw [e0]; show (i 0).val / 200 * 200 ≤ (i 0).val ∧ (i 0).val < (i 0).val / 200 * 200 + 200; omega
  | ⟨1, _⟩ => show win0_4.index t (1 : Fin 2) * 304 ≤ (i 1).val ∧ (i 1).val < win0_4.index t (1 : Fin 2) * 304 + 304
              rw [e1]; omega

theorem cover_iou (i : S1000x304.Idx) : ∃ t : Fin cfg0.N, (cfg0.win 5).flush t = true ∧ i ∈ ((cfg0.win 5).blk t).view.set := by
  have h0 : (i 0).val < 1000 := (i 0).isLt
  have h1 : (i 1).val < 304 := (i 1).isLt
  let t : Fin cfg0.N := ⟨(i 0).val / 200, by show (i 0).val / 200 < 5; omega⟩
  obtain ⟨-, -, -, -, -, -, -, -, -, -, e0, e1, -⟩ := idx_facts t
  refine ⟨t, flush0_5 t, ?_⟩
  rw [mem_blk_iou]
  intro a
  match a with
  | ⟨0, _⟩ => show win0_5.index t (0 : Fin 2) * 200 ≤ (i 0).val ∧ (i 0).val < win0_5.index t (0 : Fin 2) * 200 + 200
              rw [e0]; show (i 0).val / 200 * 200 ≤ (i 0).val ∧ (i 0).val < (i 0).val / 200 * 200 + 200; omega
  | ⟨1, _⟩ => show win0_5.index t (1 : Fin 2) * 304 ≤ (i 1).val ∧ (i 1).val < win0_5.index t (1 : Fin 2) * 304 + 304
              rw [e1]; omega

/-- THE FIRST ARRAY after the launch is `Gcos` of the embeddings the launch finds. -/
theorem final_cos (c : Dev nD) : (dat0 (F := Ideal) V c).arrAt 4 cfg0.N = Gcos (V c main_arg1) (V c main_call0_v3) :=
  (dat0 (F := Ideal) V c).arrAt_eq_of_cover 4 _ (fun t _ => flushed_cos V c t) cover_cos

/-- THE SECOND ARRAY after the launch is `Giou` of the boxes the launch finds. -/
theorem final_iou (c : Dev nD) : (dat0 (F := Ideal) V c).arrAt 5 cfg0.N = Giou (V c main_arg0) (V c main_call0_v7) :=
  (dat0 (F := Ideal) V c).arrAt_eq_of_cover 5 _ (fun t _ => flushed_iou V c t) cover_iou

end Cert.KernelIdeal.R0

end
-- ==== Proof.R0Sums.lean ====
/-
  The first launch, one tile: the four running sums.

  Besides its two 200 × 304 tiles (the inner products C and the overlap ratios I) a point adds four numbers to four cells
  of a small array: the sum of C's entries, of I's, of the squares of C's, of the squares of I's.  Each update reads the
  cell, adds the tile's total, and stores it back; here each update's stored value is read at its one entry.
-/
import proofs.«139309_g56014963475156_cont_9to1_m_1179_16_alg».proof.Proof.R0Payload

set_option maxRecDepth 16384

noncomputable section

namespace Cert.KernelIdeal.R0

open Cert.KernelIdeal Cert.KernelIdeal.Gen
open Idealize.ShloMosaic Idealize.ShloMosaic.ValueIdx

/-- The sum of a tile's 200 × 304 entries. -/
def tot (X : S200x304.Idx → EReal) : EReal := ∑ r : Fin 200, ∑ m : Fin 304, X (ix2 r m)

/-- A tile recast with a leading axis of extent one, summed over its two long axes, and the one number taken out:
    the tile's total. -/
theorem total_apply (X : FVec Ideal S200x304 .f32) (hc : S200x304.ShapeCasts S1x200x304) (h : S1x200x304.Reduces [1, 2] S1)
    (hφ : FKind.Formats .f32) (hacc : (0x00000000#32 : BitVec 32) = FKind.add.neutral .f32 hφ)
    (hc2 : S1.ShapeCasts S1x1x1) (hp : ∀ a, (![0, 0, 0] : Fin 3 → ℕ) a < S1x1x1.size a) :
    extractAt ![0, 0, 0] (shapeCast S1x1x1 (multiReduction .add [1, 2] S1 (shapeCast S1x200x304 X hc) 0x00000000#32 h hφ hacc) hc2) hp
      = tot X := by
  refine (Ideal.multiReduction_add_total (shapeCast S1x200x304 X hc) _ h (fun b => ?_) hφ hacc _).trans ?_
  · match b with
    | ⟨0, _⟩ => rfl
  · exact (Equiv.sum_comp (Shape.reshapeEquiv hc) X).trans (sum_idx2 X)

/-- The cell of the inner products' sum: what was there plus the tile's total. -/
theorem pay17_apply (v24 : FVec Ideal S200x304 .f32) (v70 : Vec Ideal S1x1 .f32) :
    k0_pay17 (F := Ideal) v24 v70 (ix2 (0 : Fin 1) (0 : Fin 1)) = v70 (ix2 (0 : Fin 1) (0 : Fin 1)) + tot v24 := by
  unfold k0_pay17
  rw [addf_apply, broadcast_apply, shapeCast_self]
  exact congrArg (fun z => v70 (ix2 (0 : Fin 1) (0 : Fin 1)) + z) (total_apply v24 _ _ _ _ _ _)

/-- The overlap ratios' total as the program takes it. -/
theorem pay19_apply (v26 v27 v28 v29 : FVec Ideal S200x1 .f32) (v32 v33 v34 v35 : FVec Ideal S1x304 .f32) (v42 : FVec Ideal S200x304 .f32) :
    k0_pay19 (F := Ideal) v26 v27 v28 v29 v32 v33 v34 v35 v42 = tot (k0_pay16 (F := Ideal) v26 v27 v28 v29 v32 v33 v34 v35 v42) := by
  unfold k0_pay19
  exact total_apply _ _ _ _ _ _ _

/-- The cell of the overlap ratios' sum: what was there plus the total handed in. -/
theorem pay1_apply (v80 : FVec Ideal S1x1 .f32) (v84 : EReal) :
    k0_pay1 (F := Ideal) v80 v84 (ix2 (0 : Fin 1) (0 : Fin 1)) = v80 (ix2 (0 : Fin 1) (0 : Fin 1)) + v84 := by
  unfold k0_pay1
  rw [addf_apply, broadcast_apply]

/-- The cell as read for that update is the cell. -/
theorem pay18_eq (v79 : Vec Ideal S1x1 .f32) : k0_pay18 (F := Ideal) v79 = v79 := by
  unfold k0_pay18
  exact shapeCast_self _ _

/-- The cell of the inner products' squares: what was there plus the total of the squares. -/
theorem pay2_apply (v24 : FVec Ideal S200x304 .f32) (v88 : Vec Ideal S1x1 .f32) :
    k0_pay2 (F := Ideal) v24 v88 (ix2 (0 : Fin 1) (0 : Fin 1)) = v88 (ix2 (0 : Fin 1) (0 : Fin 1)) + tot (fun i => v24 i * v24 i) := by
  unfold k0_pay2
  rw [addf_apply, broadcast_apply, shapeCast_self]
  exact congrArg (fun z => v88 (ix2 (0 : Fin 1) (0 : Fin 1)) + z) (total_apply (mulf v24 v24) _ _ _ _ _ _)

/-- The cell of the overlap ratios' squares: what was there plus the total of the squares. -/
theorem pay3_apply (v67 : FVec Ideal S200x304 .f32) (v98 : Vec Ideal S1x1 .f32) :
    k0_pay3 (F := Ideal) v67 v98 (ix2 (0 : Fin 1) (0 : Fin 1)) = v98 (ix2 (0 : Fin 1) (0 : Fin 1)) + tot (fun i => v67 i * v67 i) := by
  unfold k0_pay3
  rw [addf_apply, broadcast_apply, shapeCast_self]
  exact congrArg (fun z => v98 (ix2 (0 : Fin 1) (0 : Fin 1)) + z) (total_apply (mulf v67 v67) _ _ _ _ _ _)

/-- The array of zeros the first point starts from. -/
theorem pay4_apply (y : S2x128.Idx) : k0_pay4 (F := Ideal) y = zer := rfl

end Cert.KernelIdeal.R0

end
-- ==== Proof.R0Cells.lean ====
/-
  Stores of one entry into a matrix-shaped buffer, read back at an entry.

  A buffer of R × C entries is written by a list of stores (the last store first), each through a rectangle; what the
  list leaves at an entry is the value of the first store of the list whose rectangle holds the entry.  For a store of the
  single entry (a, b) this reads: at (a, b) the stored value, at every other entry what the earlier stores left.  A load of
  that single entry reads what the earlier stores left at (a, b).
-/
import Idealize.ShloMosaic.Lib.Pipeline.FrameBody
import Idealize.ShloMosaic.Lib.WritesUnit
import Idealize.ShloMosaic.Lib.Pipeline.Value
import Idealize.ShloMosaic.Lib.ValueIdx

noncomputable section

namespace Cert.CellPieces

open Idealize.ShloMosaic Idealize.ShloMosaic.ValueIdx

variable {Val : EltTy → Type} [∀ e, Nonempty (Val e)] {e : EltTy} {R C : Nat}

/-- An entry is in the one-entry rectangle at (a, b) iff it is (a, b). -/
theorem mem_cell {a b : Nat} (inb : ∀ d, (![a, b] : Fin 2 → Nat) d + (![1, 1] : Fin 2 → Nat) d ≤ (⟨2, ![R, C]⟩ : Shape).size d)
    (y : (⟨2, ![R, C]⟩ : Shape).Idx) :
    y ∈ (Rect.unit (s := ⟨2, ![R, C]⟩) ![a, b] ![1, 1] inb).set ↔ (y 0).val = a ∧ (y 1).val = b := by
  rw [Rect.mem_set_unit, Fin.forall_fin_two]
  show (a ≤ (y 0).val ∧ (y 0).val < a + 1) ∧ (b ≤ (y 1).val ∧ (y 1).val < b + 1) ↔ _
  omega

/-- The entry (a, b) is the rectangle's one entry. -/
theorem cell_emb {a b : Nat} (inb : ∀ d, (![a, b] : Fin 2 → Nat) d + (![1, 1] : Fin 2 → Nat) d ≤ (⟨2, ![R, C]⟩ : Shape).size d)
    (y : (⟨2, ![R, C]⟩ : Shape).Idx) (h0 : (y 0).val = a) (h1 : (y 1).val = b) :
    y = (Rect.unit (s := ⟨2, ![R, C]⟩) ![a, b] ![1, 1] inb).emb (ix2 (0 : Fin 1) (0 : Fin 1)) :=
  funext fun d => Fin.ext (by
    match d with
    | ⟨0, _⟩ => show (y 0).val = a + 1 * 0; omega
    | ⟨1, _⟩ => show (y 1).val = b + 1 * 0; omega)

/-- Under a last store of the entry (a, b), the buffer holds there the stored value, -/
theorem canon_cell_hit {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (h0 : (y 0).val = a) (h1 : (y 1).val = b) :
    View.canon ((⟨(Rect.unit (s := ⟨2, ![R, C]⟩) ![a, b] ![1, 1] inb), w⟩ : View.Piece Val _ e) :: L) y = w (ix2 (0 : Fin 1) (0 : Fin 1)) :=
  (congrArg (View.canon _) (cell_emb inb y h0 h1)).trans
    (View.canon_cons_emb (Rect.unit (s := ⟨2, ![R, C]⟩) ![a, b] ![1, 1] inb) w L (ix2 (0 : Fin 1) (0 : Fin 1)))

/-- and elsewhere what the earlier stores left. -/
theorem canon_cell_miss {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (h : ¬((y 0).val = a ∧ (y 1).val = b)) :
    View.canon ((⟨(Rect.unit (s := ⟨2, ![R, C]⟩) ![a, b] ![1, 1] inb), w⟩ : View.Piece Val _ e) :: L) y = View.canon L y :=
  View.canon_cons_of_not_mem _ L (by rw [mem_cell]; exact h)

/-- The two together, against values known for the stored entry and for what the earlier stores left. -/
theorem canon_cell {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (p q : Val e) (hp : w (ix2 (0 : Fin 1) (0 : Fin 1)) = p) (hq : View.canon L y = q) :
    View.canon ((⟨(Rect.unit (s := ⟨2, ![R, C]⟩) ![a, b] ![1, 1] inb), w⟩ : View.Piece Val _ e) :: L) y
      = if (y 0).val = a ∧ (y 1).val = b then p else q := by
  by_cases h : (y 0).val = a ∧ (y 1).val = b
  · rw [if_pos h, canon_cell_hit inb w L y h.1 h.2, hp]
  · rw [if_neg h, canon_cell_miss inb w L y h, hq]

/-- A load of the entry (a, b) of what the stores `L` left reads what they left at (a, b). -/
theorem readCov_cell {sig : RefSig} {κ : Kind} {sp : Space} (v : View sig κ sp (⟨2, ![R, C]⟩ : Shape) e) {a b : Nat}
    (inb : ∀ d, (![a, b] : Fin 2 → Nat) d + (![1, 1] : Fin 2 → Nat) d ≤ (⟨2, ![R, C]⟩ : Shape).size d)
    (L : List (View.Piece Val (⟨2, ![R, C]⟩ : Shape) e)) (ha : a < R) (hb : b < C) :
    v.readCov L (Rect.unit (s := ⟨2, ![R, C]⟩) ![a, b] ![1, 1] inb).toLoadRect (ix2 (0 : Fin 1) (0 : Fin 1))
      = View.canon L (ix2 (⟨a, ha⟩ : Fin R) (⟨b, hb⟩ : Fin C)) := by
  rw [View.readCov_eq_canon']
  refine congrArg (View.canon L) (funext fun d => Fin.ext ?_)
  match d with
  | ⟨0, _⟩ => show a + 1 * 0 = a; omega
  | ⟨1, _⟩ => show b + 1 * 0 = b; omega

/-- A load of the entry (a, b) of a buffer reading `X` reads `X` at (a, b). -/
theorem ld_cell {a b : Nat} (inb : ∀ d, (![a, b] : Fin 2 → Nat) d + (![1, 1] : Fin 2 → Nat) d ≤ (⟨2, ![R, C]⟩ : Shape).size d)
    (X : (⟨2, ![R, C]⟩ : Shape).Idx → Val e) (ha : a < R) (hb : b < C) :
    View.ld X (Rect.unit (s := ⟨2, ![R, C]⟩) ![a, b] ![1, 1] inb) (ix2 (0 : Fin 1) (0 : Fin 1)) = X (ix2 (⟨a, ha⟩ : Fin R) (⟨b, hb⟩ : Fin C)) := by
  refine congrArg X (funext fun d => Fin.ext ?_)
  match d with
  | ⟨0, _⟩ => show a + 1 * 0 = a; omega
  | ⟨1, _⟩ => show b + 1 * 0 = b; omega

/-! ## The same over ANY prior contents: a read of the buffer after the stores -/

section Over

variable {sig : RefSig} {κ : Kind} {sp : Space} (v : View sig κ sp (⟨2, ![R, C]⟩ : Shape) e) (f : v.ty.Contents Val)

/-- Under a last store of the entry (a, b), the buffer reads there the stored value, -/
theorem read_cell_hit {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (h0 : (y 0).val = a) (h1 : (y 1).val = b) :
    v.read Val (v.writes Val f ((⟨(Rect.unit (s := ⟨2, ![R, C]⟩) ![a, b] ![1, 1] inb), w⟩ : View.Piece Val _ e) :: L)) y = w (ix2 (0 : Fin 1) (0 : Fin 1)) :=
  View.read_writes_cons_unit_of_mem v f inb w L y (ix2 (0 : Fin 1) (0 : Fin 1)) rfl
    (Fin.forall_fin_two.mpr ⟨by show (y 0).val = a + 0; omega, by show (y 1).val = b + 0; omega⟩)

/-- and elsewhere what the earlier stores left. -/
theorem read_cell_miss {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (h : ¬((y 0).val = a ∧ (y 1).val = b)) :
    v.read Val (v.writes Val f ((⟨(Rect.unit (s := ⟨2, ![R, C]⟩) ![a, b] ![1, 1] inb), w⟩ : View.Piece Val _ e) :: L)) y = v.read Val (v.writes Val f L) y := by
  rw [View.writes_cons]
  exact View.read_slice_write_of_not_mem _ _ _ _ (by rw [Rect.map_emb_univ, mem_cell]; exact h)

/-- The two together, against values known for the stored entry and for what the earlier stores left. -/
theorem read_cell {a b : Nat} (inb : ∀ d, (![a, b] : Fin 2 → Nat) d + (![1, 1] : Fin 2 → Nat) d ≤ (⟨2, ![R, C]⟩ : Shape).size d)
    (w : (⟨2, ![1, 1]⟩ : Shape).Idx → Val e) (L : List (View.Piece Val (⟨2, ![R, C]⟩ : Shape) e))
    (y : (⟨2, ![R, C]⟩ : Shape).Idx) (p q : Val e) (hp : w (ix2 (0 : Fin 1) (0 : Fin 1)) = p)
    (hq : v.read Val (v.writes Val f L) y = q) :
    v.read Val (v.writes Val f ((⟨(Rect.unit (s := ⟨2, ![R, C]⟩) ![a, b] ![1, 1] inb), w⟩ : View.Piece Val _ e) :: L)) y
      = if (y 0).val = a ∧ (y 1).val = b then p else q := by
  by_cases h : (y 0).val = a ∧ (y 1).val = b
  · rw [if_pos h, read_cell_hit v f inb w L y h.1 h.2, hp]
  · rw [if_neg h, read_cell_miss v f inb w L y h, hq]

end Over

end Cert.CellPieces

end
-- ==== Proof.R0Moments.lean ====
/-
  The first launch: the array of running sums as a function of the arrays it finds.

  The small array has four live cells, (0,0), (0,1), (1,0), (1,1).  The first grid point zeroes the whole array; every
  point then adds to the four cells the totals over its 200 × 304 tile of the inner products, the overlap ratios, the
  squares of the inner products and the squares of the overlap ratios.  The array is carried from point to point and
  written back once, after the last point.  So after the run cell (0,0) holds
      ((((0 + s 0) + s 1) + s 2) + s 3) + s 4,   s t the total of the inner products over tile t,
  the other three cells likewise for their quantities, and every other entry holds the zero it was given.
-/
import proofs.«139309_g56014963475156_cont_9to1_m_1179_16_alg».proof.Proof.Gen.KernelIdeal.Frame
import proofs.«139309_g56014963475156_cont_9to1_m_1179_16_alg».proof.Proof.R0Value
import proofs.«139309_g56014963475156_cont_9to1_m_1179_16_alg».proof.Proof.R0Sums
import proofs.«139309_g56014963475156_cont_9to1_m_1179_16_alg».proof.Proof.R0Cells

set_option maxRecDepth 16384

noncomputable section

namespace Cert.KernelIdeal.R0

open Cert.KernelIdeal Cert.KernelIdeal.Gen
open Idealize.ShloMosaic Idealize.ShloMosaic.ValueIdx Idealize.ShloMosaic.TcCoe Idealize.ShloMosaic.Tactic
open Idealize.ShloMosaic.Pipeline (Dat Cfg Window)
open Cert.CellPieces

/-! ## The four cells -/

/-- An array of the small shape given by its four live cells and its value everywhere else. -/
def sel (y : S2x128.Idx) (v11 v10 v01 v00 rest : EReal) : EReal :=
  if (y 0).val = 1 ∧ (y 1).val = 1 then v11
  else if (y 0).val = 1 ∧ (y 1).val = 0 then v10
  else if (y 0).val = 0 ∧ (y 1).val = 1 then v01
  else if (y 0).val = 0 ∧ (y 1).val = 0 then v00
  else rest

theorem sel_11 (v11 v10 v01 v00 rest : EReal) : sel (ix2 (1 : Fin 2) (1 : Fin 128)) v11 v10 v01 v00 rest = v11 := by
  unfold sel; rw [if_pos (by decide)]
theorem sel_10 (v11 v10 v01 v00 rest : EReal) : sel (ix2 (1 : Fin 2) (0 : Fin 128)) v11 v10 v01 v00 rest = v10 := by
  unfold sel; rw [if_neg (by decide), if_pos (by decide)]
theorem sel_01 (v11 v10 v01 v00 rest : EReal) : sel (ix2 (0 : Fin 2) (1 : Fin 128)) v11 v10 v01 v00 rest = v01 := by
  unfold sel; rw [if_neg (by decide), if_neg (by decide), if_pos (by decide)]
theorem sel_00 (v11 v10 v01 v00 rest : EReal) : sel (ix2 (0 : Fin 2) (0 : Fin 128)) v11 v10 v01 v00 rest = v00 := by
  unfold sel; rw [if_neg (by decide), if_neg (by decide), if_neg (by decide), if_pos (by decide)]

/-- Off the four cells an array so given is its rest. -/
theorem sel_sel (y : S2x128.Idx) (a b c d a' b' c' d' rest : EReal) :
    sel y a b c d (sel y a' b' c' d' rest) = sel y a b c d rest := by
  unfold sel; split_ifs <;> rfl

/-- One point's contribution over what was there: each live cell gains its tile total. -/
def step (C I : S200x304.Idx → EReal) (prev : S2x128.Idx → EReal) : S2x128.Idx → EReal := fun y =>
  sel y (prev (ix2 (1 : Fin 2) (1 : Fin 128)) + tot (fun i => I i * I i))
    (prev (ix2 (1 : Fin 2) (0 : Fin 128)) + tot (fun i => C i * C i))
    (prev (ix2 (0 : Fin 2) (1 : Fin 128)) + tot I)
    (prev (ix2 (0 : Fin 2) (0 : Fin 128)) + tot C)
    (prev y)

/-! ## What each case leaves in the sums' buffer -/

/-- A later point: the four updates, each of its own cell, over what the point before left. -/
theorem stepB {sig' : RefSig} {κ' : Kind} {sp' : Space} (m : Memref sig' κ' sp' S2x128 .f32) (hm : m.IsWhole)
    (xo : Vec Ideal S2x128 .f32) (C I : FVec Ideal S200x304 .f32) :
    m.view.read (Elt Ideal) (m.view.writes (Elt Ideal) (hm.unread xo)
        [⟨Rect.unit ![1, 1] ![1, 1] inb_S2x128_S1x1_1_1, k0_pay3 (F := Ideal) I (View.ld xo (Rect.unit ![1, 1] ![1, 1] inb_S2x128_S1x1_1_1))⟩,
          ⟨Rect.unit ![1, 0] ![1, 1] inb_S2x128_S1x1_1_0, k0_pay2 (F := Ideal) C (View.ld xo (Rect.unit ![1, 0] ![1, 1] inb_S2x128_S1x1_1_0))⟩,
          ⟨Rect.unit ![0, 1] ![1, 1] inb_S2x128_S1x1_0_1, k0_pay1 (F := Ideal) (View.ld xo (Rect.unit ![0, 1] ![1, 1] inb_S2x128_S1x1_0_1)) (tot I)⟩,
          ⟨Rect.unit ![0, 0] ![1, 1] inb_S2x128_S1x1_0_0, k0_pay17 (F := Ideal) C (View.ld xo (Rect.unit ![0, 0] ![1, 1] inb_S2x128_S1x1_0_0))⟩])
      = step C I xo := by
  funext y
  unfold step sel
  refine read_cell m.view _ inb_S2x128_S1x1_1_1 _ _ y _ _ ?_ ?_
  · exact (pay3_apply I _).trans (congrArg (· + tot (fun i => I i * I i)) (ld_cell inb_S2x128_S1x1_1_1 xo (by decide) (by decide)))
  refine read_cell m.view _ inb_S2x128_S1x1_1_0 _ _ y _ _ ?_ ?_
  · exact (pay2_apply C _).trans (congrArg (· + tot (fun i => C i * C i)) (ld_cell inb_S2x128_S1x1_1_0 xo (by decide) (by decide)))
  refine read_cell m.view _ inb_S2x128_S1x1_0_1 _ _ y _ _ ?_ ?_
  · exact (pay1_apply _ _).trans (congrArg (· + tot I) (ld_cell inb_S2x128_S1x1_0_1 xo (by decide) (by decide)))
  refine read_cell m.view _ inb_S2x128_S1x1_0_0 _ _ y _ _ ?_ ?_
  · exact (pay17_apply C _).trans (congrArg (· + tot C) (ld_cell inb_S2x128_S1x1_0_0 xo (by decide) (by decide)))
  rw [View.writes_nil, hm.read_unread]

/-- What one store of zeros through the whole array leaves. -/
theorem zeros_apply (y : S2x128.Idx) :
    View.canon [(⟨Rect.unit ![0, 0] ![2, 128] inb_S2x128_S2x128_0_0, k0_pay4 (F := Ideal)⟩ : View.Piece (Elt Ideal) S2x128 .f32)] y = zer := by
  rw [View.canon_unit_zero hz2]; rfl

/-! The first point's stores, first to last: zeros through the whole array, then the four updates, each reading its
    cell of what the stores before it left. -/

abbrev zeroP : View.Piece (Elt Ideal) S2x128 .f32 := ⟨Rect.unit (s := S2x128) ![0, 0] ![2, 128] inb_S2x128_S2x128_0_0, k0_pay4 (F := Ideal)⟩

abbrev p00 {sig' : RefSig} {κ' : Kind} {sp' : Space} (v : View sig' κ' sp' S2x128 .f32) (C : FVec Ideal S200x304 .f32) :
    View.Piece (Elt Ideal) S2x128 .f32 :=
  ⟨Rect.unit (s := S2x128) ![0, 0] ![1, 1] inb_S2x128_S1x1_0_0, k0_pay17 (F := Ideal) C (v.readCov [zeroP] (Rect.unit (s := S2x128) ![0, 0] ![1, 1] inb_S2x128_S1x1_0_0).toLoadRect)⟩

abbrev p01 {sig' : RefSig} {κ' : Kind} {sp' : Space} (v : View sig' κ' sp' S2x128 .f32) (C I : FVec Ideal S200x304 .f32) :
    View.Piece (Elt Ideal) S2x128 .f32 :=
  ⟨Rect.unit (s := S2x128) ![0, 1] ![1, 1] inb_S2x128_S1x1_0_1, k0_pay1 (F := Ideal) (v.readCov [p00 v C, zeroP] (Rect.unit (s := S2x128) ![0, 1] ![1, 1] inb_S2x128_S1x1_0_1).toLoadRect) (tot I)⟩

abbrev p10 {sig' : RefSig} {κ' : Kind} {sp' : Space} (v : View sig' κ' sp' S2x128 .f32) (C I : FVec Ideal S200x304 .f32) :
    View.Piece (Elt Ideal) S2x128 .f32 :=
  ⟨Rect.unit (s := S2x128) ![1, 0] ![1, 1] inb_S2x128_S1x1_1_0, k0_pay2 (F := Ideal) C (v.readCov [p01 v C I, p00 v C, zeroP] (Rect.unit (s := S2x128) ![1, 0] ![1, 1] inb_S2x128_S1x1_1_0).toLoadRect)⟩

abbrev p11 {sig' : RefSig} {κ' : Kind} {sp' : Space} (v : View sig' κ' sp' S2x128 .f32) (C I : FVec Ideal S200x304 .f32) :
    View.Piece (Elt Ideal) S2x128 .f32 :=
  ⟨Rect.unit (s := S2x128) ![1, 1] ![1, 1] inb_S2x128_S1x1_1_1, k0_pay3 (F := Ideal) I (v.readCov [p10 v C I, p01 v C I, p00 v C, zeroP] (Rect.unit (s := S2x128) ![1, 1] ![1, 1] inb_S2x128_S1x1_1_1).toLoadRect)⟩

/-- The first point: one step over the zero array. -/
theorem stepA {sig' : RefSig} {κ' : Kind} {sp' : Space} (v : View sig' κ' sp' S2x128 .f32) (C I : FVec Ideal S200x304 .f32) :
    View.canon [p11 v C I, p10 v C I, p01 v C I, p00 v C, zeroP] = step C I (fun _ => zer) := by
  funext y
  unfold step sel
  refine canon_cell inb_S2x128_S1x1_1_1 _ _ y _ _ ?_ ?_
  · refine (pay3_apply I _).trans (congrArg (· + tot (fun i => I i * I i)) ?_)
    refine (readCov_cell v inb_S2x128_S1x1_1_1 _ (by decide) (by decide)).trans ?_
    refine (canon_cell_miss inb_S2x128_S1x1_1_0 _ _ _ (by decide)).trans ?_
    refine (canon_cell_miss inb_S2x128_S1x1_0_1 _ _ _ (by decide)).trans ?_
    exact (canon_cell_miss inb_S2x128_S1x1_0_0 _ _ _ (by decide)).trans (zeros_apply _)
  refine canon_cell inb_S2x128_S1x1_1_0 _ _ y _ _ ?_ ?_
  · refine (pay2_apply C _).trans (congrArg (· + tot (fun i => C i * C i)) ?_)
    refine (readCov_cell v inb_S2x128_S1x1_1_0 _ (by decide) (by decide)).trans ?_
    refine (canon_cell_miss inb_S2x128_S1x1_0_1 _ _ _ (by decide)).trans ?_
    exact (canon_cell_miss inb_S2x128_S1x1_0_0 _ _ _ (by decide)).trans (zeros_apply _)
  refine canon_cell inb_S2x128_S1x1_0_1 _ _ y _ _ ?_ ?_
  · refine (pay1_apply _ _).trans (congrArg (· + tot I) ?_)
    refine (readCov_cell v inb_S2x128_S1x1_0_1 _ (by decide) (by decide)).trans ?_
    exact (canon_cell_miss inb_S2x128_S1x1_0_0 _ _ _ (by decide)).trans (zeros_apply _)
  refine canon_cell inb_S2x128_S1x1_0_0 _ _ y _ _ ?_ ?_
  · refine (pay17_apply C _).trans (congrArg (· + tot C) ?_)
    exact (readCov_cell v inb_S2x128_S1x1_0_0 _ (by decide) (by decide)).trans (zeros_apply _)
  exact zeros_apply y

/-- CASE A (the first point): one step over the zero array. -/
theorem caseA (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : cond0_0 i) (x0 : Vec Ideal S200x4 .f32) (x1 : Vec Ideal S200x64 .f32) (x2 : Vec Ideal S64x304 .f32) (x3 : Vec Ideal S4x304 .f32) :
    out0_A_6 (F := Ideal) c i arg1 harg1 arg2 harg2 arg3 harg3 arg4 harg4 arg5 harg5 arg6 harg6 arg7 harg7 hc0 x0 x1 x2 x3
      = step (k0_pay5 (F := Ideal) x1 x2) (k0_pay16 (F := Ideal) (k0_pay6 x0) (k0_pay7 x0) (k0_pay8 x0) (k0_pay9 x0) (k0_pay11 x3) (k0_pay12 x3) (k0_pay13 x3) (k0_pay14 x3) (k0_pay15 x0 x3)) (fun _ => zer) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  simp only [View.readAt_eq_ld, harg1.read_unread, harg2.read_unread, harg3.read_unread, harg4.read_unread,
    View.ld_unit_zero (S := S200x4) hz2, View.ld_unit_zero (S := S200x64) hz2, View.ld_unit_zero (S := S64x304) hz2,
    View.ld_unit_zero (S := S4x304) hz2, pay19_apply, pay18_eq]
  exact stepA arg7.view (k0_pay5 (F := Ideal) x1 x2) (k0_pay16 (F := Ideal) (k0_pay6 x0) (k0_pay7 x0) (k0_pay8 x0) (k0_pay9 x0) (k0_pay11 x3) (k0_pay12 x3) (k0_pay13 x3) (k0_pay14 x3) (k0_pay15 x0 x3))

/-- CASE B (a later point): one step over what the point before left. -/
theorem caseB (c : Dev nD) (i : grid0.Coords) (arg1 : Memref sig .tc .vmem S200x4 .f32) (harg1 : arg1.IsWhole) (arg2 : Memref sig .tc .vmem S200x64 .f32) (harg2 : arg2.IsWhole) (arg3 : Memref sig .tc .vmem S64x304 .f32) (harg3 : arg3.IsWhole) (arg4 : Memref sig .tc .vmem S4x304 .f32) (harg4 : arg4.IsWhole) (arg5 : Memref sig .tc .vmem S200x304 .f32) (harg5 : arg5.IsWhole) (arg6 : Memref sig .tc .vmem S200x304 .f32) (harg6 : arg6.IsWhole) (arg7 : Memref sig .tc .vmem S2x128 .f32) (harg7 : arg7.IsWhole) (hc0 : ¬cond0_0 i) (x0 : Vec Ideal S200x4 .f32) (x1 : Vec Ideal S200x64 .f32) (x2 : Vec Ideal S64x304 .f32) (x3 : Vec Ideal S4x304 .f32) (xo6 : Vec Ideal S2x128 .f32) :
    out0_B_6 (F := Ideal) c i arg1 harg1 arg2 harg2 arg3 harg3 arg4 harg4 arg5 harg5 arg6 harg6 arg7 harg7 hc0 x0 x1 x2 x3 xo6
      = step (k0_pay5 (F := Ideal) x1 x2) (k0_pay16 (F := Ideal) (k0_pay6 x0) (k0_pay7 x0) (k0_pay8 x0) (k0_pay9 x0) (k0_pay11 x3) (k0_pay12 x3) (k0_pay13 x3) (k0_pay14 x3) (k0_pay15 x0 x3)) xo6 := by
  unfold out0_B_6
  unfold kernelRun0_B
  dsimp only
  sl_unfold_words
  simp only [View.readAt_eq_ld, harg1.read_unread, harg2.read_unread, harg3.read_unread, harg4.read_unread, harg7.read_unread,
    View.ld_unit_zero (S := S200x4) hz2, View.ld_unit_zero (S := S200x64) hz2, View.ld_unit_zero (S := S64x304) hz2,
    View.ld_unit_zero (S := S4x304) hz2, pay19_apply, pay18_eq]
  exact stepB arg7 harg7 xo6 (k0_pay5 (F := Ideal) x1 x2) (k0_pay16 (F := Ideal) (k0_pay6 x0) (k0_pay7 x0) (k0_pay8 x0) (k0_pay9 x0) (k0_pay11 x3) (k0_pay12 x3) (k0_pay13 x3) (k0_pay14 x3) (k0_pay15 x0 x3))

/-! ## The running sums, point by point -/

variable (V : (c : Dev nD) → (b : Ref sig .tc) → Buf (Elt Ideal) ((c : Thread nD τ).loc b))

/-- Point t's tile of inner products and of overlap ratios, from the launch's blocks. -/
def Cat (c : Dev nD) (t : Fin cfg0.N) : S200x304.Idx → EReal := k0_pay5 (F := Ideal) (iblk0 V c 1 t) (iblk0 V c 2 t)
def Iat (c : Dev nD) (t : Fin cfg0.N) : S200x304.Idx → EReal := k0_pay16 (F := Ideal) (k0_pay6 (iblk0 V c 0 t)) (k0_pay7 (iblk0 V c 0 t)) (k0_pay8 (iblk0 V c 0 t)) (k0_pay9 (iblk0 V c 0 t)) (k0_pay11 (iblk0 V c 3 t)) (k0_pay12 (iblk0 V c 3 t)) (k0_pay13 (iblk0 V c 3 t)) (k0_pay14 (iblk0 V c 3 t)) (k0_pay15 (iblk0 V c 0 t) (iblk0 V c 3 t))

/-- The running sums after point n: the steps of points 0 … n over the zero array. -/
def stAt (c : Dev nD) : (n : ℕ) → n < cfg0.N → S2x128.Idx → EReal
  | 0, h => step (Cat V c ⟨0, h⟩) (Iat V c ⟨0, h⟩) (fun _ => zer)
  | n + 1, h => step (Cat V c ⟨n + 1, h⟩) (Iat V c ⟨n + 1, h⟩) (stAt c n (Nat.lt_of_succ_lt h))

/-- After every point the sums' buffer holds the running sums. -/
theorem outs_eq (c : Dev nD) : ∀ (n : ℕ) (hn : n < cfg0.N), (outsAt0 (F := Ideal) V c n hn).2.2 = stAt V c n hn
  | 0, hn => by
    rw [outsAt0_A V c ⟨0, hn⟩ (Nat.zero_mod 5)]; dsimp only
    rw [caseA]
    rfl
  | n + 1, hn => by
    have hN : n + 1 < 5 := lt_of_lt_of_eq hn N_0
    have h0 : ¬ (n + 1) % 5 = 0 := by omega
    rw [outsAt0_B V c ⟨n + 1, hn⟩ h0]; dsimp only
    rw [caseB]
    show step _ _ (outsAt0 V c n _).2.2 = step _ _ (stAt V c n _)
    rw [outs_eq c n _]
    rfl

/-! ## The sums in terms of the two similarity arrays -/

/-- The total of an array of the similarity arrays' shape over the rows of grid point t. -/
def tileSum (X : S1000x304.Idx → EReal) (t : Fin cfg0.N) : EReal := ∑ r : Fin 200, ∑ m : Fin 304, X (ix2 (rowOf t r) m)

theorem lt0 : 0 < cfg0.N := by show 0 < grid0.N; rw [N_0]; decide
theorem lt1 : 1 < cfg0.N := by show 1 < grid0.N; rw [N_0]; decide
theorem lt2 : 2 < cfg0.N := by show 2 < grid0.N; rw [N_0]; decide
theorem lt3 : 3 < cfg0.N := by show 3 < grid0.N; rw [N_0]; decide
theorem lt4 : 4 < cfg0.N := by show 4 < grid0.N; rw [N_0]; decide

/-- Five tile totals added, in the order of the grid, onto the zero the first point stores. -/
def accum (s : Fin cfg0.N → EReal) : EReal := ((((zer + s ⟨0, lt0⟩) + s ⟨1, lt1⟩) + s ⟨2, lt2⟩) + s ⟨3, lt3⟩) + s ⟨4, lt4⟩

/-- The array of sums from the two similarity arrays: cell (0,0) the inner products' total, (0,1) the overlap ratios',
    (1,0) and (1,1) the totals of their squares, each accumulated tile by tile; zero everywhere else. -/
def Gst0 (cos iou : S1000x304.Idx → EReal) : S2x128.Idx → EReal := fun y =>
  sel y (accum (tileSum fun i => iou i * iou i)) (accum (tileSum fun i => cos i * cos i)) (accum (tileSum iou))
    (accum (tileSum cos)) zer

/-- Point t's tiles are the rows of the two similarity arrays it handles. -/
theorem cos_at (c : Dev nD) (t : Fin cfg0.N) (r : Fin 200) (m : Fin 304) :
    Cat V c t (ix2 r m) = Gcos (V c main_arg1) (V c main_call0_v3) (ix2 (rowOf t r) m) := by
  unfold Cat
  rw [pay5_apply]
  simp only [blk_emb, blk_keT]
  rfl

theorem iou_at (c : Dev nD) (t : Fin cfg0.N) (r : Fin 200) (m : Fin 304) :
    Iat V c t (ix2 r m) = Giou (V c main_arg0) (V c main_call0_v7) (ix2 (rowOf t r) m) := by
  unfold Iat
  rw [iou_apply]
  simp only [blk_det, blk_rbT]
  rfl

theorem tot_cos (c : Dev nD) (t : Fin cfg0.N) : tot (Cat V c t) = tileSum (Gcos (V c main_arg1) (V c main_call0_v3)) t := by
  unfold tot tileSum; simp only [cos_at]
theorem tot_iou (c : Dev nD) (t : Fin cfg0.N) : tot (Iat V c t) = tileSum (Giou (V c main_arg0) (V c main_call0_v7)) t := by
  unfold tot tileSum; simp only [iou_at]
theorem tot_cos2 (c : Dev nD) (t : Fin cfg0.N) :
    tot (fun i => Cat V c t i * Cat V c t i)
      = tileSum (fun i => Gcos (V c main_arg1) (V c main_call0_v3) i * Gcos (V c main_arg1) (V c main_call0_v3) i) t := by
  unfold tot tileSum; simp only [cos_at]
theorem tot_iou2 (c : Dev nD) (t : Fin cfg0.N) :
    tot (fun i => Iat V c t i * Iat V c t i)
      = tileSum (fun i => Giou (V c main_arg0) (V c main_call0_v7) i * Giou (V c main_arg0) (V c main_call0_v7) i) t := by
  unfold tot tileSum; simp only [iou_at]

/-- A step over an array given by its four cells is the array of the four cells each with its total added. -/
theorem step_sel (C I : S200x304.Idx → EReal) (a b c d : EReal) :
    step C I (fun y => sel y a b c d zer)
      = fun y => sel y (a + tot (fun i => I i * I i)) (b + tot (fun i => C i * C i)) (c + tot I) (d + tot C) zer := by
  funext y
  unfold step
  simp only [sel_11, sel_10, sel_01, sel_00, sel_sel]

/-- What the last point leaves is the array of sums of the two similarity arrays. -/
theorem st_last (c : Dev nD) :
    stAt V c 4 lt4 = Gst0 (Gcos (V c main_arg1) (V c main_call0_v3)) (Giou (V c main_arg0) (V c main_call0_v7)) := by
  have e0 : stAt V c 0 lt0 = fun y => sel y (zer + tot (fun i => Iat V c ⟨0, lt0⟩ i * Iat V c ⟨0, lt0⟩ i))
      (zer + tot (fun i => Cat V c ⟨0, lt0⟩ i * Cat V c ⟨0, lt0⟩ i)) (zer + tot (Iat V c ⟨0, lt0⟩)) (zer + tot (Cat V c ⟨0, lt0⟩)) zer := rfl
  have e1 : stAt V c 1 lt1 = step (Cat V c ⟨1, lt1⟩) (Iat V c ⟨1, lt1⟩) (stAt V c 0 lt0) := rfl
  have e2 : stAt V c 2 lt2 = step (Cat V c ⟨2, lt2⟩) (Iat V c ⟨2, lt2⟩) (stAt V c 1 lt1) := rfl
  have e3 : stAt V c 3 lt3 = step (Cat V c ⟨3, lt3⟩) (Iat V c ⟨3, lt3⟩) (stAt V c 2 lt2) := rfl
  have e4 : stAt V c 4 lt4 = step (Cat V c ⟨4, lt4⟩) (Iat V c ⟨4, lt4⟩) (stAt V c 3 lt3) := rfl
  rw [e4, e3, e2, e1, e0, step_sel, step_sel, step_sel, step_sel]
  simp only [tot_cos, tot_iou, tot_cos2, tot_iou2]
  rfl

/-! ## The write-back -/

/-- THE ARRAY OF SUMS after the launch: the last point's contents, written back once. -/
theorem final_st0 (c : Dev nD) : (dat0 (F := Ideal) V c).arrAt 6 cfg0.N
    = Gst0 (Gcos (V c main_arg1) (V c main_call0_v3)) (Giou (V c main_arg0) (V c main_call0_v7)) := by
  refine (dat0 (F := Ideal) V c).arrAt_eq_of_cover 6 _ (fun t hf => ?_) (fun i => ?_)
  · have ht : t.val % 5 = 4 := (flush0_6 t).mp hf
    have hN : t.val < 5 := lt_of_lt_of_eq t.isLt N_0
    have e : t = ⟨4, lt4⟩ := Fin.ext (by show t.val = 4; omega)
    subst e
    obtain ⟨-, -, -, -, -, -, -, -, -, -, -, -, e0, e1⟩ := idx_facts ⟨4, lt4⟩
    show (cfg0.win 6).cut (grid0.coords ⟨4, lt4⟩) ((dat0 V c).after 6 ⟨4, lt4⟩) = _
    rw [after0_6]
    funext y
    show (outsAt0 V c 4 lt4).2.2 y = Gst0 _ _ (((cfg0.win 6).blk ⟨4, lt4⟩).view.emb y)
    rw [outs_eq, st_last]
    refine congrArg _ (funext fun a => Fin.ext ?_)
    match a with
    | ⟨0, _⟩ => show (y 0).val = win0_6.index ⟨4, lt4⟩ (0 : Fin 2) * 2 + 1 * (y 0).val; rw [e0]; ring
    | ⟨1, _⟩ => show (y 1).val = win0_6.index ⟨4, lt4⟩ (1 : Fin 2) * 128 + 1 * (y 1).val; rw [e1]; ring
  · obtain ⟨-, -, -, -, -, -, -, -, -, -, -, -, e0, e1⟩ := idx_facts ⟨4, lt4⟩
    refine ⟨⟨4, lt4⟩, (flush0_6 _).mpr (by decide), ?_⟩
    show i ∈ ((View.whole main_call0_v8_2).slice (win0_6.rect ⟨4, lt4⟩)).set
    rw [View.set_slice_whole, Rect.mem_set_unit]
    intro a
    have h0 : (i 0).val < 2 := (i 0).isLt
    have h1 : (i 1).val < 128 := (i 1).isLt
    match a with
    | ⟨0, _⟩ => show win0_6.index ⟨4, lt4⟩ (0 : Fin 2) * 2 ≤ (i 0).val ∧ (i 0).val < win0_6.index ⟨4, lt4⟩ (0 : Fin 2) * 2 + 2; rw [e0]; omega
    | ⟨1, _⟩ => show win0_6.index ⟨4, lt4⟩ (1 : Fin 2) * 128 ≤ (i 1).val ∧ (i 1).val < win0_6.index ⟨4, lt4⟩ (1 : Fin 2) * 128 + 128; rw [e1]; omega

end Cert.KernelIdeal.R0

end
-- ==== Proof.KHead.lean ====
/-
  The first stage of the kernel against the specification.

  The kernel keeps, for each of the 1000 detections, 304 reference slots: the 300 real ones and four padded ones in which
  both pair features are zero. Read row by row (row 304 n + j) the two feature arrays are a 304000 × 2 array that agrees
  with the specification's pair features on the real rows and is zero on the padded rows. The first launch's four sums —
  of the two features and of their squares, each accumulated over five tiles of 200 detections onto zero — are the sums
  over all 304000 rows. With these facts one stage of the kernel (scale and shift from the sums, then the affine map) is
  the specification's normalisation and affine map on the real rows, and one constant row on the padded rows.
-/
import proofs.«139309_g56014963475156_cont_9to1_m_1179_16_alg».proof.Proof.KStage
import proofs.«139309_g56014963475156_cont_9to1_m_1179_16_alg».proof.Proof.R0Moments
import proofs.«139309_g56014963475156_cont_9to1_m_1179_16_alg».proof.Proof.R4Payload

noncomputable section

namespace Cert.KHead

open Cert.BnLayer Cert.Net Cert.KStage Idealize.ShloMosaic Idealize.ShloMosaic.ValueIdx
open Cert.KernelIdeal (S1000x304 S2x128)
open Cert.KernelIdeal.R0 (Gst0 sel accum tileSum rowOf sel_00 sel_01 sel_10 sel_11 lt0 lt1 lt2 lt3 lt4)
open Cert.KernelIdeal.R4 (scale shift zer)
open Cert.KernelIdeal.R3 (m4000)

/-! ## Sums over rows, regrouped -/

/-- A sum over the 304000 rows, row p being detection p / 304 and slot p % 304, is the sum over detections and slots. -/
theorem sum_rows304 (X : S1000x304.Idx → EReal) :
    ∑ p : Fin 304000, X (ix2 (⟨p.val / 304, by have := p.isLt; omega⟩ : Fin 1000) (⟨p.val % 304, Nat.mod_lt _ (by decide)⟩ : Fin 304))
      = ∑ n : Fin 1000, ∑ j : Fin 304, X (ix2 n j) := by
  rw [← Fintype.sum_prod_type' (f := fun (n : Fin 1000) (j : Fin 304) => X (ix2 n j))]
  refine (Equiv.sum_comp (finProdFinEquiv (m := 1000) (n := 304))
    (fun p : Fin 304000 => X (ix2 (⟨p.val / 304, by have := p.isLt; omega⟩ : Fin 1000) (⟨p.val % 304, Nat.mod_lt _ (by decide)⟩ : Fin 304)))).symm.trans
    (Finset.sum_congr rfl fun x _ => ?_)
  have h1 := x.1.isLt
  have h2 := x.2.isLt
  refine congrArg X ?_
  funext a
  match a with
  | ⟨0, _⟩ => exact Fin.ext (by show (x.2.val + 304 * x.1.val) / 304 = x.1.val; omega)
  | ⟨1, _⟩ => exact Fin.ext (by show (x.2.val + 304 * x.1.val) % 304 = x.2.val; omega)

/-- A sum over the 1000 detections is the sum over five tiles of 200 detections. -/
theorem sum_tiles5 (H : Fin 1000 → EReal) :
    ∑ n : Fin 1000, H n = ∑ t : Fin 5, ∑ r : Fin 200, H ⟨200 * t.val + r.val, by have := t.isLt; have := r.isLt; omega⟩ := by
  rw [← Fintype.sum_prod_type' (f := fun (t : Fin 5) (r : Fin 200) => H ⟨200 * t.val + r.val, by have := t.isLt; have := r.isLt; omega⟩)]
  refine (Equiv.sum_comp (finProdFinEquiv (m := 5) (n := 200)) H).symm.trans (Finset.sum_congr rfl fun x _ => congrArg H ?_)
  exact Fin.ext (Nat.add_comm _ _)

/-- Five tile totals accumulated onto zero are the total over all rows. -/
theorem accum_tileSum (X : S1000x304.Idx → EReal) :
    accum (tileSum X)
      = zer + ∑ p : Fin 304000, X (ix2 (⟨p.val / 304, by have := p.isLt; omega⟩ : Fin 1000) (⟨p.val % 304, Nat.mod_lt _ (by decide)⟩ : Fin 304)) := by
  rw [sum_rows304, sum_tiles5 (fun n => ∑ j : Fin 304, X (ix2 n j)), Fin.sum_univ_five]
  unfold accum tileSum rowOf
  simp only [add_assoc]
  rfl

/-! ## The kernel's first array and its sums -/

/-- The two feature arrays read as one array of 304000 rows and two columns. -/
def xk0 (cosK iouK : S1000x304.Idx → EReal) : Fin 304000 → Fin 2 → EReal := fun p k =>
  if k.val = 0 then cosK (ix2 (⟨p.val / 304, by have := p.isLt; omega⟩ : Fin 1000) (⟨p.val % 304, Nat.mod_lt _ (by decide)⟩ : Fin 304))
  else iouK (ix2 (⟨p.val / 304, by have := p.isLt; omega⟩ : Fin 1000) (⟨p.val % 304, Nat.mod_lt _ (by decide)⟩ : Fin 304))

/-- The sums of the two columns, as the first launch leaves them. -/
def S1 (cosK iouK : S1000x304.Idx → EReal) (k : Fin 2) : EReal :=
  Gst0 cosK iouK (ix2 (0 : Fin 2) (⟨k.val, by have := k.isLt; omega⟩ : Fin 128))

/-- The sums of the squares of the two columns. -/
def S2 (cosK iouK : S1000x304.Idx → EReal) (k : Fin 2) : EReal :=
  Gst0 cosK iouK (ix2 (1 : Fin 2) (⟨k.val, by have := k.isLt; omega⟩ : Fin 128))

section
variable (cosK iouK : S1000x304.Idx → EReal) (featS : Fin 300000 → Fin 2 → EReal)
  (hcos : ∀ (n : Fin 1000) (j : Fin 304), cosK (ix2 n j)
    = if h : j.val < 300 then featS ⟨300 * n.val + j.val, by have := n.isLt; omega⟩ 0 else 0)
  (hiou : ∀ (n : Fin 1000) (j : Fin 304), iouK (ix2 n j)
    = if h : j.val < 300 then featS ⟨300 * n.val + j.val, by have := n.isLt; omega⟩ 1 else 0)

include hcos hiou

/-- On the real rows the kernel's array is the specification's. -/
theorem xk0_emb (i : Fin 300000) (k : Fin 2) : xk0 cosK iouK (pe i) k = featS i k := by
  have hi := i.isLt
  have hn : (⟨(pe i).val / 304, by have := (pe i).isLt; omega⟩ : Fin 1000) = ⟨i.val / 300, by omega⟩ :=
    Fin.ext (by show (304 * (i.val / 300) + i.val % 300) / 304 = i.val / 300; omega)
  have hj : (⟨(pe i).val % 304, Nat.mod_lt _ (by decide)⟩ : Fin 304) = ⟨i.val % 300, by omega⟩ :=
    Fin.ext (by show (304 * (i.val / 300) + i.val % 300) % 304 = i.val % 300; omega)
  have hi' : (⟨300 * (i.val / 300) + i.val % 300, by omega⟩ : Fin 300000) = i := Fin.ext (by show 300 * (i.val / 300) + i.val % 300 = i.val; omega)
  unfold xk0
  rw [hn, hj]
  match k with
  | ⟨0, _⟩ =>
    rw [if_pos rfl, hcos, dif_pos (show i.val % 300 < 300 by omega)]
    exact congrArg (fun z => featS z 0) hi'
  | ⟨1, _⟩ =>
    rw [if_neg (Nat.succ_ne_zero 0), hiou, dif_pos (show i.val % 300 < 300 by omega)]
    exact congrArg (fun z => featS z 1) hi'

/-- On the padded rows it is zero. -/
theorem xk0_pad (p : Fin 304000) (hp : p ∉ Set.range pe) (k : Fin 2) : xk0 cosK iouK p k = 0 := by
  have hlt := p.isLt
  have hslot : ¬ p.val % 304 < 300 := fun h => hp
    ⟨⟨300 * (p.val / 304) + p.val % 304, by omega⟩, Fin.ext (by
      show 304 * ((300 * (p.val / 304) + p.val % 304) / 300) + (300 * (p.val / 304) + p.val % 304) % 300 = p.val
      omega)⟩
  unfold xk0
  split
  · rw [hcos, dif_neg hslot]
  · rw [hiou, dif_neg hslot]

omit hcos hiou in
/-- The first launch's sums of the columns are the sums over all rows. -/
theorem S1_eq (k : Fin 2) : S1 cosK iouK k = (zer + ∑ p, xk0 cosK iouK p k) + m4000 * 0 := by
  rw [mul_zero, add_zero]
  unfold S1 Gst0 xk0
  match k with
  | ⟨0, _⟩ =>
    refine (sel_00 _ _ _ _ _).trans ((accum_tileSum cosK).trans ?_)
    simp only [if_pos]
  | ⟨1, _⟩ =>
    refine (sel_01 _ _ _ _ _).trans ((accum_tileSum iouK).trans ?_)
    simp only [if_neg (Nat.succ_ne_zero 0)]

omit hcos hiou in
/-- The first launch's sums of the squares are the sums over all rows. -/
theorem S2_eq (k : Fin 2) :
    S2 cosK iouK k = (zer + ∑ p, xk0 cosK iouK p k * xk0 cosK iouK p k) + m4000 * (0 * 0) := by
  rw [mul_zero, mul_zero, add_zero]
  unfold S2 Gst0 xk0
  match k with
  | ⟨0, _⟩ =>
    refine (sel_10 _ _ _ _ _).trans ((accum_tileSum fun i => cosK i * cosK i).trans ?_)
    simp only [if_pos]
  | ⟨1, _⟩ =>
    refine (sel_11 _ _ _ _ _).trans ((accum_tileSum fun i => iouK i * iouK i).trans ?_)
    simp only [if_neg (Nat.succ_ne_zero 0)]

/-- The four facts a stage asks of the kernel's first array and its sums. -/
theorem head_hyps :
    (∀ i k, xk0 cosK iouK (pe i) k = featS i k)
    ∧ (∀ p, p ∉ Set.range pe → ∀ k, xk0 cosK iouK p k = 0)
    ∧ (∀ k, S1 cosK iouK k = (zer + ∑ p, xk0 cosK iouK p k) + m4000 * 0)
    ∧ (∀ k, S2 cosK iouK k = (zer + ∑ p, xk0 cosK iouK p k * xk0 cosK iouK p k) + m4000 * (0 * 0)) :=
  ⟨xk0_emb cosK iouK featS hcos hiou, xk0_pad cosK iouK featS hcos hiou, S1_eq cosK iouK, S2_eq cosK iouK⟩

/-- The first stage: on the real rows the specification's normalisation and affine map of the pair features, on the
    padded rows one constant row, all real numbers. -/
theorem head_stage (hreal : ∀ i k, IsReal (featS i k)) {Q : ℕ}
    (g b : Fin 2 → EReal) (hg : ∀ k, IsReal (g k)) (hb : ∀ k, IsReal (b k))
    (W : Fin 2 → Fin Q → EReal) (bias : Fin Q → EReal) (hW : ∀ k q, IsReal (W k q)) (hbias : ∀ q, IsReal (bias q))
    (act : EReal → EReal) (hact : ∀ x, IsReal x → IsReal (act x)) :
    (∀ i q, act ((∑ k, (xk0 cosK iouK (pe i) k * scale (g k) (S1 cosK iouK k) (S2 cosK iouK k)
          + shift (g k) (b k) (S1 cosK iouK k) (S2 cosK iouK k)) * W k q) + bias q)
        = bnlin act featS g b W bias i q)
    ∧ (∀ p, p ∉ Set.range pe → ∀ q,
        act ((∑ k, (xk0 cosK iouK p k * scale (g k) (S1 cosK iouK k) (S2 cosK iouK k)
            + shift (g k) (b k) (S1 cosK iouK k) (S2 cosK iouK k)) * W k q) + bias q)
          = act ((∑ k, ((0 : EReal) * scale (g k) (S1 cosK iouK k) (S2 cosK iouK k)
              + shift (g k) (b k) (S1 cosK iouK k) (S2 cosK iouK k)) * W k q) + bias q))
    ∧ (∀ i q, IsReal (bnlin act featS g b W bias i q))
    ∧ (∀ q, IsReal (act ((∑ k, ((0 : EReal) * scale (g k) (S1 cosK iouK k) (S2 cosK iouK k)
          + shift (g k) (b k) (S1 cosK iouK k) (S2 cosK iouK k)) * W k q) + bias q))) :=
  stage (xk0 cosK iouK) featS (fun _ => 0) hreal (fun _ => isReal_zero)
    (xk0_emb cosK iouK featS hcos hiou) (xk0_pad cosK iouK featS hcos hiou) g b hg hb (S1 cosK iouK) (S2 cosK iouK)
    (S1_eq cosK iouK) (S2_eq cosK iouK) W bias hW hbias act hact

end

end Cert.KHead

end
-- ==== Proof.KFeat.lean ====
/-
  The first launch's two similarity arrays against the specification's pair features.

  The launch works on the reference embeddings and boxes transposed and padded from 300 to 304 slots with zeros.  On a
  real slot (j < 300) its inner product of scaled embeddings and its overlap ratio are, term for term, the specification's
  cosine and overlap ratio.  On a padded slot both are zero: a zero vector divided by the larger of its norm (zero) and
  a positive constant is zero, and so is every product with it; a box with all corners zero overlaps a box with ordered real
  corners in a rectangle of width max (min ax2 0 − max ax1 0) 0 = 0, and zero divided by the positive denominator is zero.
  For real data every cosine and every overlap ratio is a real number: norms are square roots of sums of squares, the
  larger of a real and a positive real is a positive real, and the overlap ratio's denominator is at least the positive
  constant because the overlap area is at most the first box's area and the second box's area is non-negative.
-/
import proofs.«139309_g56014963475156_cont_9to1_m_1179_16_alg».proof.Proof.R0Value
import proofs.«139309_g56014963475156_cont_9to1_m_1179_16_alg».proof.Proof.Net
import proofs.«139309_g56014963475156_cont_9to1_m_1179_16_alg».proof.Proof.LibBnLayer
import proofs.«139309_g56014963475156_cont_9to1_m_1179_16_alg».proof.Proof.Consts

noncomputable section

namespace Cert.KernelIdeal.KFeat

open Cert.KernelIdeal Cert.KernelIdeal.R0 Cert.BnLayer
open Idealize.ShloMosaic Idealize.ShloMosaic.ValueIdx

/-! ## The three constants are the specification's -/

theorem epsn_eq : epsn = ((Cert.Consts.epsNorm : ℝ) : EReal) := Cert.Consts.ofBits_epsNorm
theorem zer_eq : zer = 0 := Cert.Consts.ofBits_zero
theorem epsi_eq : epsi = ((Cert.Consts.epsIou : ℝ) : EReal) := Cert.Consts.ofBits_epsIou

/-- The smaller of two reals. -/
theorem min_coe_coe (a b : ℝ) : min (a : EReal) (b : EReal) = ((min a b : ℝ) : EReal) :=
  (EReal.coe_strictMono.monotone.map_min (a := a) (b := b)).symm

/-! ## The cosine -/

/-- A row's scaled coordinate is the specification's. -/
theorem unitAt_eq {N : ℕ} (x : Fin N → Fin 64 → EReal) (n : Fin N) (d : Fin 64) :
    unitAt (fun d => x n d) d = Cert.Net.unit x n d := by
  unfold unitAt Cert.Net.unit
  rw [epsn_eq]

/-- The zero vector scaled is zero. -/
theorem unitAt_zero (d : Fin 64) : unitAt (fun _ => 0) d = 0 := by
  show Ideal.div 0 (max (Ideal.sqrt (∑ d' : Fin 64, (0 : EReal) * 0)) epsn) = 0
  have h0 : (∑ d' : Fin 64, (0 : EReal) * 0) = ((0 : ℝ) : EReal) := by simp
  rw [h0, epsn_eq, Cert.BatchNorm.sqrt_coe_nonneg le_rfl, Cert.BatchNorm.max_coe_coe, ← EReal.coe_zero,
    Cert.BatchNorm.div_coe_coe _ (ne_of_gt (lt_of_lt_of_le Cert.Consts.epsNorm_pos (le_max_right _ _))), zero_div]

/-- A real row's scaled coordinate is a real number. -/
theorem unit_real {N : ℕ} (x : Fin N → Fin 64 → EReal) (hx : ∀ n d, IsReal (x n d)) (n : Fin N) (d : Fin 64) :
    IsReal (Cert.Net.unit x n d) := by
  choose a ha using hx
  unfold Cert.Net.unit
  have hs : (∑ d' : Fin 64, x n d' * x n d') = ((∑ d' : Fin 64, a n d' * a n d' : ℝ) : EReal) := by
    rw [Cert.BatchNorm.coe_sum]
    exact Finset.sum_congr rfl fun d' _ => by rw [ha n d', EReal.coe_mul]
  rw [hs, Cert.BatchNorm.sqrt_coe_nonneg (Finset.sum_nonneg fun d' _ => mul_self_nonneg _), Cert.BatchNorm.max_coe_coe]
  exact isReal_div ⟨a n d, ha n d⟩ (ne_of_gt (lt_of_lt_of_le Cert.Consts.epsNorm_pos (le_max_right _ _)))

section Cos

variable (emb : S1000x64.Idx → EReal) (re : S300x64.Idx → EReal) (keT : S64x304.Idx → EReal)
  (hkeT : ∀ (d : Fin 64) (j : Fin 304), keT (ix2 d j) = if h : j.val < 300 then re (ix2 (⟨j.val, h⟩ : Fin 300) d) else 0)

include hkeT in
/-- THE FIRST ARRAY: on a real slot the specification's cosine, on a padded slot zero. -/
theorem cos_eq (n : Fin 1000) (j : Fin 304) :
    Gcos emb keT (ix2 n j)
      = if h : j.val < 300 then Cert.Net.cosS (fun n d => emb (ix2 n d)) (fun j d => re (ix2 j d)) n ⟨j.val, h⟩ else 0 := by
  show cosOf (fun d => emb (ix2 n d)) (fun d => keT (ix2 d j)) = _
  unfold cosOf
  by_cases h : j.val < 300
  · rw [dif_pos h]
    unfold Cert.Net.cosS
    have hk : (fun d => keT (ix2 d j)) = fun d => re (ix2 (⟨j.val, h⟩ : Fin 300) d) :=
      funext fun d => by rw [hkeT d j, dif_pos h]
    rw [hk]
    exact Finset.sum_congr rfl fun d _ => congrArg₂ (· * ·) (unitAt_eq (fun n d => emb (ix2 n d)) n d)
      (unitAt_eq (fun j d => re (ix2 j d)) ⟨j.val, h⟩ d)
  · rw [dif_neg h]
    have hk : (fun d => keT (ix2 d j)) = fun _ => 0 := funext fun d => by rw [hkeT d j, dif_neg h]
    rw [hk]
    exact Finset.sum_eq_zero fun d _ => by rw [unitAt_zero, mul_zero]

/-- For real embeddings every cosine is a real number. -/
theorem cos_real (hemb : ∀ i, IsReal (emb i)) (hre : ∀ i, IsReal (re i)) (n : Fin 1000) (j : Fin 300) :
    IsReal (Cert.Net.cosS (fun n d => emb (ix2 n d)) (fun j d => re (ix2 j d)) n j) := by
  unfold Cert.Net.cosS
  exact isReal_sum _ _ fun d _ => isReal_mul (unit_real _ (fun n d => hemb _) n d) (unit_real _ (fun j d => hre _) j d)

end Cos

/-! ## The overlap ratio -/

/-- The launch's overlap ratio of two boxes is the specification's expression in their corners. -/
theorem iouS_eq (a : Fin 1000 → Fin 4 → EReal) (b : Fin 300 → Fin 4 → EReal) (n : Fin 1000) (j : Fin 300) :
    Cert.Net.iouS a b n j = iouOf (a n 0) (a n 1) (a n 2) (a n 3) (b j 0) (b j 1) (b j 2) (b j 3) := by
  unfold Cert.Net.iouS Cert.Net.inter iouOf
  rw [zer_eq, epsi_eq]

/-- The overlap area and the guarded union area over the reals. -/
def interR (a1 a2 a3 a4 b1 b2 b3 b4 : ℝ) : ℝ := max (min a3 b3 - max a1 b1) 0 * max (min a4 b4 - max a2 b2) 0
def denR (a1 a2 a3 a4 b1 b2 b3 b4 : ℝ) : ℝ :=
  (((a3 - a1) * (a4 - a2) + (b3 - b1) * (b4 - b2)) - interR a1 a2 a3 a4 b1 b2 b3 b4) + Cert.Consts.epsIou

/-- For boxes with ordered corners the guarded union area is positive: the overlap is at most the first box, the second
    box's area is non-negative, and the guard is positive. -/
theorem denR_pos {a1 a2 a3 a4 b1 b2 b3 b4 : ℝ} (h1 : a1 ≤ a3) (h2 : a2 ≤ a4) (h3 : b1 ≤ b3) (h4 : b2 ≤ b4) :
    0 < denR a1 a2 a3 a4 b1 b2 b3 b4 := by
  unfold denR interR
  have hw0 : 0 ≤ max (min a3 b3 - max a1 b1) 0 := le_max_right _ _
  have hw1 : max (min a3 b3 - max a1 b1) 0 ≤ a3 - a1 :=
    max_le (by have := min_le_left a3 b3; have := le_max_left a1 b1; linarith) (by linarith)
  have hh0 : 0 ≤ max (min a4 b4 - max a2 b2) 0 := le_max_right _ _
  have hh1 : max (min a4 b4 - max a2 b2) 0 ≤ a4 - a2 :=
    max_le (by have := min_le_left a4 b4; have := le_max_left a2 b2; linarith) (by linarith)
  have hI : max (min a3 b3 - max a1 b1) 0 * max (min a4 b4 - max a2 b2) 0 ≤ (a3 - a1) * (a4 - a2) :=
    mul_le_mul hw1 hh1 hh0 (by linarith)
  have hB : 0 ≤ (b3 - b1) * (b4 - b2) := mul_nonneg (by linarith) (by linarith)
  have := Cert.Consts.epsIou_pos
  linarith

/-- The overlap ratio of two real boxes whose guarded union area is not zero, as a real number. -/
theorem iouOf_coe (a1 a2 a3 a4 b1 b2 b3 b4 : ℝ) (hD : denR a1 a2 a3 a4 b1 b2 b3 b4 ≠ 0) :
    iouOf (a1 : EReal) a2 a3 a4 b1 b2 b3 b4
      = ((interR a1 a2 a3 a4 b1 b2 b3 b4 / denR a1 a2 a3 a4 b1 b2 b3 b4 : ℝ) : EReal) := by
  unfold iouOf
  rw [zer_eq, epsi_eq, ← EReal.coe_zero]
  simp only [min_coe_coe, Cert.BatchNorm.max_coe_coe, ← EReal.coe_sub, ← EReal.coe_mul, ← EReal.coe_add]
  exact Cert.BatchNorm.div_coe_coe _ hD

/-- Against a box with all corners zero, a real box with ordered corners has overlap ratio zero. -/
theorem iouOf_pad {a1 a2 a3 a4 : ℝ} (h1 : a1 ≤ a3) (h2 : a2 ≤ a4) : iouOf (a1 : EReal) a2 a3 a4 0 0 0 0 = 0 := by
  rw [← EReal.coe_zero, iouOf_coe a1 a2 a3 a4 0 0 0 0 (ne_of_gt (denR_pos h1 h2 le_rfl le_rfl))]
  refine congrArg _ ?_
  have hw : max (min a3 0 - max a1 0) 0 = 0 :=
    max_eq_right (by have := min_le_right a3 0; have := le_max_right a1 0; linarith)
  unfold interR
  rw [hw, zero_mul, zero_div]

section Iou

variable (det : S1000x4.Idx → EReal) (rb : S300x4.Idx → EReal) (rbT : S4x304.Idx → EReal)
  (hrbT : ∀ (k : Fin 4) (j : Fin 304), rbT (ix2 k j) = if h : j.val < 300 then rb (ix2 (⟨j.val, h⟩ : Fin 300) k) else 0)
  (hdet : ∀ i, IsReal (det i)) (hrb : ∀ i, IsReal (rb i))
  (odet : ∀ n : Fin 1000, det (ix2 n 0) ≤ det (ix2 n 2) ∧ det (ix2 n 1) ≤ det (ix2 n 3))
  (orb : ∀ j : Fin 300, rb (ix2 j 0) ≤ rb (ix2 j 2) ∧ rb (ix2 j 1) ≤ rb (ix2 j 3))

include hrbT hdet odet in
/-- THE SECOND ARRAY: on a real slot the specification's overlap ratio, on a padded slot zero. -/
theorem iou_eq (n : Fin 1000) (j : Fin 304) :
    Giou det rbT (ix2 n j)
      = if h : j.val < 300 then Cert.Net.iouS (fun n k => det (ix2 n k)) (fun j k => rb (ix2 j k)) n ⟨j.val, h⟩ else 0 := by
  show iouOf (det (ix2 n (0 : Fin 4))) (det (ix2 n (1 : Fin 4))) (det (ix2 n (2 : Fin 4))) (det (ix2 n (3 : Fin 4)))
      (rbT (ix2 (0 : Fin 4) j)) (rbT (ix2 (1 : Fin 4) j)) (rbT (ix2 (2 : Fin 4) j)) (rbT (ix2 (3 : Fin 4) j)) = _
  rw [hrbT 0 j, hrbT 1 j, hrbT 2 j, hrbT 3 j]
  by_cases h : j.val < 300
  · simp only [dif_pos h]
    exact (iouS_eq (fun n k => det (ix2 n k)) (fun j k => rb (ix2 j k)) n ⟨j.val, h⟩).symm
  · simp only [dif_neg h]
    obtain ⟨a0, e0⟩ := hdet (ix2 n (0 : Fin 4))
    obtain ⟨a1, e1⟩ := hdet (ix2 n (1 : Fin 4))
    obtain ⟨a2, e2⟩ := hdet (ix2 n (2 : Fin 4))
    obtain ⟨a3, e3⟩ := hdet (ix2 n (3 : Fin 4))
    have o := odet n
    rw [e0, e1, e2, e3] at o ⊢
    exact iouOf_pad (EReal.coe_le_coe_iff.mp o.1) (EReal.coe_le_coe_iff.mp o.2)

include hdet hrb odet orb in
/-- For real boxes with ordered corners every overlap ratio is a real number. -/
theorem iou_real (n : Fin 1000) (j : Fin 300) :
    IsReal (Cert.Net.iouS (fun n k => det (ix2 n k)) (fun j k => rb (ix2 j k)) n j) := by
  rw [iouS_eq]
  obtain ⟨a0, e0⟩ := hdet (ix2 n (0 : Fin 4))
  obtain ⟨a1, e1⟩ := hdet (ix2 n (1 : Fin 4))
  obtain ⟨a2, e2⟩ := hdet (ix2 n (2 : Fin 4))
  obtain ⟨a3, e3⟩ := hdet (ix2 n (3 : Fin 4))
  obtain ⟨b0, f0⟩ := hrb (ix2 j (0 : Fin 4))
  obtain ⟨b1, f1⟩ := hrb (ix2 j (1 : Fin 4))
  obtain ⟨b2, f2⟩ := hrb (ix2 j (2 : Fin 4))
  obtain ⟨b3, f3⟩ := hrb (ix2 j (3 : Fin 4))
  have o := odet n
  have p := orb j
  show IsReal (iouOf (det (ix2 n (0 : Fin 4))) (det (ix2 n (1 : Fin 4))) (det (ix2 n (2 : Fin 4))) (det (ix2 n (3 : Fin 4)))
      (rb (ix2 j (0 : Fin 4))) (rb (ix2 j (1 : Fin 4))) (rb (ix2 j (2 : Fin 4))) (rb (ix2 j (3 : Fin 4))))
  rw [e0, e1, e2, e3] at o ⊢
  rw [f0, f1, f2, f3] at p ⊢
  rw [iouOf_coe a0 a1 a2 a3 b0 b1 b2 b3 (ne_of_gt (denR_pos (EReal.coe_le_coe_iff.mp o.1) (EReal.coe_le_coe_iff.mp o.2)
    (EReal.coe_le_coe_iff.mp p.1) (EReal.coe_le_coe_iff.mp p.2)))]
  exact isReal_coe _

end Iou

end Cert.KernelIdeal.KFeat

end
-- ==== Proof.R4Value.lean ====
/-
  The last launch: its result array as one function of the arrays it finds.

  Grid point t handles detections 50·t … 50·t + 49, that is pair rows 15200·t … 15200·t + 15199 of the second hidden layer's
  activations (15200 = 50 · 304); the moments and the parameters are whole at every point. What the point writes back is
  its block of one function G4 of those arrays: entry (n, j, q) of the result is the fourth layer's column q of pair row
  304·n + j. The twenty blocks tile the result, so after the run the result array is G4.
-/
import proofs.«139309_g56014963475156_cont_9to1_m_1179_16_alg».proof.Proof.Gen.KernelIdeal.Frame
import proofs.«139309_g56014963475156_cont_9to1_m_1179_16_alg».proof.Proof.R4Payload

set_option maxRecDepth 16384

noncomputable section

namespace Cert.KernelIdeal.R4

open Cert.KernelIdeal Cert.KernelIdeal.Gen
open Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- Column k of a 32-column (64-column) row of moments, as a column of the 128-column moments array. -/
def col32 (k : Fin 32) : Fin 128 := ⟨k.val, by have := k.isLt; omega⟩
def col64 (k : Fin 64) : Fin 128 := ⟨k.val, by have := k.isLt; omega⟩

/-- The third layer's activation of pair row r, column k, from the second layer's activations and moments. -/
def h3 (a2 : S304000x32.Idx → EReal) (st2 : S3x128.Idx → EReal) (g2 b2 : S1x32.Idx → EReal) (W3 : S32x64.Idx → EReal)
    (b3 : S1x64.Idx → EReal) (r : Fin 304000) (k : Fin 64) : EReal :=
  max ((∑ k' : Fin 32,
      (a2 (ix2 r k') * scale (g2 (ix2 (0 : Fin 1) k')) (st2 (ix2 (0 : Fin 3) (col32 k')))
            (st2 (ix2 (1 : Fin 3) (col32 k')))
        + shift (g2 (ix2 (0 : Fin 1) k')) (b2 (ix2 (0 : Fin 1) k')) (st2 (ix2 (0 : Fin 3) (col32 k')))
            (st2 (ix2 (1 : Fin 3) (col32 k')))) * W3 (ix2 k' k))
    + b3 (ix2 (0 : Fin 1) k)) zer

/-- The result array: entry (n, j, q) is the fourth layer's column q of pair row 304·n + j. -/
def G4 (a2 : S304000x32.Idx → EReal) (st2 st3 : S3x128.Idx → EReal) (g2 b2 : S1x32.Idx → EReal) (W3 : S32x64.Idx → EReal)
    (b3 g3 b3n : S1x64.Idx → EReal) (W4 : S64x64.Idx → EReal) (b4 : S1x64.Idx → EReal) : S1000x300x64.Idx → EReal := fun i =>
  (∑ k : Fin 64,
      (h3 a2 st2 g2 b2 W3 b3 ⟨304 * (i 0).val + (i 1).val, by have h0 : (i 0).val < 1000 := (i 0).isLt; have h1 : (i 1).val < 300 := (i 1).isLt; omega⟩ k
          * scale (g3 (ix2 (0 : Fin 1) k)) (st3 (ix2 (0 : Fin 3) (col64 k)))
              (st3 (ix2 (1 : Fin 3) (col64 k)))
        + shift (g3 (ix2 (0 : Fin 1) k)) (b3n (ix2 (0 : Fin 1) k)) (st3 (ix2 (0 : Fin 3) (col64 k)))
              (st3 (ix2 (1 : Fin 3) (col64 k)))) * W4 (ix2 k (i 2)))
    + b4 (ix2 (0 : Fin 1) (i 2))

/-- The printed index maps over the grid: the activations' and the result's blocks move with the point, every other
    window stays at block zero. -/
theorem idx_facts : ∀ t : Fin cfg4.N,
    win4_0.index t (0 : Fin 2) = t.val ∧ win4_0.index t (1 : Fin 2) = 0
    ∧ win4_11.index t (0 : Fin 3) = t.val ∧ win4_11.index t (1 : Fin 3) = 0 ∧ win4_11.index t (2 : Fin 3) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0 :=
  (by decide +kernel : ∀ t : Fin grid4.N, _)

/-! ## Each block read is an array read -/

/-- Pair row r of point t's tile, as a row of the whole activations array. -/
def rowOf (t : Fin cfg4.N) (r : Fin 15200) : Fin 304000 :=
  ⟨15200 * t.val + r.val, by have ht : t.val < 20 := t.isLt; have := r.isLt; omega⟩

theorem ld_a2 (c : Dev nD) (t : Fin cfg4.N) (r : Fin 15200) (k : Fin 32) :
    View.ld (iblk4 V c 0 t) r4_3 (ix2 r k) = V c main_call0_v16_0 (ix2 (rowOf t r) k) := by
  obtain ⟨e0, e1, -⟩ := idx_facts t
  show V c main_call0_v16_0 (((cfg4.win 0).blk t).view.emb (r4_3.idx (ix2 r k))) = _
  refine congrArg _ (funext fun a => Fin.ext ?_)
  match a with
  | ⟨0, _⟩ => show win4_0.index t (0 : Fin 2) * 15200 + 1 * (0 + 1 * r.val) = 15200 * t.val + r.val; rw [e0]; ring
  | ⟨1, _⟩ => show win4_0.index t (1 : Fin 2) * 32 + 1 * (0 + 1 * k.val) = k.val; rw [e1]; ring

theorem ld_st2_0 (c : Dev nD) (t : Fin cfg4.N) (k : Fin 32) :
    View.ld (iblk4 V c 1 t) r4_1 (ix2 (0 : Fin 1) k) = V c main_call0_v16_1 (ix2 (0 : Fin 3) (col32 k)) := by
  obtain ⟨-, -, -, -, -, e0, e1, -⟩ := idx_facts t
  show V c main_call0_v16_1 (((cfg4.win 1).blk t).view.emb (r4_1.idx (ix2 (0 : Fin 1) k))) = _
  refine congrArg _ (funext fun a => Fin.ext ?_)
  match a with
  | ⟨0, _⟩ => show win4_1.index t (0 : Fin 2) * 3 + 1 * (0 + 1 * 0) = 0; rw [e0]
  | ⟨1, _⟩ => show win4_1.index t (1 : Fin 2) * 128 + 1 * (0 + 1 * k.val) = k.val; rw [e1]; ring

theorem ld_st2_1 (c : Dev nD) (t : Fin cfg4.N) (k : Fin 32) :
    View.ld (iblk4 V c 1 t) r4_2 (ix2 (0 : Fin 1) k) = V c main_call0_v16_1 (ix2 (1 : Fin 3) (col32 k)) := by
  obtain ⟨-, -, -, -, -, e0, e1, -⟩ := idx_facts t
  show V c main_call0_v16_1 (((cfg4.win 1).blk t).view.emb (r4_2.idx (ix2 (0 : Fin 1) k))) = _
  refine congrArg _ (funext fun a => Fin.ext ?_)
  match a with
  | ⟨0, _⟩ => show win4_1.index t (0 : Fin 2) * 3 + 1 * (1 + 1 * 0) = 1; rw [e0]
  | ⟨1, _⟩ => show win4_1.index t (1 : Fin 2) * 128 + 1 * (0 + 1 * k.val) = k.val; rw [e1]; ring

theorem ld_st3_0 (c : Dev nD) (t : Fin cfg4.N) (k : Fin 64) :
    View.ld (iblk4 V c 2 t) r4_6 (ix2 (0 : Fin 1) k) = V c main_call0_v20 (ix2 (0 : Fin 3) (col64 k)) := by
  obtain ⟨-, -, -, -, -, -, -, e0, e1, -⟩ := idx_facts t
  show V c main_call0_v20 (((cfg4.win 2).blk t).view.emb (r4_6.idx (ix2 (0 : Fin 1) k))) = _
  refine congrArg _ (funext fun a => Fin.ext ?_)
  match a with
  | ⟨0, _⟩ => show win4_2.index t (0 : Fin 2) * 3 + 1 * (0 + 1 * 0) = 0; rw [e0]
  | ⟨1, _⟩ => show win4_2.index t (1 : Fin 2) * 128 + 1 * (0 + 1 * k.val) = k.val; rw [e1]; ring

theorem ld_st3_1 (c : Dev nD) (t : Fin cfg4.N) (k : Fin 64) :
    View.ld (iblk4 V c 2 t) r4_7 (ix2 (0 : Fin 1) k) = V c main_call0_v20 (ix2 (1 : Fin 3) (col64 k)) := by
  obtain ⟨-, -, -, -, -, -, -, e0, e1, -⟩ := idx_facts t
  show V c main_call0_v20 (((cfg4.win 2).blk t).view.emb (r4_7.idx (ix2 (0 : Fin 1) k))) = _
  refine congrArg _ (funext fun a => Fin.ext ?_)
  match a with
  | ⟨0, _⟩ => show win4_2.index t (0 : Fin 2) * 3 + 1 * (1 + 1 * 0) = 1; rw [e0]
  | ⟨1, _⟩ => show win4_2.index t (1 : Fin 2) * 128 + 1 * (0 + 1 * k.val) = k.val; rw [e1]; ring

theorem ld_g2 (c : Dev nD) (t : Fin cfg4.N) (k : Fin 32) :
    View.ld (iblk4 V c 3 t) r4_0 (ix2 (0 : Fin 1) k) = V c main_call0_v21 (ix2 (0 : Fin 1) k) := by
  obtain ⟨-, -, -, -, -, -, -, -, -, e0, e1, -⟩ := idx_facts t
  show V c main_call0_v21 (((cfg4.win 3).blk t).view.emb (r4_0.idx (ix2 (0 : Fin 1) k))) = _
  refine congrArg _ (funext fun a => Fin.ext ?_)
  match a with
  | ⟨0, _⟩ => show win4_3.index t (0 : Fin 2) * 1 + 1 * (0 + 1 * 0) = 0; rw [e0]
  | ⟨1, _⟩ => show win4_3.index t (1 : Fin 2) * 32 + 1 * (0 + 1 * k.val) = k.val; rw [e1]; ring

theorem ld_b2 (c : Dev nD) (t : Fin cfg4.N) (k : Fin 32) :
    View.ld (iblk4 V c 4 t) r4_0 (ix2 (0 : Fin 1) k) = V c main_call0_v22 (ix2 (0 : Fin 1) k) := by
  obtain ⟨-, -, -, -, -, -, -, -, -, -, -, e0, e1, -⟩ := idx_facts t
  show V c main_call0_v22 (((cfg4.win 4).blk t).view.emb (r4_0.idx (ix2 (0 : Fin 1) k))) = _
  refine congrArg _ (funext fun a => Fin.ext ?_)
  match a with
  | ⟨0, _⟩ => show win4_4.index t (0 : Fin 2) * 1 + 1 * (0 + 1 * 0) = 0; rw [e0]
  | ⟨1, _⟩ => show win4_4.index t (1 : Fin 2) * 32 + 1 * (0 + 1 * k.val) = k.val; rw [e1]; ring

theorem ld_W3 (c : Dev nD) (t : Fin cfg4.N) (k : Fin 32) (x : Fin 64) :
    View.ld (iblk4 V c 5 t) r4_4 (ix2 k x) = V c main_arg14 (ix2 k x) := by
  obtain ⟨-, -, -, -, -, -, -, -, -, -, -, -, -, e0, e1, -⟩ := idx_facts t
  show V c main_arg14 (((cfg4.win 5).blk t).view.emb (r4_4.idx (ix2 k x))) = _
  refine congrArg _ (funext fun a => Fin.ext ?_)
  match a with
  | ⟨0, _⟩ => show win4_5.index t (0 : Fin 2) * 32 + 1 * (0 + 1 * k.val) = k.val; rw [e0]; ring
  | ⟨1, _⟩ => show win4_5.index t (1 : Fin 2) * 64 + 1 * (0 + 1 * x.val) = x.val; rw [e1]; ring

theorem ld_b3 (c : Dev nD) (t : Fin cfg4.N) (x : Fin 64) :
    View.ld (iblk4 V c 6 t) r4_5 (ix2 (0 : Fin 1) x) = V c main_call0_v23 (ix2 (0 : Fin 1) x) := by
  obtain ⟨-, -, -, -, -, -, -, -, -, -, -, -, -, -, -, e0, e1, -⟩ := idx_facts t
  show V c main_call0_v23 (((cfg4.win 6).blk t).view.emb (r4_5.idx (ix2 (0 : Fin 1) x))) = _
  refine congrArg _ (funext fun a => Fin.ext ?_)
  match a with
  | ⟨0, _⟩ => show win4_6.index t (0 : Fin 2) * 1 + 1 * (0 + 1 * 0) = 0; rw [e0]
  | ⟨1, _⟩ => show win4_6.index t (1 : Fin 2) * 64 + 1 * (0 + 1 * x.val) = x.val; rw [e1]; ring

theorem ld_g3 (c : Dev nD) (t : Fin cfg4.N) (x : Fin 64) :
    View.ld (iblk4 V c 7 t) r4_5 (ix2 (0 : Fin 1) x) = V c main_call0_v24 (ix2 (0 : Fin 1) x) := by
  obtain ⟨-, -, -, -, -, -, -, -, -, -, -, -, -, -, -, -, -, e0, e1, -⟩ := idx_facts t
  show V c main_call0_v24 (((cfg4.win 7).blk t).view.emb (r4_5.idx (ix2 (0 : Fin 1) x))) = _
  refine congrArg _ (funext fun a => Fin.ext ?_)
  match a with
  | ⟨0, _⟩ => show win4_7.index t (0 : Fin 2) * 1 + 1 * (0 + 1 * 0) = 0; rw [e0]
  | ⟨1, _⟩ => show win4_7.index t (1 : Fin 2) * 64 + 1 * (0 + 1 * x.val) = x.val; rw [e1]; ring

theorem ld_b3n (c : Dev nD) (t : Fin cfg4.N) (x : Fin 64) :
    View.ld (iblk4 V c 8 t) r4_5 (ix2 (0 : Fin 1) x) = V c main_call0_v25 (ix2 (0 : Fin 1) x) := by
  obtain ⟨-, -, -, -, -, -, -, -, -, -, -, -, -, -, -, -, -, -, -, e0, e1, -⟩ := idx_facts t
  show V c main_call0_v25 (((cfg4.win 8).blk t).view.emb (r4_5.idx (ix2 (0 : Fin 1) x))) = _
  refine congrArg _ (funext fun a => Fin.ext ?_)
  match a with
  | ⟨0, _⟩ => show win4_8.index t (0 : Fin 2) * 1 + 1 * (0 + 1 * 0) = 0; rw [e0]
  | ⟨1, _⟩ => show win4_8.index t (1 : Fin 2) * 64 + 1 * (0 + 1 * x.val) = x.val; rw [e1]; ring

theorem ld_W4 (c : Dev nD) (t : Fin cfg4.N) (x q : Fin 64) :
    View.ld (iblk4 V c 9 t) r4_8 (ix2 x q) = V c main_arg18 (ix2 x q) := by
  obtain ⟨-, -, -, -, -, -, -, -, -, -, -, -, -, -, -, -, -, -, -, -, -, e0, e1, -⟩ := idx_facts t
  show V c main_arg18 (((cfg4.win 9).blk t).view.emb (r4_8.idx (ix2 x q))) = _
  refine congrArg _ (funext fun a => Fin.ext ?_)
  match a with
  | ⟨0, _⟩ => show win4_9.index t (0 : Fin 2) * 64 + 1 * (0 + 1 * x.val) = x.val; rw [e0]; ring
  | ⟨1, _⟩ => show win4_9.index t (1 : Fin 2) * 64 + 1 * (0 + 1 * q.val) = q.val; rw [e1]; ring

theorem ld_b4 (c : Dev nD) (t : Fin cfg4.N) (x : Fin 64) :
    View.ld (iblk4 V c 10 t) r4_5 (ix2 (0 : Fin 1) x) = V c main_call0_v26 (ix2 (0 : Fin 1) x) := by
  obtain ⟨-, -, -, -, -, -, -, -, -, -, -, -, -, -, -, -, -, -, -, -, -, -, -, e0, e1⟩ := idx_facts t
  show V c main_call0_v26 (((cfg4.win 10).blk t).view.emb (r4_5.idx (ix2 (0 : Fin 1) x))) = _
  refine congrArg _ (funext fun a => Fin.ext ?_)
  match a with
  | ⟨0, _⟩ => show win4_10.index t (0 : Fin 2) * 1 + 1 * (0 + 1 * 0) = 0; rw [e0]
  | ⟨1, _⟩ => show win4_10.index t (1 : Fin 2) * 64 + 1 * (0 + 1 * x.val) = x.val; rw [e1]; ring

/-! ## What a point writes back -/

/-- Where entry (p, j, q) of point t's result block sits in the result array. -/
theorem emb_out (t : Fin cfg4.N) (p : Fin 50) (j : Fin 300) (q : Fin 64) :
    ((cfg4.win 11).blk t).view.emb (ix3 p j q)
      = (ix3 (⟨50 * t.val + p.val, by have ht : t.val < 20 := t.isLt; have := p.isLt; omega⟩ : Fin 1000) j q : S1000x300x64.Idx) := by
  obtain ⟨-, -, e0, e1, e2, -⟩ := idx_facts t
  refine funext fun a => Fin.ext ?_
  match a with
  | ⟨0, _⟩ => show win4_11.index t (0 : Fin 3) * 50 + 1 * p.val = 50 * t.val + p.val; rw [e0]; ring
  | ⟨1, _⟩ => show win4_11.index t (1 : Fin 3) * 300 + 1 * j.val = j.val; rw [e1]; ring
  | ⟨2, _⟩ => show win4_11.index t (2 : Fin 3) * 64 + 1 * q.val = q.val; rw [e2]; ring

/-- WHAT POINT t WRITES BACK is block t of `G4` of the arrays as the launch finds them. -/
theorem flushed_eq (c : Dev nD) (t : Fin cfg4.N) :
    (dat4 (F := Ideal) V c).flushed 11 t = ((cfg4.win 11).blk t).view.read (Elt Ideal)
      (G4 (V c main_call0_v16_0) (V c main_call0_v16_1) (V c main_call0_v20) (V c main_call0_v21) (V c main_call0_v22)
        (V c main_arg14) (V c main_call0_v23) (V c main_call0_v24) (V c main_call0_v25) (V c main_arg18) (V c main_call0_v26)) := by
  show (cfg4.win 11).cut (grid4.coords t) ((dat4 V c).after 11 t) = _
  rw [after4_11]
  unfold out4_11
  rw [View.canon_unit_zero hz3]
  funext y
  obtain ⟨p, j, q, rfl⟩ : ∃ p j q, y = ix3 p j q := ⟨y 0, y 1, y 2, eq_ix3 y⟩
  show k4_pay1 (F := Ideal) _ _ _ _ _ _ _ (ix3 p j q) = G4 _ _ _ _ _ _ _ _ _ _ _ (((cfg4.win 11).blk t).view.emb (ix3 p j q))
  have hr : 304 * p.val + j.val < 15200 := by have := p.isLt; have := j.isLt; omega
  rw [pay1_apply _ _ _ _ _ _ _ p j q ⟨304 * p.val + j.val, hr⟩ rfl, emb_out]
  simp only [pay2_apply, ld_a2, ld_st2_0, ld_st2_1, ld_st3_0, ld_st3_1, ld_g2, ld_b2, ld_W3, ld_b3, ld_g3, ld_b3n, ld_W4, ld_b4]
  unfold G4 h3
  have hrow : rowOf t ⟨304 * p.val + j.val, hr⟩
      = (⟨304 * ((ix3 (⟨50 * t.val + p.val, by have ht : t.val < 20 := t.isLt; have := p.isLt; omega⟩ : Fin 1000) j q : S1000x300x64.Idx) 0).val
          + ((ix3 (⟨50 * t.val + p.val, by have ht : t.val < 20 := t.isLt; have := p.isLt; omega⟩ : Fin 1000) j q : S1000x300x64.Idx) 1).val,
          by have ht : t.val < 20 := t.isLt; have := p.isLt; have := j.isLt; show 304 * (50 * t.val + p.val) + j.val < 304000; omega⟩ : Fin 304000) :=
    Fin.ext (by show 15200 * t.val + (304 * p.val + j.val) = 304 * (50 * t.val + p.val) + j.val; ring)
  rw [hrow]

/-- An index of the result is in point t's block iff each coordinate is in the block's range on its axis. -/
theorem mem_blk (t : Fin cfg4.N) (i : S1000x300x64.Idx) :
    i ∈ ((cfg4.win 11).blk t).view.set ↔ ∀ a : Fin 3, win4_11.index t a * S50x300x64.size a ≤ (i a).val
      ∧ (i a).val < win4_11.index t a * S50x300x64.size a + S50x300x64.size a := by
  show i ∈ ((View.whole main_v0).slice (win4_11.rect t)).set ↔ _
  rw [View.set_slice_whole, Rect.mem_set_unit]
  exact Iff.rfl

/-- The twenty blocks tile the result: detection n is in the block of point n / 50. -/
theorem cover (i : S1000x300x64.Idx) : ∃ t : Fin cfg4.N, (cfg4.win 11).flush t = true ∧ i ∈ ((cfg4.win 11).blk t).view.set := by
  have h0 : (i 0).val < 1000 := (i 0).isLt
  have h1 : (i 1).val < 300 := (i 1).isLt
  have h2 : (i 2).val < 64 := (i 2).isLt
  let t : Fin cfg4.N := ⟨(i 0).val / 50, by show (i 0).val / 50 < 20; omega⟩
  obtain ⟨-, -, e0, e1, e2, -⟩ := idx_facts t
  refine ⟨t, flush4_11 t, ?_⟩
  rw [mem_blk]
  intro a
  match a with
  | ⟨0, _⟩ => show win4_11.index t (0 : Fin 3) * 50 ≤ (i 0).val ∧ (i 0).val < win4_11.index t (0 : Fin 3) * 50 + 50
              rw [e0]; show (i 0).val / 50 * 50 ≤ (i 0).val ∧ (i 0).val < (i 0).val / 50 * 50 + 50; omega
  | ⟨1, _⟩ => show win4_11.index t (1 : Fin 3) * 300 ≤ (i 1).val ∧ (i 1).val < win4_11.index t (1 : Fin 3) * 300 + 300
              rw [e1]; omega
  | ⟨2, _⟩ => show win4_11.index t (2 : Fin 3) * 64 ≤ (i 2).val ∧ (i 2).val < win4_11.index t (2 : Fin 3) * 64 + 64
              rw [e2]; omega

/-- THE RESULT ARRAY after the launch is `G4` of the arrays the launch finds. -/
theorem final (c : Dev nD) : (dat4 (F := Ideal) V c).arrAt 11 cfg4.N
    = G4 (V c main_call0_v16_0) (V c main_call0_v16_1) (V c main_call0_v20) (V c main_call0_v21) (V c main_call0_v22)
        (V c main_arg14) (V c main_call0_v23) (V c main_call0_v24) (V c main_call0_v25) (V c main_arg18) (V c main_call0_v26) :=
  (dat4 (F := Ideal) V c).arrAt_eq_of_cover 11 _ (fun t _ => flushed_eq V c t) cover

end Cert.KernelIdeal.R4

end
-- ==== Proof.LibRowPieces.lean ====
/-
  Stores through row slices of a matrix-shaped buffer, read back at an entry.

  A buffer of R × C entries is written by a list of stores (the last store first), each through a rectangle; what the
  list leaves at an entry is the payload of the first store of the list whose rectangle holds the entry. For a store
  through the slice "row a, columns 0 … W − 1" this reads: at an entry (a, q) with q < W the store's payload at (0, q);
  at every other entry what the earlier stores left. A load through such a slice of what earlier stores left reads,
  at (0, q), what they left at (a, q).
-/
import Idealize.ShloMosaic.Lib.Pipeline.FrameBody
import Idealize.ShloMosaic.Lib.WritesUnit
import Idealize.ShloMosaic.Lib.Pipeline.Value
import Idealize.ShloMosaic.Lib.ValueIdx

noncomputable section

namespace Cert.RowPieces

open Idealize.ShloMosaic Idealize.ShloMosaic.ValueIdx

variable {Val : EltTy → Type} [∀ e, Nonempty (Val e)] {e : EltTy} {R C : Nat}

/-- An entry is in the slice "row a, columns below W" iff its row is a and its column is below W. -/
theorem mem_row {a W : Nat} (inb : ∀ d, (![a, 0] : Fin 2 → Nat) d + (![1, W] : Fin 2 → Nat) d ≤ (⟨2, ![R, C]⟩ : Shape).size d)
    (y : (⟨2, ![R, C]⟩ : Shape).Idx) :
    y ∈ (Rect.unit (s := ⟨2, ![R, C]⟩) ![a, 0] ![1, W] inb).set ↔ (y 0).val = a ∧ (y 1).val < W := by
  rw [Rect.mem_set_unit, Fin.forall_fin_two]
  show (a ≤ (y 0).val ∧ (y 0).val < a + 1) ∧ (0 ≤ (y 1).val ∧ (y 1).val < 0 + W) ↔ _
  omega

/-- Under a last store through the slice, the buffer holds the store's payload. -/
theorem canon_row_hit {a W : Nat} (inb : ∀ d, (![a, 0] : Fin 2 → Nat) d + (![1, W] : Fin 2 → Nat) d ≤ (⟨2, ![R, C]⟩ : Shape).size d)
    (w : (⟨2, ![1, W]⟩ : Shape).Idx → Val e) (L : List (View.Piece Val (⟨2, ![R, C]⟩ : Shape) e))
    (y : (⟨2, ![R, C]⟩ : Shape).Idx) (h0 : (y 0).val = a) (h1 : (y 1).val < W) :
    View.canon ((⟨Rect.unit (s := ⟨2, ![R, C]⟩) ![a, 0] ![1, W] inb, w⟩ : View.Piece Val _ e) :: L) y
      = w (ix2 (0 : Fin 1) (⟨(y 1).val, h1⟩ : Fin W)) := by
  have hy : y = (Rect.unit (s := ⟨2, ![R, C]⟩) ![a, 0] ![1, W] inb).emb (ix2 (0 : Fin 1) (⟨(y 1).val, h1⟩ : Fin W)) :=
    funext fun d => Fin.ext (by
      match d with
      | ⟨0, _⟩ => show (y 0).val = a + 1 * 0; omega
      | ⟨1, _⟩ => show (y 1).val = 0 + 1 * (y 1).val; omega)
  exact (congrArg (View.canon _) hy).trans
    (View.canon_cons_emb (Rect.unit (s := ⟨2, ![R, C]⟩) ![a, 0] ![1, W] inb) w L (ix2 (0 : Fin 1) (⟨(y 1).val, h1⟩ : Fin W)))

/-- Off the slice, what the earlier stores left. -/
theorem canon_row_miss {a W : Nat} (inb : ∀ d, (![a, 0] : Fin 2 → Nat) d + (![1, W] : Fin 2 → Nat) d ≤ (⟨2, ![R, C]⟩ : Shape).size d)
    (w : (⟨2, ![1, W]⟩ : Shape).Idx → Val e) (L : List (View.Piece Val (⟨2, ![R, C]⟩ : Shape) e))
    (y : (⟨2, ![R, C]⟩ : Shape).Idx) (h : ¬((y 0).val = a ∧ (y 1).val < W)) :
    View.canon ((⟨Rect.unit (s := ⟨2, ![R, C]⟩) ![a, 0] ![1, W] inb, w⟩ : View.Piece Val _ e) :: L) y = View.canon L y :=
  View.canon_cons_of_not_mem _ L (by rw [mem_row]; exact h)

/-- A load through the slice of what the stores `L` left reads, at (0, q), what they left at (a, q). -/
theorem readCov_row {sig : RefSig} {κ : Kind} {sp : Space} (v : View sig κ sp (⟨2, ![R, C]⟩ : Shape) e) {a W : Nat}
    (inb : ∀ d, (![a, 0] : Fin 2 → Nat) d + (![1, W] : Fin 2 → Nat) d ≤ (⟨2, ![R, C]⟩ : Shape).size d)
    (L : List (View.Piece Val (⟨2, ![R, C]⟩ : Shape) e)) (q : Fin W) (ha : a < R) (hq : q.val < C) :
    v.readCov L (Rect.unit (s := ⟨2, ![R, C]⟩) ![a, 0] ![1, W] inb).toLoadRect (ix2 (0 : Fin 1) q)
      = View.canon L (ix2 (⟨a, ha⟩ : Fin R) (⟨q.val, hq⟩ : Fin C)) := by
  rw [View.readCov_eq_canon']
  refine congrArg (View.canon L) (funext fun d => Fin.ext ?_)
  match d with
  | ⟨0, _⟩ => show a + 1 * 0 = a; omega
  | ⟨1, _⟩ => show 0 + 1 * q.val = q.val; omega

/-! ## The same over ANY prior contents: a read of the buffer after the stores -/

section Over

variable {sig : RefSig} {κ : Kind} {sp : Space} (v : View sig κ sp (⟨2, ![R, C]⟩ : Shape) e) (f : v.ty.Contents Val)

/-- Under a last store through the slice, the buffer reads the store's payload. -/
theorem read_row_hit {a W : Nat} (inb : ∀ d, (![a, 0] : Fin 2 → Nat) d + (![1, W] : Fin 2 → Nat) d ≤ (⟨2, ![R, C]⟩ : Shape).size d)
    (w : (⟨2, ![1, W]⟩ : Shape).Idx → Val e) (L : List (View.Piece Val (⟨2, ![R, C]⟩ : Shape) e))
    (y : (⟨2, ![R, C]⟩ : Shape).Idx) (h0 : (y 0).val = a) (h1 : (y 1).val < W) :
    v.read Val (v.writes Val f ((⟨Rect.unit (s := ⟨2, ![R, C]⟩) ![a, 0] ![1, W] inb, w⟩ : View.Piece Val _ e) :: L)) y
      = w (ix2 (0 : Fin 1) (⟨(y 1).val, h1⟩ : Fin W)) :=
  View.read_writes_cons_unit_of_mem v f inb w L y (ix2 (0 : Fin 1) (⟨(y 1).val, h1⟩ : Fin W)) rfl
    (Fin.forall_fin_two.mpr ⟨by show (y 0).val = a + 0; omega, by show (y 1).val = 0 + (y 1).val; omega⟩)

/-- Off the slice, what the earlier stores left. -/
theorem read_row_miss {a W : Nat} (inb : ∀ d, (![a, 0] : Fin 2 → Nat) d + (![1, W] : Fin 2 → Nat) d ≤ (⟨2, ![R, C]⟩ : Shape).size d)
    (w : (⟨2, ![1, W]⟩ : Shape).Idx → Val e) (L : List (View.Piece Val (⟨2, ![R, C]⟩ : Shape) e))
    (y : (⟨2, ![R, C]⟩ : Shape).Idx) (h : ¬((y 0).val = a ∧ (y 1).val < W)) :
    v.read Val (v.writes Val f ((⟨Rect.unit (s := ⟨2, ![R, C]⟩) ![a, 0] ![1, W] inb, w⟩ : View.Piece Val _ e) :: L)) y
      = v.read Val (v.writes Val f L) y := by
  rw [View.writes_cons]
  exact View.read_slice_write_of_not_mem _ _ _ _ (by rw [Rect.map_emb_univ, mem_row]; exact h)

end Over

end Cert.RowPieces

end
-- ==== Proof.R3Value.lean ====
/-
  The fourth launch: the moments of the third layer, as one function of the arrays the launch finds.

  The launch's one output is a 3 × 128 block of moments that stays in place over the 20 grid points and is written back
  once, after the last. Point 0 zeroes it; every point adds the column sums of its tile's activations to row 0 and of
  their squares to row 1 (columns 0 … 63); the last point then adds −4000 · c and −4000 · c² and stores c in row 2, c the
  activation row every padded pair carries. Read at an entry, what each of the three control cases leaves is one
  "step" (and, at the last point, one "finish") applied to what the point before left.
-/
import proofs.«139309_g56014963475156_cont_9to1_m_1179_16_alg».proof.Proof.Gen.KernelIdeal.Frame
import proofs.«139309_g56014963475156_cont_9to1_m_1179_16_alg».proof.Proof.R3Payload
import proofs.«139309_g56014963475156_cont_9to1_m_1179_16_alg».proof.Proof.LibRowPieces

set_option maxRecDepth 16384

noncomputable section

namespace Cert.KernelIdeal.R3

open Cert.KernelIdeal Cert.KernelIdeal.Gen
open Idealize.ShloMosaic Idealize.ShloMosaic.ValueIdx Idealize.ShloMosaic.TcCoe Idealize.ShloMosaic.Tactic
open Idealize.ShloMosaic.Pipeline (Dat Cfg Window)
open Cert.KernelIdeal.R4 (scale shift zer cinv eps)

theorem hz2 : (![0, 0] : Fin 2 → Nat) = fun _ => 0 := funext fun a => by fin_cases a <;> rfl

/-- One tile's contribution to the moments: row 1 gains the column sums of the squares, row 0 the column sums. -/
def step (A : Fin 15200 → Fin 64 → EReal) (prev : S3x128.Idx → EReal) : S3x128.Idx → EReal := fun y =>
  if h : (y 0).val = 1 ∧ (y 1).val < 64 then prev y + ∑ r : Fin 15200, A r ⟨(y 1).val, h.2⟩ * A r ⟨(y 1).val, h.2⟩
  else if h : (y 0).val = 0 ∧ (y 1).val < 64 then prev y + ∑ r : Fin 15200, A r ⟨(y 1).val, h.2⟩
  else prev y

/-- The last point's correction: row 2 receives the padded pairs' activation row c, rows 1 and 0 lose 4000 · c² and 4000 · c. -/
def finish (c : Fin 64 → EReal) (s : S3x128.Idx → EReal) : S3x128.Idx → EReal := fun y =>
  if h : (y 0).val = 2 ∧ (y 1).val < 64 then c ⟨(y 1).val, h.2⟩
  else if h : (y 0).val = 1 ∧ (y 1).val < 64 then s y + m4000 * (c ⟨(y 1).val, h.2⟩ * c ⟨(y 1).val, h.2⟩)
  else if h : (y 0).val = 0 ∧ (y 1).val < 64 then s y + m4000 * c ⟨(y 1).val, h.2⟩
  else s y

/-- The tile's activations from the launch's blocks (rows 0 and 1 of the incoming moments give the scale and shift). -/
def Ablk (x0 : Vec Ideal S15200x32 .f32) (x1 : Vec Ideal S3x128 .f32) (x2 : Vec Ideal S1x32 .f32) (x3 : Vec Ideal S1x32 .f32) (x4 : Vec Ideal S32x64 .f32) (x5 : Vec Ideal S1x64 .f32) : Fin 15200 → Fin 64 → EReal := fun r q =>
  k3_pay1 (F := Ideal) (k3_pay12 x5)
    (k3_pay13 x2 x3 (View.ld x1 (Rect.unit (s := S3x128) ![0, 0] S1x32.size inb_S3x128_S1x32_0_0))
      (View.ld x1 (Rect.unit (s := S3x128) ![1, 0] S1x32.size inb_S3x128_S1x32_1_0)) x4 x0) (ix2 r q)

/-- The padded pairs' activation row from the launch's blocks (row 2 of the incoming moments is the constant before). -/
def cblk (x1 : Vec Ideal S3x128 .f32) (x2 x3 : Vec Ideal S1x32 .f32) (x4 : Vec Ideal S32x64 .f32) (x5 : Vec Ideal S1x64 .f32) : Fin 64 → EReal := fun q =>
  k3_pay4 (F := Ideal)
    (k3_pay9 x2 (View.ld x1 (Rect.unit (s := S3x128) ![0, 0] S1x32.size inb_S3x128_S1x32_0_0))
      (View.ld x1 (Rect.unit (s := S3x128) ![1, 0] S1x32.size inb_S3x128_S1x32_1_0)))
    (k3_pay10 x2 x3 (View.ld x1 (Rect.unit (s := S3x128) ![0, 0] S1x32.size inb_S3x128_S1x32_0_0))
      (View.ld x1 (Rect.unit (s := S3x128) ![1, 0] S1x32.size inb_S3x128_S1x32_1_0)))
    (k3_pay11 x4) (k3_pay12 x5)
    (View.ld x1 (Rect.unit (s := S3x128) ![2, 0] S1x32.size inb_S3x128_S1x32_2_0)) (ix2 (0 : Fin 1) q)

/-- A load of row a of the running block, at column q. -/
theorem ld_row (xo : Vec Ideal S3x128 .f32) (a : Nat) (inb : ∀ d, (![a, 0] : Fin 2 → Nat) d + (![1, 64] : Fin 2 → Nat) d ≤ S3x128.size d)
    (y : S3x128.Idx) (h0 : (y 0).val = a) (h1 : (y 1).val < 64) :
    View.ld xo (Rect.unit (s := S3x128) ![a, 0] ![1, 64] inb) (ix2 (0 : Fin 1) (⟨(y 1).val, h1⟩ : Fin 64)) = xo y :=
  congrArg xo (funext fun d => Fin.ext (by
    match d with
    | ⟨0, _⟩ => show a + 1 * 0 = (y 0).val; omega
    | ⟨1, _⟩ => show 0 + 1 * (y 1).val = (y 1).val; omega))

/-- CASE B (a middle point): one step over what the point before left. -/
theorem caseB (c : Dev nD) (i : grid3.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S3x128 .f32) (harg7 : arg7.IsWhole) (hc0 : ¬cond3_0 i) (hc1 : ¬cond3_1 i) (x0 : Vec Ideal S15200x32 .f32) (x1 : Vec Ideal S3x128 .f32) (x2 : Vec Ideal S1x32 .f32) (x3 : Vec Ideal S1x32 .f32) (x4 : Vec Ideal S32x64 .f32) (x5 : Vec Ideal S1x64 .f32) (xo6 : Vec Ideal S3x128 .f32) :
    out3_B_6 (F := Ideal) c i arg1 harg1 arg2 harg2 arg3 harg3 arg4 harg4 arg5 harg5 arg6 harg6 arg7 harg7 hc0 hc1 x0 x1 x2 x3 x4 x5 xo6 = step (Ablk x0 x1 x2 x3 x4 x5) xo6 := by
  unfold out3_B_6 kernelRun3_B
  dsimp only
  sl_unfold_words
  simp only [View.readAt_eq_ld, harg1.read_unread, harg2.read_unread, harg3.read_unread, harg4.read_unread, harg5.read_unread, harg6.read_unread, harg7.read_unread,
    View.ld_unit_zero (S := S1x64) hz2, View.ld_unit_zero (S := S1x32) hz2, View.ld_unit_zero (S := S32x64) hz2, View.ld_unit_zero (S := S15200x32) hz2]
  funext y
  unfold step
  by_cases h1 : (y 0).val = 1 ∧ (y 1).val < 64
  · rw [dif_pos h1]
    refine (Cert.RowPieces.read_row_hit _ _ _ _ _ y h1.1 h1.2).trans ?_
    refine (pay3_apply _ _ _ _).trans ?_
    rw [ld_row xo6 1 _ y h1.1 h1.2]
    rfl
  · rw [dif_neg h1]
    refine (Cert.RowPieces.read_row_miss _ _ _ _ _ y h1).trans ?_
    by_cases h0 : (y 0).val = 0 ∧ (y 1).val < 64
    · rw [dif_pos h0]
      refine (Cert.RowPieces.read_row_hit _ _ _ _ _ y h0.1 h0.2).trans ?_
      refine (pay2_apply _ _ _ _).trans ?_
      rw [ld_row xo6 0 _ y h0.1 h0.2]
      rfl
    · rw [dif_neg h0]
      refine (Cert.RowPieces.read_row_miss _ _ _ _ _ y h0).trans ?_
      rw [View.writes_nil, harg7.read_unread]

/-- The zero block. -/
theorem pay7_apply (y : S3x128.Idx) : k3_pay7 (F := Ideal) y = zer := rfl

/-- A read of the buffer after one store through the whole block. -/
theorem read_whole {sig' : RefSig} {κ' : Kind} {sp' : Space} (v : View sig' κ' sp' S3x128 .f32) (f : v.ty.Contents (Elt Ideal))
    (w : S3x128.Idx → EReal) (y : S3x128.Idx) :
    v.read (Elt Ideal) (v.writes (Elt Ideal) f [(⟨Rect.unit (s := S3x128) ![0, 0] S3x128.size inb_S3x128_S3x128_0_0, w⟩ : View.Piece (Elt Ideal) S3x128 .f32)]) y = w y :=
  View.read_writes_cons_unit_of_mem v f inb_S3x128_S3x128_0_0 w [] y y rfl
    (Fin.forall_fin_two.mpr ⟨by show (y 0).val = 0 + (y 0).val; omega, by show (y 1).val = 0 + (y 1).val; omega⟩)

/-- CASE A (the first point): one step over the zero block. -/
theorem caseA (c : Dev nD) (i : grid3.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S3x128 .f32) (harg7 : arg7.IsWhole) (hc0 : cond3_0 i) (hc1 : ¬cond3_1 i) (x0 : Vec Ideal S15200x32 .f32) (x1 : Vec Ideal S3x128 .f32) (x2 : Vec Ideal S1x32 .f32) (x3 : Vec Ideal S1x32 .f32) (x4 : Vec Ideal S32x64 .f32) (x5 : Vec Ideal S1x64 .f32) :
    out3_A_6 (F := Ideal) c i arg1 harg1 arg2 harg2 arg3 harg3 arg4 harg4 arg5 harg5 arg6 harg6 arg7 harg7 hc0 hc1 x0 x1 x2 x3 x4 x5 = step (Ablk x0 x1 x2 x3 x4 x5) (fun _ => zer) := by
  unfold out3_A_6 kernelRun3_A
  dsimp only
  sl_unfold_words
  simp only [View.readAt_eq_ld, harg1.read_unread, harg2.read_unread, harg3.read_unread, harg4.read_unread, harg5.read_unread, harg6.read_unread, harg7.read_unread,
    View.ld_unit_zero (S := S1x64) hz2, View.ld_unit_zero (S := S1x32) hz2, View.ld_unit_zero (S := S32x64) hz2, View.ld_unit_zero (S := S15200x32) hz2]
  funext y
  unfold step
  have hy1 : (y 1).val < 128 := (y 1).isLt
  by_cases h1 : (y 0).val = 1 ∧ (y 1).val < 64
  · rw [dif_pos h1]
    refine (Cert.RowPieces.read_row_hit _ _ _ _ _ y h1.1 h1.2).trans ?_
    refine (pay3_apply _ _ _ _).trans ?_
    rw [Cert.RowPieces.readCov_row _ _ _ ⟨(y 1).val, h1.2⟩ (by omega : 1 < 3) (by show (y 1).val < 128; omega),
      Cert.RowPieces.canon_row_miss _ _ _ _ (by show ¬((1 : Nat) = 0 ∧ _); omega), View.canon_unit_zero hz2]
    rfl
  · rw [dif_neg h1]
    refine (Cert.RowPieces.read_row_miss _ _ _ _ _ y h1).trans ?_
    by_cases h0 : (y 0).val = 0 ∧ (y 1).val < 64
    · rw [dif_pos h0]
      refine (Cert.RowPieces.read_row_hit _ _ _ _ _ y h0.1 h0.2).trans ?_
      refine (pay2_apply _ _ _ _).trans ?_
      rw [Cert.RowPieces.readCov_row _ _ _ ⟨(y 1).val, h0.2⟩ (by omega : 0 < 3) (by show (y 1).val < 128; omega), View.canon_unit_zero hz2]
      rfl
    · rw [dif_neg h0]
      refine (Cert.RowPieces.read_row_miss _ _ _ _ _ y h0).trans ?_
      exact read_whole _ _ _ y

/-- CASE C (the last point): one step, then the correction. -/
theorem caseC (c : Dev nD) (i : grid3.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S3x128 .f32) (harg7 : arg7.IsWhole) (hc0 : ¬cond3_0 i) (hc1 : cond3_1 i) (x0 : Vec Ideal S15200x32 .f32) (x1 : Vec Ideal S3x128 .f32) (x2 : Vec Ideal S1x32 .f32) (x3 : Vec Ideal S1x32 .f32) (x4 : Vec Ideal S32x64 .f32) (x5 : Vec Ideal S1x64 .f32) (xo6 : Vec Ideal S3x128 .f32) :
    out3_C_6 (F := Ideal) c i arg1 harg1 arg2 harg2 arg3 harg3 arg4 harg4 arg5 harg5 arg6 harg6 arg7 harg7 hc0 hc1 x0 x1 x2 x3 x4 x5 xo6
      = finish (cblk x1 x2 x3 x4 x5) (step (Ablk x0 x1 x2 x3 x4 x5) xo6) := by
  unfold out3_C_6 kernelRun3_C
  dsimp only
  sl_unfold_words
  simp only [View.readAt_eq_ld, harg1.read_unread, harg2.read_unread, harg3.read_unread, harg4.read_unread, harg5.read_unread, harg6.read_unread, harg7.read_unread,
    View.ld_unit_zero (S := S1x64) hz2, View.ld_unit_zero (S := S1x32) hz2, View.ld_unit_zero (S := S32x64) hz2, View.ld_unit_zero (S := S15200x32) hz2]
  funext y
  unfold finish step
  have hy1 : (y 1).val < 128 := (y 1).isLt
  by_cases h2 : (y 0).val = 2 ∧ (y 1).val < 64
  · rw [dif_pos h2]
    refine (Cert.RowPieces.read_row_hit _ _ _ _ _ y h2.1 h2.2).trans ?_
    rfl
  · rw [dif_neg h2]
    refine (Cert.RowPieces.read_row_miss _ _ _ _ _ y h2).trans ?_
    by_cases h1 : (y 0).val = 1 ∧ (y 1).val < 64
    · rw [dif_pos h1, dif_pos h1]
      refine (Cert.RowPieces.read_row_hit _ _ _ _ _ y h1.1 h1.2).trans ?_
      refine (pay6_apply _ _ _ _ _ _ _).trans ?_
      refine congrArg (fun z => z + m4000 * (cblk x1 x2 x3 x4 x5 ⟨(y 1).val, h1.2⟩ * cblk x1 x2 x3 x4 x5 ⟨(y 1).val, h1.2⟩)) ?_
      rw [Cert.RowPieces.readCov_row _ _ _ ⟨(y 1).val, h1.2⟩ (by omega : 1 < 3) (by show (y 1).val < 128; omega)]
      refine (Cert.RowPieces.canon_row_miss (Val := Elt Ideal) _ _ _ (ix2 (⟨1, by omega⟩ : Fin 3) (⟨(y 1).val, hy1⟩ : Fin 128)) (by show ¬((1 : Nat) = 0 ∧ _); omega)).trans ?_
      refine (Cert.RowPieces.canon_row_hit (Val := Elt Ideal) _ _ _ (ix2 (⟨1, by omega⟩ : Fin 3) (⟨(y 1).val, hy1⟩ : Fin 128)) rfl h1.2).trans ?_
      refine (pay3_apply _ _ _ _).trans ?_
      exact congrArg₂ (· + ·) (ld_row xo6 1 _ y h1.1 h1.2) rfl
    · rw [dif_neg h1, dif_neg h1]
      refine (Cert.RowPieces.read_row_miss _ _ _ _ _ y h1).trans ?_
      by_cases h0 : (y 0).val = 0 ∧ (y 1).val < 64
      · rw [dif_pos h0, dif_pos h0]
        refine (Cert.RowPieces.read_row_hit _ _ _ _ _ y h0.1 h0.2).trans ?_
        refine (pay5_apply _ _ _ _ _ _ _).trans ?_
        refine congrArg (fun z => z + m4000 * cblk x1 x2 x3 x4 x5 ⟨(y 1).val, h0.2⟩) ?_
        rw [Cert.RowPieces.readCov_row _ _ _ ⟨(y 1).val, h0.2⟩ (by omega : 0 < 3) (by show (y 1).val < 128; omega)]
        refine (Cert.RowPieces.canon_row_miss (Val := Elt Ideal) _ _ _ (ix2 (⟨0, by omega⟩ : Fin 3) (⟨(y 1).val, hy1⟩ : Fin 128)) (by show ¬((0 : Nat) = 1 ∧ _); omega)).trans ?_
        refine (Cert.RowPieces.canon_row_hit (Val := Elt Ideal) _ _ _ (ix2 (⟨0, by omega⟩ : Fin 3) (⟨(y 1).val, hy1⟩ : Fin 128)) rfl h0.2).trans ?_
        refine (pay2_apply _ _ _ _).trans ?_
        exact congrArg₂ (· + ·) (ld_row xo6 0 _ y h0.1 h0.2) rfl
      · rw [dif_neg h0, dif_neg h0]
        refine (Cert.RowPieces.read_row_miss _ _ _ _ _ y h0).trans ?_
        refine (Cert.RowPieces.read_row_miss _ _ _ _ _ y h1).trans ?_
        refine (Cert.RowPieces.read_row_miss _ _ _ _ _ y h0).trans ?_
        rw [View.writes_nil, harg7.read_unread]

/-! ## Over the grid -/

variable (V : (c : Dev nD) → (b : Ref sig .tc) → Buf (Elt Ideal) ((c : Thread nD τ).loc b))

/-- The tile's activations at grid point t, from the arrays the launch finds. -/
def Aat (c : Dev nD) (t : Fin cfg3.N) : Fin 15200 → Fin 64 → EReal :=
  Ablk (iblk3 V c 0 t) (iblk3 V c 1 t) (iblk3 V c 2 t) (iblk3 V c 3 t) (iblk3 V c 4 t) (iblk3 V c 5 t)

/-- The padded pairs' activation row, as grid point t computes it. -/
def cat (c : Dev nD) (t : Fin cfg3.N) : Fin 64 → EReal :=
  cblk (iblk3 V c 1 t) (iblk3 V c 2 t) (iblk3 V c 3 t) (iblk3 V c 4 t) (iblk3 V c 5 t)

/-- The running moments after point n: the steps of points 0 … n over the zero block. -/
def stAt (c : Dev nD) : (n : ℕ) → n < cfg3.N → S3x128.Idx → EReal
  | 0, h => step (Aat V c ⟨0, h⟩) (fun _ => zer)
  | n + 1, h => step (Aat V c ⟨n + 1, h⟩) (stAt c n (Nat.lt_of_succ_lt h))

/-- Before the last point the block holds the running moments. -/
theorem outs_eq (c : Dev nD) : ∀ (n : ℕ) (hn : n < cfg3.N), n < 19 → outsAt3 (F := Ideal) V c n hn = stAt V c n hn
  | 0, hn, _ => by
    rw [outsAt3_A V c ⟨0, hn⟩ (Nat.zero_mod 20) (by show ¬ (0 : ℕ) % 20 = 19; omega), caseA]
    rfl
  | n + 1, hn, h => by
    have h0 : ¬ (n + 1) % 20 = 0 := by omega
    have h1 : ¬ (n + 1) % 20 = 19 := by omega
    rw [outsAt3_B V c ⟨n + 1, hn⟩ h0 h1, caseB]
    show step _ (outsAt3 V c n _) = step _ (stAt V c n _)
    rw [outs_eq c n _ (by omega)]
    rfl

theorem lt19 : 19 < cfg3.N := by show 19 < grid3.N; rw [N_3]; decide
theorem lt18 : 18 < cfg3.N := by show 18 < grid3.N; rw [N_3]; decide

/-- What the last point leaves: the last step, then the correction. -/
def stLast (c : Dev nD) : S3x128.Idx → EReal :=
  finish (cat V c ⟨19, lt19⟩) (step (Aat V c ⟨19, lt19⟩) (stAt V c 18 lt18))

theorem outs_last (c : Dev nD) : outsAt3 (F := Ideal) V c 19 lt19 = stLast V c := by
  rw [outsAt3_C V c ⟨19, lt19⟩ (by show ¬ (19 : ℕ) % 20 = 0; omega) (by show (19 : ℕ) % 20 = 19; omega), caseC]
  show finish _ (step _ (outsAt3 V c 18 _)) = _
  rw [outs_eq V c 18 lt18 (by decide)]
  rfl

/-- The moments' window stays at block zero. -/
theorem idx6 : ∀ t : Fin cfg3.N, win3_6.index t (0 : Fin 2) = 0 ∧ win3_6.index t (1 : Fin 2) = 0 :=
  (by decide +kernel : ∀ t : Fin grid3.N, _)

/-- THE MOMENTS ARRAY after the launch: what the last point left. -/
theorem final_st3 (c : Dev nD) : (dat3 (F := Ideal) V c).arrAt 6 cfg3.N = stLast V c := by
  refine (dat3 (F := Ideal) V c).arrAt_eq_of_cover 6 _ (fun t hf => ?_) (fun i => ?_)
  · have ht : t.val % 20 = 19 := (flush3_6 t).mp hf
    have hN : t.val < 20 := lt_of_lt_of_eq t.isLt N_3
    have e : t = ⟨19, lt19⟩ := Fin.ext (by show t.val = 19; omega)
    subst e
    obtain ⟨e0, e1⟩ := idx6 ⟨19, lt19⟩
    show (cfg3.win 6).cut (grid3.coords ⟨19, lt19⟩) ((dat3 V c).after 6 ⟨19, lt19⟩) = _
    rw [after3_6]
    funext y
    show outsAt3 V c 19 lt19 y = stLast V c (((cfg3.win 6).blk ⟨19, lt19⟩).view.emb y)
    rw [outs_last]
    refine congrArg _ (funext fun a => Fin.ext ?_)
    match a with
    | ⟨0, _⟩ => show (y 0).val = win3_6.index ⟨19, lt19⟩ (0 : Fin 2) * 3 + 1 * (y 0).val; rw [e0]; ring
    | ⟨1, _⟩ => show (y 1).val = win3_6.index ⟨19, lt19⟩ (1 : Fin 2) * 128 + 1 * (y 1).val; rw [e1]; ring
  · obtain ⟨e0, e1⟩ := idx6 ⟨19, lt19⟩
    refine ⟨⟨19, lt19⟩, (flush3_6 _).mpr (by show (19 : ℕ) % 20 = 19; omega), ?_⟩
    show i ∈ ((View.whole main_call0_v20).slice (win3_6.rect ⟨19, lt19⟩)).set
    rw [View.set_slice_whole, Rect.mem_set_unit]
    intro a
    have h0 : (i 0).val < 3 := (i 0).isLt
    have h1 : (i 1).val < 128 := (i 1).isLt
    match a with
    | ⟨0, _⟩ => show win3_6.index ⟨19, lt19⟩ (0 : Fin 2) * 3 ≤ (i 0).val ∧ (i 0).val < win3_6.index ⟨19, lt19⟩ (0 : Fin 2) * 3 + 3; rw [e0]; omega
    | ⟨1, _⟩ => show win3_6.index ⟨19, lt19⟩ (1 : Fin 2) * 128 ≤ (i 1).val ∧ (i 1).val < win3_6.index ⟨19, lt19⟩ (1 : Fin 2) * 128 + 128; rw [e1]; omega

end Cert.KernelIdeal.R3

end
-- ==== Proof.LibSumTiles.lean ====
/-
  Sums over consecutive indices, cut into tiles.

  A finite sum over the first `T * n` naturals, in any commutative additive monoid, is the sum over the `T` tiles
  `{s * n, …, s * n + n - 1}` of the sum over each tile: the tiles are consecutive and disjoint, and together they are
  the whole range. The proof is an induction on the number of tiles: one more tile appends `n` more consecutive indices.
-/
import Mathlib.Algebra.BigOperators.Fin

namespace Cert.LibSumTiles

open Finset

/-- A sum over the first `T * n` naturals is the sum over `T` consecutive tiles of `n` indices each:
    `∑ k < T * n, f k = ∑ s < T, ∑ j < n, f (s * n + j)`. Both outer sums are over ranges of naturals. -/
theorem sum_range_tiles {β : Type*} [AddCommMonoid β] (T n : ℕ) (f : ℕ → β) :
    ∑ k ∈ range (T * n), f k = ∑ s ∈ range T, ∑ j ∈ range n, f (s * n + j) := by
  induction T with
  | zero => simp
  | succ T ih => rw [sum_range_succ, ← ih, Nat.add_mul, Nat.one_mul, sum_range_add]

/-- A sum over `Fin (T * n)` of a function of the index's value is the sum over `T` tiles of the sum over each
    tile's `n` indices: `∑ k : Fin (T * n), f k = ∑ s < T, ∑ j : Fin n, f (s * n + j)`. -/
theorem sum_tiles {β : Type*} [AddCommMonoid β] (T n : ℕ) (f : ℕ → β) :
    ∑ k : Fin (T * n), f k.val = ∑ s ∈ Finset.range T, ∑ j : Fin n, f (s * n + j.val) := by
  rw [Fin.sum_univ_eq_sum_range f (T * n), sum_range_tiles]
  exact sum_congr rfl fun s _ => (Fin.sum_univ_eq_sum_range (fun j => f (s * n + j)) n).symm

/-- The instance at `8192 = 16 * 512`: a sum over 8192 consecutive indices is the sum over 16 tiles of 512. -/
theorem sum_tiles_8192 {β : Type*} [AddCommMonoid β] (f : ℕ → β) :
    ∑ k : Fin 8192, f k.val = ∑ s ∈ Finset.range 16, ∑ j : Fin 512, f (s * 512 + j.val) :=
  sum_tiles 16 512 f

end Cert.LibSumTiles
-- ==== Proof.R3Closed.lean ====
/-
  The fourth launch: its moments as sums over all the pair rows.

  At grid point t the tile's row r is pair row 15200·t + r of the second layer's activations, and its activation is the
  function h3 of that row (the same function the last launch recomputes). So after the twenty points row 0 of the moments
  holds, in column q, the sum over ALL 304000 pair rows (real and padded) of h3 (·, q), corrected by −4000 times the
  padded pairs' activation; row 1 the same with squares; row 2 that activation.
-/
import proofs.«139309_g56014963475156_cont_9to1_m_1179_16_alg».proof.Proof.R3Value
import proofs.«139309_g56014963475156_cont_9to1_m_1179_16_alg».proof.Proof.R4Value
import proofs.«139309_g56014963475156_cont_9to1_m_1179_16_alg».proof.Proof.LibSumTiles

set_option maxRecDepth 16384

noncomputable section

namespace Cert.KernelIdeal.R3

open Cert.KernelIdeal Cert.KernelIdeal.Gen
open Idealize.ShloMosaic Idealize.ShloMosaic.ValueIdx Idealize.ShloMosaic.TcCoe
open Cert.KernelIdeal.R4 (scale shift zer cinv eps h3 col32 col64)

variable (V : (c : Dev nD) → (b : Ref sig .tc) → Buf (Elt Ideal) ((c : Thread nD τ).loc b))

/-- The printed index maps over the grid: the activations' block moves with the point, every other window stays at
    block zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Pair row r of point t's tile, as a row of the whole activations array. -/
def rowOf (t : Fin cfg3.N) (r : Fin 15200) : Fin 304000 :=
  ⟨15200 * t.val + r.val, by have ht : t.val < 20 := lt_of_lt_of_eq t.isLt N_3; have := r.isLt; omega⟩

theorem blk_a2 (c : Dev nD) (t : Fin cfg3.N) (r : Fin 15200) (k : Fin 32) :
    iblk3 V c 0 t (ix2 r k) = V c main_call0_v16_0 (ix2 (rowOf t r) k) := by
  obtain ⟨e0, e1, -⟩ := idx_facts t
  show V c main_call0_v16_0 (((cfg3.win 0).blk t).view.emb (ix2 r k)) = _
  refine congrArg _ (funext fun a => Fin.ext ?_)
  match a with
  | ⟨0, _⟩ => show win3_0.index t (0 : Fin 2) * 15200 + 1 * r.val = 15200 * t.val + r.val; rw [e0]; ring
  | ⟨1, _⟩ => show win3_0.index t (1 : Fin 2) * 32 + 1 * k.val = k.val; rw [e1]; ring

theorem ld_st2 (c : Dev nD) (t : Fin cfg3.N) (a : Fin 3) (inb : ∀ d, (![a.val, 0] : Fin 2 → Nat) d + S1x32.size d ≤ S3x128.size d) (k : Fin 32) :
    View.ld (iblk3 V c 1 t) (Rect.unit (s := S3x128) ![a.val, 0] S1x32.size inb) (ix2 (0 : Fin 1) k) = V c main_call0_v16_1 (ix2 a (col32 k)) := by
  obtain ⟨-, -, e0, e1, -⟩ := idx_facts t
  show V c main_call0_v16_1 (((cfg3.win 1).blk t).view.emb ((Rect.unit (s := S3x128) ![a.val, 0] S1x32.size inb).idx (ix2 (0 : Fin 1) k))) = _
  refine congrArg _ (funext fun d => Fin.ext ?_)
  match d with
  | ⟨0, _⟩ => show win3_1.index t (0 : Fin 2) * 3 + 1 * (a.val + 1 * 0) = a.val; rw [e0]; ring
  | ⟨1, _⟩ => show win3_1.index t (1 : Fin 2) * 128 + 1 * (0 + 1 * k.val) = k.val; rw [e1]; ring

theorem blk_g2 (c : Dev nD) (t : Fin cfg3.N) (k : Fin 32) : iblk3 V c 2 t (ix2 (0 : Fin 1) k) = V c main_call0_v17 (ix2 (0 : Fin 1) k) := by
  obtain ⟨-, -, -, -, e0, e1, -⟩ := idx_facts t
  show V c main_call0_v17 (((cfg3.win 2).blk t).view.emb (ix2 (0 : Fin 1) k)) = _
  refine congrArg _ (funext fun d => Fin.ext ?_)
  match d with
  | ⟨0, _⟩ => show win3_2.index t (0 : Fin 2) * 1 + 1 * 0 = 0; rw [e0]
  | ⟨1, _⟩ => show win3_2.index t (1 : Fin 2) * 32 + 1 * k.val = k.val; rw [e1]; ring

theorem blk_b2 (c : Dev nD) (t : Fin cfg3.N) (k : Fin 32) : iblk3 V c 3 t (ix2 (0 : Fin 1) k) = V c main_call0_v18 (ix2 (0 : Fin 1) k) := by
  obtain ⟨-, -, -, -, -, -, e0, e1, -⟩ := idx_facts t
  show V c main_call0_v18 (((cfg3.win 3).blk t).view.emb (ix2 (0 : Fin 1) k)) = _
  refine congrArg _ (funext fun d => Fin.ext ?_)
  match d with
  | ⟨0, _⟩ => show win3_3.index t (0 : Fin 2) * 1 + 1 * 0 = 0; rw [e0]
  | ⟨1, _⟩ => show win3_3.index t (1 : Fin 2) * 32 + 1 * k.val = k.val; rw [e1]; ring

theorem blk_W3 (c : Dev nD) (t : Fin cfg3.N) (k : Fin 32) (q : Fin 64) : iblk3 V c 4 t (ix2 k q) = V c main_arg14 (ix2 k q) := by
  obtain ⟨-, -, -, -, -, -, -, -, e0, e1, -⟩ := idx_facts t
  show V c main_arg14 (((cfg3.win 4).blk t).view.emb (ix2 k q)) = _
  refine congrArg _ (funext fun d => Fin.ext ?_)
  match d with
  | ⟨0, _⟩ => show win3_4.index t (0 : Fin 2) * 32 + 1 * k.val = k.val; rw [e0]; ring
  | ⟨1, _⟩ => show win3_4.index t (1 : Fin 2) * 64 + 1 * q.val = q.val; rw [e1]; ring

theorem blk_b3 (c : Dev nD) (t : Fin cfg3.N) (q : Fin 64) : iblk3 V c 5 t (ix2 (0 : Fin 1) q) = V c main_call0_v19 (ix2 (0 : Fin 1) q) := by
  obtain ⟨-, -, -, -, -, -, -, -, -, -, e0, e1⟩ := idx_facts t
  show V c main_call0_v19 (((cfg3.win 5).blk t).view.emb (ix2 (0 : Fin 1) q)) = _
  refine congrArg _ (funext fun d => Fin.ext ?_)
  match d with
  | ⟨0, _⟩ => show win3_5.index t (0 : Fin 2) * 1 + 1 * 0 = 0; rw [e0]
  | ⟨1, _⟩ => show win3_5.index t (1 : Fin 2) * 64 + 1 * q.val = q.val; rw [e1]; ring

/-- The third layer's activations of the whole array, from the launch's arrays. -/
def H (c : Dev nD) : Fin 304000 → Fin 64 → EReal :=
  h3 (V c main_call0_v16_0) (V c main_call0_v16_1) (V c main_call0_v17) (V c main_call0_v18) (V c main_arg14) (V c main_call0_v19)

/-- The tile's activations are the whole array's at the tile's rows. -/
theorem Aat_eq (c : Dev nD) (t : Fin cfg3.N) (r : Fin 15200) (q : Fin 64) : Aat V c t r q = H V c (rowOf t r) q := by
  unfold Aat Ablk
  rw [act_apply, blk_b3]
  unfold H h3
  refine congrArg (fun z => max (z + _) _) (Finset.sum_congr rfl fun k _ => ?_)
  rw [blk_a2, blk_g2, blk_b2, blk_W3]
  have e0 := ld_st2 V c t 0 inb_S3x128_S1x32_0_0 k
  have e1 := ld_st2 V c t 1 inb_S3x128_S1x32_1_0 k
  rw [show View.ld (iblk3 V c 1 t) (Rect.unit (s := S3x128) ![0, 0] S1x32.size inb_S3x128_S1x32_0_0) (ix2 (0 : Fin 1) k) = _ from e0,
    show View.ld (iblk3 V c 1 t) (Rect.unit (s := S3x128) ![1, 0] S1x32.size inb_S3x128_S1x32_1_0) (ix2 (0 : Fin 1) k) = _ from e1]

/-- The padded pairs' activation row, from the launch's arrays (row 2 of the incoming moments is the constant before). -/
def Cof (st2 : S3x128.Idx → EReal) (g2 b2 : S1x32.Idx → EReal) (W3 : S32x64.Idx → EReal) (b3 : S1x64.Idx → EReal) : Fin 64 → EReal := fun q =>
  max ((∑ k : Fin 32,
      (st2 (ix2 (2 : Fin 3) (col32 k))
          * scale (g2 (ix2 (0 : Fin 1) k)) (st2 (ix2 (0 : Fin 3) (col32 k))) (st2 (ix2 (1 : Fin 3) (col32 k)))
        + shift (g2 (ix2 (0 : Fin 1) k)) (b2 (ix2 (0 : Fin 1) k))
            (st2 (ix2 (0 : Fin 3) (col32 k))) (st2 (ix2 (1 : Fin 3) (col32 k)))) * W3 (ix2 k q))
    + b3 (ix2 (0 : Fin 1) q)) zer

def C (c : Dev nD) : Fin 64 → EReal :=
  Cof (V c main_call0_v16_1) (V c main_call0_v17) (V c main_call0_v18) (V c main_arg14) (V c main_call0_v19)

theorem cat_eq (c : Dev nD) (t : Fin cfg3.N) (q : Fin 64) : cat V c t q = C V c q := by
  unfold cat cblk
  rw [pay4_apply]
  unfold C Cof
  have e12 : k3_pay12 (F := Ideal) (iblk3 V c 5 t) (ix2 (0 : Fin 1) q) = V c main_call0_v19 (ix2 (0 : Fin 1) q) := by
    unfold k3_pay12; rw [shapeCast_self, blk_b3]
  rw [e12]
  refine congrArg (fun z => max (z + _) _) (Finset.sum_congr rfl fun k _ => ?_)
  rw [pay9_apply, pay10_apply, blk_g2, blk_b2, blk_W3]
  have e0 := ld_st2 V c t 0 inb_S3x128_S1x32_0_0 k
  have e1 := ld_st2 V c t 1 inb_S3x128_S1x32_1_0 k
  have e2 := ld_st2 V c t 2 inb_S3x128_S1x32_2_0 k
  rw [show View.ld (iblk3 V c 1 t) (Rect.unit (s := S3x128) ![0, 0] S1x32.size inb_S3x128_S1x32_0_0) (ix2 (0 : Fin 1) k) = _ from e0,
    show View.ld (iblk3 V c 1 t) (Rect.unit (s := S3x128) ![1, 0] S1x32.size inb_S3x128_S1x32_1_0) (ix2 (0 : Fin 1) k) = _ from e1,
    show View.ld (iblk3 V c 1 t) (Rect.unit (s := S3x128) ![2, 0] S1x32.size inb_S3x128_S1x32_2_0) (ix2 (0 : Fin 1) k) = _ from e2]

/-! ## The steps, read at the three rows -/

theorem step_row0 (A : Fin 15200 → Fin 64 → EReal) (prev : S3x128.Idx → EReal) (q : Fin 64) :
    step A prev (ix2 (0 : Fin 3) (col64 q)) = prev (ix2 (0 : Fin 3) (col64 q)) + ∑ r : Fin 15200, A r q := by
  unfold step
  rw [dif_neg (by show ¬((0 : ℕ) = 1 ∧ _); omega), dif_pos ⟨rfl, q.isLt⟩]
  rfl

theorem step_row1 (A : Fin 15200 → Fin 64 → EReal) (prev : S3x128.Idx → EReal) (q : Fin 64) :
    step A prev (ix2 (1 : Fin 3) (col64 q)) = prev (ix2 (1 : Fin 3) (col64 q)) + ∑ r : Fin 15200, A r q * A r q := by
  unfold step
  rw [dif_pos ⟨rfl, q.isLt⟩]
  rfl

theorem step_row2 (A : Fin 15200 → Fin 64 → EReal) (prev : S3x128.Idx → EReal) (b : Fin 128) :
    step A prev (ix2 (2 : Fin 3) b) = prev (ix2 (2 : Fin 3) b) := by
  unfold step
  rw [dif_neg (by show ¬((2 : ℕ) = 1 ∧ _); omega), dif_neg (by show ¬((2 : ℕ) = 0 ∧ _); omega)]

theorem finish_row0 (cc : Fin 64 → EReal) (s : S3x128.Idx → EReal) (q : Fin 64) :
    finish cc s (ix2 (0 : Fin 3) (col64 q)) = s (ix2 (0 : Fin 3) (col64 q)) + m4000 * cc q := by
  unfold finish
  rw [dif_neg (by show ¬((0 : ℕ) = 2 ∧ _); omega), dif_neg (by show ¬((0 : ℕ) = 1 ∧ _); omega), dif_pos ⟨rfl, q.isLt⟩]
  rfl

theorem finish_row1 (cc : Fin 64 → EReal) (s : S3x128.Idx → EReal) (q : Fin 64) :
    finish cc s (ix2 (1 : Fin 3) (col64 q)) = s (ix2 (1 : Fin 3) (col64 q)) + m4000 * (cc q * cc q) := by
  unfold finish
  rw [dif_neg (by show ¬((1 : ℕ) = 2 ∧ _); omega), dif_pos ⟨rfl, q.isLt⟩]
  rfl

theorem finish_row2 (cc : Fin 64 → EReal) (s : S3x128.Idx → EReal) (q : Fin 64) :
    finish cc s (ix2 (2 : Fin 3) (col64 q)) = cc q := by
  unfold finish
  rw [dif_pos ⟨rfl, q.isLt⟩]
  rfl

/-! ## The running sums -/

/-- The whole array's activations at a row given as a natural number (zero past the array). -/
def Hn (c : Dev nD) (R : ℕ) (q : Fin 64) : EReal := if h : R < 304000 then H V c ⟨R, h⟩ q else 0

theorem Aat_Hn (c : Dev nD) (t : Fin cfg3.N) (r : Fin 15200) (q : Fin 64) : Aat V c t r q = Hn V c (t.val * 15200 + r.val) q := by
  have ht : t.val < 20 := lt_of_lt_of_eq t.isLt N_3
  have hr := r.isLt
  rw [Aat_eq]
  unfold Hn
  rw [dif_pos (by omega)]
  exact congrArg (fun R => H V c R q) (Fin.ext (by show 15200 * t.val + r.val = t.val * 15200 + r.val; ring))

/-- After point n (before the last) rows 0 and 1 hold the zero word plus the sums over the tiles so far. -/
theorem stAt_rows (c : Dev nD) (q : Fin 64) : ∀ (n : ℕ) (hn : n < cfg3.N),
    stAt V c n hn (ix2 (0 : Fin 3) (col64 q)) = zer + ∑ s ∈ Finset.range (n + 1), ∑ r : Fin 15200, Hn V c (s * 15200 + r.val) q
    ∧ stAt V c n hn (ix2 (1 : Fin 3) (col64 q))
        = zer + ∑ s ∈ Finset.range (n + 1), ∑ r : Fin 15200, Hn V c (s * 15200 + r.val) q * Hn V c (s * 15200 + r.val) q
    ∧ stAt V c n hn (ix2 (2 : Fin 3) (col64 q)) = zer
  | 0, hn => by
    show step _ _ _ = _ ∧ step _ _ _ = _ ∧ step _ _ _ = _
    rw [step_row0, step_row1, step_row2, Finset.sum_range_one, Finset.sum_range_one]
    exact ⟨congrArg (fun z => zer + z) (Finset.sum_congr rfl fun r _ => Aat_Hn V c ⟨0, hn⟩ r q),
      congrArg (fun z => zer + z) (Finset.sum_congr rfl fun r _ => by rw [Aat_Hn V c ⟨0, hn⟩ r q]), rfl⟩
  | n + 1, hn => by
    obtain ⟨i0, i1, i2⟩ := stAt_rows c q n (Nat.lt_of_succ_lt hn)
    show step _ _ _ = _ ∧ step _ _ _ = _ ∧ step _ _ _ = _
    rw [step_row0, step_row1, step_row2, i0, i1, i2, Finset.sum_range_succ _ (n + 1), Finset.sum_range_succ _ (n + 1), add_assoc, add_assoc]
    exact ⟨congrArg (fun z => zer + (_ + z)) (Finset.sum_congr rfl fun r _ => Aat_Hn V c ⟨n + 1, hn⟩ r q),
      congrArg (fun z => zer + (_ + z)) (Finset.sum_congr rfl fun r _ => by rw [Aat_Hn V c ⟨n + 1, hn⟩ r q]), rfl⟩

/-- The twenty tiles are all the rows. -/
theorem sum_all (c : Dev nD) (f : ℕ → EReal) :
    ∑ s ∈ Finset.range 20, ∑ r : Fin 15200, f (s * 15200 + r.val) = ∑ R : Fin 304000, f R.val :=
  (Cert.LibSumTiles.sum_tiles 20 15200 f).symm

theorem Hn_val (c : Dev nD) (R : Fin 304000) (q : Fin 64) : Hn V c R.val q = H V c R q := by
  unfold Hn; rw [dif_pos R.isLt]

/-- THE MOMENTS after the launch: sums over all 304000 pair rows, corrected; row 2 the padded pairs' activation. -/
theorem stLast_rows (c : Dev nD) (q : Fin 64) :
    stLast V c (ix2 (0 : Fin 3) (col64 q)) = (zer + ∑ R : Fin 304000, H V c R q) + m4000 * C V c q
    ∧ stLast V c (ix2 (1 : Fin 3) (col64 q)) = (zer + ∑ R : Fin 304000, H V c R q * H V c R q) + m4000 * (C V c q * C V c q)
    ∧ stLast V c (ix2 (2 : Fin 3) (col64 q)) = C V c q := by
  obtain ⟨i0, i1, -⟩ := stAt_rows V c q 18 lt18
  have hT : (∑ r : Fin 15200, Aat V c ⟨19, lt19⟩ r q) = ∑ r : Fin 15200, Hn V c (19 * 15200 + r.val) q :=
    Finset.sum_congr rfl fun r _ => Aat_Hn V c ⟨19, lt19⟩ r q
  have hT' : (∑ r : Fin 15200, Aat V c ⟨19, lt19⟩ r q * Aat V c ⟨19, lt19⟩ r q)
      = ∑ r : Fin 15200, Hn V c (19 * 15200 + r.val) q * Hn V c (19 * 15200 + r.val) q :=
    Finset.sum_congr rfl fun r _ => by rw [Aat_Hn V c ⟨19, lt19⟩ r q]
  have hs : (∑ s ∈ Finset.range (18 + 1), ∑ r : Fin 15200, Hn V c (s * 15200 + r.val) q)
      + (∑ r : Fin 15200, Hn V c (19 * 15200 + r.val) q) = ∑ R : Fin 304000, H V c R q := by
    rw [← Finset.sum_range_succ (fun s => ∑ r : Fin 15200, Hn V c (s * 15200 + r.val) q) 19, sum_all c (fun R => Hn V c R q)]
    exact Finset.sum_congr rfl fun R _ => Hn_val V c R q
  have hs' : (∑ s ∈ Finset.range (18 + 1), ∑ r : Fin 15200, Hn V c (s * 15200 + r.val) q * Hn V c (s * 15200 + r.val) q)
      + (∑ r : Fin 15200, Hn V c (19 * 15200 + r.val) q * Hn V c (19 * 15200 + r.val) q) = ∑ R : Fin 304000, H V c R q * H V c R q := by
    rw [← Finset.sum_range_succ (fun s => ∑ r : Fin 15200, Hn V c (s * 15200 + r.val) q * Hn V c (s * 15200 + r.val) q) 19,
      sum_all c (fun R => Hn V c R q * Hn V c R q)]
    exact Finset.sum_congr rfl fun R _ => by rw [Hn_val V c R q]
  unfold stLast
  refine ⟨?_, ?_, ?_⟩
  · rw [finish_row0, step_row0, i0, hT, add_assoc zer, hs, cat_eq]
  · rw [finish_row1, step_row1, i1, hT', add_assoc zer, hs', cat_eq]
  · rw [finish_row2, cat_eq]

end Cert.KernelIdeal.R3

end
-- ==== Proof.KTail.lean ====
/-
  The last two launches against the specification.

  Suppose the second hidden layer's activation array and its moments are known (real pairs carry the specification's
  rows, padded pairs one constant row, moments the corrected sums). The fourth launch's moments are then the corrected
  sums of the third layer's activations, which the last launch recomputes; so the third layer is known in the same way,
  and the last launch's result at pair (n, j) is the specification's fourth layer at pair row 300·n + j.
-/
import proofs.«139309_g56014963475156_cont_9to1_m_1179_16_alg».proof.Proof.R4Value
import proofs.«139309_g56014963475156_cont_9to1_m_1179_16_alg».proof.Proof.R3Closed
import proofs.«139309_g56014963475156_cont_9to1_m_1179_16_alg».proof.Proof.KStage

noncomputable section

namespace Cert.KernelIdeal.KTail

open Cert.KernelIdeal
open Idealize.ShloMosaic Idealize.ShloMosaic.ValueIdx
open Cert.KernelIdeal.R4 (scale shift zer h3 G4 col32 col64)
open Cert.KernelIdeal.R3 (m4000 Cof)
open Cert.KStage Cert.Net Cert.BnLayer

/-- x ↦ max x 0 with the zero as the program spells it. -/
def actz (x : EReal) : EReal := max x zer
theorem actz_eq : actz = Cert.Net.relu := funext fun x => by unfold actz Cert.Net.relu; rw [zer_eq]
theorem actz_real (x : EReal) (h : IsReal x) : IsReal (actz x) := by rw [actz_eq]; exact isReal_relu h

theorem pe_val (n : Fin 1000) (j : Fin 300) (h : 300 * n.val + j.val < 300000) :
    (pe ⟨300 * n.val + j.val, h⟩).val = 304 * n.val + j.val := by
  show 304 * ((300 * n.val + j.val) / 300) + (300 * n.val + j.val) % 300 = 304 * n.val + j.val
  have := j.isLt
  omega

theorem tail (a2 : S304000x32.Idx → EReal) (st2 st3 : S3x128.Idx → EReal) (g2 b2 : S1x32.Idx → EReal)
    (W3 : S32x64.Idx → EReal) (b3 g3 b3n : S1x64.Idx → EReal) (W4 : S64x64.Idx → EReal) (b4 : S1x64.Idx → EReal)
    (xr2 : Fin 300000 → Fin 32 → EReal) (cp2 : Fin 32 → EReal)
    (F2 : Fact col32 (fun R k => a2 (ix2 R k)) st2 xr2 cp2)
    (h0 : ∀ q, st3 (ix2 (0 : Fin 3) (col64 q)) = (zer + ∑ R : Fin 304000, h3 a2 st2 g2 b2 W3 b3 R q) + m4000 * Cof st2 g2 b2 W3 b3 q)
    (h1 : ∀ q, st3 (ix2 (1 : Fin 3) (col64 q))
      = (zer + ∑ R : Fin 304000, h3 a2 st2 g2 b2 W3 b3 R q * h3 a2 st2 g2 b2 W3 b3 R q) + m4000 * (Cof st2 g2 b2 W3 b3 q * Cof st2 g2 b2 W3 b3 q))
    (h2 : ∀ q, st3 (ix2 (2 : Fin 3) (col64 q)) = Cof st2 g2 b2 W3 b3 q)
    (hg2 : ∀ i, IsReal (g2 i)) (hb2 : ∀ i, IsReal (b2 i)) (hW3 : ∀ i, IsReal (W3 i)) (hb3 : ∀ i, IsReal (b3 i))
    (hg3 : ∀ i, IsReal (g3 i)) (hb3n : ∀ i, IsReal (b3n i)) (hW4 : ∀ i, IsReal (W4 i)) (hb4 : ∀ i, IsReal (b4 i))
    (n : Fin 1000) (j : Fin 300) (q : Fin 64) :
    G4 a2 st2 st3 g2 b2 W3 b3 g3 b3n W4 b4 (ix3 n j q)
      = bnlin id (bnlin Cert.Net.relu xr2 (fun k => g2 (ix2 (0 : Fin 1) k)) (fun k => b2 (ix2 (0 : Fin 1) k)) (fun k q => W3 (ix2 k q)) (fun q => b3 (ix2 (0 : Fin 1) q)))
          (fun k => g3 (ix2 (0 : Fin 1) k)) (fun k => b3n (ix2 (0 : Fin 1) k)) (fun k q => W4 (ix2 k q)) (fun q => b4 (ix2 (0 : Fin 1) q))
          (⟨300 * n.val + j.val, by have := n.isLt; have := j.isLt; omega⟩ : Fin 300000) q := by
  have F3 : Fact col64 (fun R q => h3 a2 st2 g2 b2 W3 b3 R q) st3
      (bnlin actz xr2 (fun k => g2 (ix2 (0 : Fin 1) k)) (fun k => b2 (ix2 (0 : Fin 1) k)) (fun k q => W3 (ix2 k q)) (fun q => b3 (ix2 (0 : Fin 1) q)))
      (nextC col32 st2 (fun k => g2 (ix2 (0 : Fin 1) k)) (fun k => b2 (ix2 (0 : Fin 1) k)) (fun k q => W3 (ix2 k q)) (fun q => b3 (ix2 (0 : Fin 1) q)) actz) :=
    F2.next _ _ (fun k => hg2 _) (fun k => hb2 _) _ _ (fun k q => hW3 _) (fun q => hb3 _) actz actz_real col64 _ st3
      (fun p q => rfl) h0 h1 h2
  have hi : 300 * n.val + j.val < 300000 := by have := n.isLt; have := j.isLt; omega
  have e := (F3.next_values (fun k => g3 (ix2 (0 : Fin 1) k)) (fun k => b3n (ix2 (0 : Fin 1) k)) (fun k => hg3 _) (fun k => hb3n _)
    (fun k q => W4 (ix2 k q)) (fun q => b4 (ix2 (0 : Fin 1) q)) (fun k q => hW4 _) (fun q => hb4 _) id (fun _ h => h)).1 ⟨300 * n.val + j.val, hi⟩ q
  rw [actz_eq] at e
  refine Eq.trans ?_ e
  have hrow : (⟨304 * ((ix3 n j q : S1000x300x64.Idx) 0).val + ((ix3 n j q : S1000x300x64.Idx) 1).val,
      by have := n.isLt; have := j.isLt; show 304 * n.val + j.val < 304000; omega⟩ : Fin 304000) = pe ⟨300 * n.val + j.val, hi⟩ :=
    Fin.ext (pe_val n j hi).symm
  unfold G4 nextA
  rw [hrow]
  rfl

/-- Equal arrays give equal results (the three functions of the arrays used above). -/
theorem G4_congr {a a' : S304000x32.Idx → EReal} {s2 s2' s3 s3' : S3x128.Idx → EReal} {g2 g2' b2 b2' : S1x32.Idx → EReal}
    {W3 W3' : S32x64.Idx → EReal} {b3 b3' g3 g3' b3n b3n' : S1x64.Idx → EReal} {W4 W4' : S64x64.Idx → EReal} {b4 b4' : S1x64.Idx → EReal}
    (h1 : a = a') (h2 : s2 = s2') (h3' : s3 = s3') (h4 : g2 = g2') (h5 : b2 = b2') (h6 : W3 = W3') (h7 : b3 = b3') (h8 : g3 = g3')
    (h9 : b3n = b3n') (h10 : W4 = W4') (h11 : b4 = b4') :
    G4 a s2 s3 g2 b2 W3 b3 g3 b3n W4 b4 = G4 a' s2' s3' g2' b2' W3' b3' g3' b3n' W4' b4' := by
  subst h1 h2 h3' h4 h5 h6 h7 h8 h9 h10 h11; rfl

theorem h3_congr {a a' : S304000x32.Idx → EReal} {s2 s2' : S3x128.Idx → EReal} {g2 g2' b2 b2' : S1x32.Idx → EReal}
    {W3 W3' : S32x64.Idx → EReal} {b3 b3' : S1x64.Idx → EReal}
    (h1 : a = a') (h2 : s2 = s2') (h4 : g2 = g2') (h5 : b2 = b2') (h6 : W3 = W3') (h7 : b3 = b3') :
    h3 a s2 g2 b2 W3 b3 = h3 a' s2' g2' b2' W3' b3' := by
  subst h1 h2 h4 h5 h6 h7; rfl

theorem Cof_congr {s2 s2' : S3x128.Idx → EReal} {g2 g2' b2 b2' : S1x32.Idx → EReal}
    {W3 W3' : S32x64.Idx → EReal} {b3 b3' : S1x64.Idx → EReal}
    (h2 : s2 = s2') (h4 : g2 = g2') (h5 : b2 = b2') (h6 : W3 = W3') (h7 : b3 = b3') :
    Cof s2 g2 b2 W3 b3 = Cof s2' g2' b2' W3' b3' := by
  subst h2 h4 h5 h6 h7; rfl

end Cert.KernelIdeal.KTail

end
-- ==== Proof.KWiringB.lean ====
/-
  What each array holds when each of the five launches is entered.

  Between two launches the program only reshapes parameter vectors (a vector of n entries becomes a one-row matrix),
  and before the first launch it transposes the track embeddings and the track boxes and pads them with zero columns.
  A launch changes none of the arrays it only reads, and an output array of one launch is found by a later launch
  exactly as the earlier one left it. So every array a launch reads is one of: an argument as launched, a reshape of
  an argument as launched, or what an earlier launch left in one of its outputs.
-/
import proofs.«139309_g56014963475156_cont_9to1_m_1179_16_alg».proof.Proof.Gen.KernelIdeal.Frame
import Idealize.ShloMosaic.Lib.StableHlo.Run

set_option maxRecDepth 16384

noncomputable section

namespace Cert.KernelIdeal.Wiring

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (ρ : Dev nD → PrngReg)

/-- A stretch of reshapes (or the padding before the first launch) leaves an array it does not write as it was. -/
local macro "not_written" : tactic =>
  `(tactic| (refine StableHlo.after_of_forall_not_mem _ _ (List.forall_iff_forall_mem.mp ?_)
             simp only [hostOps0, hostOps1, hostOps2, hostOps3, hostOps4, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The parameter vectors of the second and third launches, still as launched at the boundary before their reshape -/

theorem w2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by not_written
    _ = m ((c : Thread nD τ).loc main_arg4) := rfl

theorem w2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by not_written
    _ = m ((c : Thread nD τ).loc main_arg5) := rfl

theorem w2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by not_written
    _ = m ((c : Thread nD τ).loc main_arg7) := rfl

theorem w4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by not_written
    _ = W1 m ρ c (Proc.devRef .tc main_arg8) := W2_of_ne m ρ c main_arg8 (by decide)
    _ = W0 m ρ c (Proc.devRef .tc main_arg8) := by not_written
    _ = m ((c : Thread nD τ).loc main_arg8) := rfl

theorem w4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by not_written
    _ = W1 m ρ c (Proc.devRef .tc main_arg9) := W2_of_ne m ρ c main_arg9 (by decide)
    _ = W0 m ρ c (Proc.devRef .tc main_arg9) := by not_written
    _ = m ((c : Thread nD τ).loc main_arg9) := rfl

theorem w4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by not_written
    _ = W1 m ρ c (Proc.devRef .tc main_arg11) := W2_of_ne m ρ c main_arg11 (by decide)
    _ = W0 m ρ c (Proc.devRef .tc main_arg11) := by not_written
    _ = m ((c : Thread nD τ).loc main_arg11) := rfl

/-! ## The third launch's entry -/

theorem v5_a1 (c : Dev nD) : V5 m ρ c main_call0_v12_0 = (dat1 (V3 m ρ) c).arrAt 7 cfg1.N :=
  calc W5 m ρ c (Proc.devRef .tc main_call0_v12_0)
    _ = W4 m ρ c (Proc.devRef .tc main_call0_v12_0) := by not_written
    _ = (dat1 (V3 m ρ) c).arrAt 7 cfg1.N := W4_arr m ρ c 7

theorem v5_st1 (c : Dev nD) : V5 m ρ c main_call0_v12_1 = (dat1 (V3 m ρ) c).arrAt 8 cfg1.N :=
  calc W5 m ρ c (Proc.devRef .tc main_call0_v12_1)
    _ = W4 m ρ c (Proc.devRef .tc main_call0_v12_1) := by not_written
    _ = (dat1 (V3 m ρ) c).arrAt 8 cfg1.N := W4_arr m ρ c 8

theorem v5_g1 (c : Dev nD) :
    V5 m ρ c main_call0_v13 = shapeCast S1x32 (m ((c : Thread nD τ).loc main_arg8)) shapeCasts_S32_S1x32 := by
  have e : W5 m ρ c (Proc.devRef .tc main_call0_v13)
      = shapeCast S1x32 (W4 m ρ c (Proc.devRef .tc main_arg8)) shapeCasts_S32_S1x32 := by
    show StableHlo.after hostOps2 _ (Proc.devRef .tc main_call0_v13) = _
    after_results; rfl
  exact e.trans (by rw [w4_arg8 m ρ c])

theorem v5_b1 (c : Dev nD) :
    V5 m ρ c main_call0_v14 = shapeCast S1x32 (m ((c : Thread nD τ).loc main_arg9)) shapeCasts_S32_S1x32 := by
  have e : W5 m ρ c (Proc.devRef .tc main_call0_v14)
      = shapeCast S1x32 (W4 m ρ c (Proc.devRef .tc main_arg9)) shapeCasts_S32_S1x32 := by
    show StableHlo.after hostOps2 _ (Proc.devRef .tc main_call0_v14) = _
    after_results; rfl
  exact e.trans (by rw [w4_arg9 m ρ c])

theorem v5_W2 (c : Dev nD) : V5 m ρ c main_arg10 = m ((c : Thread nD τ).loc main_arg10) :=
  calc W5 m ρ c (Proc.devRef .tc main_arg10)
    _ = W4 m ρ c (Proc.devRef .tc main_arg10) := by not_written
    _ = W3 m ρ c (Proc.devRef .tc main_arg10) := W4_of_ne m ρ c main_arg10 (by decide)
    _ = W2 m ρ c (Proc.devRef .tc main_arg10) := by not_written
    _ = W1 m ρ c (Proc.devRef .tc main_arg10) := W2_of_ne m ρ c main_arg10 (by decide)
    _ = W0 m ρ c (Proc.devRef .tc main_arg10) := by not_written
    _ = m ((c : Thread nD τ).loc main_arg10) := rfl

theorem v5_b2 (c : Dev nD) :
    V5 m ρ c main_call0_v15 = shapeCast S1x32 (m ((c : Thread nD τ).loc main_arg11)) shapeCasts_S32_S1x32 := by
  have e : W5 m ρ c (Proc.devRef .tc main_call0_v15)
      = shapeCast S1x32 (W4 m ρ c (Proc.devRef .tc main_arg11)) shapeCasts_S32_S1x32 := by
    show StableHlo.after hostOps2 _ (Proc.devRef .tc main_call0_v15) = _
    after_results; rfl
  exact e.trans (by rw [w4_arg11 m ρ c])

/-! ## The second launch's entry -/

theorem v3_cos (c : Dev nD) : V3 m ρ c main_call0_v8_0 = (dat0 (V1 m ρ) c).arrAt 4 cfg0.N :=
  calc W3 m ρ c (Proc.devRef .tc main_call0_v8_0)
    _ = W2 m ρ c (Proc.devRef .tc main_call0_v8_0) := by not_written
    _ = (dat0 (V1 m ρ) c).arrAt 4 cfg0.N := W2_arr m ρ c 4

theorem v3_iou (c : Dev nD) : V3 m ρ c main_call0_v8_1 = (dat0 (V1 m ρ) c).arrAt 5 cfg0.N :=
  calc W3 m ρ c (Proc.devRef .tc main_call0_v8_1)
    _ = W2 m ρ c (Proc.devRef .tc main_call0_v8_1) := by not_written
    _ = (dat0 (V1 m ρ) c).arrAt 5 cfg0.N := W2_arr m ρ c 5

theorem v3_st0 (c : Dev nD) : V3 m ρ c main_call0_v8_2 = (dat0 (V1 m ρ) c).arrAt 6 cfg0.N :=
  calc W3 m ρ c (Proc.devRef .tc main_call0_v8_2)
    _ = W2 m ρ c (Proc.devRef .tc main_call0_v8_2) := by not_written
    _ = (dat0 (V1 m ρ) c).arrAt 6 cfg0.N := W2_arr m ρ c 6

theorem v3_g0 (c : Dev nD) :
    V3 m ρ c main_call0_v9 = shapeCast S1x2 (m ((c : Thread nD τ).loc main_arg4)) shapeCasts_S2_S1x2 := by
  have e : W3 m ρ c (Proc.devRef .tc main_call0_v9)
      = shapeCast S1x2 (W2 m ρ c (Proc.devRef .tc main_arg4)) shapeCasts_S2_S1x2 := by
    show StableHlo.after hostOps1 _ (Proc.devRef .tc main_call0_v9) = _
    after_results; rfl
  exact e.trans (by rw [w2_arg4 m ρ c])

theorem v3_b0 (c : Dev nD) :
    V3 m ρ c main_call0_v10 = shapeCast S1x2 (m ((c : Thread nD τ).loc main_arg5)) shapeCasts_S2_S1x2 := by
  have e : W3 m ρ c (Proc.devRef .tc main_call0_v10)
      = shapeCast S1x2 (W2 m ρ c (Proc.devRef .tc main_arg5)) shapeCasts_S2_S1x2 := by
    show StableHlo.after hostOps1 _ (Proc.devRef .tc main_call0_v10) = _
    after_results; rfl
  exact e.trans (by rw [w2_arg5 m ρ c])

theorem v3_W1 (c : Dev nD) : V3 m ρ c main_arg6 = m ((c : Thread nD τ).loc main_arg6) :=
  calc W3 m ρ c (Proc.devRef .tc main_arg6)
    _ = W2 m ρ c (Proc.devRef .tc main_arg6) := by not_written
    _ = W1 m ρ c (Proc.devRef .tc main_arg6) := W2_of_ne m ρ c main_arg6 (by decide)
    _ = W0 m ρ c (Proc.devRef .tc main_arg6) := by not_written
    _ = m ((c : Thread nD τ).loc main_arg6) := rfl

theorem v3_b1 (c : Dev nD) :
    V3 m ρ c main_call0_v11 = shapeCast S1x32 (m ((c : Thread nD τ).loc main_arg7)) shapeCasts_S32_S1x32 := by
  have e : W3 m ρ c (Proc.devRef .tc main_call0_v11)
      = shapeCast S1x32 (W2 m ρ c (Proc.devRef .tc main_arg7)) shapeCasts_S32_S1x32 := by
    show StableHlo.after hostOps1 _ (Proc.devRef .tc main_call0_v11) = _
    after_results; rfl
  exact e.trans (by rw [w2_arg7 m ρ c])

end Cert.KernelIdeal.Wiring
-- ==== Proof.LibScatterSet.lean ====
/-
  A scatter that OVERWRITES, read at an entry.

  The scatter takes the update's entries one after another and stores each at the result entry it lands on (or drops it,
  when it lands outside).  If exactly one update entry j lands on the result entry i, the scatter's result at i is the
  update at j, whatever the order; if none does, it is the operand at i.
-/
import Idealize.ShloMosaic.PureOps.ShapeOps
import Idealize.ShloMosaic.PureOps.Dims
import Mathlib.Data.List.Nodup
import Mathlib.Data.List.FinRange

noncomputable section

namespace Cert.ScatterSet

open Idealize.ShloMosaic

variable {α : Type} {s si u : Shape} {w : Nat} (d : ScatterDims s si u) (x : s.Idx → α) (idx : IVec si w) (upd : u.Idx → α)

/-- One step of the scatter: the update entry at row-major position n stored where it lands. -/
def step (r : s.Idx → α) (n : Fin u.numel) : s.Idx → α :=
  match d.resultIdx? (u.rowMajor.symm n) idx with
  | some i => fun i' => if i' = i then (fun _ b => b) (r i) (upd (u.rowMajor.symm n)) else r i'
  | none => r

theorem step_some {r : s.Idx → α} {n : Fin u.numel} {i0 : s.Idx} (h : d.resultIdx? (u.rowMajor.symm n) idx = some i0) :
    step d idx upd r n = fun i' => if i' = i0 then upd (u.rowMajor.symm n) else r i' := by
  unfold step; rw [h]

theorem step_none {r : s.Idx → α} {n : Fin u.numel} (h : d.resultIdx? (u.rowMajor.symm n) idx = none) :
    step d idx upd r n = r := by
  unfold step; rw [h]

theorem scatter_eq_foldl : Host.scatter d (fun _ b => b) x idx upd = (List.finRange u.numel).foldl (step d idx upd) x := rfl

/-- Steps none of which lands on i leave entry i alone. -/
theorem foldl_miss (i : s.Idx) : ∀ (L : List (Fin u.numel)) (r : s.Idx → α),
    (∀ n ∈ L, d.resultIdx? (u.rowMajor.symm n) idx ≠ some i) → (L.foldl (step d idx upd) r) i = r i
  | [], r, _ => rfl
  | n :: L, r, h => by
    rw [List.foldl_cons, foldl_miss i L _ fun n' hn' => h n' (List.mem_cons_of_mem _ hn')]
    have hn := h n List.mem_cons_self
    cases hres : d.resultIdx? (u.rowMajor.symm n) idx with
    | none => rw [step_none d idx upd hres]
    | some i0 =>
      rw [step_some d idx upd hres]
      exact if_neg fun e => hn (hres.trans (congrArg some e.symm))

/-- Among steps of distinct positions of which only j's lands on i, entry i ends as the update at j. -/
theorem foldl_hit (i : s.Idx) (j : u.Idx) (hj : d.resultIdx? j idx = some i)
    (huniq : ∀ j', d.resultIdx? j' idx = some i → j' = j) : ∀ (L : List (Fin u.numel)) (r : s.Idx → α),
    L.Nodup → u.rowMajor j ∈ L → (L.foldl (step d idx upd) r) i = upd j
  | [], _, _, hmem => absurd hmem List.not_mem_nil
  | n :: L, r, hnd, hmem => by
    rw [List.foldl_cons]
    by_cases hn : n = u.rowMajor j
    · have hnotin : u.rowMajor j ∉ L := hn ▸ (List.nodup_cons.mp hnd).1
      rw [foldl_miss d idx upd i L _ fun n' hn' hland => hnotin (by
        have := huniq _ hland
        rw [← this, Equiv.apply_symm_apply]; exact hn')]
      subst hn
      have hj' : d.resultIdx? (u.rowMajor.symm (u.rowMajor j)) idx = some i := by rw [Equiv.symm_apply_apply]; exact hj
      rw [step_some d idx upd hj', Equiv.symm_apply_apply]
      exact if_pos rfl
    · exact foldl_hit i j hj huniq L _ (List.nodup_cons.mp hnd).2
        ((List.mem_cons.mp hmem).resolve_left fun e => hn e.symm)

/-- The overwriting scatter at an entry exactly one update entry lands on. -/
theorem scatter_hit (i : s.Idx) (j : u.Idx) (hj : d.resultIdx? j idx = some i)
    (huniq : ∀ j', d.resultIdx? j' idx = some i → j' = j) : Host.scatter d (fun _ b => b) x idx upd i = upd j := by
  rw [scatter_eq_foldl]
  exact foldl_hit d idx upd i j hj huniq _ _ (List.nodup_finRange _) (List.mem_finRange _)

/-- The overwriting scatter at an entry no update entry lands on. -/
theorem scatter_miss (i : s.Idx) (h : ∀ j, d.resultIdx? j idx ≠ some i) : Host.scatter d (fun _ b => b) x idx upd i = x i := by
  rw [scatter_eq_foldl]
  exact foldl_miss d idx upd i _ _ fun n _ => h _

end Cert.ScatterSet

end
-- ==== Proof.KWiring0.lean ====
/-
  What the first launch finds in its buffers.

  Before the launch the program transposes the reference embeddings (300 × 64) and boxes (300 × 4) and writes each into
  an array of zeros with 304 columns, starting at column 0.  So the launch finds: the detections' boxes and embeddings as
  they were given; a 64 × 304 array whose entry (d, j) is the reference embeddings' entry (j, d) for j < 300 and zero for
  the four last columns; and a 4 × 304 array built likewise from the reference boxes.
-/
import proofs.«139309_g56014963475156_cont_9to1_m_1179_16_alg».proof.Proof.Gen.KernelIdeal.Frame
import proofs.«139309_g56014963475156_cont_9to1_m_1179_16_alg».proof.Proof.LibScatterSet
import proofs.«139309_g56014963475156_cont_9to1_m_1179_16_alg».proof.Proof.Consts
import Idealize.ShloMosaic.Lib.ValueIdx
import Idealize.ShloMosaic.Lib.ValueLayout
import Idealize.ShloMosaic.Lib.StableHlo.Run

set_option maxRecDepth 16384

noncomputable section

namespace Cert.KernelIdeal.Wiring0

open Cert.KernelIdeal Cert.KernelIdeal.Gen
open Idealize.ShloMosaic Idealize.ShloMosaic.ValueIdx Idealize.ShloMosaic.TcCoe

-- the scatter is read at an entry through its two laws, never unfolded
attribute [local irreducible] Host.scatter

/-- Scatters of equal operands are equal. -/
theorem scatter_congr {α : Type} {s si u : Shape} {w : ℕ} (d : ScatterDims s si u) (f : α → α → α) {x x' : s.Idx → α}
    {i i' : IVec si w} {v v' : u.Idx → α} (hx : x = x') (hi : i = i') (hv : v = v') :
    Host.scatter d f x i v = Host.scatter d f x' i' v' := by rw [hx, hi, hv]

/-- The one start index of the two scatters: column 0. -/
abbrev idx0 : IVec S1 32 := broadcastInDim S1 ![] bcast_S_S1 (constantI S_ 32 0#32)

/-- Where the update's entry (r, q) lands: at (r, q), the window starting at column 0. -/
theorem land64 (j : S64x300.Idx) :
    scatter_S64x304_S1_S64x300_01_n_1_0.resultIdx? j idx0
      = some (ix2 (⟨(j 0).val, (j 0).isLt⟩ : Fin 64) (⟨(j 1).val, by have h1 : (j 1).val < 300 := (j 1).isLt; omega⟩ : Fin 304) : S64x304.Idx) := by
  have h0 : (j 0).val < 64 := (j 0).isLt
  have h1 : (j 1).val < 300 := (j 1).isLt
  have hs : ∀ a, scatter_S64x304_S1_S64x300_01_n_1_0.start j idx0 a = 0 := fun a => by
    unfold ScatterDims.start
    split
    · rfl
    · rfl
  have hw0 : scatter_S64x304_S1_S64x300_01_n_1_0.window j (0 : Fin 2) = (j 0).val := by
    unfold ScatterDims.window
    rw [dif_pos (by decide)]
    rfl
  have hw1 : scatter_S64x304_S1_S64x300_01_n_1_0.window j (1 : Fin 2) = (j 1).val := by
    unfold ScatterDims.window
    rw [dif_pos (by decide)]
    rfl
  have hin : ∀ a, 0 ≤ scatter_S64x304_S1_S64x300_01_n_1_0.start j idx0 a + scatter_S64x304_S1_S64x300_01_n_1_0.window j a
      ∧ scatter_S64x304_S1_S64x300_01_n_1_0.start j idx0 a + scatter_S64x304_S1_S64x300_01_n_1_0.window j a < S64x304.size a := fun a => by
    rw [hs a]
    match a with
    | ⟨0, _⟩ =>
      show (0 : Int) ≤ 0 + ((scatter_S64x304_S1_S64x300_01_n_1_0.window j (0 : Fin 2) : ℕ) : Int)
        ∧ (0 : Int) + ((scatter_S64x304_S1_S64x300_01_n_1_0.window j (0 : Fin 2) : ℕ) : Int) < ((64 : ℕ) : Int)
      rw [hw0]; omega
    | ⟨1, _⟩ =>
      show (0 : Int) ≤ 0 + ((scatter_S64x304_S1_S64x300_01_n_1_0.window j (1 : Fin 2) : ℕ) : Int)
        ∧ (0 : Int) + ((scatter_S64x304_S1_S64x300_01_n_1_0.window j (1 : Fin 2) : ℕ) : Int) < ((304 : ℕ) : Int)
      rw [hw1]; omega
  unfold ScatterDims.resultIdx?
  rw [dif_pos hin]
  refine congrArg some (funext fun a => Fin.ext ?_)
  match a with
  | ⟨0, _⟩ => show (scatter_S64x304_S1_S64x300_01_n_1_0.start j idx0 (0 : Fin 2) + scatter_S64x304_S1_S64x300_01_n_1_0.window j (0 : Fin 2)).toNat = (j 0).val; rw [hs, hw0]; omega
  | ⟨1, _⟩ => show (scatter_S64x304_S1_S64x300_01_n_1_0.start j idx0 (1 : Fin 2) + scatter_S64x304_S1_S64x300_01_n_1_0.window j (1 : Fin 2)).toNat = (j 1).val; rw [hs, hw1]; omega

/-- Two update entries landing on one result entry are the same entry. -/
theorem uniq64 (i : S64x304.Idx) (j j' : S64x300.Idx) (hj : scatter_S64x304_S1_S64x300_01_n_1_0.resultIdx? j idx0 = some i)
    (hj' : scatter_S64x304_S1_S64x300_01_n_1_0.resultIdx? j' idx0 = some i) : j' = j := by
  rw [land64] at hj hj'
  have e := Option.some.inj (hj'.trans hj.symm)
  funext a
  match a with
  | ⟨0, _⟩ => exact Fin.ext (congrArg (fun y : S64x304.Idx => (y 0).val) e)
  | ⟨1, _⟩ => exact Fin.ext (congrArg (fun y : S64x304.Idx => (y 1).val) e)

/-- Where the update's entry (r, q) lands: at (r, q), the window starting at column 0. -/
theorem land4 (j : S4x300.Idx) :
    scatter_S4x304_S1_S4x300_01_n_1_0.resultIdx? j idx0
      = some (ix2 (⟨(j 0).val, (j 0).isLt⟩ : Fin 4) (⟨(j 1).val, by have h1 : (j 1).val < 300 := (j 1).isLt; omega⟩ : Fin 304) : S4x304.Idx) := by
  have h0 : (j 0).val < 4 := (j 0).isLt
  have h1 : (j 1).val < 300 := (j 1).isLt
  have hs : ∀ a, scatter_S4x304_S1_S4x300_01_n_1_0.start j idx0 a = 0 := fun a => by
    unfold ScatterDims.start
    split
    · rfl
    · rfl
  have hw0 : scatter_S4x304_S1_S4x300_01_n_1_0.window j (0 : Fin 2) = (j 0).val := by
    unfold ScatterDims.window
    rw [dif_pos (by decide)]
    rfl
  have hw1 : scatter_S4x304_S1_S4x300_01_n_1_0.window j (1 : Fin 2) = (j 1).val := by
    unfold ScatterDims.window
    rw [dif_pos (by decide)]
    rfl
  have hin : ∀ a, 0 ≤ scatter_S4x304_S1_S4x300_01_n_1_0.start j idx0 a + scatter_S4x304_S1_S4x300_01_n_1_0.window j a
      ∧ scatter_S4x304_S1_S4x300_01_n_1_0.start j idx0 a + scatter_S4x304_S1_S4x300_01_n_1_0.window j a < S4x304.size a := fun a => by
    rw [hs a]
    match a with
    | ⟨0, _⟩ =>
      show (0 : Int) ≤ 0 + ((scatter_S4x304_S1_S4x300_01_n_1_0.window j (0 : Fin 2) : ℕ) : Int)
        ∧ (0 : Int) + ((scatter_S4x304_S1_S4x300_01_n_1_0.window j (0 : Fin 2) : ℕ) : Int) < ((4 : ℕ) : Int)
      rw [hw0]; omega
    | ⟨1, _⟩ =>
      show (0 : Int) ≤ 0 + ((scatter_S4x304_S1_S4x300_01_n_1_0.window j (1 : Fin 2) : ℕ) : Int)
        ∧ (0 : Int) + ((scatter_S4x304_S1_S4x300_01_n_1_0.window j (1 : Fin 2) : ℕ) : Int) < ((304 : ℕ) : Int)
      rw [hw1]; omega
  unfold ScatterDims.resultIdx?
  rw [dif_pos hin]
  refine congrArg some (funext fun a => Fin.ext ?_)
  match a with
  | ⟨0, _⟩ => show (scatter_S4x304_S1_S4x300_01_n_1_0.start j idx0 (0 : Fin 2) + scatter_S4x304_S1_S4x300_01_n_1_0.window j (0 : Fin 2)).toNat = (j 0).val; rw [hs, hw0]; omega
  | ⟨1, _⟩ => show (scatter_S4x304_S1_S4x300_01_n_1_0.start j idx0 (1 : Fin 2) + scatter_S4x304_S1_S4x300_01_n_1_0.window j (1 : Fin 2)).toNat = (j 1).val; rw [hs, hw1]; omega

/-- Two update entries landing on one result entry are the same entry. -/
theorem uniq4 (i : S4x304.Idx) (j j' : S4x300.Idx) (hj : scatter_S4x304_S1_S4x300_01_n_1_0.resultIdx? j idx0 = some i)
    (hj' : scatter_S4x304_S1_S4x300_01_n_1_0.resultIdx? j' idx0 = some i) : j' = j := by
  rw [land4] at hj hj'
  have e := Option.some.inj (hj'.trans hj.symm)
  funext a
  match a with
  | ⟨0, _⟩ => exact Fin.ext (congrArg (fun y : S4x304.Idx => (y 0).val) e)
  | ⟨1, _⟩ => exact Fin.ext (congrArg (fun y : S4x304.Idx => (y 1).val) e)

variable (m : (ℓ : Loc nD τ sig) → Buf (Elt Ideal) ℓ) (ρ : Dev nD → PrngReg)

/-- The detections' boxes and embeddings are not written before the launch. -/
theorem v1_det (c : Dev nD) : V1 m ρ c main_arg0 = m ((c : Thread nD τ).loc main_arg0) := by
  show StableHlo.after hostOps0 _ (Proc.devRef .tc main_arg0) = _
  exact (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem v1_emb (c : Dev nD) : V1 m ρ c main_arg1 = m ((c : Thread nD τ).loc main_arg1) := by
  show StableHlo.after hostOps0 _ (Proc.devRef .tc main_arg1) = _
  exact (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The padded, transposed array as the operations before the launch spell it. -/
theorem v1_keT_eq (c : Dev nD) : (V1 m ρ c main_call0_v3 : S64x304.Idx → EReal)
    = Host.scatter scatter_S64x304_S1_S64x300_01_n_1_0 (fun _ b => b)
        (broadcastInDim S64x304 ![] bcast_S_S64x304 (constant (F := Ideal) S_ .f32 0x00000000#32)) idx0
        (transpose S64x300 [1, 0] (m ((c : Thread nD τ).loc main_arg3)) transposes_S300x64_S64x300_1_0) := by
  show StableHlo.after hostOps0 _ (Proc.devRef .tc main_call0_v3) = _
  after_results
  refine (cast_eq _ _).trans ?_
  exact scatter_congr _ _ rfl rfl rfl

/-- Entry (k, j) of the padded, transposed array: entry (j, k) of the argument on a real slot, zero on a padded one. -/
theorem v1_keT (c : Dev nD) (k : Fin 64) (j : Fin 304) :
    (V1 m ρ c main_call0_v3 : S64x304.Idx → EReal) (ix2 k j)
      = if h : j.val < 300 then (m ((c : Thread nD τ).loc main_arg3) : S300x64.Idx → EReal) (ix2 (⟨j.val, h⟩ : Fin 300) k)
        else (0 : EReal) := by
  rw [show (V1 m ρ c main_call0_v3 : S64x304.Idx → EReal) = _ from v1_keT_eq m ρ c]
  by_cases h : j.val < 300
  · rw [dif_pos h]
    refine (Cert.ScatterSet.scatter_hit _ _ _ _ (ix2 k j) (ix2 k (⟨j.val, h⟩ : Fin 300)) (land64 _)
      (fun j' hj' => uniq64 _ _ _ (land64 _) hj')).trans ?_
    exact transpose_ix2_apply (m ((c : Thread nD τ).loc main_arg3)) transposes_S300x64_S64x300_1_0 k (⟨j.val, h⟩ : Fin 300)
  · rw [dif_neg h]
    refine (Cert.ScatterSet.scatter_miss _ _ _ _ (ix2 k j) fun j' hj' => ?_).trans Cert.Consts.ofBits_zero
    rw [land64] at hj'
    have e : (j' 1).val = j.val := congrArg (fun y : S64x304.Idx => (y 1).val) (Option.some.inj hj')
    have h1 : (j' 1).val < 300 := (j' 1).isLt
    omega

/-- The padded, transposed array as the operations before the launch spell it. -/
theorem v1_rbT_eq (c : Dev nD) : (V1 m ρ c main_call0_v7 : S4x304.Idx → EReal)
    = Host.scatter scatter_S4x304_S1_S4x300_01_n_1_0 (fun _ b => b)
        (broadcastInDim S4x304 ![] bcast_S_S4x304 (constant (F := Ideal) S_ .f32 0x00000000#32)) idx0
        (transpose S4x300 [1, 0] (m ((c : Thread nD τ).loc main_arg2)) transposes_S300x4_S4x300_1_0) := by
  show StableHlo.after hostOps0 _ (Proc.devRef .tc main_call0_v7) = _
  after_results
  refine (cast_eq _ _).trans ?_
  exact scatter_congr _ _ rfl rfl rfl

/-- Entry (k, j) of the padded, transposed array: entry (j, k) of the argument on a real slot, zero on a padded one. -/
theorem v1_rbT (c : Dev nD) (k : Fin 4) (j : Fin 304) :
    (V1 m ρ c main_call0_v7 : S4x304.Idx → EReal) (ix2 k j)
      = if h : j.val < 300 then (m ((c : Thread nD τ).loc main_arg2) : S300x4.Idx → EReal) (ix2 (⟨j.val, h⟩ : Fin 300) k)
        else (0 : EReal) := by
  rw [show (V1 m ρ c main_call0_v7 : S4x304.Idx → EReal) = _ from v1_rbT_eq m ρ c]
  by_cases h : j.val < 300
  · rw [dif_pos h]
    refine (Cert.ScatterSet.scatter_hit _ _ _ _ (ix2 k j) (ix2 k (⟨j.val, h⟩ : Fin 300)) (land4 _)
      (fun j' hj' => uniq4 _ _ _ (land4 _) hj')).trans ?_
    exact transpose_ix2_apply (m ((c : Thread nD τ).loc main_arg2)) transposes_S300x4_S4x300_1_0 k (⟨j.val, h⟩ : Fin 300)
  · rw [dif_neg h]
    refine (Cert.ScatterSet.scatter_miss _ _ _ _ (ix2 k j) fun j' hj' => ?_).trans Cert.Consts.ofBits_zero
    rw [land4] at hj'
    have e : (j' 1).val = j.val := congrArg (fun y : S4x304.Idx => (y 1).val) (Option.some.inj hj')
    have h1 : (j' 1).val < 300 := (j' 1).isLt
    omega

end Cert.KernelIdeal.Wiring0

end
-- ==== Proof.R1Payload.lean ====
/-
  The second launch (the first hidden layer and its moments), one tile: its payloads at an entry.

  A tile is 40 detections × 304 reference slots = 12160 pair rows. A pair carries two input features, a cosine and an
  overlap; each is normalised with its own column of the incoming moments, weight and bias,
      feature k = input k · scale k + shift k        (k = 0 the cosine, k = 1 the overlap),
  scale and shift the same functions of a column's weight, bias and raw moments as in the last launch. The two features
  of pair (p, j) stand in row 304·p + j of a 12160 × 2 array, and the first layer's activation of that row is
      a (r, q) = max ((∑ k, feature k · W (k,q)) + bias q) 0        (32 columns).
  The launch stores a as its tile of the activations and adds, into row 0 and row 1 of its 3 × 128 block of moments, the
  column sums of a and of a². At the last grid point it also computes the activation row every padded pair carries — the
  same expression at cosine 0 and overlap 0 —, adds −4000 times it and −4000 times its square to rows 0 and 1, and stores
  it in row 2.
-/
import proofs.«139309_g56014963475156_cont_9to1_m_1179_16_alg».proof.Proof.Gen.KernelIdeal.Skeleton
import proofs.«139309_g56014963475156_cont_9to1_m_1179_16_alg».proof.Proof.R4Payload
import proofs.«139309_g56014963475156_cont_9to1_m_1179_16_alg».proof.Proof.LibColSums

set_option maxRecDepth 16384

noncomputable section

namespace Cert.KernelIdeal.R1

open Cert.KernelIdeal Cert.KernelIdeal.Gen
open Idealize.ShloMosaic Idealize.ShloMosaic.ValueIdx
open Cert.KernelIdeal.R4 (scale shift zer cinv eps)

/-- The padded rows' count, negated, as the program spells it. -/
abbrev m4000 : EReal := Scalar.ofBits (F := Ideal) .f32 0xC57A0000#32

/-- Normalised input feature k of a pair with cosine cs and overlap io: column k of the weight g, the bias b and the raw
    moments s1, s2 give the scale and the shift. -/
def feat (g b s1 s2 : S1x2.Idx → EReal) (cs io : EReal) (k : Fin 2) : EReal :=
  (![cs, io] : Fin 2 → EReal) k * scale (g (ix2 (0 : Fin 1) k)) (s1 (ix2 (0 : Fin 1) k)) (s2 (ix2 (0 : Fin 1) k))
    + shift (g (ix2 (0 : Fin 1) k)) (b (ix2 (0 : Fin 1) k)) (s1 (ix2 (0 : Fin 1) k)) (s2 (ix2 (0 : Fin 1) k))

/-- The first layer's activation, column q, of a pair with cosine cs and overlap io. -/
def act (g b s1 s2 : S1x2.Idx → EReal) (W : S2x32.Idx → EReal) (bias : S1x32.Idx → EReal) (cs io : EReal) (q : Fin 32) : EReal :=
  max ((∑ k : Fin 2, feat g b s1 s2 cs io k * W (ix2 k q)) + bias (ix2 (0 : Fin 1) q)) zer

/-- A column's scale, read off the payload that computes it. -/
theorem pay6_apply (g s1 s2 : Vec Ideal S1x2 .f32) (k : Fin 2) :
    k1_pay6 (F := Ideal) g s1 s2 (ix2 (0 : Fin 1) k) = scale (g (ix2 (0 : Fin 1) k)) (s1 (ix2 (0 : Fin 1) k)) (s2 (ix2 (0 : Fin 1) k)) := by
  unfold k1_pay6 k1_pay5
  simp only [shapeCast_self]
  rfl

/-- A column's shift. -/
theorem pay7_apply (g b s1 s2 : Vec Ideal S1x2 .f32) (k : Fin 2) :
    k1_pay7 (F := Ideal) g b s1 s2 (ix2 (0 : Fin 1) k)
      = shift (g (ix2 (0 : Fin 1) k)) (b (ix2 (0 : Fin 1) k)) (s1 (ix2 (0 : Fin 1) k)) (s2 (ix2 (0 : Fin 1) k)) := by
  unfold k1_pay7 k1_pay6 k1_pay5
  simp only [shapeCast_self]
  rfl

/-- Column 0 of a two-column row, cut out as a 1 × 1 array. -/
theorem slice_col0 {α : Type} (v : S1x2.Idx → α) :
    extractStridedSlice S1x1 ![0, 0] v slices_S1x2_o0_0_S1x1 (ix2 (0 : Fin 1) (0 : Fin 1)) = v (ix2 (0 : Fin 1) (0 : Fin 2)) :=
  extractStridedSlice_apply ![0, 0] v slices_S1x2_o0_0_S1x1 _ (ix2 (0 : Fin 1) (0 : Fin 2)) (fun a => by
    match a with
    | ⟨0, _⟩ => rfl
    | ⟨1, _⟩ => rfl)

/-- Column 1 of a two-column row, cut out as a 1 × 1 array. -/
theorem slice_col1 {α : Type} (v : S1x2.Idx → α) :
    extractStridedSlice S1x1 ![0, 1] v slices_S1x2_o0_1_S1x1 (ix2 (0 : Fin 1) (0 : Fin 1)) = v (ix2 (0 : Fin 1) (1 : Fin 2)) :=
  extractStridedSlice_apply ![0, 1] v slices_S1x2_o0_1_S1x1 _ (ix2 (0 : Fin 1) (1 : Fin 2)) (fun a => by
    match a with
    | ⟨0, _⟩ => rfl
    | ⟨1, _⟩ => rfl)

/-- A 1 × 1 array repeated over a 40 × 304 tile reads its one entry everywhere. -/
theorem bcast_tile {α : Type} (v : S1x1.Idx → α) (p : Fin 40) (j : Fin 304) :
    broadcastTo S40x304 v broadcasts_S1x1_S40x304 (ix2 p j) = v (ix2 (0 : Fin 1) (0 : Fin 1)) :=
  broadcastTo_apply v broadcasts_S1x1_S40x304 (ix2 p j) (ix2 (0 : Fin 1) (0 : Fin 1)) (fun a => by
    match a with
    | ⟨0, _⟩ => rfl
    | ⟨1, _⟩ => rfl)

/-- A 1 × 1 array repeated along a 32-column row reads its one entry everywhere. -/
theorem bcast_row {α : Type} (v : S1x1.Idx → α) (q : Fin 32) :
    broadcastTo S1x32 v broadcasts_S1x1_S1x32 (ix2 (0 : Fin 1) q) = v (ix2 (0 : Fin 1) (0 : Fin 1)) :=
  broadcastTo_apply v broadcasts_S1x1_S1x32 (ix2 (0 : Fin 1) q) (ix2 (0 : Fin 1) (0 : Fin 1)) (fun a => by
    match a with
    | ⟨0, _⟩ => rfl
    | ⟨1, _⟩ => rfl)

/-- The cosine's scale repeated over the tile. -/
theorem pay12_apply (g s1 s2 : Vec Ideal S1x2 .f32) (p : Fin 40) (j : Fin 304) :
    k1_pay12 (F := Ideal) g s1 s2 (ix2 p j)
      = scale (g (ix2 (0 : Fin 1) (0 : Fin 2))) (s1 (ix2 (0 : Fin 1) (0 : Fin 2))) (s2 (ix2 (0 : Fin 1) (0 : Fin 2))) := by
  unfold k1_pay12
  rw [bcast_tile, slice_col0, pay6_apply]

/-- The two features of pair (p, j), stacked and laid out as row 304·p + j of a 12160 × 2 array: entry (r, 0). -/
theorem stack_apply0 {α : Type} (u v : S40x304.Idx → α) (p : Fin 40) (j : Fin 304) (r : Fin 12160) (hr : r.val = 304 * p.val + j.val) :
    shapeCast S12160x2 (concatenate S40x304x2 2 [⟨S40x304x1, shapeCast S40x304x1 u shapeCasts_S40x304_S40x304x1⟩,
        ⟨S40x304x1, shapeCast S40x304x1 v shapeCasts_S40x304_S40x304x1⟩] concatenates_S40x304x1_S40x304x1_S40x304x2_d2)
      shapeCasts_S40x304x2_S12160x2 (ix2 r (0 : Fin 2)) = u (ix2 p j) := by
  refine (shapeCast_apply _ shapeCasts_S40x304x2_S12160x2 (ix2 r (0 : Fin 2)) (ix3 p j (0 : Fin 2))
    (by rw [Shape.rowMajor_val_two, Shape.rowMajor_val_three]
        show (p.val * 304 + j.val) * 2 + 0 = r.val * 2 + 0
        rw [hr]; ring)).trans ?_
  refine (concatenate_pair_apply_left (t := S40x304x2) (s₁ := S40x304x1) (s₂ := S40x304x1) (2 : Fin 3) _ _ concatenates_S40x304x1_S40x304x1_S40x304x2_d2 (ix3 p j (0 : Fin 2)) rfl
    (ix3 p j (0 : Fin 1)) (fun b => by
      match b with
      | ⟨0, _⟩ => rfl
      | ⟨1, _⟩ => rfl
      | ⟨2, _⟩ => rfl)).trans ?_
  exact shapeCast_apply u shapeCasts_S40x304_S40x304x1 (ix3 p j (0 : Fin 1)) (ix2 p j)
    (by rw [Shape.rowMajor_val_two, Shape.rowMajor_val_three]
        show p.val * 304 + j.val = (p.val * 304 + j.val) * 1 + 0
        ring)

/-- Entry (r, 1) of the same. -/
theorem stack_apply1 {α : Type} (u v : S40x304.Idx → α) (p : Fin 40) (j : Fin 304) (r : Fin 12160) (hr : r.val = 304 * p.val + j.val) :
    shapeCast S12160x2 (concatenate S40x304x2 2 [⟨S40x304x1, shapeCast S40x304x1 u shapeCasts_S40x304_S40x304x1⟩,
        ⟨S40x304x1, shapeCast S40x304x1 v shapeCasts_S40x304_S40x304x1⟩] concatenates_S40x304x1_S40x304x1_S40x304x2_d2)
      shapeCasts_S40x304x2_S12160x2 (ix2 r (1 : Fin 2)) = v (ix2 p j) := by
  refine (shapeCast_apply _ shapeCasts_S40x304x2_S12160x2 (ix2 r (1 : Fin 2)) (ix3 p j (1 : Fin 2))
    (by rw [Shape.rowMajor_val_two, Shape.rowMajor_val_three]
        show (p.val * 304 + j.val) * 2 + 1 = r.val * 2 + 1
        rw [hr]; ring)).trans ?_
  refine (concatenate_pair_apply_right (t := S40x304x2) (s₁ := S40x304x1) (s₂ := S40x304x1) (2 : Fin 3) _ _ concatenates_S40x304x1_S40x304x1_S40x304x2_d2 (ix3 p j (1 : Fin 2)) rfl rfl
    (ix3 p j (0 : Fin 1)) (fun b hb => by
      match b with
      | ⟨0, _⟩ => rfl
      | ⟨1, _⟩ => rfl
      | ⟨2, _⟩ => exact absurd rfl hb) rfl).trans ?_
  exact shapeCast_apply v shapeCasts_S40x304_S40x304x1 (ix3 p j (0 : Fin 1)) (ix2 p j)
    (by rw [Shape.rowMajor_val_two, Shape.rowMajor_val_three]
        show p.val * 304 + j.val = (p.val * 304 + j.val) * 1 + 0
        ring)

/-- The first layer's activation on the tile: row r = 304·p + j, column q. -/
theorem act_apply (g b s1 s2 : Vec Ideal S1x2 .f32) (W : Vec Ideal S2x32 .f32) (bias : Vec Ideal S1x32 .f32)
    (cs io : Vec Ideal S40x304 .f32) (p : Fin 40) (j : Fin 304) (q : Fin 32) (r : Fin 12160) (hr : r.val = 304 * p.val + j.val) :
    k1_pay13 (F := Ideal) (k1_pay6 g s1 s2) (k1_pay7 g b s1 s2) W (k1_pay10 bias) (k1_pay11 cs) (k1_pay12 g s1 s2) io (ix2 r q)
      = act g b s1 s2 W bias (cs (ix2 p j)) (io (ix2 p j)) q := by
  unfold k1_pay13 k1_pay10 k1_pay11 act
  rw [maximumf_apply, broadcast_apply, addf_apply,
    Cert.LinearAt.matmul_apply 12160 2 32 dot_S12160x2_S2x32_S12160x32_1_0_0_1_n_n rfl,
    broadcastTo_1b_ab_apply _ broadcasts_S1x32_S12160x32, shapeCast_self bias]
  refine congrArg (fun z : EReal => max (z + bias (ix2 (0 : Fin 1) q)) zer) ?_
  rw [Fin.sum_univ_two, Fin.sum_univ_two]
  refine congrArg₂ (· + ·) (congrArg₂ (· * ·) ?_ rfl) (congrArg₂ (· * ·) ?_ rfl)
  · rw [truncf_apply, stack_apply0 _ _ p j r hr, addf_apply, mulf_apply, bcast_tile, slice_col0, pay12_apply, pay7_apply, shapeCast_self]
    rfl
  · rw [truncf_apply, stack_apply1 _ _ p j r hr, addf_apply, mulf_apply, bcast_tile, bcast_tile, slice_col1, slice_col1,
      pay6_apply, pay7_apply, shapeCast_self]
    rfl

/-- Row 0's store: the previous row plus the column sums of the activations. -/
theorem pay14_apply (v22 v24 : FVec Ideal S1x2 .f32) (v25 : Vec Ideal S2x32 .f32) (v33 : FVec Ideal S1x32 .f32)
    (v35 v37 : FVec Ideal S40x304 .f32) (v44 : Vec Ideal S40x304 .f32) (prev : Vec Ideal S1x32 .f32) (q : Fin 32) :
    k1_pay14 (F := Ideal) v22 v24 v25 v33 v35 v37 v44 prev (ix2 (0 : Fin 1) q)
      = prev (ix2 (0 : Fin 1) q) + ∑ r : Fin 12160, k1_pay13 (F := Ideal) v22 v24 v25 v33 v35 v37 v44 (ix2 r q) := by
  unfold k1_pay14
  rw [addf_apply, shapeCast_self]
  exact congrArg (fun z => _ + z) (Cert.ColSums.colsum_row_apply 12160 32 _ _ _ _ _ _ q)

/-- Row 1's store: the previous row plus the column sums of the squared activations. -/
theorem pay15_apply (v22 v24 : FVec Ideal S1x2 .f32) (v25 : Vec Ideal S2x32 .f32) (v33 : FVec Ideal S1x32 .f32)
    (v35 v37 : FVec Ideal S40x304 .f32) (v44 : Vec Ideal S40x304 .f32) (prev : Vec Ideal S1x32 .f32) (q : Fin 32) :
    k1_pay15 (F := Ideal) v22 v24 v25 v33 v35 v37 v44 prev (ix2 (0 : Fin 1) q)
      = prev (ix2 (0 : Fin 1) q) + ∑ r : Fin 12160, k1_pay13 (F := Ideal) v22 v24 v25 v33 v35 v37 v44 (ix2 r q)
          * k1_pay13 (F := Ideal) v22 v24 v25 v33 v35 v37 v44 (ix2 r q) := by
  unfold k1_pay15
  rw [addf_apply, shapeCast_self]
  exact congrArg (fun z => _ + z) (Cert.ColSums.colsum_row_apply 12160 32 _ _ _ _ _ _ q)

/-- The padded pairs' activation row: the activation at cosine 0 and overlap 0. -/
theorem pay1_apply (g b s1 s2 : Vec Ideal S1x2 .f32) (W : Vec Ideal S2x32 .f32) (bias : Vec Ideal S1x32 .f32) (q : Fin 32) :
    k1_pay1 (F := Ideal) (k1_pay6 g s1 s2) (k1_pay7 g b s1 s2) (k1_pay8 W) (k1_pay9 W) (k1_pay10 bias) (ix2 (0 : Fin 1) q)
      = act g b s1 s2 W bias zer zer q := by
  unfold k1_pay1 k1_pay8 k1_pay9 k1_pay10 act
  rw [maximumf_apply, broadcast_apply, addf_apply, addf_apply, mulf_apply, mulf_apply, bcast_row, bcast_row,
    addf_apply, addf_apply, mulf_apply, mulf_apply,
    slice_col0, slice_col0, slice_col1, slice_col1, pay6_apply, pay6_apply, pay7_apply, pay7_apply, shapeCast_self,
    Fin.sum_univ_two]
  refine congrArg (fun z : EReal => max (z + bias (ix2 (0 : Fin 1) q)) zer) (congrArg₂ (· + ·) (congrArg₂ (· * ·) rfl ?_) (congrArg₂ (· * ·) rfl ?_))
  · exact extractStridedSlice_apply ![0, 0] W slices_S2x32_o0_0_S1x32 (ix2 (0 : Fin 1) q) (ix2 (0 : Fin 2) q) (fun a => by
      match a with
      | ⟨0, _⟩ => rfl
      | ⟨1, _⟩ => show q.val = 0 + q.val; omega)
  · exact extractStridedSlice_apply ![1, 0] W slices_S2x32_o1_0_S1x32 (ix2 (0 : Fin 1) q) (ix2 (1 : Fin 2) q) (fun a => by
      match a with
      | ⟨0, _⟩ => rfl
      | ⟨1, _⟩ => show q.val = 0 + q.val; omega)

/-- Row 0's correction at the last point. -/
theorem pay2_apply (v22 v24 : FVec Ideal S1x2 .f32) (v28 v31 v33 : FVec Ideal S1x32 .f32) (prev : Vec Ideal S1x32 .f32) (q : Fin 32) :
    k1_pay2 (F := Ideal) v22 v24 v28 v31 v33 prev (ix2 (0 : Fin 1) q)
      = prev (ix2 (0 : Fin 1) q) + m4000 * k1_pay1 (F := Ideal) v22 v24 v28 v31 v33 (ix2 (0 : Fin 1) q) := by
  unfold k1_pay2
  rw [addf_apply, shapeCast_self, mulf_apply, broadcast_apply]

/-- Row 1's correction at the last point. -/
theorem pay3_apply (v22 v24 : FVec Ideal S1x2 .f32) (v28 v31 v33 : FVec Ideal S1x32 .f32) (prev : Vec Ideal S1x32 .f32) (q : Fin 32) :
    k1_pay3 (F := Ideal) v22 v24 v28 v31 v33 prev (ix2 (0 : Fin 1) q)
      = prev (ix2 (0 : Fin 1) q) + m4000 * (k1_pay1 (F := Ideal) v22 v24 v28 v31 v33 (ix2 (0 : Fin 1) q)
          * k1_pay1 (F := Ideal) v22 v24 v28 v31 v33 (ix2 (0 : Fin 1) q)) := by
  unfold k1_pay3
  rw [addf_apply, shapeCast_self, mulf_apply, broadcast_apply, mulf_apply]

end Cert.KernelIdeal.R1

end
-- ==== Proof.R1Value.lean ====
/-
  The second launch: the first hidden layer's activations and their moments, as functions of the arrays the launch finds.

  Grid point t handles detections 40·t … 40·t + 39, that is pair rows 12160·t … 12160·t + 12159 (12160 = 40 · 304). It has
  two outputs. The tile of the first layer's activations is written whole at every point and written back at every point:
  the twenty-five tiles make up the activations array, entry (R, q) being the activation, column q, of the pair of
  detection R / 304 and slot R % 304. The 3 × 128 block of moments stays in place over the 25 points and is written back
  once, after the last: point 0 zeroes it; every point adds the column sums of its tile's activations to row 0 and of
  their squares to row 1 (columns 0 … 31); the last point then adds −4000 · c and −4000 · c² and stores c in row 2, c the
  activation row every padded pair carries. Read at an entry, what each of the three control cases leaves in the moments
  is one "step" (and, at the last point, one "finish") applied to what the point before left.
-/
import proofs.«139309_g56014963475156_cont_9to1_m_1179_16_alg».proof.Proof.Gen.KernelIdeal.Frame
import proofs.«139309_g56014963475156_cont_9to1_m_1179_16_alg».proof.Proof.R1Payload
import proofs.«139309_g56014963475156_cont_9to1_m_1179_16_alg».proof.Proof.LibRowPieces

set_option maxRecDepth 16384

noncomputable section

namespace Cert.KernelIdeal.R1

open Cert.KernelIdeal Cert.KernelIdeal.Gen
open Idealize.ShloMosaic Idealize.ShloMosaic.ValueIdx Idealize.ShloMosaic.TcCoe Idealize.ShloMosaic.Tactic
open Idealize.ShloMosaic.Pipeline (Dat Cfg Window)
open Cert.KernelIdeal.R4 (scale shift zer cinv eps)

theorem hz2 : (![0, 0] : Fin 2 → Nat) = fun _ => 0 := funext fun a => by fin_cases a <;> rfl

/-- One tile's contribution to the moments: row 1 gains the column sums of the squares, row 0 the column sums. -/
def step (A : Fin 12160 → Fin 32 → EReal) (prev : S3x128.Idx → EReal) : S3x128.Idx → EReal := fun y =>
  if h : (y 0).val = 1 ∧ (y 1).val < 32 then prev y + ∑ r : Fin 12160, A r ⟨(y 1).val, h.2⟩ * A r ⟨(y 1).val, h.2⟩
  else if h : (y 0).val = 0 ∧ (y 1).val < 32 then prev y + ∑ r : Fin 12160, A r ⟨(y 1).val, h.2⟩
  else prev y

/-- The last point's correction: row 2 receives the padded pairs' activation row c, rows 1 and 0 lose 4000 · c² and 4000 · c. -/
def finish (c : Fin 32 → EReal) (s : S3x128.Idx → EReal) : S3x128.Idx → EReal := fun y =>
  if h : (y 0).val = 2 ∧ (y 1).val < 32 then c ⟨(y 1).val, h.2⟩
  else if h : (y 0).val = 1 ∧ (y 1).val < 32 then s y + m4000 * (c ⟨(y 1).val, h.2⟩ * c ⟨(y 1).val, h.2⟩)
  else if h : (y 0).val = 0 ∧ (y 1).val < 32 then s y + m4000 * c ⟨(y 1).val, h.2⟩
  else s y

/-- The tile's activations from the launch's blocks (rows 0 and 1 of the incoming moments give the scales and shifts). -/
def Ablk (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) : Fin 12160 → Fin 32 → EReal := fun r q =>
  k1_pay13 (F := Ideal)
    (k1_pay6 x3 (View.ld x2 (Rect.unit (s := S2x128) ![0, 0] S1x2.size inb_S2x128_S1x2_0_0))
      (View.ld x2 (Rect.unit (s := S2x128) ![1, 0] S1x2.size inb_S2x128_S1x2_1_0)))
    (k1_pay7 x3 x4 (View.ld x2 (Rect.unit (s := S2x128) ![0, 0] S1x2.size inb_S2x128_S1x2_0_0))
      (View.ld x2 (Rect.unit (s := S2x128) ![1, 0] S1x2.size inb_S2x128_S1x2_1_0)))
    x5 (k1_pay10 x6) (k1_pay11 x0)
    (k1_pay12 x3 (View.ld x2 (Rect.unit (s := S2x128) ![0, 0] S1x2.size inb_S2x128_S1x2_0_0))
      (View.ld x2 (Rect.unit (s := S2x128) ![1, 0] S1x2.size inb_S2x128_S1x2_1_0)))
    x1 (ix2 r q)

/-- The padded pairs' activation row from the launch's blocks. -/
def cblk (x2 : Vec Ideal S2x128 .f32) (x3 : Vec Ideal S1x2 .f32) (x4 : Vec Ideal S1x2 .f32) (x5 : Vec Ideal S2x32 .f32) (x6 : Vec Ideal S1x32 .f32) : Fin 32 → EReal := fun q =>
  k1_pay1 (F := Ideal)
    (k1_pay6 x3 (View.ld x2 (Rect.unit (s := S2x128) ![0, 0] S1x2.size inb_S2x128_S1x2_0_0))
      (View.ld x2 (Rect.unit (s := S2x128) ![1, 0] S1x2.size inb_S2x128_S1x2_1_0)))
    (k1_pay7 x3 x4 (View.ld x2 (Rect.unit (s := S2x128) ![0, 0] S1x2.size inb_S2x128_S1x2_0_0))
      (View.ld x2 (Rect.unit (s := S2x128) ![1, 0] S1x2.size inb_S2x128_S1x2_1_0)))
    (k1_pay8 x5) (k1_pay9 x5) (k1_pay10 x6) (ix2 (0 : Fin 1) q)

/-- A load of row a of the running block, at column q. -/
theorem ld_row (xo : Vec Ideal S3x128 .f32) (a : Nat) (inb : ∀ d, (![a, 0] : Fin 2 → Nat) d + (![1, 32] : Fin 2 → Nat) d ≤ S3x128.size d)
    (y : S3x128.Idx) (h0 : (y 0).val = a) (h1 : (y 1).val < 32) :
    View.ld xo (Rect.unit (s := S3x128) ![a, 0] ![1, 32] inb) (ix2 (0 : Fin 1) (⟨(y 1).val, h1⟩ : Fin 32)) = xo y :=
  congrArg xo (funext fun d => Fin.ext (by
    match d with
    | ⟨0, _⟩ => show a + 1 * 0 = (y 0).val; omega
    | ⟨1, _⟩ => show 0 + 1 * (y 1).val = (y 1).val; omega))

/-- The zero block. -/
theorem pay4_apply (y : S3x128.Idx) : k1_pay4 (F := Ideal) y = zer := rfl

/-- A read of the moments buffer after one store through the whole block. -/
theorem read_whole {sig' : RefSig} {κ' : Kind} {sp' : Space} (v : View sig' κ' sp' S3x128 .f32) (f : v.ty.Contents (Elt Ideal))
    (w : S3x128.Idx → EReal) (y : S3x128.Idx) :
    v.read (Elt Ideal) (v.writes (Elt Ideal) f [(⟨Rect.unit (s := S3x128) ![0, 0] S3x128.size inb_S3x128_S3x128_0_0, w⟩ : View.Piece (Elt Ideal) S3x128 .f32)]) y = w y :=
  View.read_writes_cons_unit_of_mem v f inb_S3x128_S3x128_0_0 w [] y y rfl
    (Fin.forall_fin_two.mpr ⟨by show (y 0).val = 0 + (y 0).val; omega, by show (y 1).val = 0 + (y 1).val; omega⟩)

/-- A read of the activations' buffer after one store through the whole tile. -/
theorem read_whole_tile {sig' : RefSig} {κ' : Kind} {sp' : Space} (v : View sig' κ' sp' S12160x32 .f32) (f : v.ty.Contents (Elt Ideal))
    (w : S12160x32.Idx → EReal) (y : S12160x32.Idx) :
    v.read (Elt Ideal) (v.writes (Elt Ideal) f [(⟨Rect.unit (s := S12160x32) ![0, 0] S12160x32.size inb_S12160x32_S12160x32_0_0, w⟩ : View.Piece (Elt Ideal) S12160x32 .f32)]) y = w y :=
  View.read_writes_cons_unit_of_mem v f inb_S12160x32_S12160x32_0_0 w [] y y rfl
    (Fin.forall_fin_two.mpr ⟨by show (y 0).val = 0 + (y 0).val; omega, by show (y 1).val = 0 + (y 1).val; omega⟩)

/-! ## The activations' tile: in every case one whole store of the tile's activations -/

theorem tileA (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : cond1_0 i) (hc1 : ¬cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) :
    out1_A_7 (F := Ideal) c i arg1 harg1 arg2 harg2 arg3 harg3 arg4 harg4 arg5 harg5 arg6 harg6 arg7 harg7 arg8 harg8 arg9 harg9 hc0 hc1 x0 x1 x2 x3 x4 x5 x6 = fun y => Ablk x0 x1 x2 x3 x4 x5 x6 (y 0) (y 1) := by
  unfold out1_A_7 kernelRun1_A
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  exact (read_whole_tile _ _ _ y).trans (congrArg _ (eq_ix2 y))

theorem tileB (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : ¬cond1_0 i) (hc1 : ¬cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) (xo8 : Vec Ideal S3x128 .f32) :
    out1_B_7 (F := Ideal) c i arg1 harg1 arg2 harg2 arg3 harg3 arg4 harg4 arg5 harg5 arg6 harg6 arg7 harg7 arg8 harg8 arg9 harg9 hc0 hc1 x0 x1 x2 x3 x4 x5 x6 xo8 = fun y => Ablk x0 x1 x2 x3 x4 x5 x6 (y 0) (y 1) := by
  unfold out1_B_7 kernelRun1_B
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  exact (read_whole_tile _ _ _ y).trans (congrArg _ (eq_ix2 y))

theorem tileC (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : ¬cond1_0 i) (hc1 : cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) (xo8 : Vec Ideal S3x128 .f32) :
    out1_C_7 (F := Ideal) c i arg1 harg1 arg2 harg2 arg3 harg3 arg4 harg4 arg5 harg5 arg6 harg6 arg7 harg7 arg8 harg8 arg9 harg9 hc0 hc1 x0 x1 x2 x3 x4 x5 x6 xo8 = fun y => Ablk x0 x1 x2 x3 x4 x5 x6 (y 0) (y 1) := by
  unfold out1_C_7 kernelRun1_C
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  exact (read_whole_tile _ _ _ y).trans (congrArg _ (eq_ix2 y))

/-! ## The moments: one step per point, and the correction at the last -/

/-- CASE B (a middle point): one step over what the point before left. -/
theorem caseB (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : ¬cond1_0 i) (hc1 : ¬cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) (xo8 : Vec Ideal S3x128 .f32) :
    out1_B_8 (F := Ideal) c i arg1 harg1 arg2 harg2 arg3 harg3 arg4 harg4 arg5 harg5 arg6 harg6 arg7 harg7 arg8 harg8 arg9 harg9 hc0 hc1 x0 x1 x2 x3 x4 x5 x6 xo8 = step (Ablk x0 x1 x2 x3 x4 x5 x6) xo8 := by
  unfold out1_B_8 kernelRun1_B
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  unfold step
  by_cases h1 : (y 0).val = 1 ∧ (y 1).val < 32
  · rw [dif_pos h1]
    refine (Cert.RowPieces.read_row_hit _ _ _ _ _ y h1.1 h1.2).trans ?_
    refine (pay15_apply _ _ _ _ _ _ _ _ _).trans ?_
    rw [ld_row xo8 1 _ y h1.1 h1.2]
    rfl
  · rw [dif_neg h1]
    refine (Cert.RowPieces.read_row_miss _ _ _ _ _ y h1).trans ?_
    by_cases h0 : (y 0).val = 0 ∧ (y 1).val < 32
    · rw [dif_pos h0]
      refine (Cert.RowPieces.read_row_hit _ _ _ _ _ y h0.1 h0.2).trans ?_
      refine (pay14_apply _ _ _ _ _ _ _ _ _).trans ?_
      rw [ld_row xo8 0 _ y h0.1 h0.2]
      rfl
    · rw [dif_neg h0]
      refine (Cert.RowPieces.read_row_miss _ _ _ _ _ y h0).trans ?_
      rw [View.writes_nil, harg9.read_unread]

/-- CASE A (the first point): one step over the zero block. -/
theorem caseA (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : cond1_0 i) (hc1 : ¬cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) :
    out1_A_8 (F := Ideal) c i arg1 harg1 arg2 harg2 arg3 harg3 arg4 harg4 arg5 harg5 arg6 harg6 arg7 harg7 arg8 harg8 arg9 harg9 hc0 hc1 x0 x1 x2 x3 x4 x5 x6 = step (Ablk x0 x1 x2 x3 x4 x5 x6) (fun _ => zer) := by
  unfold out1_A_8 kernelRun1_A
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  unfold step
  have hy1 : (y 1).val < 128 := (y 1).isLt
  by_cases h1 : (y 0).val = 1 ∧ (y 1).val < 32
  · rw [dif_pos h1]
    refine (Cert.RowPieces.read_row_hit _ _ _ _ _ y h1.1 h1.2).trans ?_
    refine (pay15_apply _ _ _ _ _ _ _ _ _).trans ?_
    rw [Cert.RowPieces.readCov_row _ _ _ ⟨(y 1).val, h1.2⟩ (by omega : 1 < 3) (by show (y 1).val < 128; omega),
      Cert.RowPieces.canon_row_miss _ _ _ _ (by show ¬((1 : Nat) = 0 ∧ _); omega), View.canon_unit_zero hz2]
    rfl
  · rw [dif_neg h1]
    refine (Cert.RowPieces.read_row_miss _ _ _ _ _ y h1).trans ?_
    by_cases h0 : (y 0).val = 0 ∧ (y 1).val < 32
    · rw [dif_pos h0]
      refine (Cert.RowPieces.read_row_hit _ _ _ _ _ y h0.1 h0.2).trans ?_
      refine (pay14_apply _ _ _ _ _ _ _ _ _).trans ?_
      rw [Cert.RowPieces.readCov_row _ _ _ ⟨(y 1).val, h0.2⟩ (by omega : 0 < 3) (by show (y 1).val < 128; omega), View.canon_unit_zero hz2]
      rfl
    · rw [dif_neg h0]
      refine (Cert.RowPieces.read_row_miss _ _ _ _ _ y h0).trans ?_
      exact read_whole _ _ _ y

/-- CASE C (the last point): one step, then the correction. -/
theorem caseC (c : Dev nD) (i : grid1.Coords) (arg1 : Memref sig .tc .vmem S40x304 .f32) (harg1 : arg1.IsWhole) (arg2 : Memref sig .tc .vmem S40x304 .f32) (harg2 : arg2.IsWhole) (arg3 : Memref sig .tc .vmem S2x128 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S2x32 .f32) (harg6 : arg6.IsWhole) (arg7 : Memref sig .tc .vmem S1x32 .f32) (harg7 : arg7.IsWhole) (arg8 : Memref sig .tc .vmem S12160x32 .f32) (harg8 : arg8.IsWhole) (arg9 : Memref sig .tc .vmem S3x128 .f32) (harg9 : arg9.IsWhole) (hc0 : ¬cond1_0 i) (hc1 : cond1_1 i) (x0 : Vec Ideal S40x304 .f32) (x1 : Vec Ideal S40x304 .f32) (x2 : Vec Ideal S2x128 .f32) (x3 : Vec Ideal S1x2 .f32) (x4 : Vec Ideal S1x2 .f32) (x5 : Vec Ideal S2x32 .f32) (x6 : Vec Ideal S1x32 .f32) (xo8 : Vec Ideal S3x128 .f32) :
    out1_C_8 (F := Ideal) c i arg1 harg1 arg2 harg2 arg3 harg3 arg4 harg4 arg5 harg5 arg6 harg6 arg7 harg7 arg8 harg8 arg9 harg9 hc0 hc1 x0 x1 x2 x3 x4 x5 x6 xo8
      = finish (cblk x2 x3 x4 x5 x6) (step (Ablk x0 x1 x2 x3 x4 x5 x6) xo8) := by
  unfold out1_C_8 kernelRun1_C
  dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S1x2) hz2, View.ld_unit_zero (S := S2x32) hz2, View.ld_unit_zero (S := S1x32) hz2, View.ld_unit_zero (S := S40x304) hz2]
  funext y
  unfold finish step
  have hy1 : (y 1).val < 128 := (y 1).isLt
  by_cases h2 : (y 0).val = 2 ∧ (y 1).val < 32
  · rw [dif_pos h2]
    refine (Cert.RowPieces.read_row_hit _ _ _ _ _ y h2.1 h2.2).trans ?_
    rfl
  · rw [dif_neg h2]
    refine (Cert.RowPieces.read_row_miss _ _ _ _ _ y h2).trans ?_
    by_cases h1 : (y 0).val = 1 ∧ (y 1).val < 32
    · rw [dif_pos h1, dif_pos h1]
      refine (Cert.RowPieces.read_row_hit _ _ _ _ _ y h1.1 h1.2).trans ?_
      refine (pay3_apply _ _ _ _ _ _ _).trans ?_
      refine congrArg (fun z => z + m4000 * (cblk x2 x3 x4 x5 x6 ⟨(y 1).val, h1.2⟩ * cblk x2 x3 x4 x5 x6 ⟨(y 1).val, h1.2⟩)) ?_
      rw [Cert.RowPieces.readCov_row _ _ _ ⟨(y 1).val, h1.2⟩ (by omega : 1 < 3) (by show (y 1).val < 128; omega)]
      refine (Cert.RowPieces.canon_row_miss (Val := Elt Ideal) _ _ _ (ix2 (⟨1, by omega⟩ : Fin 3) (⟨(y 1).val, hy1⟩ : Fin 128)) (by show ¬((1 : Nat) = 0 ∧ _); omega)).trans ?_
      refine (Cert.RowPieces.canon_row_hit (Val := Elt Ideal) _ _ _ (ix2 (⟨1, by omega⟩ : Fin 3) (⟨(y 1).val, hy1⟩ : Fin 128)) rfl h1.2).trans ?_
      refine (pay15_apply _ _ _ _ _ _ _ _ _).trans ?_
      exact congrArg₂ (· + ·) (ld_row xo8 1 _ y h1.1 h1.2) rfl
    · rw [dif_neg h1, dif_neg h1]
      refine (Cert.RowPieces.read_row_miss _ _ _ _ _ y h1).trans ?_
      by_cases h0 : (y 0).val = 0 ∧ (y 1).val < 32
      · rw [dif_pos h0, dif_pos h0]
        refine (Cert.RowPieces.read_row_hit _ _ _ _ _ y h0.1 h0.2).trans ?_
        refine (pay2_apply _ _ _ _ _ _ _).trans ?_
        refine congrArg (fun z => z + m4000 * cblk x2 x3 x4 x5 x6 ⟨(y 1).val, h0.2⟩) ?_
        rw [Cert.RowPieces.readCov_row _ _ _ ⟨(y 1).val, h0.2⟩ (by omega : 0 < 3) (by show (y 1).val < 128; omega)]
        refine (Cert.RowPieces.canon_row_miss (Val := Elt Ideal) _ _ _ (ix2 (⟨0, by omega⟩ : Fin 3) (⟨(y 1).val, hy1⟩ : Fin 128)) (by show ¬((0 : Nat) = 1 ∧ _); omega)).trans ?_
        refine (Cert.RowPieces.canon_row_hit (Val := Elt Ideal) _ _ _ (ix2 (⟨0, by omega⟩ : Fin 3) (⟨(y 1).val, hy1⟩ : Fin 128)) rfl h0.2).trans ?_
        refine (pay14_apply _ _ _ _ _ _ _ _ _).trans ?_
        exact congrArg₂ (· + ·) (ld_row xo8 0 _ y h0.1 h0.2) rfl
      · rw [dif_neg h0, dif_neg h0]
        refine (Cert.RowPieces.read_row_miss _ _ _ _ _ y h0).trans ?_
        refine (Cert.RowPieces.read_row_miss _ _ _ _ _ y h1).trans ?_
        refine (Cert.RowPieces.read_row_miss _ _ _ _ _ y h0).trans ?_
        rw [View.writes_nil, harg9.read_unread]

/-! ## Over the grid -/

variable (V : (c : Dev nD) → (b : Ref sig .tc) → Buf (Elt Ideal) ((c : Thread nD τ).loc b))

/-- The tile's activations at grid point t, from the arrays the launch finds. -/
def Aat (c : Dev nD) (t : Fin cfg1.N) : Fin 12160 → Fin 32 → EReal :=
  Ablk (iblk1 V c 0 t) (iblk1 V c 1 t) (iblk1 V c 2 t) (iblk1 V c 3 t) (iblk1 V c 4 t) (iblk1 V c 5 t) (iblk1 V c 6 t)

/-- The padded pairs' activation row, as grid point t computes it. -/
def cat (c : Dev nD) (t : Fin cfg1.N) : Fin 32 → EReal :=
  cblk (iblk1 V c 2 t) (iblk1 V c 3 t) (iblk1 V c 4 t) (iblk1 V c 5 t) (iblk1 V c 6 t)

/-- The running moments after point n: the steps of points 0 … n over the zero block. -/
def stAt (c : Dev nD) : (n : ℕ) → n < cfg1.N → S3x128.Idx → EReal
  | 0, h => step (Aat V c ⟨0, h⟩) (fun _ => zer)
  | n + 1, h => step (Aat V c ⟨n + 1, h⟩) (stAt c n (Nat.lt_of_succ_lt h))

/-- Before the last point the moments' block holds the running moments. -/
theorem outs_eq (c : Dev nD) : ∀ (n : ℕ) (hn : n < cfg1.N), n < 24 → (outsAt1 (F := Ideal) V c n hn).2 = stAt V c n hn
  | 0, hn, _ => by
    rw [outsAt1_A V c ⟨0, hn⟩ (Nat.zero_mod 25) (by show ¬ (0 : ℕ) % 25 = 24; omega), caseA]
    rfl
  | n + 1, hn, h => by
    have h0 : ¬ (n + 1) % 25 = 0 := by omega
    have h1 : ¬ (n + 1) % 25 = 24 := by omega
    rw [outsAt1_B V c ⟨n + 1, hn⟩ h0 h1, caseB]
    show step _ (outsAt1 V c n _).2 = step _ (stAt V c n _)
    rw [outs_eq c n _ (by omega)]
    rfl

theorem lt24 : 24 < cfg1.N := by show 24 < grid1.N; rw [N_1]; decide
theorem lt23 : 23 < cfg1.N := by show 23 < grid1.N; rw [N_1]; decide

/-- What the last point leaves in the moments: the last step, then the correction. -/
def stLast (c : Dev nD) : S3x128.Idx → EReal :=
  finish (cat V c ⟨24, lt24⟩) (step (Aat V c ⟨24, lt24⟩) (stAt V c 23 lt23))

theorem outs_last (c : Dev nD) : (outsAt1 (F := Ideal) V c 24 lt24).2 = stLast V c := by
  rw [outsAt1_C V c ⟨24, lt24⟩ (by show ¬ (24 : ℕ) % 25 = 0; omega) (by show (24 : ℕ) % 25 = 24; omega), caseC]
  show finish _ (step _ (outsAt1 V c 23 _).2) = _
  rw [outs_eq V c 23 lt23 (by decide)]
  rfl

/-- At every point the activations' block holds the tile's activations. -/
theorem outs_tile (c : Dev nD) (t : Fin cfg1.N) :
    (outsAt1 (F := Ideal) V c t.val t.isLt).1 = fun y => Aat V c t (y 0) (y 1) := by
  have hN : t.val < 25 := lt_of_lt_of_eq t.isLt (show cfg1.N = 25 from N_1)
  by_cases h0 : t.val % 25 = 0
  · rw [outsAt1_A V c t h0 (by omega), tileA]
    rfl
  · by_cases h1 : t.val % 25 = 24
    · rw [outsAt1_C V c t h0 h1, tileC]
      rfl
    · rw [outsAt1_B V c t h0 h1, tileB]
      rfl

/-- The windows' block indices over the grid: the two inputs' and the activations' blocks move with the point, every
    other window stays at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0 :=
  (by decide +kernel : ∀ t : Fin grid1.N, _)

/-! ## Each block read is an array read -/

/-- Column k of a two-column row of moments, as a column of the 128-column moments array. -/
def col2 (k : Fin 2) : Fin 128 := ⟨k.val, by have := k.isLt; omega⟩

/-- Row a of the incoming moments, its first two columns, as a two-column row. -/
def momRow (st : S2x128.Idx → EReal) (a : Fin 2) : S1x2.Idx → EReal := fun i => st (ix2 a (col2 (i 1)))

/-- Detection p of point t's tile, as a detection of the whole arrays. -/
def detOf (t : Fin cfg1.N) (p : Fin 40) : Fin 1000 :=
  ⟨40 * t.val + p.val, by have ht : t.val < 25 := lt_of_lt_of_eq t.isLt (show cfg1.N = 25 from N_1); have := p.isLt; omega⟩

/-- Pair row r of point t's tile, as a row of the whole activations array. -/
def rowOf (t : Fin cfg1.N) (r : Fin 12160) : Fin 304000 :=
  ⟨12160 * t.val + r.val, by have ht : t.val < 25 := lt_of_lt_of_eq t.isLt (show cfg1.N = 25 from N_1); have := r.isLt; omega⟩

/-- The detection and the slot of a pair row of the whole activations array. -/
def detOfRow (R : Fin 304000) : Fin 1000 := ⟨R.val / 304, by have := R.isLt; omega⟩
def slotOfRow (R : Fin 304000) : Fin 304 := ⟨R.val % 304, Nat.mod_lt _ (by decide)⟩

theorem rd_cos (c : Dev nD) (t : Fin cfg1.N) (p : Fin 40) (j : Fin 304) :
    iblk1 V c 0 t (ix2 p j) = V c main_call0_v8_0 (ix2 (detOf t p) j) := by
  obtain ⟨e0, e1, -⟩ := idx_facts t
  show V c main_call0_v8_0 (((cfg1.win 0).blk t).view.emb (ix2 p j)) = _
  refine congrArg _ (funext fun a => Fin.ext ?_)
  match a with
  | ⟨0, _⟩ => show win1_0.index t (0 : Fin 2) * 40 + 1 * p.val = 40 * t.val + p.val; rw [e0]; ring
  | ⟨1, _⟩ => show win1_0.index t (1 : Fin 2) * 304 + 1 * j.val = j.val; rw [e1]; ring

theorem rd_iou (c : Dev nD) (t : Fin cfg1.N) (p : Fin 40) (j : Fin 304) :
    iblk1 V c 1 t (ix2 p j) = V c main_call0_v8_1 (ix2 (detOf t p) j) := by
  obtain ⟨-, -, e0, e1, -⟩ := idx_facts t
  show V c main_call0_v8_1 (((cfg1.win 1).blk t).view.emb (ix2 p j)) = _
  refine congrArg _ (funext fun a => Fin.ext ?_)
  match a with
  | ⟨0, _⟩ => show win1_1.index t (0 : Fin 2) * 40 + 1 * p.val = 40 * t.val + p.val; rw [e0]; ring
  | ⟨1, _⟩ => show win1_1.index t (1 : Fin 2) * 304 + 1 * j.val = j.val; rw [e1]; ring

theorem rd_s1 (c : Dev nD) (t : Fin cfg1.N) (k : Fin 2) :
    View.ld (iblk1 V c 2 t) (Rect.unit (s := S2x128) ![0, 0] S1x2.size inb_S2x128_S1x2_0_0) (ix2 (0 : Fin 1) k)
      = momRow (V c main_call0_v8_2) 0 (ix2 (0 : Fin 1) k) := by
  obtain ⟨-, -, -, -, e0, e1, -⟩ := idx_facts t
  show V c main_call0_v8_2 (((cfg1.win 2).blk t).view.emb ((Rect.unit (s := S2x128) ![0, 0] S1x2.size inb_S2x128_S1x2_0_0).idx (ix2 (0 : Fin 1) k)))
    = V c main_call0_v8_2 (ix2 (0 : Fin 2) (col2 k))
  refine congrArg _ (funext fun a => Fin.ext ?_)
  match a with
  | ⟨0, _⟩ => show win1_2.index t (0 : Fin 2) * 2 + 1 * (0 + 1 * 0) = 0; rw [e0]
  | ⟨1, _⟩ => show win1_2.index t (1 : Fin 2) * 128 + 1 * (0 + 1 * k.val) = k.val; rw [e1]; ring

theorem rd_s2 (c : Dev nD) (t : Fin cfg1.N) (k : Fin 2) :
    View.ld (iblk1 V c 2 t) (Rect.unit (s := S2x128) ![1, 0] S1x2.size inb_S2x128_S1x2_1_0) (ix2 (0 : Fin 1) k)
      = momRow (V c main_call0_v8_2) 1 (ix2 (0 : Fin 1) k) := by
  obtain ⟨-, -, -, -, e0, e1, -⟩ := idx_facts t
  show V c main_call0_v8_2 (((cfg1.win 2).blk t).view.emb ((Rect.unit (s := S2x128) ![1, 0] S1x2.size inb_S2x128_S1x2_1_0).idx (ix2 (0 : Fin 1) k)))
    = V c main_call0_v8_2 (ix2 (1 : Fin 2) (col2 k))
  refine congrArg _ (funext fun a => Fin.ext ?_)
  match a with
  | ⟨0, _⟩ => show win1_2.index t (0 : Fin 2) * 2 + 1 * (1 + 1 * 0) = 1; rw [e0]
  | ⟨1, _⟩ => show win1_2.index t (1 : Fin 2) * 128 + 1 * (0 + 1 * k.val) = k.val; rw [e1]; ring

theorem rd_g (c : Dev nD) (t : Fin cfg1.N) (k : Fin 2) :
    iblk1 V c 3 t (ix2 (0 : Fin 1) k) = V c main_call0_v9 (ix2 (0 : Fin 1) k) := by
  obtain ⟨-, -, -, -, -, -, e0, e1, -⟩ := idx_facts t
  show V c main_call0_v9 (((cfg1.win 3).blk t).view.emb (ix2 (0 : Fin 1) k)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 2 + 1 * k.val = k.val; rw [e1]; ring

theorem rd_b (c : Dev nD) (t : Fin cfg1.N) (k : Fin 2) :
    iblk1 V c 4 t (ix2 (0 : Fin 1) k) = V c main_call0_v10 (ix2 (0 : Fin 1) k) := by
  obtain ⟨-, -, -, -, -, -, -, -, e0, e1, -⟩ := idx_facts t
  show V c main_call0_v10 (((cfg1.win 4).blk t).view.emb (ix2 (0 : Fin 1) k)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 2 + 1 * k.val = k.val; rw [e1]; ring

theorem rd_W (c : Dev nD) (t : Fin cfg1.N) (k : Fin 2) (q : Fin 32) :
    iblk1 V c 5 t (ix2 k q) = V c main_arg6 (ix2 k q) := by
  obtain ⟨-, -, -, -, -, -, -, -, -, -, e0, e1, -⟩ := idx_facts t
  show V c main_arg6 (((cfg1.win 5).blk t).view.emb (ix2 k q)) = _
  refine congrArg _ (funext fun a => Fin.ext ?_)
  match a with
  | ⟨0, _⟩ => show win1_5.index t (0 : Fin 2) * 2 + 1 * k.val = k.val; rw [e0]; ring
  | ⟨1, _⟩ => show win1_5.index t (1 : Fin 2) * 32 + 1 * q.val = q.val; rw [e1]; ring

theorem rd_bias (c : Dev nD) (t : Fin cfg1.N) (q : Fin 32) :
    iblk1 V c 6 t (ix2 (0 : Fin 1) q) = V c main_call0_v11 (ix2 (0 : Fin 1) q) := by
  obtain ⟨-, -, -, -, -, -, -, -, -, -, -, -, e0, e1, -⟩ := idx_facts t
  show V c main_call0_v11 (((cfg1.win 6).blk t).view.emb (ix2 (0 : Fin 1) q)) = _
  refine congrArg _ (funext fun a => Fin.ext ?_)
  match a with
  | ⟨0, _⟩ => show win1_6.index t (0 : Fin 2) * 1 + 1 * 0 = 0; rw [e0]
  | ⟨1, _⟩ => show win1_6.index t (1 : Fin 2) * 32 + 1 * q.val = q.val; rw [e1]; ring

/-- The activation depends on its parameter arrays only through the entries it reads. -/
theorem act_congr {g g' b b' s1 s1' s2 s2' : S1x2.Idx → EReal} {W W' : S2x32.Idx → EReal} {bias bias' : S1x32.Idx → EReal}
    (hg : ∀ k : Fin 2, g (ix2 (0 : Fin 1) k) = g' (ix2 (0 : Fin 1) k))
    (hb : ∀ k : Fin 2, b (ix2 (0 : Fin 1) k) = b' (ix2 (0 : Fin 1) k))
    (hs1 : ∀ k : Fin 2, s1 (ix2 (0 : Fin 1) k) = s1' (ix2 (0 : Fin 1) k))
    (hs2 : ∀ k : Fin 2, s2 (ix2 (0 : Fin 1) k) = s2' (ix2 (0 : Fin 1) k))
    (hW : ∀ (k : Fin 2) (q : Fin 32), W (ix2 k q) = W' (ix2 k q))
    (hbias : ∀ q : Fin 32, bias (ix2 (0 : Fin 1) q) = bias' (ix2 (0 : Fin 1) q)) (cs io : EReal) (q : Fin 32) :
    act g b s1 s2 W bias cs io q = act g' b' s1' s2' W' bias' cs io q := by
  unfold act feat
  simp only [hg, hb, hs1, hs2, hW, hbias]

/-- The activations array: entry (R, q) is the first layer's activation, column q, of the pair of detection R / 304 and
    slot R % 304, from the two input arrays, the incoming moments and the layer's parameters. -/
def Ga1 (cos iou : S1000x304.Idx → EReal) (st0 : S2x128.Idx → EReal) (g0 b0 : S1x2.Idx → EReal) (W1 : S2x32.Idx → EReal)
    (b1 : S1x32.Idx → EReal) : S304000x32.Idx → EReal := fun i =>
  act g0 b0 (momRow st0 0) (momRow st0 1) W1 b1 (cos (ix2 (detOfRow (i 0)) (slotOfRow (i 0)))) (iou (ix2 (detOfRow (i 0)) (slotOfRow (i 0)))) (i 1)

/-- The tile's activation of its row r is the activations array's entry at row 12160·t + r. -/
theorem Aat_eq (c : Dev nD) (t : Fin cfg1.N) (r : Fin 12160) (q : Fin 32) :
    Aat V c t r q = Ga1 (V c main_call0_v8_0) (V c main_call0_v8_1) (V c main_call0_v8_2) (V c main_call0_v9) (V c main_call0_v10) (V c main_arg6) (V c main_call0_v11) (ix2 (rowOf t r) q) := by
  have ht : t.val < 25 := lt_of_lt_of_eq t.isLt (show cfg1.N = 25 from N_1)
  have hr : r.val < 12160 := r.isLt
  have hp : r.val / 304 < 40 := by omega
  have hj : r.val % 304 < 304 := Nat.mod_lt _ (by decide)
  have hA : detOf t ⟨r.val / 304, hp⟩ = detOfRow (rowOf t r) :=
    Fin.ext (by show 40 * t.val + r.val / 304 = (12160 * t.val + r.val) / 304; omega)
  have hB : (⟨r.val % 304, hj⟩ : Fin 304) = slotOfRow (rowOf t r) :=
    Fin.ext (by show r.val % 304 = (12160 * t.val + r.val) % 304; omega)
  unfold Aat Ablk Ga1
  rw [act_apply _ _ _ _ _ _ _ _ ⟨r.val / 304, hp⟩ ⟨r.val % 304, hj⟩ q r (by show r.val = 304 * (r.val / 304) + r.val % 304; omega),
    rd_cos, rd_iou, hA, hB]
  exact act_congr (rd_g V c t) (rd_b V c t) (rd_s1 V c t) (rd_s2 V c t) (rd_W V c t) (rd_bias V c t) _ _ q

/-- The padded pairs' activation row is the activation at cosine 0 and overlap 0, at every point. -/
theorem cat_eq (c : Dev nD) (t : Fin cfg1.N) (q : Fin 32) :
    cat V c t q = act (V c main_call0_v9) (V c main_call0_v10) (momRow (V c main_call0_v8_2) 0) (momRow (V c main_call0_v8_2) 1)
      (V c main_arg6) (V c main_call0_v11) zer zer q := by
  unfold cat cblk
  rw [pay1_apply]
  exact act_congr (rd_g V c t) (rd_b V c t) (rd_s1 V c t) (rd_s2 V c t) (rd_W V c t) (rd_bias V c t) _ _ q

/-! ## The activations array -/

/-- Where entry (r, q) of point t's activations block sits in the activations array. -/
theorem emb_out (t : Fin cfg1.N) (r : Fin 12160) (q : Fin 32) :
    ((cfg1.win 7).blk t).view.emb (ix2 r q) = (ix2 (rowOf t r) q : S304000x32.Idx) := by
  obtain ⟨-, -, -, -, -, -, -, -, -, -, -, -, -, -, e0, e1, -⟩ := idx_facts t
  refine funext fun a => Fin.ext ?_
  match a with
  | ⟨0, _⟩ => show win1_7.index t (0 : Fin 2) * 12160 + 1 * r.val = 12160 * t.val + r.val; rw [e0]; ring
  | ⟨1, _⟩ => show win1_7.index t (1 : Fin 2) * 32 + 1 * q.val = q.val; rw [e1]; ring

/-- WHAT POINT t WRITES BACK to the activations is block t of `Ga1` of the arrays as the launch finds them. -/
theorem flushed_eq (c : Dev nD) (t : Fin cfg1.N) :
    (dat1 (F := Ideal) V c).flushed 7 t = ((cfg1.win 7).blk t).view.read (Elt Ideal) (Ga1 (V c main_call0_v8_0) (V c main_call0_v8_1) (V c main_call0_v8_2) (V c main_call0_v9) (V c main_call0_v10) (V c main_arg6) (V c main_call0_v11)) := by
  show (cfg1.win 7).cut (grid1.coords t) ((dat1 V c).after 7 t) = _
  rw [after1_7, outs_tile]
  funext y
  obtain ⟨r, q, rfl⟩ : ∃ r q, y = ix2 r q := ⟨y 0, y 1, eq_ix2 y⟩
  show Aat V c t r q = Ga1 _ _ _ _ _ _ _ (((cfg1.win 7).blk t).view.emb (ix2 r q))
  rw [emb_out]
  exact Aat_eq V c t r q

/-- An index of the activations is in point t's block iff each coordinate is in the block's range on its axis. -/
theorem mem_blk (t : Fin cfg1.N) (i : S304000x32.Idx) :
    i ∈ ((cfg1.win 7).blk t).view.set ↔ ∀ a : Fin 2, win1_7.index t a * S12160x32.size a ≤ (i a).val
      ∧ (i a).val < win1_7.index t a * S12160x32.size a + S12160x32.size a := by
  show i ∈ ((View.whole main_call0_v12_0).slice (win1_7.rect t)).set ↔ _
  rw [View.set_slice_whole, Rect.mem_set_unit]
  exact Iff.rfl

/-- The twenty-five blocks tile the activations: row R is in the block of point R / 12160. -/
theorem cover (i : S304000x32.Idx) : ∃ t : Fin cfg1.N, (cfg1.win 7).flush t = true ∧ i ∈ ((cfg1.win 7).blk t).view.set := by
  have h0 : (i 0).val < 304000 := (i 0).isLt
  have h1 : (i 1).val < 32 := (i 1).isLt
  let t : Fin cfg1.N := ⟨(i 0).val / 12160, by show (i 0).val / 12160 < 25; omega⟩
  obtain ⟨-, -, -, -, -, -, -, -, -, -, -, -, -, -, e0, e1, -⟩ := idx_facts t
  refine ⟨t, flush1_7 t, ?_⟩
  rw [mem_blk]
  intro a
  match a with
  | ⟨0, _⟩ => show win1_7.index t (0 : Fin 2) * 12160 ≤ (i 0).val ∧ (i 0).val < win1_7.index t (0 : Fin 2) * 12160 + 12160
              rw [e0]; show (i 0).val / 12160 * 12160 ≤ (i 0).val ∧ (i 0).val < (i 0).val / 12160 * 12160 + 12160; omega
  | ⟨1, _⟩ => show win1_7.index t (1 : Fin 2) * 32 ≤ (i 1).val ∧ (i 1).val < win1_7.index t (1 : Fin 2) * 32 + 32
              rw [e1]; omega

/-- THE ACTIVATIONS ARRAY after the launch is `Ga1` of the arrays the launch finds. -/
theorem final_a1 (c : Dev nD) : (dat1 (F := Ideal) V c).arrAt 7 cfg1.N = Ga1 (V c main_call0_v8_0) (V c main_call0_v8_1) (V c main_call0_v8_2) (V c main_call0_v9) (V c main_call0_v10) (V c main_arg6) (V c main_call0_v11) :=
  (dat1 (F := Ideal) V c).arrAt_eq_of_cover 7 _ (fun t _ => flushed_eq V c t) cover

/-! ## The moments array -/

/-- THE MOMENTS ARRAY after the launch: what the last point left. -/
theorem final_st1 (c : Dev nD) : (dat1 (F := Ideal) V c).arrAt 8 cfg1.N = stLast V c := by
  refine (dat1 (F := Ideal) V c).arrAt_eq_of_cover 8 _ (fun t hf => ?_) (fun i => ?_)
  · have ht : t.val % 25 = 24 := (flush1_8 t).mp hf
    have hN : t.val < 25 := lt_of_lt_of_eq t.isLt (show cfg1.N = 25 from N_1)
    have e : t = ⟨24, lt24⟩ := Fin.ext (by show t.val = 24; omega)
    subst e
    obtain ⟨-, -, -, -, -, -, -, -, -, -, -, -, -, -, -, -, e0, e1⟩ := idx_facts ⟨24, lt24⟩
    show (cfg1.win 8).cut (grid1.coords ⟨24, lt24⟩) ((dat1 V c).after 8 ⟨24, lt24⟩) = _
    rw [after1_8]
    funext y
    show (outsAt1 V c 24 lt24).2 y = stLast V c (((cfg1.win 8).blk ⟨24, lt24⟩).view.emb y)
    rw [outs_last]
    refine congrArg _ (funext fun a => Fin.ext ?_)
    match a with
    | ⟨0, _⟩ => show (y 0).val = win1_8.index ⟨24, lt24⟩ (0 : Fin 2) * 3 + 1 * (y 0).val; rw [e0]; ring
    | ⟨1, _⟩ => show (y 1).val = win1_8.index ⟨24, lt24⟩ (1 : Fin 2) * 128 + 1 * (y 1).val; rw [e1]; ring
  · obtain ⟨-, -, -, -, -, -, -, -, -, -, -, -, -, -, -, -, e0, e1⟩ := idx_facts ⟨24, lt24⟩
    refine ⟨⟨24, lt24⟩, (flush1_8 _).mpr (by show (24 : ℕ) % 25 = 24; omega), ?_⟩
    show i ∈ ((View.whole main_call0_v12_1).slice (win1_8.rect ⟨24, lt24⟩)).set
    rw [View.set_slice_whole, Rect.mem_set_unit]
    intro a
    have h0 : (i 0).val < 3 := (i 0).isLt
    have h1 : (i 1).val < 128 := (i 1).isLt
    match a with
    | ⟨0, _⟩ => show win1_8.index ⟨24, lt24⟩ (0 : Fin 2) * 3 ≤ (i 0).val ∧ (i 0).val < win1_8.index ⟨24, lt24⟩ (0 : Fin 2) * 3 + 3; rw [e0]; omega
    | ⟨1, _⟩ => show win1_8.index ⟨24, lt24⟩ (1 : Fin 2) * 128 ≤ (i 1).val ∧ (i 1).val < win1_8.index ⟨24, lt24⟩ (1 : Fin 2) * 128 + 128; rw [e1]; omega

end Cert.KernelIdeal.R1

end
-- ==== Proof.R1Closed.lean ====
/-
  The second launch: its activations and its moments in closed form over all the pair rows.

  Pair row R of the 304000 (detection R / 304, slot R % 304) carries two input features, the cosine and the overlap of
  that detection and slot. The activations array holds at (R, q) the first layer's activation of row R: the two features,
  each normalised with its column's scale and shift (from rows 0 and 1 of the incoming 2 × 128 moments), through the
  layer's weights and bias, clipped at zero. At grid point t the tile's row r is pair row 12160·t + r, so after the
  twenty-five points row 0 of the outgoing moments holds, in column q, the sum over ALL 304000 pair rows (real and padded)
  of the activations of column q, corrected by −4000 times the padded pairs' activation; row 1 the same with squares;
  row 2 that activation. A padded pair has cosine 0 and overlap 0: its activation is the same expression at zero features.
-/
import proofs.«139309_g56014963475156_cont_9to1_m_1179_16_alg».proof.Proof.R1Value
import proofs.«139309_g56014963475156_cont_9to1_m_1179_16_alg».proof.Proof.R4Value
import proofs.«139309_g56014963475156_cont_9to1_m_1179_16_alg».proof.Proof.LibSumTiles

set_option maxRecDepth 16384

noncomputable section

namespace Cert.KernelIdeal.R1

open Cert.KernelIdeal Cert.KernelIdeal.Gen
open Idealize.ShloMosaic Idealize.ShloMosaic.ValueIdx Idealize.ShloMosaic.TcCoe
open Cert.KernelIdeal.R4 (scale shift zer cinv eps col32)

variable (V : (c : Dev nD) → (b : Ref sig .tc) → Buf (Elt Ideal) ((c : Thread nD τ).loc b))

/-- The two input features of pair row R: the cosine and the overlap of detection R / 304 and slot R % 304. -/
def X (c : Dev nD) : Fin 304000 → Fin 2 → EReal := fun R k =>
  (![V c main_call0_v8_0 (ix2 (detOfRow R) (slotOfRow R)), V c main_call0_v8_1 (ix2 (detOfRow R) (slotOfRow R))] : Fin 2 → EReal) k

/-- The first layer's activations of the whole array, from the launch's arrays. -/
def H (c : Dev nD) : Fin 304000 → Fin 32 → EReal := fun R q =>
  Ga1 (V c main_call0_v8_0) (V c main_call0_v8_1) (V c main_call0_v8_2) (V c main_call0_v9) (V c main_call0_v10) (V c main_arg6) (V c main_call0_v11) (ix2 R q)

/-- The activations at an entry, written out: feature k is normalised with column k of the weight, the bias and rows 0
    and 1 of the incoming moments. -/
theorem H_apply (c : Dev nD) (R : Fin 304000) (q : Fin 32) :
    H V c R q = max ((∑ k : Fin 2,
        (X V c R k * scale (V c main_call0_v9 (ix2 (0 : Fin 1) k)) (V c main_call0_v8_2 (ix2 (0 : Fin 2) (col2 k)))
              (V c main_call0_v8_2 (ix2 (1 : Fin 2) (col2 k)))
          + shift (V c main_call0_v9 (ix2 (0 : Fin 1) k)) (V c main_call0_v10 (ix2 (0 : Fin 1) k))
              (V c main_call0_v8_2 (ix2 (0 : Fin 2) (col2 k))) (V c main_call0_v8_2 (ix2 (1 : Fin 2) (col2 k))))
          * V c main_arg6 (ix2 k q))
      + V c main_call0_v11 (ix2 (0 : Fin 1) q)) zer := rfl

/-- THE ACTIVATIONS ARRAY after the launch, at an entry. -/
theorem final_a1_apply (c : Dev nD) (R : Fin 304000) (q : Fin 32) :
    (dat1 (F := Ideal) V c).arrAt 7 cfg1.N (ix2 R q) = H V c R q :=
  congrFun (final_a1 V c) (ix2 R q)

/-- The padded pairs' activation row, from the launch's arrays: the activation at cosine 0 and overlap 0. -/
def C (c : Dev nD) : Fin 32 → EReal :=
  act (V c main_call0_v9) (V c main_call0_v10) (momRow (V c main_call0_v8_2) 0) (momRow (V c main_call0_v8_2) 1)
    (V c main_arg6) (V c main_call0_v11) zer zer

/-- The padded pairs' activation, written out: both features are zero before the normalisation. -/
theorem C_apply (c : Dev nD) (q : Fin 32) :
    C V c q = max ((∑ k : Fin 2,
        (zer * scale (V c main_call0_v9 (ix2 (0 : Fin 1) k)) (V c main_call0_v8_2 (ix2 (0 : Fin 2) (col2 k)))
              (V c main_call0_v8_2 (ix2 (1 : Fin 2) (col2 k)))
          + shift (V c main_call0_v9 (ix2 (0 : Fin 1) k)) (V c main_call0_v10 (ix2 (0 : Fin 1) k))
              (V c main_call0_v8_2 (ix2 (0 : Fin 2) (col2 k))) (V c main_call0_v8_2 (ix2 (1 : Fin 2) (col2 k))))
          * V c main_arg6 (ix2 k q))
      + V c main_call0_v11 (ix2 (0 : Fin 1) q)) zer := by
  unfold C act
  refine congrArg (fun z : EReal => max (z + V c main_call0_v11 (ix2 (0 : Fin 1) q)) zer) (Finset.sum_congr rfl fun k _ => ?_)
  match k with
  | ⟨0, _⟩ => rfl
  | ⟨1, _⟩ => rfl

/-- The tile's activations are the whole array's at the tile's rows. -/
theorem Aat_H (c : Dev nD) (t : Fin cfg1.N) (r : Fin 12160) (q : Fin 32) : Aat V c t r q = H V c (rowOf t r) q :=
  Aat_eq V c t r q

/-- Every point computes the same padded activation row. -/
theorem cat_C (c : Dev nD) (t : Fin cfg1.N) (q : Fin 32) : cat V c t q = C V c q :=
  cat_eq V c t q

/-! ## The steps, read at the three rows -/

theorem step_row0 (A : Fin 12160 → Fin 32 → EReal) (prev : S3x128.Idx → EReal) (q : Fin 32) :
    step A prev (ix2 (0 : Fin 3) (col32 q)) = prev (ix2 (0 : Fin 3) (col32 q)) + ∑ r : Fin 12160, A r q := by
  unfold step
  rw [dif_neg (by show ¬((0 : ℕ) = 1 ∧ _); omega), dif_pos ⟨rfl, q.isLt⟩]
  rfl

theorem step_row1 (A : Fin 12160 → Fin 32 → EReal) (prev : S3x128.Idx → EReal) (q : Fin 32) :
    step A prev (ix2 (1 : Fin 3) (col32 q)) = prev (ix2 (1 : Fin 3) (col32 q)) + ∑ r : Fin 12160, A r q * A r q := by
  unfold step
  rw [dif_pos ⟨rfl, q.isLt⟩]
  rfl

theorem step_row2 (A : Fin 12160 → Fin 32 → EReal) (prev : S3x128.Idx → EReal) (b : Fin 128) :
    step A prev (ix2 (2 : Fin 3) b) = prev (ix2 (2 : Fin 3) b) := by
  unfold step
  rw [dif_neg (by show ¬((2 : ℕ) = 1 ∧ _); omega), dif_neg (by show ¬((2 : ℕ) = 0 ∧ _); omega)]

theorem finish_row0 (cc : Fin 32 → EReal) (s : S3x128.Idx → EReal) (q : Fin 32) :
    finish cc s (ix2 (0 : Fin 3) (col32 q)) = s (ix2 (0 : Fin 3) (col32 q)) + m4000 * cc q := by
  unfold finish
  rw [dif_neg (by show ¬((0 : ℕ) = 2 ∧ _); omega), dif_neg (by show ¬((0 : ℕ) = 1 ∧ _); omega), dif_pos ⟨rfl, q.isLt⟩]
  rfl

theorem finish_row1 (cc : Fin 32 → EReal) (s : S3x128.Idx → EReal) (q : Fin 32) :
    finish cc s (ix2 (1 : Fin 3) (col32 q)) = s (ix2 (1 : Fin 3) (col32 q)) + m4000 * (cc q * cc q) := by
  unfold finish
  rw [dif_neg (by show ¬((1 : ℕ) = 2 ∧ _); omega), dif_pos ⟨rfl, q.isLt⟩]
  rfl

theorem finish_row2 (cc : Fin 32 → EReal) (s : S3x128.Idx → EReal) (q : Fin 32) :
    finish cc s (ix2 (2 : Fin 3) (col32 q)) = cc q := by
  unfold finish
  rw [dif_pos ⟨rfl, q.isLt⟩]
  rfl

/-! ## The running sums -/

/-- The whole array's activations at a row given as a natural number (zero past the array). -/
def Hn (c : Dev nD) (R : ℕ) (q : Fin 32) : EReal := if h : R < 304000 then H V c ⟨R, h⟩ q else 0

theorem Aat_Hn (c : Dev nD) (t : Fin cfg1.N) (r : Fin 12160) (q : Fin 32) : Aat V c t r q = Hn V c (t.val * 12160 + r.val) q := by
  have ht : t.val < 25 := lt_of_lt_of_eq t.isLt (show cfg1.N = 25 from N_1)
  have hr := r.isLt
  rw [Aat_H]
  unfold Hn
  rw [dif_pos (by omega)]
  exact congrArg (fun R => H V c R q) (Fin.ext (by show 12160 * t.val + r.val = t.val * 12160 + r.val; ring))

/-- After point n (before the last) rows 0 and 1 hold the zero word plus the sums over the tiles so far. -/
theorem stAt_rows (c : Dev nD) (q : Fin 32) : ∀ (n : ℕ) (hn : n < cfg1.N),
    stAt V c n hn (ix2 (0 : Fin 3) (col32 q)) = zer + ∑ s ∈ Finset.range (n + 1), ∑ r : Fin 12160, Hn V c (s * 12160 + r.val) q
    ∧ stAt V c n hn (ix2 (1 : Fin 3) (col32 q))
        = zer + ∑ s ∈ Finset.range (n + 1), ∑ r : Fin 12160, Hn V c (s * 12160 + r.val) q * Hn V c (s * 12160 + r.val) q
    ∧ stAt V c n hn (ix2 (2 : Fin 3) (col32 q)) = zer
  | 0, hn => by
    show step _ _ _ = _ ∧ step _ _ _ = _ ∧ step _ _ _ = _
    rw [step_row0, step_row1, step_row2, Finset.sum_range_one, Finset.sum_range_one]
    exact ⟨congrArg (fun z => zer + z) (Finset.sum_congr rfl fun r _ => Aat_Hn V c ⟨0, hn⟩ r q),
      congrArg (fun z => zer + z) (Finset.sum_congr rfl fun r _ => by rw [Aat_Hn V c ⟨0, hn⟩ r q]), rfl⟩
  | n + 1, hn => by
    obtain ⟨i0, i1, i2⟩ := stAt_rows c q n (Nat.lt_of_succ_lt hn)
    show step _ _ _ = _ ∧ step _ _ _ = _ ∧ step _ _ _ = _
    rw [step_row0, step_row1, step_row2, i0, i1, i2, Finset.sum_range_succ _ (n + 1), Finset.sum_range_succ _ (n + 1), add_assoc, add_assoc]
    exact ⟨congrArg (fun z => zer + (_ + z)) (Finset.sum_congr rfl fun r _ => Aat_Hn V c ⟨n + 1, hn⟩ r q),
      congrArg (fun z => zer + (_ + z)) (Finset.sum_congr rfl fun r _ => by rw [Aat_Hn V c ⟨n + 1, hn⟩ r q]), rfl⟩

/-- The twenty-five tiles are all the rows. -/
theorem sum_all (c : Dev nD) (f : ℕ → EReal) :
    ∑ s ∈ Finset.range 25, ∑ r : Fin 12160, f (s * 12160 + r.val) = ∑ R : Fin 304000, f R.val :=
  (Cert.LibSumTiles.sum_tiles 25 12160 f).symm

theorem Hn_val (c : Dev nD) (R : Fin 304000) (q : Fin 32) : Hn V c R.val q = H V c R q := by
  unfold Hn; rw [dif_pos R.isLt]

/-- THE MOMENTS after the launch: sums over all 304000 pair rows, corrected; row 2 the padded pairs' activation. -/
theorem stLast_rows (c : Dev nD) (q : Fin 32) :
    stLast V c (ix2 (0 : Fin 3) (col32 q)) = (zer + ∑ R : Fin 304000, H V c R q) + m4000 * C V c q
    ∧ stLast V c (ix2 (1 : Fin 3) (col32 q)) = (zer + ∑ R : Fin 304000, H V c R q * H V c R q) + m4000 * (C V c q * C V c q)
    ∧ stLast V c (ix2 (2 : Fin 3) (col32 q)) = C V c q := by
  obtain ⟨i0, i1, -⟩ := stAt_rows V c q 23 lt23
  have hT : (∑ r : Fin 12160, Aat V c ⟨24, lt24⟩ r q) = ∑ r : Fin 12160, Hn V c (24 * 12160 + r.val) q :=
    Finset.sum_congr rfl fun r _ => Aat_Hn V c ⟨24, lt24⟩ r q
  have hT' : (∑ r : Fin 12160, Aat V c ⟨24, lt24⟩ r q * Aat V c ⟨24, lt24⟩ r q)
      = ∑ r : Fin 12160, Hn V c (24 * 12160 + r.val) q * Hn V c (24 * 12160 + r.val) q :=
    Finset.sum_congr rfl fun r _ => by rw [Aat_Hn V c ⟨24, lt24⟩ r q]
  have hs : (∑ s ∈ Finset.range (23 + 1), ∑ r : Fin 12160, Hn V c (s * 12160 + r.val) q)
      + (∑ r : Fin 12160, Hn V c (24 * 12160 + r.val) q) = ∑ R : Fin 304000, H V c R q := by
    rw [← Finset.sum_range_succ (fun s => ∑ r : Fin 12160, Hn V c (s * 12160 + r.val) q) 24, sum_all c (fun R => Hn V c R q)]
    exact Finset.sum_congr rfl fun R _ => Hn_val V c R q
  have hs' : (∑ s ∈ Finset.range (23 + 1), ∑ r : Fin 12160, Hn V c (s * 12160 + r.val) q * Hn V c (s * 12160 + r.val) q)
      + (∑ r : Fin 12160, Hn V c (24 * 12160 + r.val) q * Hn V c (24 * 12160 + r.val) q) = ∑ R : Fin 304000, H V c R q * H V c R q := by
    rw [← Finset.sum_range_succ (fun s => ∑ r : Fin 12160, Hn V c (s * 12160 + r.val) q * Hn V c (s * 12160 + r.val) q) 24,
      sum_all c (fun R => Hn V c R q * Hn V c R q)]
    exact Finset.sum_congr rfl fun R _ => by rw [Hn_val V c R q]
  unfold stLast
  refine ⟨?_, ?_, ?_⟩
  · rw [finish_row0, step_row0, i0, hT, add_assoc zer, hs, cat_C]
  · rw [finish_row1, step_row1, i1, hT', add_assoc zer, hs', cat_C]
  · rw [finish_row2, cat_C]

/-- THE MOMENTS ARRAY after the launch, read at the three rows. -/
theorem final_st1_rows (c : Dev nD) (q : Fin 32) :
    (dat1 (F := Ideal) V c).arrAt 8 cfg1.N (ix2 (0 : Fin 3) (col32 q)) = (zer + ∑ R : Fin 304000, H V c R q) + m4000 * C V c q
    ∧ (dat1 (F := Ideal) V c).arrAt 8 cfg1.N (ix2 (1 : Fin 3) (col32 q))
        = (zer + ∑ R : Fin 304000, H V c R q * H V c R q) + m4000 * (C V c q * C V c q)
    ∧ (dat1 (F := Ideal) V c).arrAt 8 cfg1.N (ix2 (2 : Fin 3) (col32 q)) = C V c q := by
  rw [final_st1]
  exact stLast_rows V c q

end Cert.KernelIdeal.R1

end
-- ==== Proof.PreReal.lean ====
/-
  THE PRECONDITION, READ BACK. The claim's hypothesis says that a printed array predicate evaluates to the word 1 on the
  launch memory. The predicate is a conjunction of twenty-two conditions: for each of the twenty argument arrays, that
  every entry x satisfies |x| < +∞, and, for the two arrays of boxes (rows (x₀, y₀, x₁, y₁)), that in every row
  x₀ ≤ x₁ and y₀ ≤ y₁. On the extended reals |x| = max x (-x), so |x| < +∞ excludes both infinities: x is a real
  number. Each condition is a conjunction over all entries (a reduction by "and" from the word 1), so it gives the
  element fact at every index; the conjunction of the conditions is a left-nested "and" of one-bit words.
-/
import proofs.«139309_g56014963475156_cont_9to1_m_1179_16_alg».proof.Defs
import proofs.«139309_g56014963475156_cont_9to1_m_1179_16_alg».proof.Proof.Gen.Pre_finite_inputs
import Idealize.ShloMosaic.PureOps.Ideal
import Idealize.ShloMosaic.Lib.ReduceAll
import Idealize.ShloMosaic.Lib.ValueIdx
import Idealize.ShloMosaic.Lib.ValueLayout

noncomputable section

namespace Cert.PreReal

open Idealize.ShloMosaic Idealize.ShloMosaic.ValueIdx Idealize.SL.Sem Cert.Pre_finite_inputs

/-- The rank-0 shape has exactly one index. -/
instance : Subsingleton S_.Idx := ⟨fun a b => funext fun d => d.elim0⟩

/-- Every entry of the array is a real number. -/
def AllReal {s : Shape} (X : FVec Ideal s .f32) : Prop := ∀ i, ∃ r : ℝ, X i = (r : EReal)

/-- Every row (x₀, y₀, x₁, y₁) of the array has x₀ ≤ x₁ and y₀ ≤ y₁. -/
def Ordered {n : Nat} (B : FVec Ideal ⟨2, ![n, 4]⟩ .f32) : Prop :=
  ∀ k : Fin n, B (ix2 k 0) ≤ B (ix2 k 2) ∧ B (ix2 k 1) ≤ B (ix2 k 3)

/-! ## The element facts -/

/-- An extended real whose absolute value max x (-x) lies strictly below +∞ is a real number: at x = +∞ the maximum is
    +∞, at x = -∞ it is -(-∞) = +∞, and +∞ < +∞ is false. The pattern 0x7F800000 denotes +∞. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The comparison "≤" that came out as the word 1 is the order's ≤. -/
theorem le_of_ole (x y : EReal) (h : Ideal.cmp .ole x y = 1#1) : x ≤ y := by
  by_contra hn
  simp [Ideal.cmp, hn] at h

/-! ## One condition, at every index -/

/-- "All entries have |x| < +∞" gives: every entry is a real number. -/
theorem all_real {s : Shape} (X : FVec Ideal s .f32) (hb : S_.BroadcastsInDim s (![] : Fin 0 → Fin s.rank))
    {axes : List (Fin s.rank)} (hr : s.ReducesTo axes S_) (hu : 0 < S_.numel)
    (e : Host.reduce IntOp.andi
          (cmpf .olt (Host.absf X) (broadcastInDim s ![] hb (constant (F := Ideal) S_ .f32 0x7F800000#32)))
          (constantI S_ 1 1#1) hr hu ix0 = 1#1) :
    AllReal X := by
  intro i
  exact real_of_abs_lt (X i) (Host.reduce_andi_all _ _ hr hu _ e i)

/-- "All entries of columns 0, 1 are ≤ the entries of columns 2, 3 of the same row" gives: every row is ordered. Entry
    (k, j) of the slice of columns o, o + 1 is entry (k, o + j) of the array. -/
theorem ordered_of_all {n : Nat} (B : FVec Ideal ⟨2, ![n, 4]⟩ .f32)
    (s0 : (⟨2, ![n, 4]⟩ : Shape).Slices ![0, 0] ⟨2, ![n, 2]⟩) (s2 : (⟨2, ![n, 4]⟩ : Shape).Slices ![0, 2] ⟨2, ![n, 2]⟩)
    {axes : List (Fin (⟨2, ![n, 2]⟩ : Shape).rank)} (hr : (⟨2, ![n, 2]⟩ : Shape).ReducesTo axes S_) (hu : 0 < S_.numel)
    (e : Host.reduce IntOp.andi
          (cmpf .ole (extractStridedSlice (⟨2, ![n, 2]⟩ : Shape) ![0, 0] B s0)
                     (extractStridedSlice (⟨2, ![n, 2]⟩ : Shape) ![0, 2] B s2))
          (constantI S_ 1 1#1) hr hu ix0 = 1#1) :
    Ordered B := by
  intro k
  have hj : ∀ (j : Fin 2) (lo hi : Fin 4), lo.val = 0 + j.val → hi.val = 2 + j.val → B (ix2 k lo) ≤ B (ix2 k hi) := by
    intro j lo hi hlo hhi
    have h1 := Host.reduce_andi_all _ _ hr hu _ e (ix2 k j)
    have h2 := le_of_ole _ _ h1
    rwa [slice2_axis1_apply 0 B s0 k j lo hlo, slice2_axis1_apply 2 B s2 k j hi hhi] at h2
  exact ⟨hj 0 0 2 rfl rfl, hj 1 1 3 rfl rfl⟩

/-! ## The whole predicate -/

/-- The predicate equal to the word 1 gives all twenty-two conditions: the conjunction of one-bit words is 1 exactly when
    each word is. -/
theorem decode [Facts]
    (a0 : FVec Ideal S1000x4 .f32)
    (a1 : FVec Ideal S1000x64 .f32)
    (a2 : FVec Ideal S300x4 .f32)
    (a3 : FVec Ideal S300x64 .f32)
    (a4 : FVec Ideal S2 .f32)
    (a5 : FVec Ideal S2 .f32)
    (a6 : FVec Ideal S2x32 .f32)
    (a7 : FVec Ideal S32 .f32)
    (a8 : FVec Ideal S32 .f32)
    (a9 : FVec Ideal S32 .f32)
    (a10 : FVec Ideal S32x32 .f32)
    (a11 : FVec Ideal S32 .f32)
    (a12 : FVec Ideal S32 .f32)
    (a13 : FVec Ideal S32 .f32)
    (a14 : FVec Ideal S32x64 .f32)
    (a15 : FVec Ideal S64 .f32)
    (a16 : FVec Ideal S64 .f32)
    (a17 : FVec Ideal S64 .f32)
    (a18 : FVec Ideal S64x64 .f32)
    (a19 : FVec Ideal S64 .f32)
    (e : fn (F := Ideal) a0 a1 a2 a3 a4 a5 a6 a7 a8 a9 a10 a11 a12 a13 a14 a15 a16 a17 a18 a19 = fun _ => 1#1) :
    (AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19)
      ∧ Ordered (n := 1000) a0 ∧ Ordered (n := 300) a2 := by
  have e0 := congrFun e ix0
  unfold fn fn_part1 fn_part2 fn_part3 fn_part4 fn_part5 fn_part6 at e0
  dsimp only at e0
  simp only [andi, IntOp.andi_eq_one] at e0
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, hb0⟩, hb2⟩ := e0
  exact ⟨⟨all_real a0 _ _ _ h0,
     all_real a1 _ _ _ h1,
     all_real a2 _ _ _ h2,
     all_real a3 _ _ _ h3,
     all_real a4 _ _ _ h4,
     all_real a5 _ _ _ h5,
     all_real a6 _ _ _ h6,
     all_real a7 _ _ _ h7,
     all_real a8 _ _ _ h8,
     all_real a9 _ _ _ h9,
     all_real a10 _ _ _ h10,
     all_real a11 _ _ _ h11,
     all_real a12 _ _ _ h12,
     all_real a13 _ _ _ h13,
     all_real a14 _ _ _ h14,
     all_real a15 _ _ _ h15,
     all_real a16 _ _ _ h16,
     all_real a17 _ _ _ h17,
     all_real a18 _ _ _ h18,
     all_real a19 _ _ _ h19⟩,
    ordered_of_all (n := 1000) a0 _ _ _ _ hb0, ordered_of_all (n := 300) a2 _ _ _ _ hb2⟩

/-! ## At the launch memory -/

variable (m : (ℓ : Loc Cert.KernelIdeal.nD Cert.KernelIdeal.τ Cert.KernelIdeal.sig) → Buf (Elt Ideal) ℓ)

/-- The precondition of the claim, decoded at core c. -/
theorem decoded (h : Cert.Pre_KernelIdeal m) (c : Dev Cert.KernelIdeal.nD) :
    (AllReal (s := S1000x4) (m ((c.tc : Thread Cert.KernelIdeal.nD Cert.KernelIdeal.τ).loc Cert.KernelIdeal.main_arg0))
      ∧ AllReal (s := S1000x64) (m ((c.tc : Thread Cert.KernelIdeal.nD Cert.KernelIdeal.τ).loc Cert.KernelIdeal.main_arg1))
      ∧ AllReal (s := S300x4) (m ((c.tc : Thread Cert.KernelIdeal.nD Cert.KernelIdeal.τ).loc Cert.KernelIdeal.main_arg2))
      ∧ AllReal (s := S300x64) (m ((c.tc : Thread Cert.KernelIdeal.nD Cert.KernelIdeal.τ).loc Cert.KernelIdeal.main_arg3))
      ∧ AllReal (s := S2) (m ((c.tc : Thread Cert.KernelIdeal.nD Cert.KernelIdeal.τ).loc Cert.KernelIdeal.main_arg4))
      ∧ AllReal (s := S2) (m ((c.tc : Thread Cert.KernelIdeal.nD Cert.KernelIdeal.τ).loc Cert.KernelIdeal.main_arg5))
      ∧ AllReal (s := S2x32) (m ((c.tc : Thread Cert.KernelIdeal.nD Cert.KernelIdeal.τ).loc Cert.KernelIdeal.main_arg6))
      ∧ AllReal (s := S32) (m ((c.tc : Thread Cert.KernelIdeal.nD Cert.KernelIdeal.τ).loc Cert.KernelIdeal.main_arg7))
      ∧ AllReal (s := S32) (m ((c.tc : Thread Cert.KernelIdeal.nD Cert.KernelIdeal.τ).loc Cert.KernelIdeal.main_arg8))
      ∧ AllReal (s := S32) (m ((c.tc : Thread Cert.KernelIdeal.nD Cert.KernelIdeal.τ).loc Cert.KernelIdeal.main_arg9))
      ∧ AllReal (s := S32x32) (m ((c.tc : Thread Cert.KernelIdeal.nD Cert.KernelIdeal.τ).loc Cert.KernelIdeal.main_arg10))
      ∧ AllReal (s := S32) (m ((c.tc : Thread Cert.KernelIdeal.nD Cert.KernelIdeal.τ).loc Cert.KernelIdeal.main_arg11))
      ∧ AllReal (s := S32) (m ((c.tc : Thread Cert.KernelIdeal.nD Cert.KernelIdeal.τ).loc Cert.KernelIdeal.main_arg12))
      ∧ AllReal (s := S32) (m ((c.tc : Thread Cert.KernelIdeal.nD Cert.KernelIdeal.τ).loc Cert.KernelIdeal.main_arg13))
      ∧ AllReal (s := S32x64) (m ((c.tc : Thread Cert.KernelIdeal.nD Cert.KernelIdeal.τ).loc Cert.KernelIdeal.main_arg14))
      ∧ AllReal (s := S64) (m ((c.tc : Thread Cert.KernelIdeal.nD Cert.KernelIdeal.τ).loc Cert.KernelIdeal.main_arg15))
      ∧ AllReal (s := S64) (m ((c.tc : Thread Cert.KernelIdeal.nD Cert.KernelIdeal.τ).loc Cert.KernelIdeal.main_arg16))
      ∧ AllReal (s := S64) (m ((c.tc : Thread Cert.KernelIdeal.nD Cert.KernelIdeal.τ).loc Cert.KernelIdeal.main_arg17))
      ∧ AllReal (s := S64x64) (m ((c.tc : Thread Cert.KernelIdeal.nD Cert.KernelIdeal.τ).loc Cert.KernelIdeal.main_arg18))
      ∧ AllReal (s := S64) (m ((c.tc : Thread Cert.KernelIdeal.nD Cert.KernelIdeal.τ).loc Cert.KernelIdeal.main_arg19)))
      ∧ Ordered (n := 1000) (m ((c.tc : Thread Cert.KernelIdeal.nD Cert.KernelIdeal.τ).loc Cert.KernelIdeal.main_arg0))
      ∧ Ordered (n := 300) (m ((c.tc : Thread Cert.KernelIdeal.nD Cert.KernelIdeal.τ).loc Cert.KernelIdeal.main_arg2)) :=
  decode
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (h c)

/-- Every entry of argument 0 is a real number. -/
theorem real_arg0 (h : Cert.Pre_KernelIdeal m) (c : Dev Cert.KernelIdeal.nD) :
    ∀ i, ∃ x : ℝ, m ((c.tc : Thread Cert.KernelIdeal.nD Cert.KernelIdeal.τ).loc Cert.KernelIdeal.main_arg0) i = (x : EReal) :=
  (decoded m h c).1.1

/-- Every entry of argument 1 is a real number. -/
theorem real_arg1 (h : Cert.Pre_KernelIdeal m) (c : Dev Cert.KernelIdeal.nD) :
    ∀ i, ∃ x : ℝ, m ((c.tc : Thread Cert.KernelIdeal.nD Cert.KernelIdeal.τ).loc Cert.KernelIdeal.main_arg1) i = (x : EReal) :=
  (decoded m h c).1.2.1

/-- Every entry of argument 2 is a real number. -/
theorem real_arg2 (h : Cert.Pre_KernelIdeal m) (c : Dev Cert.KernelIdeal.nD) :
    ∀ i, ∃ x : ℝ, m ((c.tc : Thread Cert.KernelIdeal.nD Cert.KernelIdeal.τ).loc Cert.KernelIdeal.main_arg2) i = (x : EReal) :=
  (decoded m h c).1.2.2.1

/-- Every entry of argument 3 is a real number. -/
theorem real_arg3 (h : Cert.Pre_KernelIdeal m) (c : Dev Cert.KernelIdeal.nD) :
    ∀ i, ∃ x : ℝ, m ((c.tc : Thread Cert.KernelIdeal.nD Cert.KernelIdeal.τ).loc Cert.KernelIdeal.main_arg3) i = (x : EReal) :=
  (decoded m h c).1.2.2.2.1

/-- Every entry of argument 4 is a real number. -/
theorem real_arg4 (h : Cert.Pre_KernelIdeal m) (c : Dev Cert.KernelIdeal.nD) :
    ∀ i, ∃ x : ℝ, m ((c.tc : Thread Cert.KernelIdeal.nD Cert.KernelIdeal.τ).loc Cert.KernelIdeal.main_arg4) i = (x : EReal) :=
  (decoded m h c).1.2.2.2.2.1

/-- Every entry of argument 5 is a real number. -/
theorem real_arg5 (h : Cert.Pre_KernelIdeal m) (c : Dev Cert.KernelIdeal.nD) :
    ∀ i, ∃ x : ℝ, m ((c.tc : Thread Cert.KernelIdeal.nD Cert.KernelIdeal.τ).loc Cert.KernelIdeal.main_arg5) i = (x : EReal) :=
  (decoded m h c).1.2.2.2.2.2.1

/-- Every entry of argument 6 is a real number. -/
theorem real_arg6 (h : Cert.Pre_KernelIdeal m) (c : Dev Cert.KernelIdeal.nD) :
    ∀ i, ∃ x : ℝ, m ((c.tc : Thread Cert.KernelIdeal.nD Cert.KernelIdeal.τ).loc Cert.KernelIdeal.main_arg6) i = (x : EReal) :=
  (decoded m h c).1.2.2.2.2.2.2.1

/-- Every entry of argument 7 is a real number. -/
theorem real_arg7 (h : Cert.Pre_KernelIdeal m) (c : Dev Cert.KernelIdeal.nD) :
    ∀ i, ∃ x : ℝ, m ((c.tc : Thread Cert.KernelIdeal.nD Cert.KernelIdeal.τ).loc Cert.KernelIdeal.main_arg7) i = (x : EReal) :=
  (decoded m h c).1.2.2.2.2.2.2.2.1

/-- Every entry of argument 8 is a real number. -/
theorem real_arg8 (h : Cert.Pre_KernelIdeal m) (c : Dev Cert.KernelIdeal.nD) :
    ∀ i, ∃ x : ℝ, m ((c.tc : Thread Cert.KernelIdeal.nD Cert.KernelIdeal.τ).loc Cert.KernelIdeal.main_arg8) i = (x : EReal) :=
  (decoded m h c).1.2.2.2.2.2.2.2.2.1

/-- Every entry of argument 9 is a real number. -/
theorem real_arg9 (h : Cert.Pre_KernelIdeal m) (c : Dev Cert.KernelIdeal.nD) :
    ∀ i, ∃ x : ℝ, m ((c.tc : Thread Cert.KernelIdeal.nD Cert.KernelIdeal.τ).loc Cert.KernelIdeal.main_arg9) i = (x : EReal) :=
  (decoded m h c).1.2.2.2.2.2.2.2.2.2.1

/-- Every entry of argument 10 is a real number. -/
theorem real_arg10 (h : Cert.Pre_KernelIdeal m) (c : Dev Cert.KernelIdeal.nD) :
    ∀ i, ∃ x : ℝ, m ((c.tc : Thread Cert.KernelIdeal.nD Cert.KernelIdeal.τ).loc Cert.KernelIdeal.main_arg10) i = (x : EReal) :=
  (decoded m h c).1.2.2.2.2.2.2.2.2.2.2.1

/-- Every entry of argument 11 is a real number. -/
theorem real_arg11 (h : Cert.Pre_KernelIdeal m) (c : Dev Cert.KernelIdeal.nD) :
    ∀ i, ∃ x : ℝ, m ((c.tc : Thread Cert.KernelIdeal.nD Cert.KernelIdeal.τ).loc Cert.KernelIdeal.main_arg11) i = (x : EReal) :=
  (decoded m h c).1.2.2.2.2.2.2.2.2.2.2.2.1

/-- Every entry of argument 12 is a real number. -/
theorem real_arg12 (h : Cert.Pre_KernelIdeal m) (c : Dev Cert.KernelIdeal.nD) :
    ∀ i, ∃ x : ℝ, m ((c.tc : Thread Cert.KernelIdeal.nD Cert.KernelIdeal.τ).loc Cert.KernelIdeal.main_arg12) i = (x : EReal) :=
  (decoded m h c).1.2.2.2.2.2.2.2.2.2.2.2.2.1

/-- Every entry of argument 13 is a real number. -/
theorem real_arg13 (h : Cert.Pre_KernelIdeal m) (c : Dev Cert.KernelIdeal.nD) :
    ∀ i, ∃ x : ℝ, m ((c.tc : Thread Cert.KernelIdeal.nD Cert.KernelIdeal.τ).loc Cert.KernelIdeal.main_arg13) i = (x : EReal) :=
  (decoded m h c).1.2.2.2.2.2.2.2.2.2.2.2.2.2.1

/-- Every entry of argument 14 is a real number. -/
theorem real_arg14 (h : Cert.Pre_KernelIdeal m) (c : Dev Cert.KernelIdeal.nD) :
    ∀ i, ∃ x : ℝ, m ((c.tc : Thread Cert.KernelIdeal.nD Cert.KernelIdeal.τ).loc Cert.KernelIdeal.main_arg14) i = (x : EReal) :=
  (decoded m h c).1.2.2.2.2.2.2.2.2.2.2.2.2.2.2.1

/-- Every entry of argument 15 is a real number. -/
theorem real_arg15 (h : Cert.Pre_KernelIdeal m) (c : Dev Cert.KernelIdeal.nD) :
    ∀ i, ∃ x : ℝ, m ((c.tc : Thread Cert.KernelIdeal.nD Cert.KernelIdeal.τ).loc Cert.KernelIdeal.main_arg15) i = (x : EReal) :=
  (decoded m h c).1.2.2.2.2.2.2.2.2.2.2.2.2.2.2.2.1

/-- Every entry of argument 16 is a real number. -/
theorem real_arg16 (h : Cert.Pre_KernelIdeal m) (c : Dev Cert.KernelIdeal.nD) :
    ∀ i, ∃ x : ℝ, m ((c.tc : Thread Cert.KernelIdeal.nD Cert.KernelIdeal.τ).loc Cert.KernelIdeal.main_arg16) i = (x : EReal) :=
  (decoded m h c).1.2.2.2.2.2.2.2.2.2.2.2.2.2.2.2.2.1

/-- Every entry of argument 17 is a real number. -/
theorem real_arg17 (h : Cert.Pre_KernelIdeal m) (c : Dev Cert.KernelIdeal.nD) :
    ∀ i, ∃ x : ℝ, m ((c.tc : Thread Cert.KernelIdeal.nD Cert.KernelIdeal.τ).loc Cert.KernelIdeal.main_arg17) i = (x : EReal) :=
  (decoded m h c).1.2.2.2.2.2.2.2.2.2.2.2.2.2.2.2.2.2.1

/-- Every entry of argument 18 is a real number. -/
theorem real_arg18 (h : Cert.Pre_KernelIdeal m) (c : Dev Cert.KernelIdeal.nD) :
    ∀ i, ∃ x : ℝ, m ((c.tc : Thread Cert.KernelIdeal.nD Cert.KernelIdeal.τ).loc Cert.KernelIdeal.main_arg18) i = (x : EReal) :=
  (decoded m h c).1.2.2.2.2.2.2.2.2.2.2.2.2.2.2.2.2.2.2.1

/-- Every entry of argument 19 is a real number. -/
theorem real_arg19 (h : Cert.Pre_KernelIdeal m) (c : Dev Cert.KernelIdeal.nD) :
    ∀ i, ∃ x : ℝ, m ((c.tc : Thread Cert.KernelIdeal.nD Cert.KernelIdeal.τ).loc Cert.KernelIdeal.main_arg19) i = (x : EReal) :=
  (decoded m h c).1.2.2.2.2.2.2.2.2.2.2.2.2.2.2.2.2.2.2.2

/-- The detection boxes' corners are ordered. -/
theorem ordered_arg0 (h : Cert.Pre_KernelIdeal m) (c : Dev Cert.KernelIdeal.nD) :
    ∀ n : Fin 1000,
      @LE.le EReal _ (m ((c.tc : Thread Cert.KernelIdeal.nD Cert.KernelIdeal.τ).loc Cert.KernelIdeal.main_arg0) (ix2 n 0)) (m ((c.tc : Thread Cert.KernelIdeal.nD Cert.KernelIdeal.τ).loc Cert.KernelIdeal.main_arg0) (ix2 n 2))
      ∧ @LE.le EReal _ (m ((c.tc : Thread Cert.KernelIdeal.nD Cert.KernelIdeal.τ).loc Cert.KernelIdeal.main_arg0) (ix2 n 1)) (m ((c.tc : Thread Cert.KernelIdeal.nD Cert.KernelIdeal.τ).loc Cert.KernelIdeal.main_arg0) (ix2 n 3)) :=
  (decoded m h c).2.1

/-- Row n of the detection boxes: four real numbers x₀, y₀, x₁, y₁ with x₀ ≤ x₁ and y₀ ≤ y₁. -/
theorem box_arg0 (h : Cert.Pre_KernelIdeal m) (c : Dev Cert.KernelIdeal.nD) (n : Fin 1000) :
    ∃ x0 y0 x1 y1 : ℝ,
      m ((c.tc : Thread Cert.KernelIdeal.nD Cert.KernelIdeal.τ).loc Cert.KernelIdeal.main_arg0) (ix2 n 0) = (x0 : EReal)
      ∧ m ((c.tc : Thread Cert.KernelIdeal.nD Cert.KernelIdeal.τ).loc Cert.KernelIdeal.main_arg0) (ix2 n 1) = (y0 : EReal)
      ∧ m ((c.tc : Thread Cert.KernelIdeal.nD Cert.KernelIdeal.τ).loc Cert.KernelIdeal.main_arg0) (ix2 n 2) = (x1 : EReal)
      ∧ m ((c.tc : Thread Cert.KernelIdeal.nD Cert.KernelIdeal.τ).loc Cert.KernelIdeal.main_arg0) (ix2 n 3) = (y1 : EReal)
      ∧ x0 ≤ x1 ∧ y0 ≤ y1 := by
  obtain ⟨x0, e0⟩ := real_arg0 m h c (ix2 n 0)
  obtain ⟨y0, e1⟩ := real_arg0 m h c (ix2 n 1)
  obtain ⟨x1, e2⟩ := real_arg0 m h c (ix2 n 2)
  obtain ⟨y1, e3⟩ := real_arg0 m h c (ix2 n 3)
  obtain ⟨hx, hy⟩ := ordered_arg0 m h c n
  rw [e0, e2] at hx
  rw [e1, e3] at hy
  exact ⟨x0, y0, x1, y1, e0, e1, e2, e3, EReal.coe_le_coe_iff.1 hx, EReal.coe_le_coe_iff.1 hy⟩

/-- The reference boxes' corners are ordered. -/
theorem ordered_arg2 (h : Cert.Pre_KernelIdeal m) (c : Dev Cert.KernelIdeal.nD) :
    ∀ n : Fin 300,
      @LE.le EReal _ (m ((c.tc : Thread Cert.KernelIdeal.nD Cert.KernelIdeal.τ).loc Cert.KernelIdeal.main_arg2) (ix2 n 0)) (m ((c.tc : Thread Cert.KernelIdeal.nD Cert.KernelIdeal.τ).loc Cert.KernelIdeal.main_arg2) (ix2 n 2))
      ∧ @LE.le EReal _ (m ((c.tc : Thread Cert.KernelIdeal.nD Cert.KernelIdeal.τ).loc Cert.KernelIdeal.main_arg2) (ix2 n 1)) (m ((c.tc : Thread Cert.KernelIdeal.nD Cert.KernelIdeal.τ).loc Cert.KernelIdeal.main_arg2) (ix2 n 3)) :=
  (decoded m h c).2.2

/-- Row n of the reference boxes: four real numbers x₀, y₀, x₁, y₁ with x₀ ≤ x₁ and y₀ ≤ y₁. -/
theorem box_arg2 (h : Cert.Pre_KernelIdeal m) (c : Dev Cert.KernelIdeal.nD) (n : Fin 300) :
    ∃ x0 y0 x1 y1 : ℝ,
      m ((c.tc : Thread Cert.KernelIdeal.nD Cert.KernelIdeal.τ).loc Cert.KernelIdeal.main_arg2) (ix2 n 0) = (x0 : EReal)
      ∧ m ((c.tc : Thread Cert.KernelIdeal.nD Cert.KernelIdeal.τ).loc Cert.KernelIdeal.main_arg2) (ix2 n 1) = (y0 : EReal)
      ∧ m ((c.tc : Thread Cert.KernelIdeal.nD Cert.KernelIdeal.τ).loc Cert.KernelIdeal.main_arg2) (ix2 n 2) = (x1 : EReal)
      ∧ m ((c.tc : Thread Cert.KernelIdeal.nD Cert.KernelIdeal.τ).loc Cert.KernelIdeal.main_arg2) (ix2 n 3) = (y1 : EReal)
      ∧ x0 ≤ x1 ∧ y0 ≤ y1 := by
  obtain ⟨x0, e0⟩ := real_arg2 m h c (ix2 n 0)
  obtain ⟨y0, e1⟩ := real_arg2 m h c (ix2 n 1)
  obtain ⟨x1, e2⟩ := real_arg2 m h c (ix2 n 2)
  obtain ⟨y1, e3⟩ := real_arg2 m h c (ix2 n 3)
  obtain ⟨hx, hy⟩ := ordered_arg2 m h c n
  rw [e0, e2] at hx
  rw [e1, e3] at hy
  exact ⟨x0, y0, x1, y1, e0, e1, e2, e3, EReal.coe_le_coe_iff.1 hx, EReal.coe_le_coe_iff.1 hy⟩

end Cert.PreReal

end
-- ==== Proof.KNetHead.lean ====
/-
  The first layer at the launch memory.

  What the second launch finds in its windows is, reading the run's boundaries back: the first launch's three outputs
  (the two feature arrays and their sums) and reshaped parameter vectors; and the first launch found the embeddings
  and boxes as launched, the reference side transposed and padded with zero slots. On the real slots the two feature
  arrays are the specification's cosine and overlap ratio, on the padded slots zero. So the second launch's
  activations are the specification's first layer on the real pair rows and one constant row on the padded rows, and
  its moments are the corrected sums over all rows: the first layer is known in the form the later layers start from.
-/
import proofs.«139309_g56014963475156_cont_9to1_m_1179_16_alg».proof.Proof.KHead
import proofs.«139309_g56014963475156_cont_9to1_m_1179_16_alg».proof.Proof.KFeat
import proofs.«139309_g56014963475156_cont_9to1_m_1179_16_alg».proof.Proof.KTail
import proofs.«139309_g56014963475156_cont_9to1_m_1179_16_alg».proof.Proof.KWiringB
import proofs.«139309_g56014963475156_cont_9to1_m_1179_16_alg».proof.Proof.KWiring0
import proofs.«139309_g56014963475156_cont_9to1_m_1179_16_alg».proof.Proof.R1Closed
import proofs.«139309_g56014963475156_cont_9to1_m_1179_16_alg».proof.Proof.PreReal

set_option maxRecDepth 16384

noncomputable section

namespace Cert.KernelIdeal.KNet

open Cert.KernelIdeal Cert.KernelIdeal.Gen
open Idealize.ShloMosaic Idealize.ShloMosaic.ValueIdx Idealize.ShloMosaic.TcCoe
open Cert.KernelIdeal.R4 (scale shift zer col32)
open Cert.KernelIdeal.R3 (m4000)
open Cert.KernelIdeal.R0 (Gcos Giou Gst0)
open Cert.KernelIdeal.R1 (Ga1 act momRow col2 detOfRow slotOfRow)
open Cert.KernelIdeal.KTail (actz actz_eq actz_real)
open Cert.KStage Cert.Net Cert.BnLayer Cert.KHead

/-! ## One launch over abstract arrays -/

/-- An activation entry written out over the two feature arrays read as one two-column array. -/
theorem Ga1_apply (cosK iouK : S1000x304.Idx → EReal) (st0 : S2x128.Idx → EReal) (g0 b0 : S1x2.Idx → EReal)
    (W1 : S2x32.Idx → EReal) (b1 : S1x32.Idx → EReal) (R : Fin 304000) (q : Fin 32) :
    Ga1 cosK iouK st0 g0 b0 W1 b1 (ix2 R q)
      = actz ((∑ k : Fin 2, (xk0 cosK iouK R k * scale (g0 (ix2 (0 : Fin 1) k)) (st0 (ix2 (0 : Fin 2) (col2 k))) (st0 (ix2 (1 : Fin 2) (col2 k)))
            + shift (g0 (ix2 (0 : Fin 1) k)) (b0 (ix2 (0 : Fin 1) k)) (st0 (ix2 (0 : Fin 2) (col2 k))) (st0 (ix2 (1 : Fin 2) (col2 k))))
          * W1 (ix2 k q)) + b1 (ix2 (0 : Fin 1) q)) := by
  unfold Ga1 act actz
  refine congrArg (fun z : EReal => max (z + b1 (ix2 (0 : Fin 1) q)) zer) (Finset.sum_congr rfl fun k _ => ?_)
  match k with
  | ⟨0, _⟩ => rfl
  | ⟨1, _⟩ => rfl

/-- The padded rows' activation written out: both features zero. -/
theorem pad_apply (st0 : S2x128.Idx → EReal) (g0 b0 : S1x2.Idx → EReal) (W1 : S2x32.Idx → EReal) (b1 : S1x32.Idx → EReal) (q : Fin 32) :
    act g0 b0 (momRow st0 0) (momRow st0 1) W1 b1 zer zer q
      = actz ((∑ k : Fin 2, ((0 : EReal) * scale (g0 (ix2 (0 : Fin 1) k)) (st0 (ix2 (0 : Fin 2) (col2 k))) (st0 (ix2 (1 : Fin 2) (col2 k)))
            + shift (g0 (ix2 (0 : Fin 1) k)) (b0 (ix2 (0 : Fin 1) k)) (st0 (ix2 (0 : Fin 2) (col2 k))) (st0 (ix2 (1 : Fin 2) (col2 k))))
          * W1 (ix2 k q)) + b1 (ix2 (0 : Fin 1) q)) := by
  unfold act actz
  refine congrArg (fun z : EReal => max (z + b1 (ix2 (0 : Fin 1) q)) zer) (Finset.sum_congr rfl fun k _ => ?_)
  rw [← zer_eq]
  match k with
  | ⟨0, _⟩ => rfl
  | ⟨1, _⟩ => rfl

/-- THE FIRST LAYER over abstract arrays: from feature arrays that are the specification's on the real slots and zero on
    the padded ones, and moments that are the corrected sums of the activations, the first layer is known. -/
theorem head_fact (cosK iouK : S1000x304.Idx → EReal) (g0 b0 : S1x2.Idx → EReal) (W1 : S2x32.Idx → EReal) (b1 : S1x32.Idx → EReal)
    (stN : S3x128.Idx → EReal) (featS : Fin 300000 → Fin 2 → EReal)
    (hcos : ∀ (n : Fin 1000) (j : Fin 304), cosK (ix2 n j)
      = if h : j.val < 300 then featS ⟨300 * n.val + j.val, by have := n.isLt; omega⟩ 0 else 0)
    (hiou : ∀ (n : Fin 1000) (j : Fin 304), iouK (ix2 n j)
      = if h : j.val < 300 then featS ⟨300 * n.val + j.val, by have := n.isLt; omega⟩ 1 else 0)
    (hreal : ∀ i k, IsReal (featS i k))
    (hg0 : ∀ i, IsReal (g0 i)) (hb0 : ∀ i, IsReal (b0 i)) (hW1 : ∀ i, IsReal (W1 i)) (hb1 : ∀ i, IsReal (b1 i))
    (h0 : ∀ q, stN (ix2 (0 : Fin 3) (col32 q))
      = (zer + ∑ R : Fin 304000, Ga1 cosK iouK (Gst0 cosK iouK) g0 b0 W1 b1 (ix2 R q))
          + m4000 * act g0 b0 (momRow (Gst0 cosK iouK) 0) (momRow (Gst0 cosK iouK) 1) W1 b1 zer zer q)
    (h1 : ∀ q, stN (ix2 (1 : Fin 3) (col32 q))
      = (zer + ∑ R : Fin 304000, Ga1 cosK iouK (Gst0 cosK iouK) g0 b0 W1 b1 (ix2 R q) * Ga1 cosK iouK (Gst0 cosK iouK) g0 b0 W1 b1 (ix2 R q))
          + m4000 * (act g0 b0 (momRow (Gst0 cosK iouK) 0) (momRow (Gst0 cosK iouK) 1) W1 b1 zer zer q
              * act g0 b0 (momRow (Gst0 cosK iouK) 0) (momRow (Gst0 cosK iouK) 1) W1 b1 zer zer q))
    (h2 : ∀ q, stN (ix2 (2 : Fin 3) (col32 q)) = act g0 b0 (momRow (Gst0 cosK iouK) 0) (momRow (Gst0 cosK iouK) 1) W1 b1 zer zer q) :
    Fact col32 (fun R q => Ga1 cosK iouK (Gst0 cosK iouK) g0 b0 W1 b1 (ix2 R q)) stN
      (bnlin Cert.Net.relu featS (fun k => g0 (ix2 (0 : Fin 1) k)) (fun k => b0 (ix2 (0 : Fin 1) k)) (fun k q => W1 (ix2 k q)) (fun q => b1 (ix2 (0 : Fin 1) q)))
      (fun q => act g0 b0 (momRow (Gst0 cosK iouK) 0) (momRow (Gst0 cosK iouK) 1) W1 b1 zer zer q) := by
  obtain ⟨e1, e2, e3, e4⟩ := head_stage cosK iouK featS hcos hiou hreal
    (fun k => g0 (ix2 (0 : Fin 1) k)) (fun k => b0 (ix2 (0 : Fin 1) k)) (fun k => hg0 _) (fun k => hb0 _)
    (fun k q => W1 (ix2 k q)) (fun q => b1 (ix2 (0 : Fin 1) q)) (fun k q => hW1 _) (fun q => hb1 _) actz actz_real
  rw [actz_eq] at e1 e3
  rw [← actz_eq] at e1
  refine ⟨fun i q => ?_, fun p hp q => ?_, e3, fun q => ?_, h0, h1, h2⟩
  · exact (Ga1_apply cosK iouK _ g0 b0 W1 b1 (pe i) q).trans (by rw [← actz_eq]; exact e1 i q)
  · exact (Ga1_apply cosK iouK _ g0 b0 W1 b1 p q).trans ((e2 p hp q).trans (pad_apply _ g0 b0 W1 b1 q).symm)
  · rw [pad_apply]; exact e4 q

/-! ## At the launch memory -/

variable (m : (ℓ : Loc nD τ sig) → Buf (Elt Ideal) ℓ) (ρ : Dev nD → PrngReg)

/-- A parameter vector read as one row is real when the vector is. -/
theorem real_row' {N : Nat} (x : (⟨1, ![N]⟩ : Shape).Idx → EReal) (h : (⟨1, ![N]⟩ : Shape).ShapeCasts ⟨2, ![1, N]⟩)
    (hx : ∀ i, IsReal (x i)) (i : (⟨2, ![1, N]⟩ : Shape).Idx) : IsReal (shapeCast ⟨2, ![1, N]⟩ x h i) := by
  unfold shapeCast; exact hx _

theorem detOf_row (n : Fin 1000) (j : Fin 304) (h : j.val < 300) (hh : 300 * n.val + j.val < 300000) :
    Cert.Net.detOf ⟨300 * n.val + j.val, hh⟩ = n :=
  Fin.ext (by show (300 * n.val + j.val) / 300 = n.val; omega)

theorem refOf_row (n : Fin 1000) (j : Fin 304) (h : j.val < 300) (hh : 300 * n.val + j.val < 300000) :
    Cert.Net.refOf ⟨300 * n.val + j.val, hh⟩ = ⟨j.val, h⟩ :=
  Fin.ext (by show (300 * n.val + j.val) % 300 = j.val; omega)

/-- The first layer from abstract arrays, the parameter vectors given as vectors and read by the launch as one-row arrays. -/
theorem F1_aux (aK : Fin 304000 → Fin 32 → EReal) (stN : S3x128.Idx → EReal) (cosK iouK : S1000x304.Idx → EReal)
    (g0v b0v : S2.Idx → EReal) (W1 : S2x32.Idx → EReal) (b1v : S32.Idx → EReal) (featS : Fin 300000 → Fin 2 → EReal)
    (hcos : ∀ (n : Fin 1000) (j : Fin 304), cosK (ix2 n j)
      = if h : j.val < 300 then featS ⟨300 * n.val + j.val, by have := n.isLt; omega⟩ 0 else 0)
    (hiou : ∀ (n : Fin 1000) (j : Fin 304), iouK (ix2 n j)
      = if h : j.val < 300 then featS ⟨300 * n.val + j.val, by have := n.isLt; omega⟩ 1 else 0)
    (hreal : ∀ i k, IsReal (featS i k))
    (hg0 : ∀ i, IsReal (g0v i)) (hb0 : ∀ i, IsReal (b0v i)) (hW1 : ∀ i, IsReal (W1 i)) (hb1 : ∀ i, IsReal (b1v i))
    (hA : aK = fun R q => Ga1 cosK iouK (Gst0 cosK iouK) (shapeCast S1x2 g0v shapeCasts_S2_S1x2) (shapeCast S1x2 b0v shapeCasts_S2_S1x2)
      W1 (shapeCast S1x32 b1v shapeCasts_S32_S1x32) (ix2 R q))
    (hS : ∀ q : Fin 32,
      stN (ix2 (0 : Fin 3) (col32 q)) = (zer + ∑ R : Fin 304000, aK R q)
          + m4000 * act (shapeCast S1x2 g0v shapeCasts_S2_S1x2) (shapeCast S1x2 b0v shapeCasts_S2_S1x2) (momRow (Gst0 cosK iouK) 0) (momRow (Gst0 cosK iouK) 1) W1 (shapeCast S1x32 b1v shapeCasts_S32_S1x32) zer zer q
      ∧ stN (ix2 (1 : Fin 3) (col32 q)) = (zer + ∑ R : Fin 304000, aK R q * aK R q)
          + m4000 * (act (shapeCast S1x2 g0v shapeCasts_S2_S1x2) (shapeCast S1x2 b0v shapeCasts_S2_S1x2) (momRow (Gst0 cosK iouK) 0) (momRow (Gst0 cosK iouK) 1) W1 (shapeCast S1x32 b1v shapeCasts_S32_S1x32) zer zer q
              * act (shapeCast S1x2 g0v shapeCasts_S2_S1x2) (shapeCast S1x2 b0v shapeCasts_S2_S1x2) (momRow (Gst0 cosK iouK) 0) (momRow (Gst0 cosK iouK) 1) W1 (shapeCast S1x32 b1v shapeCasts_S32_S1x32) zer zer q)
      ∧ stN (ix2 (2 : Fin 3) (col32 q)) = act (shapeCast S1x2 g0v shapeCasts_S2_S1x2) (shapeCast S1x2 b0v shapeCasts_S2_S1x2) (momRow (Gst0 cosK iouK) 0) (momRow (Gst0 cosK iouK) 1) W1 (shapeCast S1x32 b1v shapeCasts_S32_S1x32) zer zer q) :
    ∃ cp1 : Fin 32 → EReal, Fact col32 aK stN
      (bnlin Cert.Net.relu featS (fun k => g0v (ix1 k)) (fun k => b0v (ix1 k)) (fun k q => W1 (ix2 k q)) (fun q => b1v (ix1 q))) cp1 := by
  subst hA
  have F := head_fact cosK iouK (shapeCast S1x2 g0v shapeCasts_S2_S1x2) (shapeCast S1x2 b0v shapeCasts_S2_S1x2) W1
    (shapeCast S1x32 b1v shapeCasts_S32_S1x32) stN featS hcos hiou hreal
    (real_row' _ _ hg0) (real_row' _ _ hb0) hW1 (real_row' _ _ hb1)
    (fun q => (hS q).1) (fun q => (hS q).2.1) (fun q => (hS q).2.2)
  have eg : (fun k : Fin 2 => shapeCast S1x2 g0v shapeCasts_S2_S1x2 (ix2 (0 : Fin 1) k)) = fun k => g0v (ix1 k) :=
    funext fun k => shapeCast_a_1a_apply g0v shapeCasts_S2_S1x2 0 k
  have eb : (fun k : Fin 2 => shapeCast S1x2 b0v shapeCasts_S2_S1x2 (ix2 (0 : Fin 1) k)) = fun k => b0v (ix1 k) :=
    funext fun k => shapeCast_a_1a_apply b0v shapeCasts_S2_S1x2 0 k
  have ec : (fun q : Fin 32 => shapeCast S1x32 b1v shapeCasts_S32_S1x32 (ix2 (0 : Fin 1) q)) = fun q => b1v (ix1 q) :=
    funext fun q => shapeCast_a_1a_apply b1v shapeCasts_S32_S1x32 0 q
  rw [eg, eb, ec] at F
  exact ⟨_, F⟩

/-- THE FIRST LAYER at the launch memory. -/
theorem F1 (c : Dev nD) (hpre : Cert.Pre_KernelIdeal m) : ∃ cp1 : Fin 32 → EReal,
    Fact col32 (fun R q => (dat1 (F := Ideal) (V3 m ρ) c).arrAt 7 cfg1.N (ix2 R q)) ((dat1 (F := Ideal) (V3 m ρ) c).arrAt 8 cfg1.N)
      (bnlin Cert.Net.relu (Cert.Net.feat (fun n k => m ((c : Thread nD τ).loc main_arg0) (ix2 n k)) (fun n d => m ((c : Thread nD τ).loc main_arg1) (ix2 n d)) (fun j k => m ((c : Thread nD τ).loc main_arg2) (ix2 j k)) (fun j d => m ((c : Thread nD τ).loc main_arg3) (ix2 j d)))
        (fun k => m ((c : Thread nD τ).loc main_arg4) (ix1 k)) (fun k => m ((c : Thread nD τ).loc main_arg5) (ix1 k)) (fun k q => m ((c : Thread nD τ).loc main_arg6) (ix2 k q)) (fun q => m ((c : Thread nD τ).loc main_arg7) (ix1 q))) cp1 := by
  -- what the second launch finds
  have eH : Cert.KernelIdeal.R1.H (V3 m ρ) c
      = fun R q => Ga1 (Gcos (m ((c : Thread nD τ).loc main_arg1)) (V1 m ρ c main_call0_v3)) (Giou (m ((c : Thread nD τ).loc main_arg0)) (V1 m ρ c main_call0_v7))
          (Gst0 (Gcos (m ((c : Thread nD τ).loc main_arg1)) (V1 m ρ c main_call0_v3)) (Giou (m ((c : Thread nD τ).loc main_arg0)) (V1 m ρ c main_call0_v7)))
          (shapeCast S1x2 (m ((c : Thread nD τ).loc main_arg4)) shapeCasts_S2_S1x2) (shapeCast S1x2 (m ((c : Thread nD τ).loc main_arg5)) shapeCasts_S2_S1x2)
          (m ((c : Thread nD τ).loc main_arg6)) (shapeCast S1x32 (m ((c : Thread nD τ).loc main_arg7)) shapeCasts_S32_S1x32) (ix2 R q) := by
    unfold Cert.KernelIdeal.R1.H
    rw [Cert.KernelIdeal.Wiring.v3_cos, Cert.KernelIdeal.Wiring.v3_iou, Cert.KernelIdeal.Wiring.v3_st0, Cert.KernelIdeal.Wiring.v3_g0,
      Cert.KernelIdeal.Wiring.v3_b0, Cert.KernelIdeal.Wiring.v3_W1, Cert.KernelIdeal.Wiring.v3_b1,
      Cert.KernelIdeal.R0.final_cos, Cert.KernelIdeal.R0.final_iou, Cert.KernelIdeal.R0.final_st0,
      Cert.KernelIdeal.Wiring0.v1_det, Cert.KernelIdeal.Wiring0.v1_emb]
  have eC : Cert.KernelIdeal.R1.C (V3 m ρ) c
      = fun q => act (shapeCast S1x2 (m ((c : Thread nD τ).loc main_arg4)) shapeCasts_S2_S1x2) (shapeCast S1x2 (m ((c : Thread nD τ).loc main_arg5)) shapeCasts_S2_S1x2)
          (momRow (Gst0 (Gcos (m ((c : Thread nD τ).loc main_arg1)) (V1 m ρ c main_call0_v3)) (Giou (m ((c : Thread nD τ).loc main_arg0)) (V1 m ρ c main_call0_v7))) 0)
          (momRow (Gst0 (Gcos (m ((c : Thread nD τ).loc main_arg1)) (V1 m ρ c main_call0_v3)) (Giou (m ((c : Thread nD τ).loc main_arg0)) (V1 m ρ c main_call0_v7))) 1)
          (m ((c : Thread nD τ).loc main_arg6)) (shapeCast S1x32 (m ((c : Thread nD τ).loc main_arg7)) shapeCasts_S32_S1x32) zer zer q := by
    unfold Cert.KernelIdeal.R1.C
    rw [Cert.KernelIdeal.Wiring.v3_st0, Cert.KernelIdeal.Wiring.v3_g0,
      Cert.KernelIdeal.Wiring.v3_b0, Cert.KernelIdeal.Wiring.v3_W1, Cert.KernelIdeal.Wiring.v3_b1,
      Cert.KernelIdeal.R0.final_st0, Cert.KernelIdeal.Wiring0.v1_det, Cert.KernelIdeal.Wiring0.v1_emb]
  have eA : (fun R q => (dat1 (F := Ideal) (V3 m ρ) c).arrAt 7 cfg1.N (ix2 R q)) = Cert.KernelIdeal.R1.H (V3 m ρ) c :=
    funext fun R => funext fun q => Cert.KernelIdeal.R1.final_a1_apply (V3 m ρ) c R q
  have eS := Cert.KernelIdeal.R1.final_st1_rows (V3 m ρ) c
  rw [← eA, eC] at eS
  -- the two feature arrays against the specification
  have hcos : ∀ (n : Fin 1000) (j : Fin 304), Gcos (m ((c : Thread nD τ).loc main_arg1)) (V1 m ρ c main_call0_v3) (ix2 n j)
      = if h : j.val < 300 then (Cert.Net.feat (fun n k => m ((c : Thread nD τ).loc main_arg0) (ix2 n k)) (fun n d => m ((c : Thread nD τ).loc main_arg1) (ix2 n d)) (fun j k => m ((c : Thread nD τ).loc main_arg2) (ix2 j k)) (fun j d => m ((c : Thread nD τ).loc main_arg3) (ix2 j d))) ⟨300 * n.val + j.val, by have := n.isLt; omega⟩ 0 else 0 := fun n j => by
    rw [Cert.KernelIdeal.KFeat.cos_eq (m ((c : Thread nD τ).loc main_arg1)) (m ((c : Thread nD τ).loc main_arg3)) (V1 m ρ c main_call0_v3) (Cert.KernelIdeal.Wiring0.v1_keT m ρ c) n j]
    by_cases h : j.val < 300
    · rw [dif_pos h, dif_pos h]
      unfold Cert.Net.feat
      rw [if_pos (show (0 : Fin 2).val = 0 from rfl), detOf_row n j h, refOf_row n j h]
    · rw [dif_neg h, dif_neg h]
  have hiou : ∀ (n : Fin 1000) (j : Fin 304), Giou (m ((c : Thread nD τ).loc main_arg0)) (V1 m ρ c main_call0_v7) (ix2 n j)
      = if h : j.val < 300 then (Cert.Net.feat (fun n k => m ((c : Thread nD τ).loc main_arg0) (ix2 n k)) (fun n d => m ((c : Thread nD τ).loc main_arg1) (ix2 n d)) (fun j k => m ((c : Thread nD τ).loc main_arg2) (ix2 j k)) (fun j d => m ((c : Thread nD τ).loc main_arg3) (ix2 j d))) ⟨300 * n.val + j.val, by have := n.isLt; omega⟩ 1 else 0 := fun n j => by
    rw [Cert.KernelIdeal.KFeat.iou_eq (m ((c : Thread nD τ).loc main_arg0)) (m ((c : Thread nD τ).loc main_arg2)) (V1 m ρ c main_call0_v7) (Cert.KernelIdeal.Wiring0.v1_rbT m ρ c)
      (Cert.PreReal.real_arg0 m hpre c) (Cert.PreReal.ordered_arg0 m hpre c) n j]
    by_cases h : j.val < 300
    · rw [dif_pos h, dif_pos h]
      unfold Cert.Net.feat
      rw [if_neg (show ¬ ((1 : Fin 2).val = 0) from Nat.succ_ne_zero 0), detOf_row n j h, refOf_row n j h]
    · rw [dif_neg h, dif_neg h]
  have hreal : ∀ i k, IsReal ((Cert.Net.feat (fun n k => m ((c : Thread nD τ).loc main_arg0) (ix2 n k)) (fun n d => m ((c : Thread nD τ).loc main_arg1) (ix2 n d)) (fun j k => m ((c : Thread nD τ).loc main_arg2) (ix2 j k)) (fun j d => m ((c : Thread nD τ).loc main_arg3) (ix2 j d))) i k) := fun i k => by
    unfold Cert.Net.feat
    split
    · exact Cert.KernelIdeal.KFeat.cos_real (m ((c : Thread nD τ).loc main_arg1)) (m ((c : Thread nD τ).loc main_arg3)) (Cert.PreReal.real_arg1 m hpre c) (Cert.PreReal.real_arg3 m hpre c) _ _
    · exact Cert.KernelIdeal.KFeat.iou_real (m ((c : Thread nD τ).loc main_arg0)) (m ((c : Thread nD τ).loc main_arg2)) (Cert.PreReal.real_arg0 m hpre c) (Cert.PreReal.real_arg2 m hpre c)
        (Cert.PreReal.ordered_arg0 m hpre c) (Cert.PreReal.ordered_arg2 m hpre c) _ _
  exact F1_aux _ _ _ _ (m ((c : Thread nD τ).loc main_arg4)) (m ((c : Thread nD τ).loc main_arg5)) (m ((c : Thread nD τ).loc main_arg6)) (m ((c : Thread nD τ).loc main_arg7)) _ hcos hiou hreal
    (Cert.PreReal.real_arg4 m hpre c) (Cert.PreReal.real_arg5 m hpre c) (Cert.PreReal.real_arg6 m hpre c) (Cert.PreReal.real_arg7 m hpre c)
    (eA.trans eH) eS

end Cert.KernelIdeal.KNet

end
-- ==== Proof.R2Payload.lean ====
/-
  The third launch (the second hidden layer and its moments), one tile: its payloads at an entry.

  On a tile of 15200 pair rows, A (r, q) is the second layer's activation of row r, column q (32 columns): with the
  first layer's activations a, moments and normalisation parameters,
      A (r, q) = max ((∑ k, (a (r,k) · scale k + shift k) · W (k,q)) + bias q) 0,
  scale and shift the same functions of a column's weight, bias and raw moments as in the last launch. The launch stores
  A as its tile of the activations and adds, into row 0 and row 1 of its 3 × 128 block of moments, the column sums of A
  and of A². At the last grid point it also computes the activation row c every padded pair carries (from the padded
  constant of the layer before, row 2 of the incoming moments), adds −4000 · c and −4000 · c² to rows 0 and 1, and
  stores c in row 2.
-/
import proofs.«139309_g56014963475156_cont_9to1_m_1179_16_alg».proof.Proof.Gen.KernelIdeal.Skeleton
import proofs.«139309_g56014963475156_cont_9to1_m_1179_16_alg».proof.Proof.R4Payload
import proofs.«139309_g56014963475156_cont_9to1_m_1179_16_alg».proof.Proof.LibColSums

set_option maxRecDepth 16384

noncomputable section

namespace Cert.KernelIdeal.R2

open Cert.KernelIdeal Cert.KernelIdeal.Gen
open Idealize.ShloMosaic Idealize.ShloMosaic.ValueIdx
open Cert.KernelIdeal.R4 (scale shift zer cinv eps)

/-- The padded rows' count, negated, as the program spells it. -/
abbrev m4000 : EReal := Scalar.ofBits (F := Ideal) .f32 0xC57A0000#32

/-- A column's scale, read off the payload that computes it. -/
theorem pay9_apply (g s1 s2 : Vec Ideal S1x32 .f32) (k : Fin 32) :
    k2_pay9 (F := Ideal) g s1 s2 (ix2 (0 : Fin 1) k) = scale (g (ix2 (0 : Fin 1) k)) (s1 (ix2 (0 : Fin 1) k)) (s2 (ix2 (0 : Fin 1) k)) := by
  unfold k2_pay9 k2_pay8
  simp only [shapeCast_self]
  rfl

/-- A column's shift. -/
theorem pay10_apply (g b s1 s2 : Vec Ideal S1x32 .f32) (k : Fin 32) :
    k2_pay10 (F := Ideal) g b s1 s2 (ix2 (0 : Fin 1) k)
      = shift (g (ix2 (0 : Fin 1) k)) (b (ix2 (0 : Fin 1) k)) (s1 (ix2 (0 : Fin 1) k)) (s2 (ix2 (0 : Fin 1) k)) := by
  unfold k2_pay10 k2_pay9 k2_pay8
  simp only [shapeCast_self]
  rfl

/-- The second layer's activation on the tile, at row r and column q. -/
theorem act_apply (g b s1 s2 : Vec Ideal S1x32 .f32) (W : Vec Ideal S32x32 .f32) (bias : Vec Ideal S1x32 .f32)
    (a : Vec Ideal S15200x32 .f32) (r : Fin 15200) (q : Fin 32) :
    k2_pay1 (F := Ideal) (k2_pay12 bias) (k2_pay13 g b s1 s2 W a) (ix2 r q)
      = max ((∑ k : Fin 32, (a (ix2 r k) * scale (g (ix2 (0 : Fin 1) k)) (s1 (ix2 (0 : Fin 1) k)) (s2 (ix2 (0 : Fin 1) k))
            + shift (g (ix2 (0 : Fin 1) k)) (b (ix2 (0 : Fin 1) k)) (s1 (ix2 (0 : Fin 1) k)) (s2 (ix2 (0 : Fin 1) k))) * W (ix2 k q))
          + bias (ix2 (0 : Fin 1) q)) zer := by
  unfold k2_pay1 k2_pay12 k2_pay13 k2_pay11
  rw [maximumf_apply, broadcast_apply,
    Cert.LinearAt.matmul_bias_apply 15200 32 32 dot_S15200x32_S32x32_S15200x32_1_0_0_1_n_n rfl]
  refine congrArg (fun z => max (z + _) _) (Finset.sum_congr rfl fun k _ => ?_)
  rw [truncf_apply, truncf_apply, addf_apply, mulf_apply]
  simp only [shapeCast_self]
  rw [broadcastTo_1b_ab_apply _ broadcasts_S1x32_S15200x32, broadcastTo_1b_ab_apply _ broadcasts_S1x32_S15200x32,
    pay9_apply, pay10_apply]

/-- Row 0's store: the previous row plus the column sums of the activations. -/
theorem pay2_apply (P12 : FVec Ideal S1x32 .f32) (P13 : FVec Ideal S15200x32 .f32) (prev : Vec Ideal S1x32 .f32) (q : Fin 32) :
    k2_pay2 (F := Ideal) P12 P13 prev (ix2 (0 : Fin 1) q) = prev (ix2 (0 : Fin 1) q) + ∑ r : Fin 15200, k2_pay1 (F := Ideal) P12 P13 (ix2 r q) := by
  unfold k2_pay2
  rw [addf_apply, shapeCast_self]
  exact congrArg (fun z => _ + z) (Cert.ColSums.colsum_row_apply 15200 32 _ _ _ _ _ _ q)

/-- Row 1's store: the previous row plus the column sums of the squared activations. -/
theorem pay3_apply (P12 : FVec Ideal S1x32 .f32) (P13 : FVec Ideal S15200x32 .f32) (prev : Vec Ideal S1x32 .f32) (q : Fin 32) :
    k2_pay3 (F := Ideal) P12 P13 prev (ix2 (0 : Fin 1) q)
      = prev (ix2 (0 : Fin 1) q) + ∑ r : Fin 15200, k2_pay1 (F := Ideal) P12 P13 (ix2 r q) * k2_pay1 (F := Ideal) P12 P13 (ix2 r q) := by
  unfold k2_pay3
  rw [addf_apply, shapeCast_self]
  exact congrArg (fun z => _ + z) (Cert.ColSums.colsum_row_apply 15200 32 _ _ _ _ _ _ q)

/-- The padded pairs' activation row, from the padded constant of the layer before. -/
theorem pay4_apply (P9 P10 : FVec Ideal S1x32 .f32) (W : Vec Ideal S32x32 .f32) (P12 : FVec Ideal S1x32 .f32) (cp : Vec Ideal S1x32 .f32) (q : Fin 32) :
    k2_pay4 (F := Ideal) P9 P10 (k2_pay11 W) P12 cp (ix2 (0 : Fin 1) q)
      = max ((∑ k : Fin 32, (cp (ix2 (0 : Fin 1) k) * P9 (ix2 (0 : Fin 1) k) + P10 (ix2 (0 : Fin 1) k)) * W (ix2 k q)) + P12 (ix2 (0 : Fin 1) q)) zer := by
  unfold k2_pay4 k2_pay11
  rw [maximumf_apply, broadcast_apply, addf_apply,
    Cert.LinearAt.matmul_apply 1 32 32 dot_S1x32_S32x32_S1x32_1_0_0_1_n_n rfl]
  refine congrArg (fun z => max (z + _) _) (Finset.sum_congr rfl fun k _ => ?_)
  rw [truncf_apply, truncf_apply, addf_apply, mulf_apply, shapeCast_self]

/-- Row 0's correction at the last point. -/
theorem pay5_apply (P9 P10 : FVec Ideal S1x32 .f32) (P11 : FVec Ideal S32x32 .bf16) (P12 : FVec Ideal S1x32 .f32) (cp : Vec Ideal S1x32 .f32)
    (prev : Vec Ideal S1x32 .f32) (q : Fin 32) :
    k2_pay5 (F := Ideal) P9 P10 P11 P12 cp prev (ix2 (0 : Fin 1) q)
      = prev (ix2 (0 : Fin 1) q) + m4000 * k2_pay4 (F := Ideal) P9 P10 P11 P12 cp (ix2 (0 : Fin 1) q) := by
  unfold k2_pay5
  rw [addf_apply, shapeCast_self, mulf_apply, broadcast_apply]

/-- Row 1's correction at the last point. -/
theorem pay6_apply (P9 P10 : FVec Ideal S1x32 .f32) (P11 : FVec Ideal S32x32 .bf16) (P12 : FVec Ideal S1x32 .f32) (cp : Vec Ideal S1x32 .f32)
    (prev : Vec Ideal S1x32 .f32) (q : Fin 32) :
    k2_pay6 (F := Ideal) P9 P10 P11 P12 cp prev (ix2 (0 : Fin 1) q)
      = prev (ix2 (0 : Fin 1) q) + m4000 * (k2_pay4 (F := Ideal) P9 P10 P11 P12 cp (ix2 (0 : Fin 1) q) * k2_pay4 (F := Ideal) P9 P10 P11 P12 cp (ix2 (0 : Fin 1) q)) := by
  unfold k2_pay6
  rw [addf_apply, shapeCast_self, mulf_apply, broadcast_apply, mulf_apply]

end Cert.KernelIdeal.R2

end
-- ==== Proof.R2Value.lean ====
/-
  The third launch: the second hidden layer's activations and their moments, as functions of the arrays the launch finds.

  Grid point t handles pair rows 15200·t … 15200·t + 15199 of the first hidden layer's activations. It has two outputs.
  The tile of the second layer's activations is written whole at every point and written back at every point: the twenty
  tiles make up the activations array. The 3 × 128 block of moments stays in place over the 20 points and is written back
  once, after the last: point 0 zeroes it; every point adds the column sums of its tile's activations to row 0 and of their
  squares to row 1 (columns 0 … 31); the last point then adds −4000 · c and −4000 · c² and stores c in row 2, c the
  activation row every padded pair carries. Read at an entry, what each of the three control cases leaves in the moments
  is one "step" (and, at the last point, one "finish") applied to what the point before left.
-/
import proofs.«139309_g56014963475156_cont_9to1_m_1179_16_alg».proof.Proof.Gen.KernelIdeal.Frame
import proofs.«139309_g56014963475156_cont_9to1_m_1179_16_alg».proof.Proof.R2Payload
import proofs.«139309_g56014963475156_cont_9to1_m_1179_16_alg».proof.Proof.LibRowPieces

set_option maxRecDepth 16384

noncomputable section

namespace Cert.KernelIdeal.R2

open Cert.KernelIdeal Cert.KernelIdeal.Gen
open Idealize.ShloMosaic Idealize.ShloMosaic.ValueIdx Idealize.ShloMosaic.TcCoe Idealize.ShloMosaic.Tactic
open Idealize.ShloMosaic.Pipeline (Dat Cfg Window)
open Cert.KernelIdeal.R4 (scale shift zer cinv eps)

theorem hz2 : (![0, 0] : Fin 2 → Nat) = fun _ => 0 := funext fun a => by fin_cases a <;> rfl

/-- One tile's contribution to the moments: row 1 gains the column sums of the squares, row 0 the column sums. -/
def step (A : Fin 15200 → Fin 32 → EReal) (prev : S3x128.Idx → EReal) : S3x128.Idx → EReal := fun y =>
  if h : (y 0).val = 1 ∧ (y 1).val < 32 then prev y + ∑ r : Fin 15200, A r ⟨(y 1).val, h.2⟩ * A r ⟨(y 1).val, h.2⟩
  else if h : (y 0).val = 0 ∧ (y 1).val < 32 then prev y + ∑ r : Fin 15200, A r ⟨(y 1).val, h.2⟩
  else prev y

/-- The last point's correction: row 2 receives the padded pairs' activation row c, rows 1 and 0 lose 4000 · c² and 4000 · c. -/
def finish (c : Fin 32 → EReal) (s : S3x128.Idx → EReal) : S3x128.Idx → EReal := fun y =>
  if h : (y 0).val = 2 ∧ (y 1).val < 32 then c ⟨(y 1).val, h.2⟩
  else if h : (y 0).val = 1 ∧ (y 1).val < 32 then s y + m4000 * (c ⟨(y 1).val, h.2⟩ * c ⟨(y 1).val, h.2⟩)
  else if h : (y 0).val = 0 ∧ (y 1).val < 32 then s y + m4000 * c ⟨(y 1).val, h.2⟩
  else s y

/-- The tile's activations from the launch's blocks (rows 0 and 1 of the incoming moments give the scale and shift). -/
def Ablk (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) : Fin 15200 → Fin 32 → EReal := fun r q =>
  k2_pay1 (F := Ideal) (k2_pay12 x5)
    (k2_pay13 x2 x3 (View.ld x1 (Rect.unit (s := S3x128) ![0, 0] S1x32.size inb_S3x128_S1x32_0_0))
      (View.ld x1 (Rect.unit (s := S3x128) ![1, 0] S1x32.size inb_S3x128_S1x32_1_0)) x4 x0) (ix2 r q)

/-- The padded pairs' activation row from the launch's blocks (row 2 of the incoming moments is the constant before). -/
def cblk (x1 : Vec Ideal S3x128 .f32) (x2 x3 : Vec Ideal S1x32 .f32) (x4 : Vec Ideal S32x32 .f32) (x5 : Vec Ideal S1x32 .f32) : Fin 32 → EReal := fun q =>
  k2_pay4 (F := Ideal)
    (k2_pay9 x2 (View.ld x1 (Rect.unit (s := S3x128) ![0, 0] S1x32.size inb_S3x128_S1x32_0_0))
      (View.ld x1 (Rect.unit (s := S3x128) ![1, 0] S1x32.size inb_S3x128_S1x32_1_0)))
    (k2_pay10 x2 x3 (View.ld x1 (Rect.unit (s := S3x128) ![0, 0] S1x32.size inb_S3x128_S1x32_0_0))
      (View.ld x1 (Rect.unit (s := S3x128) ![1, 0] S1x32.size inb_S3x128_S1x32_1_0)))
    (k2_pay11 x4) (k2_pay12 x5)
    (View.ld x1 (Rect.unit (s := S3x128) ![2, 0] S1x32.size inb_S3x128_S1x32_2_0)) (ix2 (0 : Fin 1) q)

/-- A load of row a of the running block, at column q. -/
theorem ld_row (xo : Vec Ideal S3x128 .f32) (a : Nat) (inb : ∀ d, (![a, 0] : Fin 2 → Nat) d + (![1, 32] : Fin 2 → Nat) d ≤ S3x128.size d)
    (y : S3x128.Idx) (h0 : (y 0).val = a) (h1 : (y 1).val < 32) :
    View.ld xo (Rect.unit (s := S3x128) ![a, 0] ![1, 32] inb) (ix2 (0 : Fin 1) (⟨(y 1).val, h1⟩ : Fin 32)) = xo y :=
  congrArg xo (funext fun d => Fin.ext (by
    match d with
    | ⟨0, _⟩ => show a + 1 * 0 = (y 0).val; omega
    | ⟨1, _⟩ => show 0 + 1 * (y 1).val = (y 1).val; omega))

/-- The zero block. -/
theorem pay7_apply (y : S3x128.Idx) : k2_pay7 (F := Ideal) y = zer := rfl

/-- A read of the moments buffer after one store through the whole block. -/
theorem read_whole {sig' : RefSig} {κ' : Kind} {sp' : Space} (v : View sig' κ' sp' S3x128 .f32) (f : v.ty.Contents (Elt Ideal))
    (w : S3x128.Idx → EReal) (y : S3x128.Idx) :
    v.read (Elt Ideal) (v.writes (Elt Ideal) f [(⟨Rect.unit (s := S3x128) ![0, 0] S3x128.size inb_S3x128_S3x128_0_0, w⟩ : View.Piece (Elt Ideal) S3x128 .f32)]) y = w y :=
  View.read_writes_cons_unit_of_mem v f inb_S3x128_S3x128_0_0 w [] y y rfl
    (Fin.forall_fin_two.mpr ⟨by show (y 0).val = 0 + (y 0).val; omega, by show (y 1).val = 0 + (y 1).val; omega⟩)

/-- A read of the activations' buffer after one store through the whole tile. -/
theorem read_whole_tile {sig' : RefSig} {κ' : Kind} {sp' : Space} (v : View sig' κ' sp' S15200x32 .f32) (f : v.ty.Contents (Elt Ideal))
    (w : S15200x32.Idx → EReal) (y : S15200x32.Idx) :
    v.read (Elt Ideal) (v.writes (Elt Ideal) f [(⟨Rect.unit (s := S15200x32) ![0, 0] S15200x32.size inb_S15200x32_S15200x32_0_0, w⟩ : View.Piece (Elt Ideal) S15200x32 .f32)]) y = w y :=
  View.read_writes_cons_unit_of_mem v f inb_S15200x32_S15200x32_0_0 w [] y y rfl
    (Fin.forall_fin_two.mpr ⟨by show (y 0).val = 0 + (y 0).val; omega, by show (y 1).val = 0 + (y 1).val; omega⟩)

/-! ## The activations' tile: in every case one whole store of the tile's activations -/

theorem tileA (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : cond2_0 i) (hc1 : ¬cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) :
    out2_A_6 (F := Ideal) c i arg1 harg1 arg2 harg2 arg3 harg3 arg4 harg4 arg5 harg5 arg6 harg6 arg7 harg7 arg8 harg8 hc0 hc1 x0 x1 x2 x3 x4 x5 = fun y => Ablk x0 x1 x2 x3 x4 x5 (y 0) (y 1) := by
  unfold out2_A_6 kernelRun2_A
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  exact (read_whole_tile _ _ _ y).trans (congrArg _ (eq_ix2 y))

theorem tileB (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : ¬cond2_0 i) (hc1 : ¬cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) (xo7 : Vec Ideal S3x128 .f32) :
    out2_B_6 (F := Ideal) c i arg1 harg1 arg2 harg2 arg3 harg3 arg4 harg4 arg5 harg5 arg6 harg6 arg7 harg7 arg8 harg8 hc0 hc1 x0 x1 x2 x3 x4 x5 xo7 = fun y => Ablk x0 x1 x2 x3 x4 x5 (y 0) (y 1) := by
  unfold out2_B_6 kernelRun2_B
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  exact (read_whole_tile _ _ _ y).trans (congrArg _ (eq_ix2 y))

theorem tileC (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : ¬cond2_0 i) (hc1 : cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) (xo7 : Vec Ideal S3x128 .f32) :
    out2_C_6 (F := Ideal) c i arg1 harg1 arg2 harg2 arg3 harg3 arg4 harg4 arg5 harg5 arg6 harg6 arg7 harg7 arg8 harg8 hc0 hc1 x0 x1 x2 x3 x4 x5 xo7 = fun y => Ablk x0 x1 x2 x3 x4 x5 (y 0) (y 1) := by
  unfold out2_C_6 kernelRun2_C
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  exact (read_whole_tile _ _ _ y).trans (congrArg _ (eq_ix2 y))

/-! ## The moments: one step per point, and the correction at the last -/

/-- CASE B (a middle point): one step over what the point before left. -/
theorem caseB (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : ¬cond2_0 i) (hc1 : ¬cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) (xo7 : Vec Ideal S3x128 .f32) :
    out2_B_7 (F := Ideal) c i arg1 harg1 arg2 harg2 arg3 harg3 arg4 harg4 arg5 harg5 arg6 harg6 arg7 harg7 arg8 harg8 hc0 hc1 x0 x1 x2 x3 x4 x5 xo7 = step (Ablk x0 x1 x2 x3 x4 x5) xo7 := by
  unfold out2_B_7 kernelRun2_B
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  unfold step
  by_cases h1 : (y 0).val = 1 ∧ (y 1).val < 32
  · rw [dif_pos h1]
    refine (Cert.RowPieces.read_row_hit _ _ _ _ _ y h1.1 h1.2).trans ?_
    refine (pay3_apply _ _ _ _).trans ?_
    rw [ld_row xo7 1 _ y h1.1 h1.2]
    rfl
  · rw [dif_neg h1]
    refine (Cert.RowPieces.read_row_miss _ _ _ _ _ y h1).trans ?_
    by_cases h0 : (y 0).val = 0 ∧ (y 1).val < 32
    · rw [dif_pos h0]
      refine (Cert.RowPieces.read_row_hit _ _ _ _ _ y h0.1 h0.2).trans ?_
      refine (pay2_apply _ _ _ _).trans ?_
      rw [ld_row xo7 0 _ y h0.1 h0.2]
      rfl
    · rw [dif_neg h0]
      refine (Cert.RowPieces.read_row_miss _ _ _ _ _ y h0).trans ?_
      rw [View.writes_nil, harg8.read_unread]

/-- CASE A (the first point): one step over the zero block. -/
theorem caseA (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : cond2_0 i) (hc1 : ¬cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) :
    out2_A_7 (F := Ideal) c i arg1 harg1 arg2 harg2 arg3 harg3 arg4 harg4 arg5 harg5 arg6 harg6 arg7 harg7 arg8 harg8 hc0 hc1 x0 x1 x2 x3 x4 x5 = step (Ablk x0 x1 x2 x3 x4 x5) (fun _ => zer) := by
  unfold out2_A_7 kernelRun2_A
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  unfold step
  have hy1 : (y 1).val < 128 := (y 1).isLt
  by_cases h1 : (y 0).val = 1 ∧ (y 1).val < 32
  · rw [dif_pos h1]
    refine (Cert.RowPieces.read_row_hit _ _ _ _ _ y h1.1 h1.2).trans ?_
    refine (pay3_apply _ _ _ _).trans ?_
    rw [Cert.RowPieces.readCov_row _ _ _ ⟨(y 1).val, h1.2⟩ (by omega : 1 < 3) (by show (y 1).val < 128; omega),
      Cert.RowPieces.canon_row_miss _ _ _ _ (by show ¬((1 : Nat) = 0 ∧ _); omega), View.canon_unit_zero hz2]
    rfl
  · rw [dif_neg h1]
    refine (Cert.RowPieces.read_row_miss _ _ _ _ _ y h1).trans ?_
    by_cases h0 : (y 0).val = 0 ∧ (y 1).val < 32
    · rw [dif_pos h0]
      refine (Cert.RowPieces.read_row_hit _ _ _ _ _ y h0.1 h0.2).trans ?_
      refine (pay2_apply _ _ _ _).trans ?_
      rw [Cert.RowPieces.readCov_row _ _ _ ⟨(y 1).val, h0.2⟩ (by omega : 0 < 3) (by show (y 1).val < 128; omega), View.canon_unit_zero hz2]
      rfl
    · rw [dif_neg h0]
      refine (Cert.RowPieces.read_row_miss _ _ _ _ _ y h0).trans ?_
      exact read_whole _ _ _ y

/-- CASE C (the last point): one step, then the correction. -/
theorem caseC (c : Dev nD) (i : grid2.Coords) (arg1 : Memref sig .tc .vmem S15200x32 .f32) (harg1 : arg1.IsWhole) (arg2 : Memref sig .tc .vmem S3x128 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S15200x32 .f32) (harg7 : arg7.IsWhole) (arg8 : Memref sig .tc .vmem S3x128 .f32) (harg8 : arg8.IsWhole) (hc0 : ¬cond2_0 i) (hc1 : cond2_1 i) (x0 : Vec Ideal S15200x32 .f32) (x1 : Vec Ideal S3x128 .f32) (x2 : Vec Ideal S1x32 .f32) (x3 : Vec Ideal S1x32 .f32) (x4 : Vec Ideal S32x32 .f32) (x5 : Vec Ideal S1x32 .f32) (xo7 : Vec Ideal S3x128 .f32) :
    out2_C_7 (F := Ideal) c i arg1 harg1 arg2 harg2 arg3 harg3 arg4 harg4 arg5 harg5 arg6 harg6 arg7 harg7 arg8 harg8 hc0 hc1 x0 x1 x2 x3 x4 x5 xo7
      = finish (cblk x1 x2 x3 x4 x5) (step (Ablk x0 x1 x2 x3 x4 x5) xo7) := by
  unfold out2_C_7 kernelRun2_C
  dsimp only
  sl_unfold_words
  simp only [View.readAt_eq_ld, harg1.read_unread, harg2.read_unread, harg3.read_unread, harg4.read_unread, harg5.read_unread, harg6.read_unread, harg7.read_unread, harg8.read_unread,
    View.ld_unit_zero (S := S1x32) hz2, View.ld_unit_zero (S := S32x32) hz2, View.ld_unit_zero (S := S15200x32) hz2]
  funext y
  unfold finish step
  have hy1 : (y 1).val < 128 := (y 1).isLt
  by_cases h2 : (y 0).val = 2 ∧ (y 1).val < 32
  · rw [dif_pos h2]
    refine (Cert.RowPieces.read_row_hit _ _ _ _ _ y h2.1 h2.2).trans ?_
    rfl
  · rw [dif_neg h2]
    refine (Cert.RowPieces.read_row_miss _ _ _ _ _ y h2).trans ?_
    by_cases h1 : (y 0).val = 1 ∧ (y 1).val < 32
    · rw [dif_pos h1, dif_pos h1]
      refine (Cert.RowPieces.read_row_hit _ _ _ _ _ y h1.1 h1.2).trans ?_
      refine (pay6_apply _ _ _ _ _ _ _).trans ?_
      rw [Cert.RowPieces.readCov_row _ _ _ ⟨(y 1).val, h1.2⟩ (by omega : 1 < 3) (by show (y 1).val < 128; omega),
        Cert.RowPieces.canon_row_miss _ _ _ _ (by show ¬((1 : Nat) = 0 ∧ _); omega),
        Cert.RowPieces.canon_row_hit (a := 1) _ _ _ (ix2 (⟨1, by omega⟩ : Fin 3) (⟨(y 1).val, hy1⟩ : Fin 128)) rfl h1.2, pay3_apply]
      have e : View.ld xo7 (Rect.unit (s := S3x128) ![1, 0] ![1, 32] inb_S3x128_S1x32_1_0) (ix2 (0 : Fin 1) (⟨(y 1).val, h1.2⟩ : Fin 32)) = xo7 y :=
        ld_row xo7 1 _ y h1.1 h1.2
      exact congrArg (fun z => z + (∑ r : Fin 15200, Ablk x0 x1 x2 x3 x4 x5 r ⟨(y 1).val, h1.2⟩ * Ablk x0 x1 x2 x3 x4 x5 r ⟨(y 1).val, h1.2⟩)
        + m4000 * (cblk x1 x2 x3 x4 x5 ⟨(y 1).val, h1.2⟩ * cblk x1 x2 x3 x4 x5 ⟨(y 1).val, h1.2⟩)) e
    · rw [dif_neg h1, dif_neg h1]
      refine (Cert.RowPieces.read_row_miss _ _ _ _ _ y h1).trans ?_
      by_cases h0 : (y 0).val = 0 ∧ (y 1).val < 32
      · rw [dif_pos h0, dif_pos h0]
        refine (Cert.RowPieces.read_row_hit _ _ _ _ _ y h0.1 h0.2).trans ?_
        refine (pay5_apply _ _ _ _ _ _ _).trans ?_
        rw [Cert.RowPieces.readCov_row _ _ _ ⟨(y 1).val, h0.2⟩ (by omega : 0 < 3) (by show (y 1).val < 128; omega),
          Cert.RowPieces.canon_row_miss _ _ _ _ (by show ¬((0 : Nat) = 1 ∧ _); omega),
          Cert.RowPieces.canon_row_hit (a := 0) _ _ _ (ix2 (⟨0, by omega⟩ : Fin 3) (⟨(y 1).val, hy1⟩ : Fin 128)) rfl h0.2, pay2_apply]
        have e : View.ld xo7 (Rect.unit (s := S3x128) ![0, 0] ![1, 32] inb_S3x128_S1x32_0_0) (ix2 (0 : Fin 1) (⟨(y 1).val, h0.2⟩ : Fin 32)) = xo7 y :=
          ld_row xo7 0 _ y h0.1 h0.2
        exact congrArg (fun z => z + (∑ r : Fin 15200, Ablk x0 x1 x2 x3 x4 x5 r ⟨(y 1).val, h0.2⟩)
          + m4000 * cblk x1 x2 x3 x4 x5 ⟨(y 1).val, h0.2⟩) e
      · rw [dif_neg h0, dif_neg h0]
        refine (Cert.RowPieces.read_row_miss _ _ _ _ _ y h0).trans ?_
        refine (Cert.RowPieces.read_row_miss _ _ _ _ _ y h1).trans ?_
        refine (Cert.RowPieces.read_row_miss _ _ _ _ _ y h0).trans ?_
        rw [View.writes_nil, harg8.read_unread]

end Cert.KernelIdeal.R2

end
-- ==== Proof.R2Moments.lean ====
/-
  The third launch: the moments of the second layer, as one function of the arrays the launch finds.

  The 3 × 128 block of moments stays in place over the 20 grid points and is written back once, after the last. What it
  holds after point n < 19 is the running sum: the steps of the tiles 0 … n over the zero block. The last point applies
  its own step and then the correction for the padded pairs; that is what the launch leaves in the moments array.
-/
import proofs.«139309_g56014963475156_cont_9to1_m_1179_16_alg».proof.Proof.R2Value

set_option maxRecDepth 16384

noncomputable section

namespace Cert.KernelIdeal.R2

open Cert.KernelIdeal Cert.KernelIdeal.Gen
open Idealize.ShloMosaic Idealize.ShloMosaic.ValueIdx Idealize.ShloMosaic.TcCoe
open Idealize.ShloMosaic.Pipeline (Dat Cfg Window)
open Cert.KernelIdeal.R4 (scale shift zer cinv eps)

variable (V : (c : Dev nD) → (b : Ref sig .tc) → Buf (Elt Ideal) ((c : Thread nD τ).loc b))

/-- The tile's activations at grid point t, from the arrays the launch finds. -/
def Aat (c : Dev nD) (t : Fin cfg2.N) : Fin 15200 → Fin 32 → EReal :=
  Ablk (iblk2 V c 0 t) (iblk2 V c 1 t) (iblk2 V c 2 t) (iblk2 V c 3 t) (iblk2 V c 4 t) (iblk2 V c 5 t)

/-- The padded pairs' activation row, as grid point t computes it. -/
def cat (c : Dev nD) (t : Fin cfg2.N) : Fin 32 → EReal :=
  cblk (iblk2 V c 1 t) (iblk2 V c 2 t) (iblk2 V c 3 t) (iblk2 V c 4 t) (iblk2 V c 5 t)

/-- The running moments after point n: the steps of points 0 … n over the zero block. -/
def stAt (c : Dev nD) : (n : ℕ) → n < cfg2.N → S3x128.Idx → EReal
  | 0, h => step (Aat V c ⟨0, h⟩) (fun _ => zer)
  | n + 1, h => step (Aat V c ⟨n + 1, h⟩) (stAt c n (Nat.lt_of_succ_lt h))

/-- Before the last point the block holds the running moments. -/
theorem outs_eq (c : Dev nD) : ∀ (n : ℕ) (hn : n < cfg2.N), n < 19 → (outsAt2 (F := Ideal) V c n hn).2 = stAt V c n hn
  | 0, hn, _ => by
    rw [outsAt2_A V c ⟨0, hn⟩ (Nat.zero_mod 20) (by show ¬ (0 : ℕ) % 20 = 19; omega), caseA]
    rfl
  | n + 1, hn, h => by
    have h0 : ¬ (n + 1) % 20 = 0 := by omega
    have h1 : ¬ (n + 1) % 20 = 19 := by omega
    rw [outsAt2_B V c ⟨n + 1, hn⟩ h0 h1, caseB]
    show step _ (outsAt2 V c n _).2 = step _ (stAt V c n _)
    rw [outs_eq c n _ (by omega)]
    rfl

theorem lt19 : 19 < cfg2.N := by show 19 < grid2.N; rw [N_2]; decide
theorem lt18 : 18 < cfg2.N := by show 18 < grid2.N; rw [N_2]; decide

/-- What the last point leaves: the last step, then the correction. -/
def stLast (c : Dev nD) : S3x128.Idx → EReal :=
  finish (cat V c ⟨19, lt19⟩) (step (Aat V c ⟨19, lt19⟩) (stAt V c 18 lt18))

theorem outs_last (c : Dev nD) : (outsAt2 (F := Ideal) V c 19 lt19).2 = stLast V c := by
  rw [outsAt2_C V c ⟨19, lt19⟩ (by show ¬ (19 : ℕ) % 20 = 0; omega) (by show (19 : ℕ) % 20 = 19; omega), caseC]
  show finish _ (step _ (outsAt2 V c 18 _).2) = _
  rw [outs_eq V c 18 lt18 (by decide)]
  rfl

/-- The moments' window stays at block zero. -/
theorem idx7 : ∀ t : Fin cfg2.N, win2_7.index t (0 : Fin 2) = 0 ∧ win2_7.index t (1 : Fin 2) = 0 :=
  (by decide +kernel : ∀ t : Fin grid2.N, _)

/-- THE MOMENTS ARRAY after the launch: what the last point left. -/
theorem final_st2 (c : Dev nD) : (dat2 (F := Ideal) V c).arrAt 7 cfg2.N = stLast V c := by
  refine (dat2 (F := Ideal) V c).arrAt_eq_of_cover 7 _ (fun t hf => ?_) (fun i => ?_)
  · have ht : t.val % 20 = 19 := (flush2_7 t).mp hf
    have hN : t.val < 20 := lt_of_lt_of_eq t.isLt N_2
    have e : t = ⟨19, lt19⟩ := Fin.ext (by show t.val = 19; omega)
    subst e
    obtain ⟨e0, e1⟩ := idx7 ⟨19, lt19⟩
    show (cfg2.win 7).cut (grid2.coords ⟨19, lt19⟩) ((dat2 V c).after 7 ⟨19, lt19⟩) = _
    rw [after2_7]
    funext y
    show (outsAt2 V c 19 lt19).2 y = stLast V c (((cfg2.win 7).blk ⟨19, lt19⟩).view.emb y)
    rw [outs_last]
    refine congrArg _ (funext fun a => Fin.ext ?_)
    match a with
    | ⟨0, _⟩ => show (y 0).val = win2_7.index ⟨19, lt19⟩ (0 : Fin 2) * 3 + 1 * (y 0).val; rw [e0]; ring
    | ⟨1, _⟩ => show (y 1).val = win2_7.index ⟨19, lt19⟩ (1 : Fin 2) * 128 + 1 * (y 1).val; rw [e1]; ring
  · obtain ⟨e0, e1⟩ := idx7 ⟨19, lt19⟩
    refine ⟨⟨19, lt19⟩, (flush2_7 _).mpr (by show (19 : ℕ) % 20 = 19; omega), ?_⟩
    show i ∈ ((View.whole main_call0_v16_1).slice (win2_7.rect ⟨19, lt19⟩)).set
    rw [View.set_slice_whole, Rect.mem_set_unit]
    intro a
    have h0 : (i 0).val < 3 := (i 0).isLt
    have h1 : (i 1).val < 128 := (i 1).isLt
    match a with
    | ⟨0, _⟩ => show win2_7.index ⟨19, lt19⟩ (0 : Fin 2) * 3 ≤ (i 0).val ∧ (i 0).val < win2_7.index ⟨19, lt19⟩ (0 : Fin 2) * 3 + 3; rw [e0]; omega
    | ⟨1, _⟩ => show win2_7.index ⟨19, lt19⟩ (1 : Fin 2) * 128 ≤ (i 1).val ∧ (i 1).val < win2_7.index ⟨19, lt19⟩ (1 : Fin 2) * 128 + 128; rw [e1]; omega

end Cert.KernelIdeal.R2

end
-- ==== Proof.R2Final.lean ====
/-
  The third launch: the second hidden layer's activations, as one function of the arrays the launch finds.

  At grid point t the tile's row r is pair row 15200·t + r of the first layer's activations, and its activation is the
  function h2 of that row: with the first layer's activations a1, moments st1 and normalisation parameters g1, b1 and the
  second layer's weights W2, b2,
      h2 (R, q) = max ((∑ k, (a1 (R,k) · scale k + shift k) · W2 (k,q)) + b2 q) 0.
  Grid point t writes back its tile of the array Ga2 (R, q) = h2 (R, q). The twenty tiles cover the array, so after the
  run the activations array is Ga2.
-/
import proofs.«139309_g56014963475156_cont_9to1_m_1179_16_alg».proof.Proof.R2Moments
import proofs.«139309_g56014963475156_cont_9to1_m_1179_16_alg».proof.Proof.R4Value

set_option maxRecDepth 16384

noncomputable section

namespace Cert.KernelIdeal.R2

open Cert.KernelIdeal Cert.KernelIdeal.Gen
open Idealize.ShloMosaic Idealize.ShloMosaic.ValueIdx Idealize.ShloMosaic.TcCoe
open Idealize.ShloMosaic.Pipeline (Dat Cfg Window)
open Cert.KernelIdeal.R4 (scale shift zer cinv eps col32)

variable (V : (c : Dev nD) → (b : Ref sig .tc) → Buf (Elt Ideal) ((c : Thread nD τ).loc b))

/-- The printed index maps over the grid: the two activation arrays' blocks move with the point, every other window
    stays at block zero. -/
theorem idx_facts : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = 0 ∧ win2_7.index t (1 : Fin 2) = 0 :=
  (by decide +kernel : ∀ t : Fin grid2.N, _)

/-! ## Each block read is an array read -/

/-- Pair row r of point t's tile, as a row of the whole activations array. -/
def rowOf (t : Fin cfg2.N) (r : Fin 15200) : Fin 304000 :=
  ⟨15200 * t.val + r.val, by have ht : t.val < 20 := lt_of_lt_of_eq t.isLt N_2; have := r.isLt; omega⟩

theorem blk_a1 (c : Dev nD) (t : Fin cfg2.N) (r : Fin 15200) (k : Fin 32) :
    iblk2 V c 0 t (ix2 r k) = V c main_call0_v12_0 (ix2 (rowOf t r) k) := by
  obtain ⟨e0, e1, -⟩ := idx_facts t
  show V c main_call0_v12_0 (((cfg2.win 0).blk t).view.emb (ix2 r k)) = _
  refine congrArg _ (funext fun a => Fin.ext ?_)
  match a with
  | ⟨0, _⟩ => show win2_0.index t (0 : Fin 2) * 15200 + 1 * r.val = 15200 * t.val + r.val; rw [e0]; ring
  | ⟨1, _⟩ => show win2_0.index t (1 : Fin 2) * 32 + 1 * k.val = k.val; rw [e1]; ring

/-- Row a of the incoming moments, at column k. -/
theorem ld_st1 (c : Dev nD) (t : Fin cfg2.N) (a : Fin 3) (inb : ∀ d, (![a.val, 0] : Fin 2 → Nat) d + S1x32.size d ≤ S3x128.size d) (k : Fin 32) :
    View.ld (iblk2 V c 1 t) (Rect.unit (s := S3x128) ![a.val, 0] S1x32.size inb) (ix2 (0 : Fin 1) k) = V c main_call0_v12_1 (ix2 a (col32 k)) := by
  obtain ⟨-, -, -, -, e0, e1, -⟩ := idx_facts t
  show V c main_call0_v12_1 (((cfg2.win 1).blk t).view.emb ((Rect.unit (s := S3x128) ![a.val, 0] S1x32.size inb).idx (ix2 (0 : Fin 1) k))) = _
  refine congrArg _ (funext fun d => Fin.ext ?_)
  match d with
  | ⟨0, _⟩ => show win2_1.index t (0 : Fin 2) * 3 + 1 * (a.val + 1 * 0) = a.val; rw [e0]; ring
  | ⟨1, _⟩ => show win2_1.index t (1 : Fin 2) * 128 + 1 * (0 + 1 * k.val) = k.val; rw [e1]; ring

theorem blk_g1 (c : Dev nD) (t : Fin cfg2.N) (k : Fin 32) :
    iblk2 V c 2 t (ix2 (0 : Fin 1) k) = V c main_call0_v13 (ix2 (0 : Fin 1) k) := by
  obtain ⟨-, -, -, -, -, -, e0, e1, -⟩ := idx_facts t
  show V c main_call0_v13 (((cfg2.win 2).blk t).view.emb (ix2 (0 : Fin 1) k)) = _
  refine congrArg _ (funext fun d => Fin.ext ?_)
  match d with
  | ⟨0, _⟩ => show win2_2.index t (0 : Fin 2) * 1 + 1 * 0 = 0; rw [e0]
  | ⟨1, _⟩ => show win2_2.index t (1 : Fin 2) * 32 + 1 * k.val = k.val; rw [e1]; ring

theorem blk_b1 (c : Dev nD) (t : Fin cfg2.N) (k : Fin 32) :
    iblk2 V c 3 t (ix2 (0 : Fin 1) k) = V c main_call0_v14 (ix2 (0 : Fin 1) k) := by
  obtain ⟨-, -, -, -, -, -, -, -, e0, e1, -⟩ := idx_facts t
  show V c main_call0_v14 (((cfg2.win 3).blk t).view.emb (ix2 (0 : Fin 1) k)) = _
  refine congrArg _ (funext fun d => Fin.ext ?_)
  match d with
  | ⟨0, _⟩ => show win2_3.index t (0 : Fin 2) * 1 + 1 * 0 = 0; rw [e0]
  | ⟨1, _⟩ => show win2_3.index t (1 : Fin 2) * 32 + 1 * k.val = k.val; rw [e1]; ring

theorem blk_W2 (c : Dev nD) (t : Fin cfg2.N) (k q : Fin 32) :
    iblk2 V c 4 t (ix2 k q) = V c main_arg10 (ix2 k q) := by
  obtain ⟨-, -, -, -, -, -, -, -, -, -, e0, e1, -⟩ := idx_facts t
  show V c main_arg10 (((cfg2.win 4).blk t).view.emb (ix2 k q)) = _
  refine congrArg _ (funext fun d => Fin.ext ?_)
  match d with
  | ⟨0, _⟩ => show win2_4.index t (0 : Fin 2) * 32 + 1 * k.val = k.val; rw [e0]; ring
  | ⟨1, _⟩ => show win2_4.index t (1 : Fin 2) * 32 + 1 * q.val = q.val; rw [e1]; ring

theorem blk_b2 (c : Dev nD) (t : Fin cfg2.N) (q : Fin 32) :
    iblk2 V c 5 t (ix2 (0 : Fin 1) q) = V c main_call0_v15 (ix2 (0 : Fin 1) q) := by
  obtain ⟨-, -, -, -, -, -, -, -, -, -, -, -, e0, e1, -⟩ := idx_facts t
  show V c main_call0_v15 (((cfg2.win 5).blk t).view.emb (ix2 (0 : Fin 1) q)) = _
  refine congrArg _ (funext fun d => Fin.ext ?_)
  match d with
  | ⟨0, _⟩ => show win2_5.index t (0 : Fin 2) * 1 + 1 * 0 = 0; rw [e0]
  | ⟨1, _⟩ => show win2_5.index t (1 : Fin 2) * 32 + 1 * q.val = q.val; rw [e1]; ring

/-! ## The activations of the whole array -/

/-- The second layer's activation of pair row R, column q, from the first layer's activations, moments and parameters. -/
def h2 (a1 : S304000x32.Idx → EReal) (st1 : S3x128.Idx → EReal) (g1 b1 : S1x32.Idx → EReal) (W2 : S32x32.Idx → EReal)
    (b2 : S1x32.Idx → EReal) (R : Fin 304000) (q : Fin 32) : EReal :=
  max ((∑ k : Fin 32,
      (a1 (ix2 R k) * scale (g1 (ix2 (0 : Fin 1) k)) (st1 (ix2 (0 : Fin 3) (col32 k)))
            (st1 (ix2 (1 : Fin 3) (col32 k)))
        + shift (g1 (ix2 (0 : Fin 1) k)) (b1 (ix2 (0 : Fin 1) k)) (st1 (ix2 (0 : Fin 3) (col32 k)))
            (st1 (ix2 (1 : Fin 3) (col32 k)))) * W2 (ix2 k q))
    + b2 (ix2 (0 : Fin 1) q)) zer

/-- The activations array: entry (R, q) is h2 (R, q). -/
def Ga2 (a1 : S304000x32.Idx → EReal) (st1 : S3x128.Idx → EReal) (g1 b1 : S1x32.Idx → EReal) (W2 : S32x32.Idx → EReal)
    (b2 : S1x32.Idx → EReal) : S304000x32.Idx → EReal := fun i => h2 a1 st1 g1 b1 W2 b2 (i 0) (i 1)

/-- The second layer's activations of the whole array, from the launch's arrays. -/
def H (c : Dev nD) : Fin 304000 → Fin 32 → EReal :=
  h2 (V c main_call0_v12_0) (V c main_call0_v12_1) (V c main_call0_v13) (V c main_call0_v14) (V c main_arg10) (V c main_call0_v15)

/-- The tile's activations are the whole array's at the tile's rows. -/
theorem Aat_eq (c : Dev nD) (t : Fin cfg2.N) (r : Fin 15200) (q : Fin 32) : Aat V c t r q = H V c (rowOf t r) q := by
  unfold Aat Ablk
  rw [act_apply, blk_b2]
  unfold H h2
  refine congrArg (fun z => max (z + _) _) (Finset.sum_congr rfl fun k _ => ?_)
  rw [blk_a1, blk_g1, blk_b1, blk_W2]
  have e0 := ld_st1 V c t 0 inb_S3x128_S1x32_0_0 k
  have e1 := ld_st1 V c t 1 inb_S3x128_S1x32_1_0 k
  rw [show View.ld (iblk2 V c 1 t) (Rect.unit (s := S3x128) ![0, 0] S1x32.size inb_S3x128_S1x32_0_0) (ix2 (0 : Fin 1) k) = _ from e0,
    show View.ld (iblk2 V c 1 t) (Rect.unit (s := S3x128) ![1, 0] S1x32.size inb_S3x128_S1x32_1_0) (ix2 (0 : Fin 1) k) = _ from e1]

/-! ## What a point writes back -/

/-- Where entry (r, q) of point t's tile sits in the activations array. -/
theorem emb_out (t : Fin cfg2.N) (r : Fin 15200) (q : Fin 32) :
    ((cfg2.win 6).blk t).view.emb (ix2 r q) = (ix2 (rowOf t r) q : S304000x32.Idx) := by
  obtain ⟨-, -, e0, e1, -⟩ := idx_facts t
  refine funext fun a => Fin.ext ?_
  match a with
  | ⟨0, _⟩ => show win2_6.index t (0 : Fin 2) * 15200 + 1 * r.val = 15200 * t.val + r.val; rw [e0]; ring
  | ⟨1, _⟩ => show win2_6.index t (1 : Fin 2) * 32 + 1 * q.val = q.val; rw [e1]; ring

/-- At every point, whatever its control case, the tile's buffer holds the tile's activations. -/
theorem tile_eq (c : Dev nD) (t : Fin cfg2.N) :
    (outsAt2 (F := Ideal) V c t.val t.isLt).1 = fun y => Aat V c t (y 0) (y 1) := by
  by_cases h0 : t.val % 20 = 0
  · have h1 : ¬t.val % 20 = 19 := by omega
    rw [outsAt2_A V c t h0 h1, tileA]
    rfl
  · by_cases h1 : t.val % 20 = 19
    · rw [outsAt2_C V c t h0 h1, tileC]
      rfl
    · rw [outsAt2_B V c t h0 h1, tileB]
      rfl

/-- WHAT POINT t WRITES BACK is block t of Ga2 of the arrays as the launch finds them. -/
theorem flushed_eq (c : Dev nD) (t : Fin cfg2.N) :
    (dat2 (F := Ideal) V c).flushed 6 t = ((cfg2.win 6).blk t).view.read (Elt Ideal)
      (Ga2 (V c main_call0_v12_0) (V c main_call0_v12_1) (V c main_call0_v13) (V c main_call0_v14) (V c main_arg10) (V c main_call0_v15)) := by
  show (cfg2.win 6).cut (grid2.coords t) ((dat2 V c).after 6 t) = _
  rw [after2_6, tile_eq]
  funext y
  obtain ⟨r, q, rfl⟩ : ∃ r q, y = ix2 r q := ⟨y 0, y 1, eq_ix2 y⟩
  show Aat V c t r q = Ga2 (V c main_call0_v12_0) (V c main_call0_v12_1) (V c main_call0_v13) (V c main_call0_v14) (V c main_arg10) (V c main_call0_v15) (((cfg2.win 6).blk t).view.emb (ix2 r q))
  rw [emb_out, Aat_eq]
  rfl

/-- An index of the activations array is in point t's tile iff each coordinate is in the tile's range on its axis. -/
theorem mem_blk (t : Fin cfg2.N) (i : S304000x32.Idx) :
    i ∈ ((cfg2.win 6).blk t).view.set ↔ ∀ a : Fin 2, win2_6.index t a * S15200x32.size a ≤ (i a).val
      ∧ (i a).val < win2_6.index t a * S15200x32.size a + S15200x32.size a := by
  show i ∈ ((View.whole main_call0_v16_0).slice (win2_6.rect t)).set ↔ _
  rw [View.set_slice_whole, Rect.mem_set_unit]
  exact Iff.rfl

/-- The twenty tiles cover the array: pair row R is in the tile of point R / 15200. -/
theorem cover (i : S304000x32.Idx) : ∃ t : Fin cfg2.N, (cfg2.win 6).flush t = true ∧ i ∈ ((cfg2.win 6).blk t).view.set := by
  have h0 : (i 0).val < 304000 := (i 0).isLt
  have h1 : (i 1).val < 32 := (i 1).isLt
  let t : Fin cfg2.N := ⟨(i 0).val / 15200, by show (i 0).val / 15200 < 20; omega⟩
  obtain ⟨-, -, e0, e1, -⟩ := idx_facts t
  refine ⟨t, flush2_6 t, ?_⟩
  rw [mem_blk]
  intro a
  match a with
  | ⟨0, _⟩ => show win2_6.index t (0 : Fin 2) * 15200 ≤ (i 0).val ∧ (i 0).val < win2_6.index t (0 : Fin 2) * 15200 + 15200
              rw [e0]; show (i 0).val / 15200 * 15200 ≤ (i 0).val ∧ (i 0).val < (i 0).val / 15200 * 15200 + 15200; omega
  | ⟨1, _⟩ => show win2_6.index t (1 : Fin 2) * 32 ≤ (i 1).val ∧ (i 1).val < win2_6.index t (1 : Fin 2) * 32 + 32
              rw [e1]; omega

/-- THE ACTIVATIONS ARRAY after the launch is Ga2 of the arrays the launch finds. -/
theorem final_a2 (c : Dev nD) : (dat2 (F := Ideal) V c).arrAt 6 cfg2.N
    = Ga2 (V c main_call0_v12_0) (V c main_call0_v12_1) (V c main_call0_v13) (V c main_call0_v14) (V c main_arg10) (V c main_call0_v15) :=
  (dat2 (F := Ideal) V c).arrAt_eq_of_cover 6 _ (fun t _ => flushed_eq V c t) cover

/-- Entry (R, q) of the activations array. -/
theorem Ga2_apply (c : Dev nD) (R : Fin 304000) (q : Fin 32) :
    Ga2 (V c main_call0_v12_0) (V c main_call0_v12_1) (V c main_call0_v13) (V c main_call0_v14) (V c main_arg10) (V c main_call0_v15) (ix2 R q) = H V c R q := rfl

end Cert.KernelIdeal.R2

end
-- ==== Proof.R2Closed.lean ====
/-
  The third launch: its moments as sums over all the pair rows.

  At grid point t the tile's row r is pair row 15200·t + r of the first layer's activations, and its activation is the
  function h2 of that row. So after the twenty points row 0 of the moments holds, in column q, the sum over ALL 304000 pair
  rows (real and padded) of h2 (·, q), corrected by −4000 times the padded pairs' activation; row 1 the same with squares;
  row 2 that activation, computed from the padded constant of the layer before (row 2 of the incoming moments).
-/
import proofs.«139309_g56014963475156_cont_9to1_m_1179_16_alg».proof.Proof.R2Final
import proofs.«139309_g56014963475156_cont_9to1_m_1179_16_alg».proof.Proof.LibSumTiles

set_option maxRecDepth 16384

noncomputable section

namespace Cert.KernelIdeal.R2

open Cert.KernelIdeal Cert.KernelIdeal.Gen
open Idealize.ShloMosaic Idealize.ShloMosaic.ValueIdx Idealize.ShloMosaic.TcCoe
open Cert.KernelIdeal.R4 (scale shift zer cinv eps col32)

variable (V : (c : Dev nD) → (b : Ref sig .tc) → Buf (Elt Ideal) ((c : Thread nD τ).loc b))

/-- The padded pairs' activation row, from the launch's arrays (row 2 of the incoming moments is the constant before). -/
def Cof (st1 : S3x128.Idx → EReal) (g1 b1 : S1x32.Idx → EReal) (W2 : S32x32.Idx → EReal) (b2 : S1x32.Idx → EReal) : Fin 32 → EReal := fun q =>
  max ((∑ k : Fin 32,
      (st1 (ix2 (2 : Fin 3) (col32 k))
          * scale (g1 (ix2 (0 : Fin 1) k)) (st1 (ix2 (0 : Fin 3) (col32 k))) (st1 (ix2 (1 : Fin 3) (col32 k)))
        + shift (g1 (ix2 (0 : Fin 1) k)) (b1 (ix2 (0 : Fin 1) k))
            (st1 (ix2 (0 : Fin 3) (col32 k))) (st1 (ix2 (1 : Fin 3) (col32 k)))) * W2 (ix2 k q))
    + b2 (ix2 (0 : Fin 1) q)) zer

def C (c : Dev nD) : Fin 32 → EReal :=
  Cof (V c main_call0_v12_1) (V c main_call0_v13) (V c main_call0_v14) (V c main_arg10) (V c main_call0_v15)

theorem cat_eq (c : Dev nD) (t : Fin cfg2.N) (q : Fin 32) : cat V c t q = C V c q := by
  unfold cat cblk
  rw [pay4_apply]
  unfold C Cof
  have e12 : k2_pay12 (F := Ideal) (iblk2 V c 5 t) (ix2 (0 : Fin 1) q) = V c main_call0_v15 (ix2 (0 : Fin 1) q) := by
    unfold k2_pay12; rw [shapeCast_self, blk_b2]
  rw [e12]
  refine congrArg (fun z => max (z + _) _) (Finset.sum_congr rfl fun k _ => ?_)
  rw [pay9_apply, pay10_apply, blk_g1, blk_b1, blk_W2]
  have e0 := ld_st1 V c t 0 inb_S3x128_S1x32_0_0 k
  have e1 := ld_st1 V c t 1 inb_S3x128_S1x32_1_0 k
  have e2 := ld_st1 V c t 2 inb_S3x128_S1x32_2_0 k
  rw [show View.ld (iblk2 V c 1 t) (Rect.unit (s := S3x128) ![0, 0] S1x32.size inb_S3x128_S1x32_0_0) (ix2 (0 : Fin 1) k) = _ from e0,
    show View.ld (iblk2 V c 1 t) (Rect.unit (s := S3x128) ![1, 0] S1x32.size inb_S3x128_S1x32_1_0) (ix2 (0 : Fin 1) k) = _ from e1,
    show View.ld (iblk2 V c 1 t) (Rect.unit (s := S3x128) ![2, 0] S1x32.size inb_S3x128_S1x32_2_0) (ix2 (0 : Fin 1) k) = _ from e2]

/-! ## The steps, read at the three rows -/

theorem step_row0 (A : Fin 15200 → Fin 32 → EReal) (prev : S3x128.Idx → EReal) (q : Fin 32) :
    step A prev (ix2 (0 : Fin 3) (col32 q)) = prev (ix2 (0 : Fin 3) (col32 q)) + ∑ r : Fin 15200, A r q := by
  unfold step
  rw [dif_neg (by show ¬((0 : ℕ) = 1 ∧ _); omega), dif_pos ⟨rfl, q.isLt⟩]
  rfl

theorem step_row1 (A : Fin 15200 → Fin 32 → EReal) (prev : S3x128.Idx → EReal) (q : Fin 32) :
    step A prev (ix2 (1 : Fin 3) (col32 q)) = prev (ix2 (1 : Fin 3) (col32 q)) + ∑ r : Fin 15200, A r q * A r q := by
  unfold step
  rw [dif_pos ⟨rfl, q.isLt⟩]
  rfl

theorem step_row2 (A : Fin 15200 → Fin 32 → EReal) (prev : S3x128.Idx → EReal) (b : Fin 128) :
    step A prev (ix2 (2 : Fin 3) b) = prev (ix2 (2 : Fin 3) b) := by
  unfold step
  rw [dif_neg (by show ¬((2 : ℕ) = 1 ∧ _); omega), dif_neg (by show ¬((2 : ℕ) = 0 ∧ _); omega)]

theorem finish_row0 (cc : Fin 32 → EReal) (s : S3x128.Idx → EReal) (q : Fin 32) :
    finish cc s (ix2 (0 : Fin 3) (col32 q)) = s (ix2 (0 : Fin 3) (col32 q)) + m4000 * cc q := by
  unfold finish
  rw [dif_neg (by show ¬((0 : ℕ) = 2 ∧ _); omega), dif_neg (by show ¬((0 : ℕ) = 1 ∧ _); omega), dif_pos ⟨rfl, q.isLt⟩]
  rfl

theorem finish_row1 (cc : Fin 32 → EReal) (s : S3x128.Idx → EReal) (q : Fin 32) :
    finish cc s (ix2 (1 : Fin 3) (col32 q)) = s (ix2 (1 : Fin 3) (col32 q)) + m4000 * (cc q * cc q) := by
  unfold finish
  rw [dif_neg (by show ¬((1 : ℕ) = 2 ∧ _); omega), dif_pos ⟨rfl, q.isLt⟩]
  rfl

theorem finish_row2 (cc : Fin 32 → EReal) (s : S3x128.Idx → EReal) (q : Fin 32) :
    finish cc s (ix2 (2 : Fin 3) (col32 q)) = cc q := by
  unfold finish
  rw [dif_pos ⟨rfl, q.isLt⟩]
  rfl

/-! ## The running sums -/

/-- The whole array's activations at a row given as a natural number (zero past the array). -/
def Hn (c : Dev nD) (R : ℕ) (q : Fin 32) : EReal := if h : R < 304000 then H V c ⟨R, h⟩ q else 0

theorem Aat_Hn (c : Dev nD) (t : Fin cfg2.N) (r : Fin 15200) (q : Fin 32) : Aat V c t r q = Hn V c (t.val * 15200 + r.val) q := by
  have ht : t.val < 20 := lt_of_lt_of_eq t.isLt N_2
  have hr := r.isLt
  rw [Aat_eq]
  unfold Hn
  rw [dif_pos (by omega)]
  exact congrArg (fun R => H V c R q) (Fin.ext (by show 15200 * t.val + r.val = t.val * 15200 + r.val; ring))

/-- After point n (before the last) rows 0 and 1 hold the zero word plus the sums over the tiles so far. -/
theorem stAt_rows (c : Dev nD) (q : Fin 32) : ∀ (n : ℕ) (hn : n < cfg2.N),
    stAt V c n hn (ix2 (0 : Fin 3) (col32 q)) = zer + ∑ s ∈ Finset.range (n + 1), ∑ r : Fin 15200, Hn V c (s * 15200 + r.val) q
    ∧ stAt V c n hn (ix2 (1 : Fin 3) (col32 q))
        = zer + ∑ s ∈ Finset.range (n + 1), ∑ r : Fin 15200, Hn V c (s * 15200 + r.val) q * Hn V c (s * 15200 + r.val) q
    ∧ stAt V c n hn (ix2 (2 : Fin 3) (col32 q)) = zer
  | 0, hn => by
    show step _ _ _ = _ ∧ step _ _ _ = _ ∧ step _ _ _ = _
    rw [step_row0, step_row1, step_row2, Finset.sum_range_one, Finset.sum_range_one]
    exact ⟨congrArg (fun z => zer + z) (Finset.sum_congr rfl fun r _ => Aat_Hn V c ⟨0, hn⟩ r q),
      congrArg (fun z => zer + z) (Finset.sum_congr rfl fun r _ => by rw [Aat_Hn V c ⟨0, hn⟩ r q]), rfl⟩
  | n + 1, hn => by
    obtain ⟨i0, i1, i2⟩ := stAt_rows c q n (Nat.lt_of_succ_lt hn)
    show step _ _ _ = _ ∧ step _ _ _ = _ ∧ step _ _ _ = _
    rw [step_row0, step_row1, step_row2, i0, i1, i2, Finset.sum_range_succ _ (n + 1), Finset.sum_range_succ _ (n + 1), add_assoc, add_assoc]
    exact ⟨congrArg (fun z => zer + (_ + z)) (Finset.sum_congr rfl fun r _ => Aat_Hn V c ⟨n + 1, hn⟩ r q),
      congrArg (fun z => zer + (_ + z)) (Finset.sum_congr rfl fun r _ => by rw [Aat_Hn V c ⟨n + 1, hn⟩ r q]), rfl⟩

/-- The twenty tiles are all the rows. -/
theorem sum_all (c : Dev nD) (f : ℕ → EReal) :
    ∑ s ∈ Finset.range 20, ∑ r : Fin 15200, f (s * 15200 + r.val) = ∑ R : Fin 304000, f R.val :=
  (Cert.LibSumTiles.sum_tiles 20 15200 f).symm

theorem Hn_val (c : Dev nD) (R : Fin 304000) (q : Fin 32) : Hn V c R.val q = H V c R q := by
  unfold Hn; rw [dif_pos R.isLt]

/-- THE MOMENTS after the launch: sums over all 304000 pair rows, corrected; row 2 the padded pairs' activation. -/
theorem stLast_rows (c : Dev nD) (q : Fin 32) :
    stLast V c (ix2 (0 : Fin 3) (col32 q)) = (zer + ∑ R : Fin 304000, H V c R q) + m4000 * C V c q
    ∧ stLast V c (ix2 (1 : Fin 3) (col32 q)) = (zer + ∑ R : Fin 304000, H V c R q * H V c R q) + m4000 * (C V c q * C V c q)
    ∧ stLast V c (ix2 (2 : Fin 3) (col32 q)) = C V c q := by
  obtain ⟨i0, i1, -⟩ := stAt_rows V c q 18 lt18
  have hT : (∑ r : Fin 15200, Aat V c ⟨19, lt19⟩ r q) = ∑ r : Fin 15200, Hn V c (19 * 15200 + r.val) q :=
    Finset.sum_congr rfl fun r _ => Aat_Hn V c ⟨19, lt19⟩ r q
  have hT' : (∑ r : Fin 15200, Aat V c ⟨19, lt19⟩ r q * Aat V c ⟨19, lt19⟩ r q)
      = ∑ r : Fin 15200, Hn V c (19 * 15200 + r.val) q * Hn V c (19 * 15200 + r.val) q :=
    Finset.sum_congr rfl fun r _ => by rw [Aat_Hn V c ⟨19, lt19⟩ r q]
  have hs : (∑ s ∈ Finset.range (18 + 1), ∑ r : Fin 15200, Hn V c (s * 15200 + r.val) q)
      + (∑ r : Fin 15200, Hn V c (19 * 15200 + r.val) q) = ∑ R : Fin 304000, H V c R q := by
    rw [← Finset.sum_range_succ (fun s => ∑ r : Fin 15200, Hn V c (s * 15200 + r.val) q) 19, sum_all c (fun R => Hn V c R q)]
    exact Finset.sum_congr rfl fun R _ => Hn_val V c R q
  have hs' : (∑ s ∈ Finset.range (18 + 1), ∑ r : Fin 15200, Hn V c (s * 15200 + r.val) q * Hn V c (s * 15200 + r.val) q)
      + (∑ r : Fin 15200, Hn V c (19 * 15200 + r.val) q * Hn V c (19 * 15200 + r.val) q) = ∑ R : Fin 304000, H V c R q * H V c R q := by
    rw [← Finset.sum_range_succ (fun s => ∑ r : Fin 15200, Hn V c (s * 15200 + r.val) q * Hn V c (s * 15200 + r.val) q) 19,
      sum_all c (fun R => Hn V c R q * Hn V c R q)]
    exact Finset.sum_congr rfl fun R _ => by rw [Hn_val V c R q]
  unfold stLast
  refine ⟨?_, ?_, ?_⟩
  · rw [finish_row0, step_row0, i0, hT, add_assoc zer, hs, cat_eq]
  · rw [finish_row1, step_row1, i1, hT', add_assoc zer, hs', cat_eq]
  · rw [finish_row2, cat_eq]

end Cert.KernelIdeal.R2

end
-- ==== Proof.KNetMid.lean ====
/-
  From the first hidden layer to the second, at the launch memory.

  What the third launch finds in its windows is, reading the run's boundaries back: the second launch's two outputs (the
  first layer's activations and moments) and reshaped parameter vectors. Its own two outputs are the second layer's
  activations, a function of those arrays row by row, and their moments, the corrected sums over all rows. With what is
  known of the first layer (real pairs carry the specification's rows, padded pairs one constant row, moments the corrected
  sums), the second layer is known in the same way, against the specification's next stage.
-/
import proofs.«139309_g56014963475156_cont_9to1_m_1179_16_alg».proof.Proof.KStage
import proofs.«139309_g56014963475156_cont_9to1_m_1179_16_alg».proof.Proof.KTail
import proofs.«139309_g56014963475156_cont_9to1_m_1179_16_alg».proof.Proof.KWiringB
import proofs.«139309_g56014963475156_cont_9to1_m_1179_16_alg».proof.Proof.PreReal
import proofs.«139309_g56014963475156_cont_9to1_m_1179_16_alg».proof.Proof.R2Closed

set_option maxRecDepth 16384

noncomputable section

namespace Cert.KernelIdeal.KNet

open Cert.KernelIdeal Cert.KernelIdeal.Gen
open Idealize.ShloMosaic Idealize.ShloMosaic.ValueIdx Idealize.ShloMosaic.TcCoe
open Cert.KernelIdeal.R4 (scale shift zer col32)
open Cert.KernelIdeal.R2 (h2 Ga2 Cof)
open Cert.KernelIdeal.KTail (actz actz_eq actz_real)
open Cert.KStage Cert.Net Cert.BnLayer

variable (m : (ℓ : Loc nD τ sig) → Buf (Elt Ideal) ℓ) (ρ : Dev nD → PrngReg)

/-- A parameter vector of 32 entries read as one row is real when the vector is. -/
theorem row32_real (x : (⟨1, ![32]⟩ : Shape).Idx → EReal) (h : (⟨1, ![32]⟩ : Shape).ShapeCasts ⟨2, ![1, 32]⟩)
    (hx : ∀ i, IsReal (x i)) (i : (⟨2, ![1, 32]⟩ : Shape).Idx) : IsReal (shapeCast ⟨2, ![1, 32]⟩ x h i) := by
  unfold shapeCast; exact hx _

/-- The second layer's activations array is the third launch's function of what it finds. -/
theorem a2_eq (c : Dev nD) : (dat2 (F := Ideal) (V5 m ρ) c).arrAt 6 cfg2.N
      = Ga2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) := by
  refine (Cert.KernelIdeal.R2.final_a2 (V5 m ρ) c).trans ?_
  rw [Cert.KernelIdeal.Wiring.v5_a1, Cert.KernelIdeal.Wiring.v5_st1, Cert.KernelIdeal.Wiring.v5_g1, Cert.KernelIdeal.Wiring.v5_b1, Cert.KernelIdeal.Wiring.v5_W2, Cert.KernelIdeal.Wiring.v5_b2]

/-- The same array as a function of row and column. -/
theorem a2_fun (c : Dev nD) : (fun R q => (dat2 (F := Ideal) (V5 m ρ) c).arrAt 6 cfg2.N (ix2 R q))
      = h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) := by
  rw [a2_eq]; rfl

theorem H_eq (c : Dev nD) : Cert.KernelIdeal.R2.H (V5 m ρ) c
      = h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) := by
  unfold Cert.KernelIdeal.R2.H
  rw [Cert.KernelIdeal.Wiring.v5_a1, Cert.KernelIdeal.Wiring.v5_st1, Cert.KernelIdeal.Wiring.v5_g1, Cert.KernelIdeal.Wiring.v5_b1, Cert.KernelIdeal.Wiring.v5_W2, Cert.KernelIdeal.Wiring.v5_b2]

theorem C_eq (c : Dev nD) : Cert.KernelIdeal.R2.C (V5 m ρ) c
      = Cof ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) := by
  unfold Cert.KernelIdeal.R2.C
  rw [Cert.KernelIdeal.Wiring.v5_st1, Cert.KernelIdeal.Wiring.v5_g1, Cert.KernelIdeal.Wiring.v5_b1, Cert.KernelIdeal.Wiring.v5_W2, Cert.KernelIdeal.Wiring.v5_b2]

/-- The second layer's moments, over the same arrays: corrected sums over all rows, and the padded pairs' row. -/
theorem st2_rows (c : Dev nD) (q : Fin 32) :
    (dat2 (F := Ideal) (V5 m ρ) c).arrAt 7 cfg2.N (ix2 (0 : Fin 3) (col32 q))
        = (zer + ∑ R : Fin 304000, h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) R q)
          + Cert.KernelIdeal.R2.m4000 * Cof ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) q
    ∧ (dat2 (F := Ideal) (V5 m ρ) c).arrAt 7 cfg2.N (ix2 (1 : Fin 3) (col32 q))
        = (zer + ∑ R : Fin 304000, h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) R q
              * h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) R q)
          + Cert.KernelIdeal.R2.m4000 * (Cof ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) q
              * Cof ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) q)
    ∧ (dat2 (F := Ideal) (V5 m ρ) c).arrAt 7 cfg2.N (ix2 (2 : Fin 3) (col32 q))
        = Cof ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32) q := by
  rw [Cert.KernelIdeal.R2.final_st2, ← H_eq, ← C_eq]
  exact Cert.KernelIdeal.R2.stLast_rows (V5 m ρ) c q

/-- THE SECOND LAYER at the launch memory, from the first. -/
theorem F2_of_F1 (c : Dev nD) (hpre : Cert.Pre_KernelIdeal m) (xr1 : Fin 300000 → Fin 32 → EReal) (cp1 : Fin 32 → EReal)
    (F1 : Cert.KStage.Fact Cert.KernelIdeal.R4.col32 (fun R q => (dat1 (F := Ideal) (V3 m ρ) c).arrAt 7 cfg1.N (ix2 R q))
      ((dat1 (F := Ideal) (V3 m ρ) c).arrAt 8 cfg1.N) xr1 cp1) :
    ∃ cp2 : Fin 32 → EReal, Cert.KStage.Fact Cert.KernelIdeal.R4.col32 (fun R q => (dat2 (F := Ideal) (V5 m ρ) c).arrAt 6 cfg2.N (ix2 R q))
      ((dat2 (F := Ideal) (V5 m ρ) c).arrAt 7 cfg2.N)
      (Cert.Net.bnlin Cert.Net.relu xr1 (fun k => m ((c : Thread nD τ).loc main_arg8) (ix1 k)) (fun k => m ((c : Thread nD τ).loc main_arg9) (ix1 k))
        (fun k q => m ((c : Thread nD τ).loc main_arg10) (ix2 k q)) (fun q => m ((c : Thread nD τ).loc main_arg11) (ix1 q))) cp2 := by
  have N := F1.next (fun k => (shapeCast S1x32 (m ((c : Thread nD τ).loc main_arg8)) shapeCasts_S32_S1x32) (ix2 (0 : Fin 1) k)) (fun k => (shapeCast S1x32 (m ((c : Thread nD τ).loc main_arg9)) shapeCasts_S32_S1x32) (ix2 (0 : Fin 1) k))
    (fun k => row32_real _ _ (Cert.PreReal.real_arg8 m hpre c) _) (fun k => row32_real _ _ (Cert.PreReal.real_arg9 m hpre c) _)
    (fun k q => (m ((c : Thread nD τ).loc main_arg10)) (ix2 k q)) (fun q => (shapeCast S1x32 (m ((c : Thread nD τ).loc main_arg11)) shapeCasts_S32_S1x32) (ix2 (0 : Fin 1) q))
    (fun k q => Cert.PreReal.real_arg10 m hpre c _) (fun q => row32_real _ _ (Cert.PreReal.real_arg11 m hpre c) _)
    actz actz_real col32
    (h2 ((dat1 (F := Ideal) (V3 m ρ) c).arrAt 7 cfg1.N) ((dat1 (F := Ideal) (V3 m ρ) c).arrAt 8 cfg1.N)
        (shapeCast S1x32 (m ((c : Thread nD τ).loc main_arg8)) shapeCasts_S32_S1x32) (shapeCast S1x32 (m ((c : Thread nD τ).loc main_arg9)) shapeCasts_S32_S1x32)
        (m ((c : Thread nD τ).loc main_arg10)) (shapeCast S1x32 (m ((c : Thread nD τ).loc main_arg11)) shapeCasts_S32_S1x32))
    ((dat2 (F := Ideal) (V5 m ρ) c).arrAt 7 cfg2.N)
    (fun p q => rfl) (fun q => (st2_rows m ρ c q).1) (fun q => (st2_rows m ρ c q).2.1) (fun q => (st2_rows m ρ c q).2.2)
  rw [actz_eq] at N
  rw [a2_fun]
  simp only [shapeCast_a_1a_apply] at N
  exact ⟨_, N⟩

end Cert.KernelIdeal.KNet

end
-- ==== Proof.KWiring.lean ====
/-
  What each array holds when each of the five launches is entered.

  Between two launches the program only reshapes parameter vectors (a vector of n entries becomes a one-row matrix),
  and before the first launch it transposes the track embeddings and the track boxes and pads them with zero columns.
  A launch changes none of the arrays it only reads, and an output array of one launch is found by a later launch
  exactly as the earlier one left it. So every array a launch reads is one of: an argument as launched, a reshape of
  an argument as launched, or what an earlier launch left in one of its outputs.
-/
import proofs.«139309_g56014963475156_cont_9to1_m_1179_16_alg».proof.Proof.Gen.KernelIdeal.Frame
import Idealize.ShloMosaic.Lib.StableHlo.Run

set_option maxRecDepth 16384

noncomputable section

namespace Cert.KernelIdeal.Wiring

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (ρ : Dev nD → PrngReg)

/-- A stretch of reshapes (or the padding before the first launch) leaves an array it does not write as it was. -/
local macro "not_written" : tactic =>
  `(tactic| (refine StableHlo.after_of_forall_not_mem _ _ (List.forall_iff_forall_mem.mp ?_)
             simp only [hostOps0, hostOps1, hostOps2, hostOps3, hostOps4, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The parameter vectors the later launches read, still as launched at the boundary before their reshape -/

theorem w6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by not_written
    _ = W3 m ρ c (Proc.devRef .tc main_arg12) := W4_of_ne m ρ c main_arg12 (by decide)
    _ = W2 m ρ c (Proc.devRef .tc main_arg12) := by not_written
    _ = W1 m ρ c (Proc.devRef .tc main_arg12) := W2_of_ne m ρ c main_arg12 (by decide)
    _ = W0 m ρ c (Proc.devRef .tc main_arg12) := by not_written
    _ = m ((c : Thread nD τ).loc main_arg12) := rfl

theorem w6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by not_written
    _ = W3 m ρ c (Proc.devRef .tc main_arg13) := W4_of_ne m ρ c main_arg13 (by decide)
    _ = W2 m ρ c (Proc.devRef .tc main_arg13) := by not_written
    _ = W1 m ρ c (Proc.devRef .tc main_arg13) := W2_of_ne m ρ c main_arg13 (by decide)
    _ = W0 m ρ c (Proc.devRef .tc main_arg13) := by not_written
    _ = m ((c : Thread nD τ).loc main_arg13) := rfl

theorem w6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by not_written
    _ = W3 m ρ c (Proc.devRef .tc main_arg15) := W4_of_ne m ρ c main_arg15 (by decide)
    _ = W2 m ρ c (Proc.devRef .tc main_arg15) := by not_written
    _ = W1 m ρ c (Proc.devRef .tc main_arg15) := W2_of_ne m ρ c main_arg15 (by decide)
    _ = W0 m ρ c (Proc.devRef .tc main_arg15) := by not_written
    _ = m ((c : Thread nD τ).loc main_arg15) := rfl

theorem w8_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by not_written
    _ = m ((c : Thread nD τ).loc main_arg12) := w6_arg12 m ρ c

theorem w8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := by not_written
    _ = m ((c : Thread nD τ).loc main_arg13) := w6_arg13 m ρ c

theorem w8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := by not_written
    _ = m ((c : Thread nD τ).loc main_arg15) := w6_arg15 m ρ c

theorem w8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by not_written
    _ = W5 m ρ c (Proc.devRef .tc main_arg16) := W6_of_ne m ρ c main_arg16 (by decide)
    _ = W4 m ρ c (Proc.devRef .tc main_arg16) := by not_written
    _ = W3 m ρ c (Proc.devRef .tc main_arg16) := W4_of_ne m ρ c main_arg16 (by decide)
    _ = W2 m ρ c (Proc.devRef .tc main_arg16) := by not_written
    _ = W1 m ρ c (Proc.devRef .tc main_arg16) := W2_of_ne m ρ c main_arg16 (by decide)
    _ = W0 m ρ c (Proc.devRef .tc main_arg16) := by not_written
    _ = m ((c : Thread nD τ).loc main_arg16) := rfl

theorem w8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := by not_written
    _ = W5 m ρ c (Proc.devRef .tc main_arg17) := W6_of_ne m ρ c main_arg17 (by decide)
    _ = W4 m ρ c (Proc.devRef .tc main_arg17) := by not_written
    _ = W3 m ρ c (Proc.devRef .tc main_arg17) := W4_of_ne m ρ c main_arg17 (by decide)
    _ = W2 m ρ c (Proc.devRef .tc main_arg17) := by not_written
    _ = W1 m ρ c (Proc.devRef .tc main_arg17) := W2_of_ne m ρ c main_arg17 (by decide)
    _ = W0 m ρ c (Proc.devRef .tc main_arg17) := by not_written
    _ = m ((c : Thread nD τ).loc main_arg17) := rfl

theorem w8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := by not_written
    _ = W5 m ρ c (Proc.devRef .tc main_arg19) := W6_of_ne m ρ c main_arg19 (by decide)
    _ = W4 m ρ c (Proc.devRef .tc main_arg19) := by not_written
    _ = W3 m ρ c (Proc.devRef .tc main_arg19) := W4_of_ne m ρ c main_arg19 (by decide)
    _ = W2 m ρ c (Proc.devRef .tc main_arg19) := by not_written
    _ = W1 m ρ c (Proc.devRef .tc main_arg19) := W2_of_ne m ρ c main_arg19 (by decide)
    _ = W0 m ρ c (Proc.devRef .tc main_arg19) := by not_written
    _ = m ((c : Thread nD τ).loc main_arg19) := rfl

/-! ## The last launch's entry -/

theorem v9_a2 (c : Dev nD) : V9 m ρ c main_call0_v16_0 = (dat2 (V5 m ρ) c).arrAt 6 cfg2.N :=
  calc W9 m ρ c (Proc.devRef .tc main_call0_v16_0)
    _ = W8 m ρ c (Proc.devRef .tc main_call0_v16_0) := by not_written
    _ = W7 m ρ c (Proc.devRef .tc main_call0_v16_0) := (W8_arr m ρ c 0).trans (((dat3 (V7 m ρ) c).arrAt_in 0 rfl _).trans (A_eq3 (V7 m ρ) c 0))
    _ = W6 m ρ c (Proc.devRef .tc main_call0_v16_0) := by not_written
    _ = (dat2 (V5 m ρ) c).arrAt 6 cfg2.N := W6_arr m ρ c 6

theorem v9_st2 (c : Dev nD) : V9 m ρ c main_call0_v16_1 = (dat2 (V5 m ρ) c).arrAt 7 cfg2.N :=
  calc W9 m ρ c (Proc.devRef .tc main_call0_v16_1)
    _ = W8 m ρ c (Proc.devRef .tc main_call0_v16_1) := by not_written
    _ = W7 m ρ c (Proc.devRef .tc main_call0_v16_1) := (W8_arr m ρ c 1).trans (((dat3 (V7 m ρ) c).arrAt_in 1 rfl _).trans (A_eq3 (V7 m ρ) c 1))
    _ = W6 m ρ c (Proc.devRef .tc main_call0_v16_1) := by not_written
    _ = (dat2 (V5 m ρ) c).arrAt 7 cfg2.N := W6_arr m ρ c 7

theorem v9_st3 (c : Dev nD) : V9 m ρ c main_call0_v20 = (dat3 (V7 m ρ) c).arrAt 6 cfg3.N :=
  calc W9 m ρ c (Proc.devRef .tc main_call0_v20)
    _ = W8 m ρ c (Proc.devRef .tc main_call0_v20) := by not_written
    _ = (dat3 (V7 m ρ) c).arrAt 6 cfg3.N := W8_arr m ρ c 6

theorem v7_W3 (c : Dev nD) : V7 m ρ c main_arg14 = m ((c : Thread nD τ).loc main_arg14) :=
  calc W7 m ρ c (Proc.devRef .tc main_arg14)
    _ = W6 m ρ c (Proc.devRef .tc main_arg14) := by not_written
    _ = W5 m ρ c (Proc.devRef .tc main_arg14) := W6_of_ne m ρ c main_arg14 (by decide)
    _ = W4 m ρ c (Proc.devRef .tc main_arg14) := by not_written
    _ = W3 m ρ c (Proc.devRef .tc main_arg14) := W4_of_ne m ρ c main_arg14 (by decide)
    _ = W2 m ρ c (Proc.devRef .tc main_arg14) := by not_written
    _ = W1 m ρ c (Proc.devRef .tc main_arg14) := W2_of_ne m ρ c main_arg14 (by decide)
    _ = W0 m ρ c (Proc.devRef .tc main_arg14) := by not_written
    _ = m ((c : Thread nD τ).loc main_arg14) := rfl

theorem v9_W3 (c : Dev nD) : V9 m ρ c main_arg14 = m ((c : Thread nD τ).loc main_arg14) :=
  calc W9 m ρ c (Proc.devRef .tc main_arg14)
    _ = W8 m ρ c (Proc.devRef .tc main_arg14) := by not_written
    _ = W7 m ρ c (Proc.devRef .tc main_arg14) := (W8_arr m ρ c 4).trans (((dat3 (V7 m ρ) c).arrAt_in 4 rfl _).trans (A_eq3 (V7 m ρ) c 4))
    _ = m ((c : Thread nD τ).loc main_arg14) := v7_W3 m ρ c

theorem v9_W4 (c : Dev nD) : V9 m ρ c main_arg18 = m ((c : Thread nD τ).loc main_arg18) :=
  calc W9 m ρ c (Proc.devRef .tc main_arg18)
    _ = W8 m ρ c (Proc.devRef .tc main_arg18) := by not_written
    _ = W7 m ρ c (Proc.devRef .tc main_arg18) := W8_of_ne m ρ c main_arg18 (by decide)
    _ = W6 m ρ c (Proc.devRef .tc main_arg18) := by not_written
    _ = W5 m ρ c (Proc.devRef .tc main_arg18) := W6_of_ne m ρ c main_arg18 (by decide)
    _ = W4 m ρ c (Proc.devRef .tc main_arg18) := by not_written
    _ = W3 m ρ c (Proc.devRef .tc main_arg18) := W4_of_ne m ρ c main_arg18 (by decide)
    _ = W2 m ρ c (Proc.devRef .tc main_arg18) := by not_written
    _ = W1 m ρ c (Proc.devRef .tc main_arg18) := W2_of_ne m ρ c main_arg18 (by decide)
    _ = W0 m ρ c (Proc.devRef .tc main_arg18) := by not_written
    _ = m ((c : Thread nD τ).loc main_arg18) := rfl

theorem v9_g2 (c : Dev nD) :
    V9 m ρ c main_call0_v21 = shapeCast S1x32 (m ((c : Thread nD τ).loc main_arg12)) shapeCasts_S32_S1x32 := by
  have e : W9 m ρ c (Proc.devRef .tc main_call0_v21)
      = shapeCast S1x32 (W8 m ρ c (Proc.devRef .tc main_arg12)) shapeCasts_S32_S1x32 := by
    show StableHlo.after hostOps4 _ (Proc.devRef .tc main_call0_v21) = _
    after_results; rfl
  exact e.trans (by rw [w8_arg12 m ρ c])

theorem v9_b2 (c : Dev nD) :
    V9 m ρ c main_call0_v22 = shapeCast S1x32 (m ((c : Thread nD τ).loc main_arg13)) shapeCasts_S32_S1x32 := by
  have e : W9 m ρ c (Proc.devRef .tc main_call0_v22)
      = shapeCast S1x32 (W8 m ρ c (Proc.devRef .tc main_arg13)) shapeCasts_S32_S1x32 := by
    show StableHlo.after hostOps4 _ (Proc.devRef .tc main_call0_v22) = _
    after_results; rfl
  exact e.trans (by rw [w8_arg13 m ρ c])

theorem v9_b3 (c : Dev nD) :
    V9 m ρ c main_call0_v23 = shapeCast S1x64 (m ((c : Thread nD τ).loc main_arg15)) shapeCasts_S64_S1x64 := by
  have e : W9 m ρ c (Proc.devRef .tc main_call0_v23)
      = shapeCast S1x64 (W8 m ρ c (Proc.devRef .tc main_arg15)) shapeCasts_S64_S1x64 := by
    show StableHlo.after hostOps4 _ (Proc.devRef .tc main_call0_v23) = _
    after_results; rfl
  exact e.trans (by rw [w8_arg15 m ρ c])

theorem v9_g3 (c : Dev nD) :
    V9 m ρ c main_call0_v24 = shapeCast S1x64 (m ((c : Thread nD τ).loc main_arg16)) shapeCasts_S64_S1x64 := by
  have e : W9 m ρ c (Proc.devRef .tc main_call0_v24)
      = shapeCast S1x64 (W8 m ρ c (Proc.devRef .tc main_arg16)) shapeCasts_S64_S1x64 := by
    show StableHlo.after hostOps4 _ (Proc.devRef .tc main_call0_v24) = _
    after_results; rfl
  exact e.trans (by rw [w8_arg16 m ρ c])

theorem v9_b3n (c : Dev nD) :
    V9 m ρ c main_call0_v25 = shapeCast S1x64 (m ((c : Thread nD τ).loc main_arg17)) shapeCasts_S64_S1x64 := by
  have e : W9 m ρ c (Proc.devRef .tc main_call0_v25)
      = shapeCast S1x64 (W8 m ρ c (Proc.devRef .tc main_arg17)) shapeCasts_S64_S1x64 := by
    show StableHlo.after hostOps4 _ (Proc.devRef .tc main_call0_v25) = _
    after_results; rfl
  exact e.trans (by rw [w8_arg17 m ρ c])

theorem v9_b4 (c : Dev nD) :
    V9 m ρ c main_call0_v26 = shapeCast S1x64 (m ((c : Thread nD τ).loc main_arg19)) shapeCasts_S64_S1x64 := by
  have e : W9 m ρ c (Proc.devRef .tc main_call0_v26)
      = shapeCast S1x64 (W8 m ρ c (Proc.devRef .tc main_arg19)) shapeCasts_S64_S1x64 := by
    show StableHlo.after hostOps4 _ (Proc.devRef .tc main_call0_v26) = _
    after_results; rfl
  exact e.trans (by rw [w8_arg19 m ρ c])

/-! ## The fourth launch's entry -/

theorem v7_a2 (c : Dev nD) : V7 m ρ c main_call0_v16_0 = (dat2 (V5 m ρ) c).arrAt 6 cfg2.N :=
  calc W7 m ρ c (Proc.devRef .tc main_call0_v16_0)
    _ = W6 m ρ c (Proc.devRef .tc main_call0_v16_0) := by not_written
    _ = (dat2 (V5 m ρ) c).arrAt 6 cfg2.N := W6_arr m ρ c 6

theorem v7_st2 (c : Dev nD) : V7 m ρ c main_call0_v16_1 = (dat2 (V5 m ρ) c).arrAt 7 cfg2.N :=
  calc W7 m ρ c (Proc.devRef .tc main_call0_v16_1)
    _ = W6 m ρ c (Proc.devRef .tc main_call0_v16_1) := by not_written
    _ = (dat2 (V5 m ρ) c).arrAt 7 cfg2.N := W6_arr m ρ c 7

theorem v7_g2 (c : Dev nD) :
    V7 m ρ c main_call0_v17 = shapeCast S1x32 (m ((c : Thread nD τ).loc main_arg12)) shapeCasts_S32_S1x32 := by
  have e : W7 m ρ c (Proc.devRef .tc main_call0_v17)
      = shapeCast S1x32 (W6 m ρ c (Proc.devRef .tc main_arg12)) shapeCasts_S32_S1x32 := by
    show StableHlo.after hostOps3 _ (Proc.devRef .tc main_call0_v17) = _
    after_results; rfl
  exact e.trans (by rw [w6_arg12 m ρ c])

theorem v7_b2 (c : Dev nD) :
    V7 m ρ c main_call0_v18 = shapeCast S1x32 (m ((c : Thread nD τ).loc main_arg13)) shapeCasts_S32_S1x32 := by
  have e : W7 m ρ c (Proc.devRef .tc main_call0_v18)
      = shapeCast S1x32 (W6 m ρ c (Proc.devRef .tc main_arg13)) shapeCasts_S32_S1x32 := by
    show StableHlo.after hostOps3 _ (Proc.devRef .tc main_call0_v18) = _
    after_results; rfl
  exact e.trans (by rw [w6_arg13 m ρ c])

theorem v7_b3 (c : Dev nD) :
    V7 m ρ c main_call0_v19 = shapeCast S1x64 (m ((c : Thread nD τ).loc main_arg15)) shapeCasts_S64_S1x64 := by
  have e : W7 m ρ c (Proc.devRef .tc main_call0_v19)
      = shapeCast S1x64 (W6 m ρ c (Proc.devRef .tc main_arg15)) shapeCasts_S64_S1x64 := by
    show StableHlo.after hostOps3 _ (Proc.devRef .tc main_call0_v19) = _
    after_results; rfl
  exact e.trans (by rw [w6_arg15 m ρ c])

end Cert.KernelIdeal.Wiring
-- ==== Proof.KNetTail.lean ====
/-
  From the second layer to the result, at the launch memory.

  What the last launch finds in its windows is, reading the run's boundaries back: the third launch's two outputs (the
  second layer's activations and moments), the fourth launch's output (the third layer's moments), and reshaped parameter
  vectors. With what is known of the second layer, the result array at pair (n, j) is the specification's last two
  stages at pair row 300·n + j.
-/
import proofs.«139309_g56014963475156_cont_9to1_m_1179_16_alg».proof.Proof.KTail
import proofs.«139309_g56014963475156_cont_9to1_m_1179_16_alg».proof.Proof.KWiring
import proofs.«139309_g56014963475156_cont_9to1_m_1179_16_alg».proof.Proof.PreReal

set_option maxRecDepth 16384

noncomputable section

namespace Cert.KernelIdeal.KNet

open Cert.KernelIdeal Cert.KernelIdeal.Gen
open Idealize.ShloMosaic Idealize.ShloMosaic.ValueIdx Idealize.ShloMosaic.TcCoe
open Cert.KernelIdeal.R4 (scale shift zer h3 G4 col32 col64)
open Cert.KStage Cert.Net Cert.BnLayer

variable (m : (ℓ : Loc nD τ sig) → Buf (Elt Ideal) ℓ) (ρ : Dev nD → PrngReg)

/-- A parameter vector read as one row is real when the vector is. -/
theorem real_row {N : Nat} (x : (⟨1, ![N]⟩ : Shape).Idx → EReal) (h : (⟨1, ![N]⟩ : Shape).ShapeCasts ⟨2, ![1, N]⟩)
    (hx : ∀ i, IsReal (x i)) (i : (⟨2, ![1, N]⟩ : Shape).Idx) : IsReal (shapeCast ⟨2, ![1, N]⟩ x h i) := by
  unfold shapeCast; exact hx _

set_option maxHeartbeats 1600000 in
theorem of_F2 (c : Dev nD) (hpre : Cert.Pre_KernelIdeal m) (xr2 : Fin 300000 → Fin 32 → EReal) (cp2 : Fin 32 → EReal)
    (F2 : Fact col32 (fun R k => (dat2 (F := Ideal) (V5 m ρ) c).arrAt 6 cfg2.N (ix2 R k)) ((dat2 (F := Ideal) (V5 m ρ) c).arrAt 7 cfg2.N) xr2 cp2)
    (n : Fin 1000) (j : Fin 300) (q : Fin 64) :
    W10 m ρ c (Proc.devRef .tc main_v0) (ix3 n j q)
      = bnlin id (bnlin Cert.Net.relu xr2 (fun k => m ((c : Thread nD τ).loc main_arg12) (ix1 k)) (fun k => m ((c : Thread nD τ).loc main_arg13) (ix1 k))
            (fun k q => m ((c : Thread nD τ).loc main_arg14) (ix2 k q)) (fun q => m ((c : Thread nD τ).loc main_arg15) (ix1 q)))
          (fun k => m ((c : Thread nD τ).loc main_arg16) (ix1 k)) (fun k => m ((c : Thread nD τ).loc main_arg17) (ix1 k))
          (fun k q => m ((c : Thread nD τ).loc main_arg18) (ix2 k q)) (fun q => m ((c : Thread nD τ).loc main_arg19) (ix1 q))
          (⟨300 * n.val + j.val, by have := n.isLt; have := j.isLt; omega⟩ : Fin 300000) q := by
  -- the result array is the last launch's function of what it finds
  have e1 : W10 m ρ c (Proc.devRef .tc main_v0)
      = G4 ((dat2 (F := Ideal) (V5 m ρ) c).arrAt 6 cfg2.N) ((dat2 (F := Ideal) (V5 m ρ) c).arrAt 7 cfg2.N) ((dat3 (F := Ideal) (V7 m ρ) c).arrAt 6 cfg3.N)
          (shapeCast S1x32 (m ((c : Thread nD τ).loc main_arg12)) shapeCasts_S32_S1x32) (shapeCast S1x32 (m ((c : Thread nD τ).loc main_arg13)) shapeCasts_S32_S1x32)
          (m ((c : Thread nD τ).loc main_arg14)) (shapeCast S1x64 (m ((c : Thread nD τ).loc main_arg15)) shapeCasts_S64_S1x64)
          (shapeCast S1x64 (m ((c : Thread nD τ).loc main_arg16)) shapeCasts_S64_S1x64) (shapeCast S1x64 (m ((c : Thread nD τ).loc main_arg17)) shapeCasts_S64_S1x64)
          (m ((c : Thread nD τ).loc main_arg18)) (shapeCast S1x64 (m ((c : Thread nD τ).loc main_arg19)) shapeCasts_S64_S1x64) := by
    refine (W10_arr m ρ c 11).trans ((Cert.KernelIdeal.R4.final (V9 m ρ) c).trans ?_)
    exact Cert.KernelIdeal.KTail.G4_congr (Cert.KernelIdeal.Wiring.v9_a2 m ρ c) (Cert.KernelIdeal.Wiring.v9_st2 m ρ c) (Cert.KernelIdeal.Wiring.v9_st3 m ρ c)
      (Cert.KernelIdeal.Wiring.v9_g2 m ρ c) (Cert.KernelIdeal.Wiring.v9_b2 m ρ c) (Cert.KernelIdeal.Wiring.v9_W3 m ρ c) (Cert.KernelIdeal.Wiring.v9_b3 m ρ c)
      (Cert.KernelIdeal.Wiring.v9_g3 m ρ c) (Cert.KernelIdeal.Wiring.v9_b3n m ρ c) (Cert.KernelIdeal.Wiring.v9_W4 m ρ c) (Cert.KernelIdeal.Wiring.v9_b4 m ρ c)
  -- the third layer's moments, over the same arrays
  have e3 : ∀ q : Fin 64,
      (dat3 (F := Ideal) (V7 m ρ) c).arrAt 6 cfg3.N (ix2 (0 : Fin 3) (col64 q))
        = (zer + ∑ R : Fin 304000, Cert.KernelIdeal.R3.H (V7 m ρ) c R q) + Cert.KernelIdeal.R3.m4000 * Cert.KernelIdeal.R3.C (V7 m ρ) c q
      ∧ (dat3 (F := Ideal) (V7 m ρ) c).arrAt 6 cfg3.N (ix2 (1 : Fin 3) (col64 q))
        = (zer + ∑ R : Fin 304000, Cert.KernelIdeal.R3.H (V7 m ρ) c R q * Cert.KernelIdeal.R3.H (V7 m ρ) c R q)
            + Cert.KernelIdeal.R3.m4000 * (Cert.KernelIdeal.R3.C (V7 m ρ) c q * Cert.KernelIdeal.R3.C (V7 m ρ) c q)
      ∧ (dat3 (F := Ideal) (V7 m ρ) c).arrAt 6 cfg3.N (ix2 (2 : Fin 3) (col64 q)) = Cert.KernelIdeal.R3.C (V7 m ρ) c q := fun q => by
    rw [Cert.KernelIdeal.R3.final_st3]
    exact Cert.KernelIdeal.R3.stLast_rows (V7 m ρ) c q
  have eH : Cert.KernelIdeal.R3.H (V7 m ρ) c
      = h3 ((dat2 (F := Ideal) (V5 m ρ) c).arrAt 6 cfg2.N) ((dat2 (F := Ideal) (V5 m ρ) c).arrAt 7 cfg2.N)
          (shapeCast S1x32 (m ((c : Thread nD τ).loc main_arg12)) shapeCasts_S32_S1x32) (shapeCast S1x32 (m ((c : Thread nD τ).loc main_arg13)) shapeCasts_S32_S1x32)
          (m ((c : Thread nD τ).loc main_arg14)) (shapeCast S1x64 (m ((c : Thread nD τ).loc main_arg15)) shapeCasts_S64_S1x64) := by
    exact Cert.KernelIdeal.KTail.h3_congr (Cert.KernelIdeal.Wiring.v7_a2 m ρ c) (Cert.KernelIdeal.Wiring.v7_st2 m ρ c) (Cert.KernelIdeal.Wiring.v7_g2 m ρ c)
      (Cert.KernelIdeal.Wiring.v7_b2 m ρ c) (Cert.KernelIdeal.Wiring.v7_W3 m ρ c) (Cert.KernelIdeal.Wiring.v7_b3 m ρ c)
  have eC : Cert.KernelIdeal.R3.C (V7 m ρ) c
      = Cert.KernelIdeal.R3.Cof ((dat2 (F := Ideal) (V5 m ρ) c).arrAt 7 cfg2.N)
          (shapeCast S1x32 (m ((c : Thread nD τ).loc main_arg12)) shapeCasts_S32_S1x32) (shapeCast S1x32 (m ((c : Thread nD τ).loc main_arg13)) shapeCasts_S32_S1x32)
          (m ((c : Thread nD τ).loc main_arg14)) (shapeCast S1x64 (m ((c : Thread nD τ).loc main_arg15)) shapeCasts_S64_S1x64) := by
    exact Cert.KernelIdeal.KTail.Cof_congr (Cert.KernelIdeal.Wiring.v7_st2 m ρ c) (Cert.KernelIdeal.Wiring.v7_g2 m ρ c)
      (Cert.KernelIdeal.Wiring.v7_b2 m ρ c) (Cert.KernelIdeal.Wiring.v7_W3 m ρ c) (Cert.KernelIdeal.Wiring.v7_b3 m ρ c)
  rw [eH, eC] at e3
  rw [e1]
  have T := Cert.KernelIdeal.KTail.tail _ _ _ _ _ _ _ _ _ _ _ xr2 cp2 F2 (fun q => (e3 q).1) (fun q => (e3 q).2.1) (fun q => (e3 q).2.2)
    (real_row (m ((c : Thread nD τ).loc main_arg12)) shapeCasts_S32_S1x32 (Cert.PreReal.real_arg12 m hpre c)) (real_row (m ((c : Thread nD τ).loc main_arg13)) shapeCasts_S32_S1x32 (Cert.PreReal.real_arg13 m hpre c))
    (Cert.PreReal.real_arg14 m hpre c) (real_row (m ((c : Thread nD τ).loc main_arg15)) shapeCasts_S64_S1x64 (Cert.PreReal.real_arg15 m hpre c))
    (real_row (m ((c : Thread nD τ).loc main_arg16)) shapeCasts_S64_S1x64 (Cert.PreReal.real_arg16 m hpre c)) (real_row (m ((c : Thread nD τ).loc main_arg17)) shapeCasts_S64_S1x64 (Cert.PreReal.real_arg17 m hpre c))
    (Cert.PreReal.real_arg18 m hpre c) (real_row (m ((c : Thread nD τ).loc main_arg19)) shapeCasts_S64_S1x64 (Cert.PreReal.real_arg19 m hpre c)) n j q
  refine T.trans ?_
  simp only [shapeCast_a_1a_apply]

end Cert.KernelIdeal.KNet

end
-- ==== Proof.KernelRun.lean ====
/-
  The run of the idealized kernel program with its result named.

  The program is five launches separated by stretches of host operations. The generated frame certificate
  already carries, for every core, the contents of every unscoped buffer when the program returns, as a fold
  through the ten segments (`Gen.W10`). Its statement keeps only the twenty argument arrays; here the same run
  is read once more, keeping also the result array: it ends at `Gen.W10 m ρ c` read at the result's buffer.
-/
import proofs.«139309_g56014963475156_cont_9to1_m_1179_16_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents read at the result's buffer, and the arguments end as launched. -/
theorem run : θ_run defs (onTc (τ := τ) (main (F := F))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c)⟩)

end Cert.KernelIdeal.KRun

end
-- ==== Proof.RefStages.lean ====
/-
  The reference computation as named stages on whole arrays.

  Two sets of boxes and of embeddings give, for each of the 1000 × 300 pairs, a cosine similarity (the inner product of
  the two rows, each divided by the larger of its Euclidean norm and a small constant) and an overlap ratio (overlap area
  over union area plus a small constant). The two numbers of a pair are the two columns of one row of a 300000 × 2 array.
  Four times that array is normalised column by column with the statistics of its own 300000 rows — mean, mean squared
  deviation, (x - m) / sqrt (v + ε) * g + b — and multiplied by a weight matrix with a bias row added; after the first
  three products negative entries are replaced by zero. The 300000 rows of the last product are read back as pairs.
  Each definition below is one of these steps, written with the array operations exactly as the program applies them,
  so that the program's result is their composition by unfolding alone.
-/
import proofs.«139309_g56014963475156_cont_9to1_m_1179_16_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The Euclidean norm of each of the 1000 rows: the square root of the sum of the row's 64 squares, as a column. -/
def rowNormQ (e : FVec F S1000x64 .f32) : FVec F S1000x1 .f32 :=
  (Host.sqrt (broadcastInDim S1000x1 ![0] bcast_S1000_S1000x1_0 (Host.reduceAdd (mulf e e) (constant S_ .f32 0x00000000#32) reducesTo_S1000x64_S1000_d1 h_S_)))

/-- Each row divided by the larger of its norm and the small positive constant. -/
def unitQ (e : FVec F S1000x64 .f32) : FVec F S1000x64 .f32 :=
  (Host.divf e (broadcastInDim S1000x64 ![0, 1] bcast_S1000x1_S1000x64_0_1 (maximumf (rowNormQ e) (broadcastInDim S1000x1 ![] bcast_S_S1000x1 (constant S_ .f32 0x322BCC77#32)))))

/-- The Euclidean norm of each of the 300 rows, as a column. -/
def rowNormK (r : FVec F S300x64 .f32) : FVec F S300x1 .f32 :=
  (Host.sqrt (broadcastInDim S300x1 ![0] bcast_S300_S300x1_0 (Host.reduceAdd (mulf r r) (constant S_ .f32 0x00000000#32) reducesTo_S300x64_S300_d1 h_S_)))

/-- Each of the 300 rows divided by the larger of its norm and the small positive constant. -/
def unitK (r : FVec F S300x64 .f32) : FVec F S300x64 .f32 :=
  (Host.divf r (broadcastInDim S300x64 ![0, 1] bcast_S300x1_S300x64_0_1 (maximumf (rowNormK r) (broadcastInDim S300x1 ![] bcast_S_S300x1 (constant S_ .f32 0x322BCC77#32)))))

/-- The matrix of inner products of the normalised rows `qe` with the normalised rows of `r`: a sum over the 64 coordinates. -/
def cosOf (qe : FVec F S1000x64 .f32) (r : FVec F S300x64 .f32) : FVec F S1000x300 .f32 :=
  (Host.dotGeneral dot_S1000x64_S64x300_S1000x300_1_0_0_1_n_n none qe (transpose S64x300 [1, 0] (unitK r) transposes_S300x64_S64x300_1_0))

/-- For every pair of boxes, the coordinatewise larger of the two lower corners. -/
def cornerLo (a : FVec F S1000x4 .f32) (b : FVec F S300x4 .f32) : FVec F S1000x300x2 .f32 :=
  (maximumf (broadcastInDim S1000x300x2 ![0, 1, 2] bcast_S1000x1x2_S1000x300x2_0_1_2 (broadcastInDim S1000x1x2 ![0, 2] bcast_S1000x2_S1000x1x2_0_2 (extractStridedSlice S1000x2 ![0, 0] a slices_S1000x4_S1000x2_0_0))) (broadcastInDim S1000x300x2 ![0, 1, 2] bcast_S1x300x2_S1000x300x2_0_1_2 (broadcastInDim S1x300x2 ![1, 2] bcast_S300x2_S1x300x2_1_2 (extractStridedSlice S300x2 ![0, 0] b slices_S300x4_S300x2_0_0))))

/-- For every pair of boxes, the coordinatewise smaller of the two upper corners. -/
def cornerHi (a : FVec F S1000x4 .f32) (b : FVec F S300x4 .f32) : FVec F S1000x300x2 .f32 :=
  (minimumf (broadcastInDim S1000x300x2 ![0, 1, 2] bcast_S1000x1x2_S1000x300x2_0_1_2 (broadcastInDim S1000x1x2 ![0, 2] bcast_S1000x2_S1000x1x2_0_2 (extractStridedSlice S1000x2 ![0, 2] a slices_S1000x4_S1000x2_0_2))) (broadcastInDim S1000x300x2 ![0, 1, 2] bcast_S1x300x2_S1000x300x2_0_1_2 (broadcastInDim S1x300x2 ![1, 2] bcast_S300x2_S1x300x2_1_2 (extractStridedSlice S300x2 ![0, 2] b slices_S300x4_S300x2_0_2))))

/-- Width and height of the overlap of every pair of boxes: upper minus lower corner, not below zero. -/
def overlapWH (a : FVec F S1000x4 .f32) (b : FVec F S300x4 .f32) : FVec F S1000x300x2 .f32 :=
  (maximumf (broadcastInDim S1000x300x2 ![] bcast_S_S1000x300x2 (constant S_ .f32 0x00000000#32)) (subf (cornerHi a b) (cornerLo a b)))

/-- The area of the overlap of every pair of boxes: width times height. -/
def interOf (a : FVec F S1000x4 .f32) (b : FVec F S300x4 .f32) : FVec F S1000x300 .f32 :=
  (mulf (shapeCast S1000x300 (extractStridedSlice S1000x300x1 ![0, 0, 0] (overlapWH a b) slices_S1000x300x2_S1000x300x1_0_0_0) shapeCasts_S1000x300x1_S1000x300) (shapeCast S1000x300 (extractStridedSlice S1000x300x1 ![0, 0, 1] (overlapWH a b) slices_S1000x300x2_S1000x300x1_0_0_1) shapeCasts_S1000x300x1_S1000x300))

/-- The area of each of the 1000 boxes: (x2 - x1) (y2 - y1). -/
def areaA (a : FVec F S1000x4 .f32) : FVec F S1000 .f32 :=
  (mulf (subf (shapeCast S1000 (extractStridedSlice S1000x1 ![0, 2] a slices_S1000x4_S1000x1_0_2) shapeCasts_S1000x1_S1000) (shapeCast S1000 (extractStridedSlice S1000x1 ![0, 0] a slices_S1000x4_S1000x1_0_0) shapeCasts_S1000x1_S1000)) (subf (shapeCast S1000 (extractStridedSlice S1000x1 ![0, 3] a slices_S1000x4_S1000x1_0_3) shapeCasts_S1000x1_S1000) (shapeCast S1000 (extractStridedSlice S1000x1 ![0, 1] a slices_S1000x4_S1000x1_0_1) shapeCasts_S1000x1_S1000)))

/-- The area of each of the 300 boxes: (x2 - x1) (y2 - y1). -/
def areaB (b : FVec F S300x4 .f32) : FVec F S300 .f32 :=
  (mulf (subf (shapeCast S300 (extractStridedSlice S300x1 ![0, 2] b slices_S300x4_S300x1_0_2) shapeCasts_S300x1_S300) (shapeCast S300 (extractStridedSlice S300x1 ![0, 0] b slices_S300x4_S300x1_0_0) shapeCasts_S300x1_S300)) (subf (shapeCast S300 (extractStridedSlice S300x1 ![0, 3] b slices_S300x4_S300x1_0_3) shapeCasts_S300x1_S300) (shapeCast S300 (extractStridedSlice S300x1 ![0, 1] b slices_S300x4_S300x1_0_1) shapeCasts_S300x1_S300)))

/-- The 1000 areas as a column. -/
def areaColOf (a : FVec F S1000x4 .f32) : FVec F S1000x1 .f32 :=
  (broadcastInDim S1000x1 ![0] bcast_S1000_S1000x1_0 (areaA a))

/-- The 300 areas as a row. -/
def areaRowOf (b : FVec F S300x4 .f32) : FVec F S1x300 .f32 :=
  (broadcastInDim S1x300 ![1] bcast_S300_S1x300_1 (areaB b))

/-- Overlap area over the area of the union plus the small positive constant, for every pair. -/
def iouOf (ac : FVec F S1000x1 .f32) (ar : FVec F S1x300 .f32) (inter : FVec F S1000x300 .f32) : FVec F S1000x300 .f32 :=
  (Host.divf inter (addf (subf (addf (broadcastInDim S1000x300 ![0, 1] bcast_S1000x1_S1000x300_0_1 ac) (broadcastInDim S1000x300 ![0, 1] bcast_S1x300_S1000x300_0_1 ar)) inter) (broadcastInDim S1000x300 ![] bcast_S_S1000x300 (constant S_ .f32 0x3089705F#32))))

/-- The two pair features side by side, the 1000 × 300 pairs laid out as 300000 rows (pair (n, j) at row 300 n + j). -/
def featOf (cos : FVec F S1000x300 .f32) (ac : FVec F S1000x1 .f32) (ar : FVec F S1x300 .f32) (inter : FVec F S1000x300 .f32) : FVec F S300000x2 .f32 :=
  (shapeCast S300000x2 (concatenate S1000x300x2 2 [⟨S1000x300x1, (broadcastInDim S1000x300x1 ![0, 1] bcast_S1000x300_S1000x300x1_0_1 cos)⟩, ⟨S1000x300x1, (broadcastInDim S1000x300x1 ![0, 1] bcast_S1000x300_S1000x300x1_0_1 (iouOf ac ar inter))⟩] concatenates_S1000x300x1_S1000x300x1_S1000x300x2_d2) shapeCasts_S1000x300x2_S300000x2)

/-- The mean of each of the 2 columns over the 300000 rows. -/
def mean2 (x : FVec F S300000x2 .f32) : FVec F S1x2 .f32 :=
  (Host.divf (broadcastInDim S1x2 ![1] bcast_S2_S1x2_1 (Host.reduceAdd x (constant S_ .f32 0x00000000#32) reducesTo_S300000x2_S2_d0 h_S_)) (broadcastInDim S1x2 ![] bcast_S_S1x2 (constant S_ .f32 0x48927C00#32)))

/-- The number of rows less the correction (zero), as a number: the divisor of the variance. -/
def dofCount : FVec F S_ .f32 :=
  (subf (constant S_ .f32 0x48927C00#32) (sitofp .f32 (constantI S_ 32 0#32)))

/-- Each entry less its column's mean. -/
def dev2 (x : FVec F S300000x2 .f32) : FVec F S300000x2 .f32 :=
  (subf x (broadcastInDim S300000x2 ![0, 1] bcast_S1x2_S300000x2_0_1 (mean2 x)))

/-- The mean of the squared deviations of each column; the guard on a positive divisor chooses between it and the not-a-number word. -/
def var2 (x : FVec F S300000x2 .f32) : FVec F S1x2 .f32 :=
  (select (broadcastInDim S1x2 ![] bcast_S_S1x2 (cmpf .ogt (dofCount (F := F)) (constant S_ .f32 0x00000000#32))) (Host.divf (broadcastInDim S1x2 ![1] bcast_S2_S1x2_1 (Host.reduceAdd (mulf (dev2 x) (dev2 x)) (constant S_ .f32 0x00000000#32) reducesTo_S300000x2_S2_d0 h_S_)) (broadcastInDim S1x2 ![] bcast_S_S1x2 dofCount)) (broadcastInDim S1x2 ![] bcast_S_S1x2 (constant S_ .f32 0x7FC00000#32)))

/-- Normalisation of each column with mean `m` and variance `v`: (x - m) / sqrt (v + ε) * g + b. -/
def bn2 (x : FVec F S300000x2 .f32) (m : FVec F S1x2 .f32) (v : FVec F S1x2 .f32) (g : FVec F S2 .f32) (b : FVec F S2 .f32) : FVec F S300000x2 .f32 :=
  (addf (mulf (Host.divf (subf x (broadcastInDim S300000x2 ![0, 1] bcast_S1x2_S300000x2_0_1 m)) (broadcastInDim S300000x2 ![0, 1] bcast_S1x2_S300000x2_0_1 (Host.sqrt (addf v (broadcastInDim S1x2 ![] bcast_S_S1x2 (constant S_ .f32 0x3727C5AC#32)))))) (broadcastInDim S300000x2 ![0, 1] bcast_S1x2_S300000x2_0_1 (broadcastInDim S1x2 ![1] bcast_S2_S1x2_1 g))) (broadcastInDim S300000x2 ![0, 1] bcast_S1x2_S300000x2_0_1 (broadcastInDim S1x2 ![1] bcast_S2_S1x2_1 b)))

/-- x W + c, then the larger of that and zero. -/
def layer1 (h : FVec F S300000x2 .f32) (W : FVec F S2x32 .f32) (c : FVec F S32 .f32) : FVec F S300000x32 .f32 :=
  (maximumf (addf (Host.dotGeneral dot_S300000x2_S2x32_S300000x32_1_0_0_1_n_n none h W) (broadcastInDim S300000x32 ![0, 1] bcast_S1x32_S300000x32_0_1 (broadcastInDim S1x32 ![1] bcast_S32_S1x32_1 c))) (broadcastInDim S300000x32 ![] bcast_S_S300000x32 (constant S_ .f32 0x00000000#32)))

/-- The mean of each of the 32 columns over the 300000 rows. -/
def mean32 (x : FVec F S300000x32 .f32) : FVec F S1x32 .f32 :=
  (Host.divf (broadcastInDim S1x32 ![1] bcast_S32_S1x32_1 (Host.reduceAdd x (constant S_ .f32 0x00000000#32) reducesTo_S300000x32_S32_d0 h_S_)) (broadcastInDim S1x32 ![] bcast_S_S1x32 (constant S_ .f32 0x48927C00#32)))

/-- Each entry less its column's mean. -/
def dev32 (x : FVec F S300000x32 .f32) : FVec F S300000x32 .f32 :=
  (subf x (broadcastInDim S300000x32 ![0, 1] bcast_S1x32_S300000x32_0_1 (mean32 x)))

/-- The mean of the squared deviations of each of the 32 columns, behind the guard on a positive divisor. -/
def var32 (x : FVec F S300000x32 .f32) : FVec F S1x32 .f32 :=
  (select (broadcastInDim S1x32 ![] bcast_S_S1x32 (cmpf .ogt (dofCount (F := F)) (constant S_ .f32 0x00000000#32))) (Host.divf (broadcastInDim S1x32 ![1] bcast_S32_S1x32_1 (Host.reduceAdd (mulf (dev32 x) (dev32 x)) (constant S_ .f32 0x00000000#32) reducesTo_S300000x32_S32_d0 h_S_)) (broadcastInDim S1x32 ![] bcast_S_S1x32 dofCount)) (broadcastInDim S1x32 ![] bcast_S_S1x32 (constant S_ .f32 0x7FC00000#32)))

/-- Normalisation of each of the 32 columns with mean `m` and variance `v`: (x - m) / sqrt (v + ε) * g + b. -/
def bn32 (x : FVec F S300000x32 .f32) (m : FVec F S1x32 .f32) (v : FVec F S1x32 .f32) (g : FVec F S32 .f32) (b : FVec F S32 .f32) : FVec F S300000x32 .f32 :=
  (addf (mulf (Host.divf (subf x (broadcastInDim S300000x32 ![0, 1] bcast_S1x32_S300000x32_0_1 m)) (broadcastInDim S300000x32 ![0, 1] bcast_S1x32_S300000x32_0_1 (Host.sqrt (addf v (broadcastInDim S1x32 ![] bcast_S_S1x32 (constant S_ .f32 0x3727C5AC#32)))))) (broadcastInDim S300000x32 ![0, 1] bcast_S1x32_S300000x32_0_1 (broadcastInDim S1x32 ![1] bcast_S32_S1x32_1 g))) (broadcastInDim S300000x32 ![0, 1] bcast_S1x32_S300000x32_0_1 (broadcastInDim S1x32 ![1] bcast_S32_S1x32_1 b)))

/-- x W + c, then the larger of that and zero. -/
def layer2 (h : FVec F S300000x32 .f32) (W : FVec F S32x32 .f32) (c : FVec F S32 .f32) : FVec F S300000x32 .f32 :=
  (maximumf (addf (Host.dotGeneral dot_S300000x32_S32x32_S300000x32_1_0_0_1_n_n none h W) (broadcastInDim S300000x32 ![0, 1] bcast_S1x32_S300000x32_0_1 (broadcastInDim S1x32 ![1] bcast_S32_S1x32_1 c))) (broadcastInDim S300000x32 ![] bcast_S_S300000x32 (constant S_ .f32 0x00000000#32)))

/-- x W + c, then the larger of that and zero. -/
def layer3 (h : FVec F S300000x32 .f32) (W : FVec F S32x64 .f32) (c : FVec F S64 .f32) : FVec F S300000x64 .f32 :=
  (maximumf (addf (Host.dotGeneral dot_S300000x32_S32x64_S300000x64_1_0_0_1_n_n none h W) (broadcastInDim S300000x64 ![0, 1] bcast_S1x64_S300000x64_0_1 (broadcastInDim S1x64 ![1] bcast_S64_S1x64_1 c))) (broadcastInDim S300000x64 ![] bcast_S_S300000x64 (constant S_ .f32 0x00000000#32)))

/-- The mean of each of the 64 columns over the 300000 rows. -/
def mean64 (x : FVec F S300000x64 .f32) : FVec F S1x64 .f32 :=
  (Host.divf (broadcastInDim S1x64 ![1] bcast_S64_S1x64_1 (Host.reduceAdd x (constant S_ .f32 0x00000000#32) reducesTo_S300000x64_S64_d0 h_S_)) (broadcastInDim S1x64 ![] bcast_S_S1x64 (constant S_ .f32 0x48927C00#32)))

/-- Each entry less its column's mean. -/
def dev64 (x : FVec F S300000x64 .f32) : FVec F S300000x64 .f32 :=
  (subf x (broadcastInDim S300000x64 ![0, 1] bcast_S1x64_S300000x64_0_1 (mean64 x)))

/-- The mean of the squared deviations of each of the 64 columns, behind the guard on a positive divisor. -/
def var64 (x : FVec F S300000x64 .f32) : FVec F S1x64 .f32 :=
  (select (broadcastInDim S1x64 ![] bcast_S_S1x64 (cmpf .ogt (dofCount (F := F)) (constant S_ .f32 0x00000000#32))) (Host.divf (broadcastInDim S1x64 ![1] bcast_S64_S1x64_1 (Host.reduceAdd (mulf (dev64 x) (dev64 x)) (constant S_ .f32 0x00000000#32) reducesTo_S300000x64_S64_d0 h_S_)) (broadcastInDim S1x64 ![] bcast_S_S1x64 dofCount)) (broadcastInDim S1x64 ![] bcast_S_S1x64 (constant S_ .f32 0x7FC00000#32)))

/-- Normalisation of each of the 64 columns with mean `m` and variance `v`: (x - m) / sqrt (v + ε) * g + b. -/
def bn64 (x : FVec F S300000x64 .f32) (m : FVec F S1x64 .f32) (v : FVec F S1x64 .f32) (g : FVec F S64 .f32) (b : FVec F S64 .f32) : FVec F S300000x64 .f32 :=
  (addf (mulf (Host.divf (subf x (broadcastInDim S300000x64 ![0, 1] bcast_S1x64_S300000x64_0_1 m)) (broadcastInDim S300000x64 ![0, 1] bcast_S1x64_S300000x64_0_1 (Host.sqrt (addf v (broadcastInDim S1x64 ![] bcast_S_S1x64 (constant S_ .f32 0x3727C5AC#32)))))) (broadcastInDim S300000x64 ![0, 1] bcast_S1x64_S300000x64_0_1 (broadcastInDim S1x64 ![1] bcast_S64_S1x64_1 g))) (broadcastInDim S300000x64 ![0, 1] bcast_S1x64_S300000x64_0_1 (broadcastInDim S1x64 ![1] bcast_S64_S1x64_1 b)))

/-- x W + c, the 300000 rows read back as 1000 × 300 pairs. -/
def layer4 (h : FVec F S300000x64 .f32) (W : FVec F S64x64 .f32) (c : FVec F S64 .f32) : FVec F S1000x300x64 .f32 :=
  (shapeCast S1000x300x64 (addf (Host.dotGeneral dot_S300000x64_S64x64_S300000x64_1_0_0_1_n_n none h W) (broadcastInDim S300000x64 ![0, 1] bcast_S1x64_S300000x64_0_1 (broadcastInDim S1x64 ![1] bcast_S64_S1x64_1 c))) shapeCasts_S300000x64_S1000x300x64)

/-- One normalisation of a 300000 × 2 array with its own column means and variances. -/
def bnOf2 (x : FVec F S300000x2 .f32) (g : FVec F S2 .f32) (b : FVec F S2 .f32) : FVec F S300000x2 .f32 :=
  bn2 x (mean2 x) (var2 x) g b

/-- One normalisation of a 300000 × 32 array with its own column means and variances. -/
def bnOf32 (x : FVec F S300000x32 .f32) (g : FVec F S32 .f32) (b : FVec F S32 .f32) : FVec F S300000x32 .f32 :=
  bn32 x (mean32 x) (var32 x) g b

/-- One normalisation of a 300000 × 64 array with its own column means and variances. -/
def bnOf64 (x : FVec F S300000x64 .f32) (g : FVec F S64 .f32) (b : FVec F S64 .f32) : FVec F S300000x64 .f32 :=
  bn64 x (mean64 x) (var64 x) g b

/-- The 300000 × 2 array of pair features of the two sets of boxes and embeddings. -/
def pairFeat (a : FVec F S1000x4 .f32) (e : FVec F S1000x64 .f32) (b : FVec F S300x4 .f32) (r : FVec F S300x64 .f32) : FVec F S300000x2 .f32 :=
  featOf (cosOf (unitQ e) r) (areaColOf a) (areaRowOf b) (interOf a b)

/-- The whole computation: the pair features through four normalisations and four affine maps. -/
def refOut (a : FVec F S1000x4 .f32) (e : FVec F S1000x64 .f32) (b : FVec F S300x4 .f32) (r : FVec F S300x64 .f32) (g0 : FVec F S2 .f32) (b0 : FVec F S2 .f32) (W1 : FVec F S2x32 .f32) (c1 : FVec F S32 .f32) (g1 : FVec F S32 .f32) (b1 : FVec F S32 .f32) (W2 : FVec F S32x32 .f32) (c2 : FVec F S32 .f32) (g2 : FVec F S32 .f32) (b2 : FVec F S32 .f32) (W3 : FVec F S32x64 .f32) (c3 : FVec F S64 .f32) (g3 : FVec F S64 .f32) (b3 : FVec F S64 .f32) (W4 : FVec F S64x64 .f32) (c4 : FVec F S64 .f32) : FVec F S1000x300x64 .f32 :=
  layer4 (bnOf64 (layer3 (bnOf32 (layer2 (bnOf32 (layer1 (bnOf2 (pairFeat a e b r) g0 b0) W1 c1) g1 b1) W2 c2) g2 b2) W3 c3) g3 b3) W4 c4

end Cert.ReferenceIdeal.RefRun

end
-- ==== Proof.RefRun.lean ====
/-
  The reference program as a straight line of array operations, and its run.

  The program's four windows are the concatenation of twenty-two short lists of operations, one for each step of the
  computation (a normalisation of rows, the matrix of inner products, the overlap areas, a column mean, a column
  variance, a normalisation, an affine map …). For each list two facts are proved: the array it leaves in its result
  buffer is the corresponding stage function of the arrays it read, and every buffer it does not write keeps its
  contents. Chaining these from the first list to the last gives the result buffer as the composition `refOut` of the
  twenty argument arrays, and the arguments unchanged.
-/
import proofs.«139309_g56014963475156_cont_9to1_m_1179_16_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- A property of every operation of two lists holds of every operation of their concatenation. -/
theorem forall_append' {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The first set of embedding rows normalised. -/
abbrev S1 : List (HloOp τ sig (Elt F)) :=
  [ StableHlo.TRef.binary (.of main_arg1 : TRef sig ⟨S1000x64, .f32⟩) (.of main_arg1 : TRef sig ⟨S1000x64, .f32⟩) main_call0.v0 mulf,
    StableHlo.TRef.nullary main_call0.cst (constant S_ .f32 0x00000000#32),
    StableHlo.TRef.binary main_call0.v0 main_call0.cst main_call0.v1 (fun x v => Host.reduceAdd x v reducesTo_S1000x64_S1000_d1 h_S_),
    StableHlo.TRef.unary main_call0.v1 main_call0.v2 (broadcastInDim S1000x1 ![0] bcast_S1000_S1000x1_0),
    StableHlo.TRef.unary main_call0.v2 main_call0.v3 Host.sqrt,
    StableHlo.nullary main_cst (constant S_ .f32 0x322BCC77#32),
    StableHlo.unary main_cst main_v1 (broadcastInDim S1000x1 ![] bcast_S_S1000x1 : (⟨S_, .f32⟩ : BufTy).Contents (Elt F) → (⟨S1000x1, .f32⟩ : BufTy).Contents (Elt F)),
    StableHlo.binary main_v0 main_v1 main_v2 (maximumf : (⟨S1000x1, .f32⟩ : BufTy).Contents (Elt F) → (⟨S1000x1, .f32⟩ : BufTy).Contents (Elt F) → (⟨S1000x1, .f32⟩ : BufTy).Contents (Elt F)),
    StableHlo.unary main_v2 main_v3 (broadcastInDim S1000x64 ![0, 1] bcast_S1000x1_S1000x64_0_1 : (⟨S1000x1, .f32⟩ : BufTy).Contents (Elt F) → (⟨S1000x64, .f32⟩ : BufTy).Contents (Elt F)),
    StableHlo.binary main_arg1 main_v3 main_v4 (Host.divf : (⟨S1000x64, .f32⟩ : BufTy).Contents (Elt F) → (⟨S1000x64, .f32⟩ : BufTy).Contents (Elt F) → (⟨S1000x64, .f32⟩ : BufTy).Contents (Elt F)) ]
theorem S1_sub : (S1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
/-- The buffers these operations write. -/
abbrev S1_W : List (Ref sig .tc) := [main_call0_v0, main_call0_cst, main_call0_v1, main_call0_v2, main_v0, main_cst, main_v1, main_v2, main_v3, main_v4]
theorem S1_writes : (S1 : List (HloOp τ sig (Elt F))).Forall fun op => op.writes ⊆ (S1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S1_keep (V : Valuation τ sig (Elt F)) (r : Ref sig .tc) (h : r ∉ S1_W) :
    after S1 V (no_index (Proc.devRef .tc r)) = V (Proc.devRef .tc r) :=
  after_of_writes_sub S1 _ S1_writes h
set_option maxRecDepth 8192 in
set_option maxHeartbeats 4000000 in
theorem S1_main_v4 (V : Valuation τ sig (Elt F)) :
    after S1 V (no_index (Proc.devRef .tc main_v4)) = unitQ (V (Proc.devRef .tc main_arg1)) := by
  after_results_simp <;> rfl

/-- The second set normalised and transposed, and the matrix of inner products. -/
abbrev S23 : List (HloOp τ sig (Elt F)) :=
  [ StableHlo.TRef.binary (.of main_arg3 : TRef sig ⟨S300x64, .f32⟩) (.of main_arg3 : TRef sig ⟨S300x64, .f32⟩) main_call1.v0 mulf,
    StableHlo.TRef.nullary main_call1.cst (constant S_ .f32 0x00000000#32),
    StableHlo.TRef.binary main_call1.v0 main_call1.cst main_call1.v1 (fun x v => Host.reduceAdd x v reducesTo_S300x64_S300_d1 h_S_),
    StableHlo.TRef.unary main_call1.v1 main_call1.v2 (broadcastInDim S300x1 ![0] bcast_S300_S300x1_0),
    StableHlo.TRef.unary main_call1.v2 main_call1.v3 Host.sqrt,
    StableHlo.nullary main_cst_0 (constant S_ .f32 0x322BCC77#32),
    StableHlo.unary main_cst_0 main_v6 (broadcastInDim S300x1 ![] bcast_S_S300x1 : (⟨S_, .f32⟩ : BufTy).Contents (Elt F) → (⟨S300x1, .f32⟩ : BufTy).Contents (Elt F)),
    StableHlo.binary main_v5 main_v6 main_v7 (maximumf : (⟨S300x1, .f32⟩ : BufTy).Contents (Elt F) → (⟨S300x1, .f32⟩ : BufTy).Contents (Elt F) → (⟨S300x1, .f32⟩ : BufTy).Contents (Elt F)),
    StableHlo.unary main_v7 main_v8 (broadcastInDim S300x64 ![0, 1] bcast_S300x1_S300x64_0_1 : (⟨S300x1, .f32⟩ : BufTy).Contents (Elt F) → (⟨S300x64, .f32⟩ : BufTy).Contents (Elt F)),
    StableHlo.binary main_arg3 main_v8 main_v9 (Host.divf : (⟨S300x64, .f32⟩ : BufTy).Contents (Elt F) → (⟨S300x64, .f32⟩ : BufTy).Contents (Elt F) → (⟨S300x64, .f32⟩ : BufTy).Contents (Elt F)),
    StableHlo.unary main_v9 main_v10 ((transpose S64x300 [1, 0] · transposes_S300x64_S64x300_1_0) : (⟨S300x64, .f32⟩ : BufTy).Contents (Elt F) → (⟨S64x300, .f32⟩ : BufTy).Contents (Elt F)),
    StableHlo.binary main_v4 main_v10 main_v11 ((fun l r => Host.dotGeneral dot_S1000x64_S64x300_S1000x300_1_0_0_1_n_n none l r) : (⟨S1000x64, .f32⟩ : BufTy).Contents (Elt F) → (⟨S64x300, .f32⟩ : BufTy).Contents (Elt F) → (⟨S1000x300, .f32⟩ : BufTy).Contents (Elt F)) ]
theorem S23_sub : (S23 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub ..⟩
/-- The buffers these operations write. -/
abbrev S23_W : List (Ref sig .tc) := [main_call1_v0, main_call1_cst, main_call1_v1, main_call1_v2, main_v5, main_cst_0, main_v6, main_v7, main_v8, main_v9, main_v10, main_v11]
theorem S23_writes : (S23 : List (HloOp τ sig (Elt F))).Forall fun op => op.writes ⊆ (S23_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S23_keep (V : Valuation τ sig (Elt F)) (r : Ref sig .tc) (h : r ∉ S23_W) :
    after S23 V (no_index (Proc.devRef .tc r)) = V (Proc.devRef .tc r) :=
  after_of_writes_sub S23 _ S23_writes h
set_option maxRecDepth 8192 in
set_option maxHeartbeats 4000000 in
theorem S23_main_v11 (V : Valuation τ sig (Elt F)) :
    after S23 V (no_index (Proc.devRef .tc main_v11)) = cosOf (V (Proc.devRef .tc main_v4)) (V (Proc.devRef .tc main_arg3)) := by
  after_results_simp <;> rfl

/-- The overlap area of every pair of boxes. -/
abbrev S4 : List (HloOp τ sig (Elt F)) :=
  [ StableHlo.unary main_arg0 main_v12 ((extractStridedSlice S1000x2 ![0, 0] · slices_S1000x4_S1000x2_0_0) : (⟨S1000x4, .f32⟩ : BufTy).Contents (Elt F) → (⟨S1000x2, .f32⟩ : BufTy).Contents (Elt F)),
    StableHlo.unary main_v12 main_v13 (broadcastInDim S1000x1x2 ![0, 2] bcast_S1000x2_S1000x1x2_0_2 : (⟨S1000x2, .f32⟩ : BufTy).Contents (Elt F) → (⟨S1000x1x2, .f32⟩ : BufTy).Contents (Elt F)),
    StableHlo.unary main_arg2 main_v14 ((extractStridedSlice S300x2 ![0, 0] · slices_S300x4_S300x2_0_0) : (⟨S300x4, .f32⟩ : BufTy).Contents (Elt F) → (⟨S300x2, .f32⟩ : BufTy).Contents (Elt F)),
    StableHlo.unary main_v14 main_v15 (broadcastInDim S1x300x2 ![1, 2] bcast_S300x2_S1x300x2_1_2 : (⟨S300x2, .f32⟩ : BufTy).Contents (Elt F) → (⟨S1x300x2, .f32⟩ : BufTy).Contents (Elt F)),
    StableHlo.unary main_v13 main_v16 (broadcastInDim S1000x300x2 ![0, 1, 2] bcast_S1000x1x2_S1000x300x2_0_1_2 : (⟨S1000x1x2, .f32⟩ : BufTy).Contents (Elt F) → (⟨S1000x300x2, .f32⟩ : BufTy).Contents (Elt F)),
    StableHlo.unary main_v15 main_v17 (broadcastInDim S1000x300x2 ![0, 1, 2] bcast_S1x300x2_S1000x300x2_0_1_2 : (⟨S1x300x2, .f32⟩ : BufTy).Contents (Elt F) → (⟨S1000x300x2, .f32⟩ : BufTy).Contents (Elt F)),
    StableHlo.binary main_v16 main_v17 main_v18 (maximumf : (⟨S1000x300x2, .f32⟩ : BufTy).Contents (Elt F) → (⟨S1000x300x2, .f32⟩ : BufTy).Contents (Elt F) → (⟨S1000x300x2, .f32⟩ : BufTy).Contents (Elt F)),
    StableHlo.unary main_arg0 main_v19 ((extractStridedSlice S1000x2 ![0, 2] · slices_S1000x4_S1000x2_0_2) : (⟨S1000x4, .f32⟩ : BufTy).Contents (Elt F) → (⟨S1000x2, .f32⟩ : BufTy).Contents (Elt F)),
    StableHlo.unary main_v19 main_v20 (broadcastInDim S1000x1x2 ![0, 2] bcast_S1000x2_S1000x1x2_0_2 : (⟨S1000x2, .f32⟩ : BufTy).Contents (Elt F) → (⟨S1000x1x2, .f32⟩ : BufTy).Contents (Elt F)),
    StableHlo.unary main_arg2 main_v21 ((extractStridedSlice S300x2 ![0, 2] · slices_S300x4_S300x2_0_2) : (⟨S300x4, .f32⟩ : BufTy).Contents (Elt F) → (⟨S300x2, .f32⟩ : BufTy).Contents (Elt F)),
    StableHlo.unary main_v21 main_v22 (broadcastInDim S1x300x2 ![1, 2] bcast_S300x2_S1x300x2_1_2 : (⟨S300x2, .f32⟩ : BufTy).Contents (Elt F) → (⟨S1x300x2, .f32⟩ : BufTy).Contents (Elt F)),
    StableHlo.unary main_v20 main_v23 (broadcastInDim S1000x300x2 ![0, 1, 2] bcast_S1000x1x2_S1000x300x2_0_1_2 : (⟨S1000x1x2, .f32⟩ : BufTy).Contents (Elt F) → (⟨S1000x300x2, .f32⟩ : BufTy).Contents (Elt F)),
    StableHlo.unary main_v22 main_v24 (broadcastInDim S1000x300x2 ![0, 1, 2] bcast_S1x300x2_S1000x300x2_0_1_2 : (⟨S1x300x2, .f32⟩ : BufTy).Contents (Elt F) → (⟨S1000x300x2, .f32⟩ : BufTy).Contents (Elt F)),
    StableHlo.binary main_v23 main_v24 main_v25 (minimumf : (⟨S1000x300x2, .f32⟩ : BufTy).Contents (Elt F) → (⟨S1000x300x2, .f32⟩ : BufTy).Contents (Elt F) → (⟨S1000x300x2, .f32⟩ : BufTy).Contents (Elt F)),
    StableHlo.binary main_v25 main_v18 main_v26 (subf : (⟨S1000x300x2, .f32⟩ : BufTy).Contents (Elt F) → (⟨S1000x300x2, .f32⟩ : BufTy).Contents (Elt F) → (⟨S1000x300x2, .f32⟩ : BufTy).Contents (Elt F)),
    StableHlo.nullary main_cst_1 (constant S_ .f32 0x00000000#32),
    StableHlo.TRef.unary (.of main_cst_1 : TRef sig ⟨S_, .f32⟩) main_call2.v0 id,
    StableHlo.TRef.unary main_call2.v0 main_call2.v1 (broadcastInDim S1000x300x2 ![] bcast_S_S1000x300x2),
    StableHlo.TRef.binary main_call2.v1 (.of main_v26 : TRef sig ⟨S1000x300x2, .f32⟩) main_call2.v2 maximumf,
    StableHlo.unary main_v27 main_v28 ((extractStridedSlice S1000x300x1 ![0, 0, 0] · slices_S1000x300x2_S1000x300x1_0_0_0) : (⟨S1000x300x2, .f32⟩ : BufTy).Contents (Elt F) → (⟨S1000x300x1, .f32⟩ : BufTy).Contents (Elt F)),
    StableHlo.reshape main_v28 main_v29 rfl shapeCasts_S1000x300x1_S1000x300,
    StableHlo.unary main_v27 main_v30 ((extractStridedSlice S1000x300x1 ![0, 0, 1] · slices_S1000x300x2_S1000x300x1_0_0_1) : (⟨S1000x300x2, .f32⟩ : BufTy).Contents (Elt F) → (⟨S1000x300x1, .f32⟩ : BufTy).Contents (Elt F)),
    StableHlo.reshape main_v30 main_v31 rfl shapeCasts_S1000x300x1_S1000x300,
    StableHlo.binary main_v29 main_v31 main_v32 (mulf : (⟨S1000x300, .f32⟩ : BufTy).Contents (Elt F) → (⟨S1000x300, .f32⟩ : BufTy).Contents (Elt F) → (⟨S1000x300, .f32⟩ : BufTy).Contents (Elt F)) ]
theorem S4_sub : (S4 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩
/-- The buffers these operations write. -/
abbrev S4_W : List (Ref sig .tc) := [main_v12, main_v13, main_v14, main_v15, main_v16, main_v17, main_v18, main_v19, main_v20, main_v21, main_v22, main_v23, main_v24, main_v25, main_v26, main_cst_1, main_call2_v0, main_call2_v1, main_v27, main_v28, main_v29, main_v30, main_v31, main_v32]
theorem S4_writes : (S4 : List (HloOp τ sig (Elt F))).Forall fun op => op.writes ⊆ (S4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S4_keep (V : Valuation τ sig (Elt F)) (r : Ref sig .tc) (h : r ∉ S4_W) :
    after S4 V (no_index (Proc.devRef .tc r)) = V (Proc.devRef .tc r) :=
  after_of_writes_sub S4 _ S4_writes h
set_option maxRecDepth 8192 in
set_option maxHeartbeats 4000000 in
theorem S4_main_v32 (V : Valuation τ sig (Elt F)) :
    after S4 V (no_index (Proc.devRef .tc main_v32)) = interOf (V (Proc.devRef .tc main_arg0)) (V (Proc.devRef .tc main_arg2)) := by
  after_results_simp <;> rfl

/-- The areas of the boxes, as a column and as a row. -/
abbrev S5 : List (HloOp τ sig (Elt F)) :=
  [ StableHlo.unary main_arg0 main_v33 ((extractStridedSlice S1000x1 ![0, 2] · slices_S1000x4_S1000x1_0_2) : (⟨S1000x4, .f32⟩ : BufTy).Contents (Elt F) → (⟨S1000x1, .f32⟩ : BufTy).Contents (Elt F)),
    StableHlo.reshape main_v33 main_v34 rfl shapeCasts_S1000x1_S1000,
    StableHlo.unary main_arg0 main_v35 ((extractStridedSlice S1000x1 ![0, 0] · slices_S1000x4_S1000x1_0_0) : (⟨S1000x4, .f32⟩ : BufTy).Contents (Elt F) → (⟨S1000x1, .f32⟩ : BufTy).Contents (Elt F)),
    StableHlo.reshape main_v35 main_v36 rfl shapeCasts_S1000x1_S1000,
    StableHlo.binary main_v34 main_v36 main_v37 (subf : (⟨S1000, .f32⟩ : BufTy).Contents (Elt F) → (⟨S1000, .f32⟩ : BufTy).Contents (Elt F) → (⟨S1000, .f32⟩ : BufTy).Contents (Elt F)),
    StableHlo.unary main_arg0 main_v38 ((extractStridedSlice S1000x1 ![0, 3] · slices_S1000x4_S1000x1_0_3) : (⟨S1000x4, .f32⟩ : BufTy).Contents (Elt F) → (⟨S1000x1, .f32⟩ : BufTy).Contents (Elt F)),
    StableHlo.reshape main_v38 main_v39 rfl shapeCasts_S1000x1_S1000,
    StableHlo.unary main_arg0 main_v40 ((extractStridedSlice S1000x1 ![0, 1] · slices_S1000x4_S1000x1_0_1) : (⟨S1000x4, .f32⟩ : BufTy).Contents (Elt F) → (⟨S1000x1, .f32⟩ : BufTy).Contents (Elt F)),
    StableHlo.reshape main_v40 main_v41 rfl shapeCasts_S1000x1_S1000,
    StableHlo.binary main_v39 main_v41 main_v42 (subf : (⟨S1000, .f32⟩ : BufTy).Contents (Elt F) → (⟨S1000, .f32⟩ : BufTy).Contents (Elt F) → (⟨S1000, .f32⟩ : BufTy).Contents (Elt F)),
    StableHlo.binary main_v37 main_v42 main_v43 (mulf : (⟨S1000, .f32⟩ : BufTy).Contents (Elt F) → (⟨S1000, .f32⟩ : BufTy).Contents (Elt F) → (⟨S1000, .f32⟩ : BufTy).Contents (Elt F)),
    StableHlo.unary main_arg2 main_v44 ((extractStridedSlice S300x1 ![0, 2] · slices_S300x4_S300x1_0_2) : (⟨S300x4, .f32⟩ : BufTy).Contents (Elt F) → (⟨S300x1, .f32⟩ : BufTy).Contents (Elt F)),
    StableHlo.reshape main_v44 main_v45 rfl shapeCasts_S300x1_S300,
    StableHlo.unary main_arg2 main_v46 ((extractStridedSlice S300x1 ![0, 0] · slices_S300x4_S300x1_0_0) : (⟨S300x4, .f32⟩ : BufTy).Contents (Elt F) → (⟨S300x1, .f32⟩ : BufTy).Contents (Elt F)),
    StableHlo.reshape main_v46 main_v47 rfl shapeCasts_S300x1_S300,
    StableHlo.binary main_v45 main_v47 main_v48 (subf : (⟨S300, .f32⟩ : BufTy).Contents (Elt F) → (⟨S300, .f32⟩ : BufTy).Contents (Elt F) → (⟨S300, .f32⟩ : BufTy).Contents (Elt F)),
    StableHlo.unary main_arg2 main_v49 ((extractStridedSlice S300x1 ![0, 3] · slices_S300x4_S300x1_0_3) : (⟨S300x4, .f32⟩ : BufTy).Contents (Elt F) → (⟨S300x1, .f32⟩ : BufTy).Contents (Elt F)),
    StableHlo.reshape main_v49 main_v50 rfl shapeCasts_S300x1_S300,
    StableHlo.unary main_arg2 main_v51 ((extractStridedSlice S300x1 ![0, 1] · slices_S300x4_S300x1_0_1) : (⟨S300x4, .f32⟩ : BufTy).Contents (Elt F) → (⟨S300x1, .f32⟩ : BufTy).Contents (Elt F)),
    StableHlo.reshape main_v51 main_v52 rfl shapeCasts_S300x1_S300,
    StableHlo.binary main_v50 main_v52 main_v53 (subf : (⟨S300, .f32⟩ : BufTy).Contents (Elt F) → (⟨S300, .f32⟩ : BufTy).Contents (Elt F) → (⟨S300, .f32⟩ : BufTy).Contents (Elt F)),
    StableHlo.binary main_v48 main_v53 main_v54 (mulf : (⟨S300, .f32⟩ : BufTy).Contents (Elt F) → (⟨S300, .f32⟩ : BufTy).Contents (Elt F) → (⟨S300, .f32⟩ : BufTy).Contents (Elt F)),
    StableHlo.unary main_v43 main_v55 (broadcastInDim S1000x1 ![0] bcast_S1000_S1000x1_0 : (⟨S1000, .f32⟩ : BufTy).Contents (Elt F) → (⟨S1000x1, .f32⟩ : BufTy).Contents (Elt F)),
    StableHlo.unary main_v54 main_v56 (broadcastInDim S1x300 ![1] bcast_S300_S1x300_1 : (⟨S300, .f32⟩ : BufTy).Contents (Elt F) → (⟨S1x300, .f32⟩ : BufTy).Contents (Elt F)) ]
theorem S5_sub : (S5 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub ..⟩
/-- The buffers these operations write. -/
abbrev S5_W : List (Ref sig .tc) := [main_v33, main_v34, main_v35, main_v36, main_v37, main_v38, main_v39, main_v40, main_v41, main_v42, main_v43, main_v44, main_v45, main_v46, main_v47, main_v48, main_v49, main_v50, main_v51, main_v52, main_v53, main_v54, main_v55, main_v56]
theorem S5_writes : (S5 : List (HloOp τ sig (Elt F))).Forall fun op => op.writes ⊆ (S5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S5_keep (V : Valuation τ sig (Elt F)) (r : Ref sig .tc) (h : r ∉ S5_W) :
    after S5 V (no_index (Proc.devRef .tc r)) = V (Proc.devRef .tc r) :=
  after_of_writes_sub S5 _ S5_writes h
set_option maxRecDepth 8192 in
set_option maxHeartbeats 4000000 in
theorem S5_main_v55 (V : Valuation τ sig (Elt F)) :
    after S5 V (no_index (Proc.devRef .tc main_v55)) = areaColOf (V (Proc.devRef .tc main_arg0)) := by
  after_results_simp <;> rfl
set_option maxRecDepth 8192 in
set_option maxHeartbeats 4000000 in
theorem S5_main_v56 (V : Valuation τ sig (Elt F)) :
    after S5 V (no_index (Proc.devRef .tc main_v56)) = areaRowOf (V (Proc.devRef .tc main_arg2)) := by
  after_results_simp <;> rfl

/-- The overlap ratio and the two features laid out as 300000 rows. -/
abbrev S6 : List (HloOp τ sig (Elt F)) :=
  [ StableHlo.unary main_v55 main_v57 (broadcastInDim S1000x300 ![0, 1] bcast_S1000x1_S1000x300_0_1 : (⟨S1000x1, .f32⟩ : BufTy).Contents (Elt F) → (⟨S1000x300, .f32⟩ : BufTy).Contents (Elt F)),
    StableHlo.unary main_v56 main_v58 (broadcastInDim S1000x300 ![0, 1] bcast_S1x300_S1000x300_0_1 : (⟨S1x300, .f32⟩ : BufTy).Contents (Elt F) → (⟨S1000x300, .f32⟩ : BufTy).Contents (Elt F)),
    StableHlo.binary main_v57 main_v58 main_v59 (addf : (⟨S1000x300, .f32⟩ : BufTy).Contents (Elt F) → (⟨S1000x300, .f32⟩ : BufTy).Contents (Elt F) → (⟨S1000x300, .f32⟩ : BufTy).Contents (Elt F)),
    StableHlo.binary main_v59 main_v32 main_v60 (subf : (⟨S1000x300, .f32⟩ : BufTy).Contents (Elt F) → (⟨S1000x300, .f32⟩ : BufTy).Contents (Elt F) → (⟨S1000x300, .f32⟩ : BufTy).Contents (Elt F)),
    StableHlo.nullary main_cst_2 (constant S_ .f32 0x3089705F#32),
    StableHlo.unary main_cst_2 main_v61 (broadcastInDim S1000x300 ![] bcast_S_S1000x300 : (⟨S_, .f32⟩ : BufTy).Contents (Elt F) → (⟨S1000x300, .f32⟩ : BufTy).Contents (Elt F)),
    StableHlo.binary main_v60 main_v61 main_v62 (addf : (⟨S1000x300, .f32⟩ : BufTy).Contents (Elt F) → (⟨S1000x300, .f32⟩ : BufTy).Contents (Elt F) → (⟨S1000x300, .f32⟩ : BufTy).Contents (Elt F)),
    StableHlo.binary main_v32 main_v62 main_v63 (Host.divf : (⟨S1000x300, .f32⟩ : BufTy).Contents (Elt F) → (⟨S1000x300, .f32⟩ : BufTy).Contents (Elt F) → (⟨S1000x300, .f32⟩ : BufTy).Contents (Elt F)),
    StableHlo.unary main_v11 main_v64 (broadcastInDim S1000x300x1 ![0, 1] bcast_S1000x300_S1000x300x1_0_1 : (⟨S1000x300, .f32⟩ : BufTy).Contents (Elt F) → (⟨S1000x300x1, .f32⟩ : BufTy).Contents (Elt F)),
    StableHlo.unary main_v63 main_v65 (broadcastInDim S1000x300x1 ![0, 1] bcast_S1000x300_S1000x300x1_0_1 : (⟨S1000x300, .f32⟩ : BufTy).Contents (Elt F) → (⟨S1000x300x1, .f32⟩ : BufTy).Contents (Elt F)),
    StableHlo.binary main_v64 main_v65 main_v66 ((fun a b => concatenate S1000x300x2 2 [⟨S1000x300x1, a⟩, ⟨S1000x300x1, b⟩] concatenates_S1000x300x1_S1000x300x1_S1000x300x2_d2) : (⟨S1000x300x1, .f32⟩ : BufTy).Contents (Elt F) → (⟨S1000x300x1, .f32⟩ : BufTy).Contents (Elt F) → (⟨S1000x300x2, .f32⟩ : BufTy).Contents (Elt F)),
    StableHlo.reshape main_v66 main_v67 rfl shapeCasts_S1000x300x2_S300000x2 ]
theorem S6_sub : (S6 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., binary_bufs_sub .., unary_bufs_sub .., unary_bufs_sub .., binary_bufs_sub .., reshape_bufs_sub ..⟩
/-- The buffers these operations write. -/
abbrev S6_W : List (Ref sig .tc) := [main_v57, main_v58, main_v59, main_v60, main_cst_2, main_v61, main_v62, main_v63, main_v64, main_v65, main_v66, main_v67]
theorem S6_writes : (S6 : List (HloOp τ sig (Elt F))).Forall fun op => op.writes ⊆ (S6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S6_keep (V : Valuation τ sig (Elt F)) (r : Ref sig .tc) (h : r ∉ S6_W) :
    after S6 V (no_index (Proc.devRef .tc r)) = V (Proc.devRef .tc r) :=
  after_of_writes_sub S6 _ S6_writes h
set_option maxRecDepth 8192 in
set_option maxHeartbeats 4000000 in
theorem S6_main_v67 (V : Valuation τ sig (Elt F)) :
    after S6 V (no_index (Proc.devRef .tc main_v67)) = featOf (V (Proc.devRef .tc main_v11)) (V (Proc.devRef .tc main_v55)) (V (Proc.devRef .tc main_v56)) (V (Proc.devRef .tc main_v32)) := by
  after_results_simp <;> rfl

/-- Column means of the features. -/
abbrev S7a : List (HloOp τ sig (Elt F)) :=
  [ StableHlo.nullary main_cst_3 (constant S_ .f32 0x00000000#32),
    StableHlo.binary main_v67 main_cst_3 main_v68 ((fun x v => Host.reduceAdd x v reducesTo_S300000x2_S2_d0 h_S_) : (⟨S300000x2, .f32⟩ : BufTy).Contents (Elt F) → (⟨S_, .f32⟩ : BufTy).Contents (Elt F) → (⟨S2, .f32⟩ : BufTy).Contents (Elt F)),
    StableHlo.unary main_v68 main_v69 (broadcastInDim S1x2 ![1] bcast_S2_S1x2_1 : (⟨S2, .f32⟩ : BufTy).Contents (Elt F) → (⟨S1x2, .f32⟩ : BufTy).Contents (Elt F)),
    StableHlo.nullary main_cst_4 (constant S_ .f32 0x48927C00#32),
    StableHlo.unary main_cst_4 main_v70 (broadcastInDim S1x2 ![] bcast_S_S1x2 : (⟨S_, .f32⟩ : BufTy).Contents (Elt F) → (⟨S1x2, .f32⟩ : BufTy).Contents (Elt F)),
    StableHlo.binary main_v69 main_v70 main_v71 (Host.divf : (⟨S1x2, .f32⟩ : BufTy).Contents (Elt F) → (⟨S1x2, .f32⟩ : BufTy).Contents (Elt F) → (⟨S1x2, .f32⟩ : BufTy).Contents (Elt F)) ]
theorem S7a_sub : (S7a : List (HloOp τ sig (Elt F))).Forall fun op => op.bufs ⊆ tcRefs τ sig :=
  ⟨nullary_bufs_sub .., binary_bufs_sub .., unary_bufs_sub .., nullary_bufs_sub .., unary_bufs_sub .., binary_bufs_sub ..⟩
/-- The buffers these operations write. -/
abbrev S7a_W : List (Ref sig .tc) := [main_cst_3, main_v68, main_v69, main_cst_4, main_v70, main_v71]
theorem S7a_writes : (S7a : List (HloOp τ sig (Elt F))).Forall fun op => op.writes ⊆ (S7a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S7a_keep (V : Valuation τ sig (Elt F)) (r : Ref sig .tc) (h : r ∉ S7a_W) :
    after S7a V (no_index (Proc.devRef .tc r)) = V (Proc.devRef .tc r) :=
  after_of_writes_sub S7a _ S7a_writes h
set_option maxRecDepth 8192 in
set_option maxHeartbeats 4000000 in
theorem S7a_main_v71 (V : Valuation τ sig (Elt F)) :
    after S7a V (no_index (Proc.devRef .tc main_v71)) = mean2 (V (Proc.devRef .tc main_v67)) := by
  after_results_simp <;> rfl

/-- Column variances of the features. -/
abbrev S7b : List (HloOp τ sig (Elt F)) :=
  [ StableHlo.nullary main_c (constantI S_ 32 0#32),
    StableHlo.TRef.nullary main_call3.cst (constant S_ .f32 0x00000000#32),
    StableHlo.TRef.binary (.of main_v67 : TRef sig ⟨S300000x2, .f32⟩) main_call3.cst main_call3.v0 (fun x v => Host.reduceAdd x v reducesTo_S300000x2_S2_d0 h_S_),
    StableHlo.TRef.unary main_call3.v0 main_call3.v1 (broadcastInDim S1x2 ![1] bcast_S2_S1x2_1),
    StableHlo.TRef.nullary main_call3.cst_0 (constant S_ .f32 0x48927C00#32),
    StableHlo.TRef.unary main_call3.cst_0 main_call3.v2 (broadcastInDim S1x2 ![] bcast_S_S1x2),
    StableHlo.TRef.binary main_call3.v1 main_call3.v2 main_call3.v3 Host.divf,
    StableHlo.TRef.unary main_call3.v3 main_call3.v4 (broadcastInDim S300000x2 ![0, 1] bcast_S1x2_S300000x2_0_1),
    StableHlo.TRef.binary (.of main_v67 : TRef sig ⟨S300000x2, .f32⟩) main_call3.v4 main_call3.v5 subf,
    StableHlo.TRef.binary main_call3.v5 main_call3.v5 main_call3.v6 mulf,
    StableHlo.TRef.unary (.of main_c : TRef sig ⟨S_, .i32⟩) main_call3.v7 (sitofp .f32),
    StableHlo.TRef.nullary main_call3.cst_1 (constant S_ .f32 0x48927C00#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S300000x2_S2_d0 h_S_),
    StableHlo.TRef.unary main_call3.v9 main_call3.v10 (broadcastInDim S1x2 ![1] bcast_S2_S1x2_1),
    StableHlo.TRef.unary main_call3.v8 main_call3.v11 (broadcastInDim S1x2 ![] bcast_S_S1x2),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x2 ![] bcast_S_S1x2),
    StableHlo.TRef.ternary main_call3.v13 main_call3.v12 main_call3.call0.v1 main_call3.call0.v2 (fun p a b => select (broadcastInDim S1x2 ![] bcast_S_S1x2 p) a b) ]
theorem S7b_sub : (S7b : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- The buffers these operations write. -/
abbrev S7b_W : List (Ref sig .tc) := [main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v72]
theorem S7b_writes : (S7b : List (HloOp τ sig (Elt F))).Forall fun op => op.writes ⊆ (S7b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S7b_keep (V : Valuation τ sig (Elt F)) (r : Ref sig .tc) (h : r ∉ S7b_W) :
    after S7b V (no_index (Proc.devRef .tc r)) = V (Proc.devRef .tc r) :=
  after_of_writes_sub S7b _ S7b_writes h
set_option maxRecDepth 8192 in
set_option maxHeartbeats 4000000 in
theorem S7b_main_v72 (V : Valuation τ sig (Elt F)) :
    after S7b V (no_index (Proc.devRef .tc main_v72)) = var2 (V (Proc.devRef .tc main_v67)) := by
  after_results_simp <;> rfl

/-- The features normalised. -/
abbrev S7c : List (HloOp τ sig (Elt F)) :=
  [ StableHlo.unary main_v71 main_v73 (broadcastInDim S300000x2 ![0, 1] bcast_S1x2_S300000x2_0_1 : (⟨S1x2, .f32⟩ : BufTy).Contents (Elt F) → (⟨S300000x2, .f32⟩ : BufTy).Contents (Elt F)),
    StableHlo.binary main_v67 main_v73 main_v74 (subf : (⟨S300000x2, .f32⟩ : BufTy).Contents (Elt F) → (⟨S300000x2, .f32⟩ : BufTy).Contents (Elt F) → (⟨S300000x2, .f32⟩ : BufTy).Contents (Elt F)),
    StableHlo.nullary main_cst_5 (constant S_ .f32 0x3727C5AC#32),
    StableHlo.unary main_cst_5 main_v75 (broadcastInDim S1x2 ![] bcast_S_S1x2 : (⟨S_, .f32⟩ : BufTy).Contents (Elt F) → (⟨S1x2, .f32⟩ : BufTy).Contents (Elt F)),
    StableHlo.binary main_v72 main_v75 main_v76 (addf : (⟨S1x2, .f32⟩ : BufTy).Contents (Elt F) → (⟨S1x2, .f32⟩ : BufTy).Contents (Elt F) → (⟨S1x2, .f32⟩ : BufTy).Contents (Elt F)),
    StableHlo.unary main_v76 main_v77 (Host.sqrt : (⟨S1x2, .f32⟩ : BufTy).Contents (Elt F) → (⟨S1x2, .f32⟩ : BufTy).Contents (Elt F)),
    StableHlo.unary main_v77 main_v78 (broadcastInDim S300000x2 ![0, 1] bcast_S1x2_S300000x2_0_1 : (⟨S1x2, .f32⟩ : BufTy).Contents (Elt F) → (⟨S300000x2, .f32⟩ : BufTy).Contents (Elt F)),
    StableHlo.binary main_v74 main_v78 main_v79 (Host.divf : (⟨S300000x2, .f32⟩ : BufTy).Contents (Elt F) → (⟨S300000x2, .f32⟩ : BufTy).Contents (Elt F) → (⟨S300000x2, .f32⟩ : BufTy).Contents (Elt F)),
    StableHlo.unary main_arg4 main_v80 (broadcastInDim S1x2 ![1] bcast_S2_S1x2_1 : (⟨S2, .f32⟩ : BufTy).Contents (Elt F) → (⟨S1x2, .f32⟩ : BufTy).Contents (Elt F)),
    StableHlo.unary main_v80 main_v81 (broadcastInDim S300000x2 ![0, 1] bcast_S1x2_S300000x2_0_1 : (⟨S1x2, .f32⟩ : BufTy).Contents (Elt F) → (⟨S300000x2, .f32⟩ : BufTy).Contents (Elt F)),
    StableHlo.binary main_v79 main_v81 main_v82 (mulf : (⟨S300000x2, .f32⟩ : BufTy).Contents (Elt F) → (⟨S300000x2, .f32⟩ : BufTy).Contents (Elt F) → (⟨S300000x2, .f32⟩ : BufTy).Contents (Elt F)),
    StableHlo.unary main_arg5 main_v83 (broadcastInDim S1x2 ![1] bcast_S2_S1x2_1 : (⟨S2, .f32⟩ : BufTy).Contents (Elt F) → (⟨S1x2, .f32⟩ : BufTy).Contents (Elt F)),
    StableHlo.unary main_v83 main_v84 (broadcastInDim S300000x2 ![0, 1] bcast_S1x2_S300000x2_0_1 : (⟨S1x2, .f32⟩ : BufTy).Contents (Elt F) → (⟨S300000x2, .f32⟩ : BufTy).Contents (Elt F)),
    StableHlo.binary main_v82 main_v84 main_v85 (addf : (⟨S300000x2, .f32⟩ : BufTy).Contents (Elt F) → (⟨S300000x2, .f32⟩ : BufTy).Contents (Elt F) → (⟨S300000x2, .f32⟩ : BufTy).Contents (Elt F)) ]
theorem S7c_sub : (S7c : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- The buffers these operations write. -/
abbrev S7c_W : List (Ref sig .tc) := [main_v73, main_v74, main_cst_5, main_v75, main_v76, main_v77, main_v78, main_v79, main_v80, main_v81, main_v82, main_v83, main_v84, main_v85]
theorem S7c_writes : (S7c : List (HloOp τ sig (Elt F))).Forall fun op => op.writes ⊆ (S7c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S7c_keep (V : Valuation τ sig (Elt F)) (r : Ref sig .tc) (h : r ∉ S7c_W) :
    after S7c V (no_index (Proc.devRef .tc r)) = V (Proc.devRef .tc r) :=
  after_of_writes_sub S7c _ S7c_writes h
set_option maxRecDepth 8192 in
set_option maxHeartbeats 4000000 in
theorem S7c_main_v85 (V : Valuation τ sig (Elt F)) :
    after S7c V (no_index (Proc.devRef .tc main_v85)) = bn2 (V (Proc.devRef .tc main_v67)) (V (Proc.devRef .tc main_v71)) (V (Proc.devRef .tc main_v72)) (V (Proc.devRef .tc main_arg4)) (V (Proc.devRef .tc main_arg5)) := by
  after_results_simp <;> rfl

/-- The first affine map, negative entries replaced by zero. -/
abbrev S8 : List (HloOp τ sig (Elt F)) :=
  [ StableHlo.binary main_v85 main_arg6 main_v86 ((fun l r => Host.dotGeneral dot_S300000x2_S2x32_S300000x32_1_0_0_1_n_n none l r) : (⟨S300000x2, .f32⟩ : BufTy).Contents (Elt F) → (⟨S2x32, .f32⟩ : BufTy).Contents (Elt F) → (⟨S300000x32, .f32⟩ : BufTy).Contents (Elt F)),
    StableHlo.unary main_arg7 main_v87 (broadcastInDim S1x32 ![1] bcast_S32_S1x32_1 : (⟨S32, .f32⟩ : BufTy).Contents (Elt F) → (⟨S1x32, .f32⟩ : BufTy).Contents (Elt F)),
    StableHlo.unary main_v87 main_v88 (broadcastInDim S300000x32 ![0, 1] bcast_S1x32_S300000x32_0_1 : (⟨S1x32, .f32⟩ : BufTy).Contents (Elt F) → (⟨S300000x32, .f32⟩ : BufTy).Contents (Elt F)),
    StableHlo.binary main_v86 main_v88 main_v89 (addf : (⟨S300000x32, .f32⟩ : BufTy).Contents (Elt F) → (⟨S300000x32, .f32⟩ : BufTy).Contents (Elt F) → (⟨S300000x32, .f32⟩ : BufTy).Contents (Elt F)),
    StableHlo.TRef.nullary main_call4.cst (constant S_ .f32 0x00000000#32),
    StableHlo.TRef.unary main_call4.cst main_call4.v0 (broadcastInDim S300000x32 ![] bcast_S_S300000x32),
    StableHlo.TRef.binary (.of main_v89 : TRef sig ⟨S300000x32, .f32⟩) main_call4.v0 main_call4.v1 maximumf ]
theorem S8_sub : (S8 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
/-- The buffers these operations write. -/
abbrev S8_W : List (Ref sig .tc) := [main_v86, main_v87, main_v88, main_v89, main_call4_cst, main_call4_v0, main_v90]
theorem S8_writes : (S8 : List (HloOp τ sig (Elt F))).Forall fun op => op.writes ⊆ (S8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S8_keep (V : Valuation τ sig (Elt F)) (r : Ref sig .tc) (h : r ∉ S8_W) :
    after S8 V (no_index (Proc.devRef .tc r)) = V (Proc.devRef .tc r) :=
  after_of_writes_sub S8 _ S8_writes h
set_option maxRecDepth 8192 in
set_option maxHeartbeats 4000000 in
theorem S8_main_v90 (V : Valuation τ sig (Elt F)) :
    after S8 V (no_index (Proc.devRef .tc main_v90)) = layer1 (V (Proc.devRef .tc main_v85)) (V (Proc.devRef .tc main_arg6)) (V (Proc.devRef .tc main_arg7)) := by
  after_results_simp <;> rfl

/-- Column means of the first hidden array. -/
abbrev S9a : List (HloOp τ sig (Elt F)) :=
  [ StableHlo.nullary main_cst_6 (constant S_ .f32 0x00000000#32),
    StableHlo.binary main_v90 main_cst_6 main_v91 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.unary main_v91 main_v92 (broadcastInDim S1x32 ![1] bcast_S32_S1x32_1 : (⟨S32, .f32⟩ : BufTy).Contents (Elt F) → (⟨S1x32, .f32⟩ : BufTy).Contents (Elt F)),
    StableHlo.nullary main_cst_7 (constant S_ .f32 0x48927C00#32),
    StableHlo.unary main_cst_7 main_v93 (broadcastInDim S1x32 ![] bcast_S_S1x32 : (⟨S_, .f32⟩ : BufTy).Contents (Elt F) → (⟨S1x32, .f32⟩ : BufTy).Contents (Elt F)),
    StableHlo.binary main_v92 main_v93 main_v94 (Host.divf : (⟨S1x32, .f32⟩ : BufTy).Contents (Elt F) → (⟨S1x32, .f32⟩ : BufTy).Contents (Elt F) → (⟨S1x32, .f32⟩ : BufTy).Contents (Elt F)) ]
theorem S9a_sub : (S9a : List (HloOp τ sig (Elt F))).Forall fun op => op.bufs ⊆ tcRefs τ sig :=
  ⟨nullary_bufs_sub .., binary_bufs_sub .., unary_bufs_sub .., nullary_bufs_sub .., unary_bufs_sub .., binary_bufs_sub ..⟩
/-- The buffers these operations write. -/
abbrev S9a_W : List (Ref sig .tc) := [main_cst_6, main_v91, main_v92, main_cst_7, main_v93, main_v94]
theorem S9a_writes : (S9a : List (HloOp τ sig (Elt F))).Forall fun op => op.writes ⊆ (S9a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S9a_keep (V : Valuation τ sig (Elt F)) (r : Ref sig .tc) (h : r ∉ S9a_W) :
    after S9a V (no_index (Proc.devRef .tc r)) = V (Proc.devRef .tc r) :=
  after_of_writes_sub S9a _ S9a_writes h
set_option maxRecDepth 8192 in
set_option maxHeartbeats 4000000 in
theorem S9a_main_v94 (V : Valuation τ sig (Elt F)) :
    after S9a V (no_index (Proc.devRef .tc main_v94)) = mean32 (V (Proc.devRef .tc main_v90)) := by
  after_results_simp <;> rfl

/-- Column variances of the first hidden array. -/
abbrev S9b : List (HloOp τ sig (Elt F)) :=
  [ StableHlo.nullary main_c_8 (constantI S_ 32 0#32),
    StableHlo.TRef.nullary main_call5.cst (constant S_ .f32 0x00000000#32),
    StableHlo.TRef.binary (.of main_v90 : TRef sig ⟨S300000x32, .f32⟩) main_call5.cst main_call5.v0 (fun x v => Host.reduceAdd x v reducesTo_S300000x32_S32_d0 h_S_),
    StableHlo.TRef.unary main_call5.v0 main_call5.v1 (broadcastInDim S1x32 ![1] bcast_S32_S1x32_1),
    StableHlo.TRef.nullary main_call5.cst_0 (constant S_ .f32 0x48927C00#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S300000x32 ![0, 1] bcast_S1x32_S300000x32_0_1),
    StableHlo.TRef.binary (.of main_v90 : TRef sig ⟨S300000x32, .f32⟩) main_call5.v4 main_call5.v5 subf,
    StableHlo.TRef.binary main_call5.v5 main_call5.v5 main_call5.v6 mulf,
    StableHlo.TRef.unary (.of main_c_8 : TRef sig ⟨S_, .i32⟩) main_call5.v7 (sitofp .f32),
    StableHlo.TRef.nullary main_call5.cst_1 (constant S_ .f32 0x48927C00#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S300000x32_S32_d0 h_S_),
    StableHlo.TRef.unary main_call5.v9 main_call5.v10 (broadcastInDim S1x32 ![1] bcast_S32_S1x32_1),
    StableHlo.TRef.unary main_call5.v8 main_call5.v11 (broadcastInDim S1x32 ![] bcast_S_S1x32),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S1x32 ![] bcast_S_S1x32),
    StableHlo.TRef.ternary main_call5.v13 main_call5.v12 main_call5.call0.v1 main_call5.call0.v2 (fun p a b => select (broadcastInDim S1x32 ![] bcast_S_S1x32 p) a b) ]
theorem S9b_sub : (S9b : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- The buffers these operations write. -/
abbrev S9b_W : List (Ref sig .tc) := [main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v95]
theorem S9b_writes : (S9b : List (HloOp τ sig (Elt F))).Forall fun op => op.writes ⊆ (S9b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S9b_keep (V : Valuation τ sig (Elt F)) (r : Ref sig .tc) (h : r ∉ S9b_W) :
    after S9b V (no_index (Proc.devRef .tc r)) = V (Proc.devRef .tc r) :=
  after_of_writes_sub S9b _ S9b_writes h
set_option maxRecDepth 8192 in
set_option maxHeartbeats 4000000 in
theorem S9b_main_v95 (V : Valuation τ sig (Elt F)) :
    after S9b V (no_index (Proc.devRef .tc main_v95)) = var32 (V (Proc.devRef .tc main_v90)) := by
  after_results_simp <;> rfl

/-- The first hidden array normalised, up to the last addition. -/
abbrev S9c1 : List (HloOp τ sig (Elt F)) :=
  [ StableHlo.unary main_v94 main_v96 (broadcastInDim S300000x32 ![0, 1] bcast_S1x32_S300000x32_0_1 : (⟨S1x32, .f32⟩ : BufTy).Contents (Elt F) → (⟨S300000x32, .f32⟩ : BufTy).Contents (Elt F)),
    StableHlo.binary main_v90 main_v96 main_v97 (subf : (⟨S300000x32, .f32⟩ : BufTy).Contents (Elt F) → (⟨S300000x32, .f32⟩ : BufTy).Contents (Elt F) → (⟨S300000x32, .f32⟩ : BufTy).Contents (Elt F)),
    StableHlo.nullary main_cst_9 (constant S_ .f32 0x3727C5AC#32),
    StableHlo.unary main_cst_9 main_v98 (broadcastInDim S1x32 ![] bcast_S_S1x32 : (⟨S_, .f32⟩ : BufTy).Contents (Elt F) → (⟨S1x32, .f32⟩ : BufTy).Contents (Elt F)),
    StableHlo.binary main_v95 main_v98 main_v99 (addf : (⟨S1x32, .f32⟩ : BufTy).Contents (Elt F) → (⟨S1x32, .f32⟩ : BufTy).Contents (Elt F) → (⟨S1x32, .f32⟩ : BufTy).Contents (Elt F)),
    StableHlo.unary main_v99 main_v100 (Host.sqrt : (⟨S1x32, .f32⟩ : BufTy).Contents (Elt F) → (⟨S1x32, .f32⟩ : BufTy).Contents (Elt F)),
    StableHlo.unary main_v100 main_v101 (broadcastInDim S300000x32 ![0, 1] bcast_S1x32_S300000x32_0_1 : (⟨S1x32, .f32⟩ : BufTy).Contents (Elt F) → (⟨S300000x32, .f32⟩ : BufTy).Contents (Elt F)),
    StableHlo.binary main_v97 main_v101 main_v102 (Host.divf : (⟨S300000x32, .f32⟩ : BufTy).Contents (Elt F) → (⟨S300000x32, .f32⟩ : BufTy).Contents (Elt F) → (⟨S300000x32, .f32⟩ : BufTy).Contents (Elt F)),
    StableHlo.unary main_arg8 main_v103 (broadcastInDim S1x32 ![1] bcast_S32_S1x32_1 : (⟨S32, .f32⟩ : BufTy).Contents (Elt F) → (⟨S1x32, .f32⟩ : BufTy).Contents (Elt F)),
    StableHlo.unary main_v103 main_v104 (broadcastInDim S300000x32 ![0, 1] bcast_S1x32_S300000x32_0_1 : (⟨S1x32, .f32⟩ : BufTy).Contents (Elt F) → (⟨S300000x32, .f32⟩ : BufTy).Contents (Elt F)),
    StableHlo.binary main_v102 main_v104 main_v105 (mulf : (⟨S300000x32, .f32⟩ : BufTy).Contents (Elt F) → (⟨S300000x32, .f32⟩ : BufTy).Contents (Elt F) → (⟨S300000x32, .f32⟩ : BufTy).Contents (Elt F)),
    StableHlo.unary main_arg9 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S300000x32 ![0, 1] bcast_S1x32_S300000x32_0_1 : (⟨S1x32, .f32⟩ : BufTy).Contents (Elt F) → (⟨S300000x32, .f32⟩ : BufTy).Contents (Elt F)) ]
theorem S9c1_sub : (S9c1 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩
/-- The buffers these operations write. -/
abbrev S9c1_W : List (Ref sig .tc) := [main_v96, main_v97, main_cst_9, main_v98, main_v99, main_v100, main_v101, main_v102, main_v103, main_v104, main_v105, main_v106, main_v107]
theorem S9c1_writes : (S9c1 : List (HloOp τ sig (Elt F))).Forall fun op => op.writes ⊆ (S9c1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S9c1_keep (V : Valuation τ sig (Elt F)) (r : Ref sig .tc) (h : r ∉ S9c1_W) :
    after S9c1 V (no_index (Proc.devRef .tc r)) = V (Proc.devRef .tc r) :=
  after_of_writes_sub S9c1 _ S9c1_writes h

/-- The last addition of that normalisation. -/
abbrev S9c2 : List (HloOp τ sig (Elt F)) :=
  [ StableHlo.binary main_v105 main_v107 main_v108 (addf : (⟨S300000x32, .f32⟩ : BufTy).Contents (Elt F) → (⟨S300000x32, .f32⟩ : BufTy).Contents (Elt F) → (⟨S300000x32, .f32⟩ : BufTy).Contents (Elt F)) ]
theorem S9c2_sub : (S9c2 : List (HloOp τ sig (Elt F))).Forall fun op => op.bufs ⊆ tcRefs τ sig :=
  binary_bufs_sub ..
/-- The buffers these operations write. -/
abbrev S9c2_W : List (Ref sig .tc) := [main_v108]
theorem S9c2_writes : (S9c2 : List (HloOp τ sig (Elt F))).Forall fun op => op.writes ⊆ (S9c2_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer these operations do not write keeps its contents. -/
theorem S9c2_keep (V : Valuation τ sig (Elt F)) (r : Ref sig .tc) (h : r ∉ S9c2_W) :
    after S9c2 V (no_index (Proc.devRef .tc r)) = V (Proc.devRef .tc r) :=
  after_of_writes_sub S9c2 _ S9c2_writes h
set_option maxRecDepth 8192 in
set_option maxHeartbeats 4000000 in
theorem S9c2_main_v108 (V : Valuation τ sig (Elt F)) :
    after S9c2 (after S9c1 V) (no_index (Proc.devRef .tc main_v108)) = bn32 (V (Proc.devRef .tc main_v90)) (V (Proc.devRef .tc main_v94)) (V (Proc.devRef .tc main_v95)) (V (Proc.devRef .tc main_arg8)) (V (Proc.devRef .tc main_arg9)) := by
  after_results_simp <;> rfl

/-- The second affine map, negative entries replaced by zero. -/
abbrev S10 : List (HloOp τ sig (Elt F)) :=
  [ StableHlo.binary main_v108 main_arg10 main_v109 ((fun l r => Host.dotGeneral dot_S300000x32_S32x32_S300000x32_1_0_0_1_n_n none l r) : (⟨S300000x32, .f32⟩ : BufTy).Contents (Elt F) → (⟨S32x32, .f32⟩ : BufTy).Contents (Elt F) → (⟨S300000x32, .f32⟩ : BufTy).Contents (Elt F)),
    StableHlo.unary main_arg11 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S300000x32 ![0, 1] bcast_S1x32_S300000x32_0_1 : (⟨S1x32, .f32⟩ : BufTy).Contents (Elt F) → (⟨S300000x32, .f32⟩ : BufTy).Contents (Elt F)),
    StableHlo.binary main_v109 main_v111 main_v112 (addf : (⟨S300000x32, .f32⟩ : BufTy).Contents (Elt F) → (⟨S300000x32, .f32⟩ : BufTy).Contents (Elt F) → (⟨S300000x32, .f32⟩ : BufTy).Contents (Elt F)),
    StableHlo.TRef.nullary main_call6.cst (constant S_ .f32 0x00000000#32),
    StableHlo.TRef.unary main_call6.cst main_call6.v0 (broadcastInDim S300000x32 ![] bcast_S_S300000x32),
    StableHlo.TRef.binary (.of main_v112 : TRef sig ⟨S300000x32, .f32⟩) main_call6.v0 main_call6.v1 maximumf ]
theorem S10_sub : (S10 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
/-- The buffers these operations write. -/
abbrev S10_W : List (Ref sig .tc) := [main_v109, main_v110, main_v111, main_v112, main_call6_cst, main_call6_v0, main_v113]
theorem S10_writes : (S10 : List (HloOp τ sig (Elt F))).Forall fun op => op.writes ⊆ (S10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S10_keep (V : Valuation τ sig (Elt F)) (r : Ref sig .tc) (h : r ∉ S10_W) :
    after S10 V (no_index (Proc.devRef .tc r)) = V (Proc.devRef .tc r) :=
  after_of_writes_sub S10 _ S10_writes h
set_option maxRecDepth 8192 in
set_option maxHeartbeats 4000000 in
theorem S10_main_v113 (V : Valuation τ sig (Elt F)) :
    after S10 V (no_index (Proc.devRef .tc main_v113)) = layer2 (V (Proc.devRef .tc main_v108)) (V (Proc.devRef .tc main_arg10)) (V (Proc.devRef .tc main_arg11)) := by
  after_results_simp <;> rfl

/-- Column means of the second hidden array. -/
abbrev S11a : List (HloOp τ sig (Elt F)) :=
  [ StableHlo.nullary main_cst_10 (constant S_ .f32 0x00000000#32),
    StableHlo.binary main_v113 main_cst_10 main_v114 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.unary main_v114 main_v115 (broadcastInDim S1x32 ![1] bcast_S32_S1x32_1 : (⟨S32, .f32⟩ : BufTy).Contents (Elt F) → (⟨S1x32, .f32⟩ : BufTy).Contents (Elt F)),
    StableHlo.nullary main_cst_11 (constant S_ .f32 0x48927C00#32),
    StableHlo.unary main_cst_11 main_v116 (broadcastInDim S1x32 ![] bcast_S_S1x32 : (⟨S_, .f32⟩ : BufTy).Contents (Elt F) → (⟨S1x32, .f32⟩ : BufTy).Contents (Elt F)),
    StableHlo.binary main_v115 main_v116 main_v117 (Host.divf : (⟨S1x32, .f32⟩ : BufTy).Contents (Elt F) → (⟨S1x32, .f32⟩ : BufTy).Contents (Elt F) → (⟨S1x32, .f32⟩ : BufTy).Contents (Elt F)) ]
theorem S11a_sub : (S11a : List (HloOp τ sig (Elt F))).Forall fun op => op.bufs ⊆ tcRefs τ sig :=
  ⟨nullary_bufs_sub .., binary_bufs_sub .., unary_bufs_sub .., nullary_bufs_sub .., unary_bufs_sub .., binary_bufs_sub ..⟩
/-- The buffers these operations write. -/
abbrev S11a_W : List (Ref sig .tc) := [main_cst_10, main_v114, main_v115, main_cst_11, main_v116, main_v117]
theorem S11a_writes : (S11a : List (HloOp τ sig (Elt F))).Forall fun op => op.writes ⊆ (S11a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S11a_keep (V : Valuation τ sig (Elt F)) (r : Ref sig .tc) (h : r ∉ S11a_W) :
    after S11a V (no_index (Proc.devRef .tc r)) = V (Proc.devRef .tc r) :=
  after_of_writes_sub S11a _ S11a_writes h
set_option maxRecDepth 8192 in
set_option maxHeartbeats 4000000 in
theorem S11a_main_v117 (V : Valuation τ sig (Elt F)) :
    after S11a V (no_index (Proc.devRef .tc main_v117)) = mean32 (V (Proc.devRef .tc main_v113)) := by
  after_results_simp <;> rfl

/-- Column variances of the second hidden array. -/
abbrev S11b : List (HloOp τ sig (Elt F)) :=
  [ StableHlo.nullary main_c_12 (constantI S_ 32 0#32),
    StableHlo.TRef.nullary main_call7.cst (constant S_ .f32 0x00000000#32),
    StableHlo.TRef.binary (.of main_v113 : TRef sig ⟨S300000x32, .f32⟩) main_call7.cst main_call7.v0 (fun x v => Host.reduceAdd x v reducesTo_S300000x32_S32_d0 h_S_),
    StableHlo.TRef.unary main_call7.v0 main_call7.v1 (broadcastInDim S1x32 ![1] bcast_S32_S1x32_1),
    StableHlo.TRef.nullary main_call7.cst_0 (constant S_ .f32 0x48927C00#32),
    StableHlo.TRef.unary main_call7.cst_0 main_call7.v2 (broadcastInDim S1x32 ![] bcast_S_S1x32),
    StableHlo.TRef.binary main_call7.v1 main_call7.v2 main_call7.v3 Host.divf,
    StableHlo.TRef.unary main_call7.v3 main_call7.v4 (broadcastInDim S300000x32 ![0, 1] bcast_S1x32_S300000x32_0_1),
    StableHlo.TRef.binary (.of main_v113 : TRef sig ⟨S300000x32, .f32⟩) main_call7.v4 main_call7.v5 subf,
    StableHlo.TRef.binary main_call7.v5 main_call7.v5 main_call7.v6 mulf,
    StableHlo.TRef.unary (.of main_c_12 : TRef sig ⟨S_, .i32⟩) main_call7.v7 (sitofp .f32),
    StableHlo.TRef.nullary main_call7.cst_1 (constant S_ .f32 0x48927C00#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S300000x32_S32_d0 h_S_),
    StableHlo.TRef.unary main_call7.v9 main_call7.v10 (broadcastInDim S1x32 ![1] bcast_S32_S1x32_1),
    StableHlo.TRef.unary main_call7.v8 main_call7.v11 (broadcastInDim S1x32 ![] bcast_S_S1x32),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S1x32 ![] bcast_S_S1x32),
    StableHlo.TRef.ternary main_call7.v13 main_call7.v12 main_call7.call0.v1 main_call7.call0.v2 (fun p a b => select (broadcastInDim S1x32 ![] bcast_S_S1x32 p) a b) ]
theorem S11b_sub : (S11b : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- The buffers these operations write. -/
abbrev S11b_W : List (Ref sig .tc) := [main_c_12, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v118]
theorem S11b_writes : (S11b : List (HloOp τ sig (Elt F))).Forall fun op => op.writes ⊆ (S11b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S11b_keep (V : Valuation τ sig (Elt F)) (r : Ref sig .tc) (h : r ∉ S11b_W) :
    after S11b V (no_index (Proc.devRef .tc r)) = V (Proc.devRef .tc r) :=
  after_of_writes_sub S11b _ S11b_writes h
set_option maxRecDepth 8192 in
set_option maxHeartbeats 4000000 in
theorem S11b_main_v118 (V : Valuation τ sig (Elt F)) :
    after S11b V (no_index (Proc.devRef .tc main_v118)) = var32 (V (Proc.devRef .tc main_v113)) := by
  after_results_simp <;> rfl

/-- The second hidden array normalised. -/
abbrev S11c : List (HloOp τ sig (Elt F)) :=
  [ StableHlo.unary main_v117 main_v119 (broadcastInDim S300000x32 ![0, 1] bcast_S1x32_S300000x32_0_1 : (⟨S1x32, .f32⟩ : BufTy).Contents (Elt F) → (⟨S300000x32, .f32⟩ : BufTy).Contents (Elt F)),
    StableHlo.binary main_v113 main_v119 main_v120 (subf : (⟨S300000x32, .f32⟩ : BufTy).Contents (Elt F) → (⟨S300000x32, .f32⟩ : BufTy).Contents (Elt F) → (⟨S300000x32, .f32⟩ : BufTy).Contents (Elt F)),
    StableHlo.nullary main_cst_13 (constant S_ .f32 0x3727C5AC#32),
    StableHlo.unary main_cst_13 main_v121 (broadcastInDim S1x32 ![] bcast_S_S1x32 : (⟨S_, .f32⟩ : BufTy).Contents (Elt F) → (⟨S1x32, .f32⟩ : BufTy).Contents (Elt F)),
    StableHlo.binary main_v118 main_v121 main_v122 (addf : (⟨S1x32, .f32⟩ : BufTy).Contents (Elt F) → (⟨S1x32, .f32⟩ : BufTy).Contents (Elt F) → (⟨S1x32, .f32⟩ : BufTy).Contents (Elt F)),
    StableHlo.unary main_v122 main_v123 (Host.sqrt : (⟨S1x32, .f32⟩ : BufTy).Contents (Elt F) → (⟨S1x32, .f32⟩ : BufTy).Contents (Elt F)),
    StableHlo.unary main_v123 main_v124 (broadcastInDim S300000x32 ![0, 1] bcast_S1x32_S300000x32_0_1 : (⟨S1x32, .f32⟩ : BufTy).Contents (Elt F) → (⟨S300000x32, .f32⟩ : BufTy).Contents (Elt F)),
    StableHlo.binary main_v120 main_v124 main_v125 (Host.divf : (⟨S300000x32, .f32⟩ : BufTy).Contents (Elt F) → (⟨S300000x32, .f32⟩ : BufTy).Contents (Elt F) → (⟨S300000x32, .f32⟩ : BufTy).Contents (Elt F)),
    StableHlo.unary main_arg12 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S300000x32 ![0, 1] bcast_S1x32_S300000x32_0_1 : (⟨S1x32, .f32⟩ : BufTy).Contents (Elt F) → (⟨S300000x32, .f32⟩ : BufTy).Contents (Elt F)),
    StableHlo.binary main_v125 main_v127 main_v128 (mulf : (⟨S300000x32, .f32⟩ : BufTy).Contents (Elt F) → (⟨S300000x32, .f32⟩ : BufTy).Contents (Elt F) → (⟨S300000x32, .f32⟩ : BufTy).Contents (Elt F)),
    StableHlo.unary main_arg13 main_v129 (broadcastInDim S1x32 ![1] bcast_S32_S1x32_1 : (⟨S32, .f32⟩ : BufTy).Contents (Elt F) → (⟨S1x32, .f32⟩ : BufTy).Contents (Elt F)),
    StableHlo.unary main_v129 main_v130 (broadcastInDim S300000x32 ![0, 1] bcast_S1x32_S300000x32_0_1 : (⟨S1x32, .f32⟩ : BufTy).Contents (Elt F) → (⟨S300000x32, .f32⟩ : BufTy).Contents (Elt F)),
    StableHlo.binary main_v128 main_v130 main_v131 (addf : (⟨S300000x32, .f32⟩ : BufTy).Contents (Elt F) → (⟨S300000x32, .f32⟩ : BufTy).Contents (Elt F) → (⟨S300000x32, .f32⟩ : BufTy).Contents (Elt F)) ]
theorem S11c_sub : (S11c : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- The buffers these operations write. -/
abbrev S11c_W : List (Ref sig .tc) := [main_v119, main_v120, main_cst_13, main_v121, main_v122, main_v123, main_v124, main_v125, main_v126, main_v127, main_v128, main_v129, main_v130, main_v131]
theorem S11c_writes : (S11c : List (HloOp τ sig (Elt F))).Forall fun op => op.writes ⊆ (S11c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S11c_keep (V : Valuation τ sig (Elt F)) (r : Ref sig .tc) (h : r ∉ S11c_W) :
    after S11c V (no_index (Proc.devRef .tc r)) = V (Proc.devRef .tc r) :=
  after_of_writes_sub S11c _ S11c_writes h
set_option maxRecDepth 8192 in
set_option maxHeartbeats 4000000 in
theorem S11c_main_v131 (V : Valuation τ sig (Elt F)) :
    after S11c V (no_index (Proc.devRef .tc main_v131)) = bn32 (V (Proc.devRef .tc main_v113)) (V (Proc.devRef .tc main_v117)) (V (Proc.devRef .tc main_v118)) (V (Proc.devRef .tc main_arg12)) (V (Proc.devRef .tc main_arg13)) := by
  after_results_simp <;> rfl

/-- The third affine map, negative entries replaced by zero. -/
abbrev S12 : List (HloOp τ sig (Elt F)) :=
  [ StableHlo.binary main_v131 main_arg14 main_v132 ((fun l r => Host.dotGeneral dot_S300000x32_S32x64_S300000x64_1_0_0_1_n_n none l r) : (⟨S300000x32, .f32⟩ : BufTy).Contents (Elt F) → (⟨S32x64, .f32⟩ : BufTy).Contents (Elt F) → (⟨S300000x64, .f32⟩ : BufTy).Contents (Elt F)),
    StableHlo.unary main_arg15 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S300000x64 ![0, 1] bcast_S1x64_S300000x64_0_1 : (⟨S1x64, .f32⟩ : BufTy).Contents (Elt F) → (⟨S300000x64, .f32⟩ : BufTy).Contents (Elt F)),
    StableHlo.binary main_v132 main_v134 main_v135 (addf : (⟨S300000x64, .f32⟩ : BufTy).Contents (Elt F) → (⟨S300000x64, .f32⟩ : BufTy).Contents (Elt F) → (⟨S300000x64, .f32⟩ : BufTy).Contents (Elt F)),
    StableHlo.TRef.nullary main_call8.cst (constant S_ .f32 0x00000000#32),
    StableHlo.TRef.unary main_call8.cst main_call8.v0 (broadcastInDim S300000x64 ![] bcast_S_S300000x64),
    StableHlo.TRef.binary (.of main_v135 : TRef sig ⟨S300000x64, .f32⟩) main_call8.v0 main_call8.v1 maximumf ]
theorem S12_sub : (S12 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
/-- The buffers these operations write. -/
abbrev S12_W : List (Ref sig .tc) := [main_v132, main_v133, main_v134, main_v135, main_call8_cst, main_call8_v0, main_v136]
theorem S12_writes : (S12 : List (HloOp τ sig (Elt F))).Forall fun op => op.writes ⊆ (S12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S12_keep (V : Valuation τ sig (Elt F)) (r : Ref sig .tc) (h : r ∉ S12_W) :
    after S12 V (no_index (Proc.devRef .tc r)) = V (Proc.devRef .tc r) :=
  after_of_writes_sub S12 _ S12_writes h
set_option maxRecDepth 8192 in
set_option maxHeartbeats 4000000 in
theorem S12_main_v136 (V : Valuation τ sig (Elt F)) :
    after S12 V (no_index (Proc.devRef .tc main_v136)) = layer3 (V (Proc.devRef .tc main_v131)) (V (Proc.devRef .tc main_arg14)) (V (Proc.devRef .tc main_arg15)) := by
  after_results_simp <;> rfl

/-- Column means of the third hidden array. -/
abbrev S13a : List (HloOp τ sig (Elt F)) :=
  [ StableHlo.nullary main_cst_14 (constant S_ .f32 0x00000000#32),
    StableHlo.binary main_v136 main_cst_14 main_v137 ((fun x v => Host.reduceAdd x v reducesTo_S300000x64_S64_d0 h_S_) : (⟨S300000x64, .f32⟩ : BufTy).Contents (Elt F) → (⟨S_, .f32⟩ : BufTy).Contents (Elt F) → (⟨S64, .f32⟩ : BufTy).Contents (Elt F)),
    StableHlo.unary main_v137 main_v138 (broadcastInDim S1x64 ![1] bcast_S64_S1x64_1 : (⟨S64, .f32⟩ : BufTy).Contents (Elt F) → (⟨S1x64, .f32⟩ : BufTy).Contents (Elt F)),
    StableHlo.nullary main_cst_15 (constant S_ .f32 0x48927C00#32),
    StableHlo.unary main_cst_15 main_v139 (broadcastInDim S1x64 ![] bcast_S_S1x64 : (⟨S_, .f32⟩ : BufTy).Contents (Elt F) → (⟨S1x64, .f32⟩ : BufTy).Contents (Elt F)),
    StableHlo.binary main_v138 main_v139 main_v140 (Host.divf : (⟨S1x64, .f32⟩ : BufTy).Contents (Elt F) → (⟨S1x64, .f32⟩ : BufTy).Contents (Elt F) → (⟨S1x64, .f32⟩ : BufTy).Contents (Elt F)) ]
theorem S13a_sub : (S13a : List (HloOp τ sig (Elt F))).Forall fun op => op.bufs ⊆ tcRefs τ sig :=
  ⟨nullary_bufs_sub .., binary_bufs_sub .., unary_bufs_sub .., nullary_bufs_sub .., unary_bufs_sub .., binary_bufs_sub ..⟩
/-- The buffers these operations write. -/
abbrev S13a_W : List (Ref sig .tc) := [main_cst_14, main_v137, main_v138, main_cst_15, main_v139, main_v140]
theorem S13a_writes : (S13a : List (HloOp τ sig (Elt F))).Forall fun op => op.writes ⊆ (S13a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S13a_keep (V : Valuation τ sig (Elt F)) (r : Ref sig .tc) (h : r ∉ S13a_W) :
    after S13a V (no_index (Proc.devRef .tc r)) = V (Proc.devRef .tc r) :=
  after_of_writes_sub S13a _ S13a_writes h
set_option maxRecDepth 8192 in
set_option maxHeartbeats 4000000 in
theorem S13a_main_v140 (V : Valuation τ sig (Elt F)) :
    after S13a V (no_index (Proc.devRef .tc main_v140)) = mean64 (V (Proc.devRef .tc main_v136)) := by
  after_results_simp <;> rfl

/-- Column variances of the third hidden array. -/
abbrev S13b : List (HloOp τ sig (Elt F)) :=
  [ StableHlo.nullary main_c_16 (constantI S_ 32 0#32),
    StableHlo.TRef.nullary main_call9.cst (constant S_ .f32 0x00000000#32),
    StableHlo.TRef.binary (.of main_v136 : TRef sig ⟨S300000x64, .f32⟩) main_call9.cst main_call9.v0 (fun x v => Host.reduceAdd x v reducesTo_S300000x64_S64_d0 h_S_),
    StableHlo.TRef.unary main_call9.v0 main_call9.v1 (broadcastInDim S1x64 ![1] bcast_S64_S1x64_1),
    StableHlo.TRef.nullary main_call9.cst_0 (constant S_ .f32 0x48927C00#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S300000x64 ![0, 1] bcast_S1x64_S300000x64_0_1),
    StableHlo.TRef.binary (.of main_v136 : TRef sig ⟨S300000x64, .f32⟩) main_call9.v4 main_call9.v5 subf,
    StableHlo.TRef.binary main_call9.v5 main_call9.v5 main_call9.v6 mulf,
    StableHlo.TRef.unary (.of main_c_16 : TRef sig ⟨S_, .i32⟩) main_call9.v7 (sitofp .f32),
    StableHlo.TRef.nullary main_call9.cst_1 (constant S_ .f32 0x48927C00#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S300000x64_S64_d0 h_S_),
    StableHlo.TRef.unary main_call9.v9 main_call9.v10 (broadcastInDim S1x64 ![1] bcast_S64_S1x64_1),
    StableHlo.TRef.unary main_call9.v8 main_call9.v11 (broadcastInDim S1x64 ![] bcast_S_S1x64),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S1x64 ![] bcast_S_S1x64),
    StableHlo.TRef.ternary main_call9.v13 main_call9.v12 main_call9.call0.v1 main_call9.call0.v2 (fun p a b => select (broadcastInDim S1x64 ![] bcast_S_S1x64 p) a b) ]
theorem S13b_sub : (S13b : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
/-- The buffers these operations write. -/
abbrev S13b_W : List (Ref sig .tc) := [main_c_16, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v141]
theorem S13b_writes : (S13b : List (HloOp τ sig (Elt F))).Forall fun op => op.writes ⊆ (S13b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S13b_keep (V : Valuation τ sig (Elt F)) (r : Ref sig .tc) (h : r ∉ S13b_W) :
    after S13b V (no_index (Proc.devRef .tc r)) = V (Proc.devRef .tc r) :=
  after_of_writes_sub S13b _ S13b_writes h
set_option maxRecDepth 8192 in
set_option maxHeartbeats 4000000 in
theorem S13b_main_v141 (V : Valuation τ sig (Elt F)) :
    after S13b V (no_index (Proc.devRef .tc main_v141)) = var64 (V (Proc.devRef .tc main_v136)) := by
  after_results_simp <;> rfl

/-- The third hidden array normalised. -/
abbrev S13c : List (HloOp τ sig (Elt F)) :=
  [ StableHlo.unary main_v140 main_v142 (broadcastInDim S300000x64 ![0, 1] bcast_S1x64_S300000x64_0_1 : (⟨S1x64, .f32⟩ : BufTy).Contents (Elt F) → (⟨S300000x64, .f32⟩ : BufTy).Contents (Elt F)),
    StableHlo.binary main_v136 main_v142 main_v143 (subf : (⟨S300000x64, .f32⟩ : BufTy).Contents (Elt F) → (⟨S300000x64, .f32⟩ : BufTy).Contents (Elt F) → (⟨S300000x64, .f32⟩ : BufTy).Contents (Elt F)),
    StableHlo.nullary main_cst_17 (constant S_ .f32 0x3727C5AC#32),
    StableHlo.unary main_cst_17 main_v144 (broadcastInDim S1x64 ![] bcast_S_S1x64 : (⟨S_, .f32⟩ : BufTy).Contents (Elt F) → (⟨S1x64, .f32⟩ : BufTy).Contents (Elt F)),
    StableHlo.binary main_v141 main_v144 main_v145 (addf : (⟨S1x64, .f32⟩ : BufTy).Contents (Elt F) → (⟨S1x64, .f32⟩ : BufTy).Contents (Elt F) → (⟨S1x64, .f32⟩ : BufTy).Contents (Elt F)),
    StableHlo.unary main_v145 main_v146 (Host.sqrt : (⟨S1x64, .f32⟩ : BufTy).Contents (Elt F) → (⟨S1x64, .f32⟩ : BufTy).Contents (Elt F)),
    StableHlo.unary main_v146 main_v147 (broadcastInDim S300000x64 ![0, 1] bcast_S1x64_S300000x64_0_1 : (⟨S1x64, .f32⟩ : BufTy).Contents (Elt F) → (⟨S300000x64, .f32⟩ : BufTy).Contents (Elt F)),
    StableHlo.binary main_v143 main_v147 main_v148 (Host.divf : (⟨S300000x64, .f32⟩ : BufTy).Contents (Elt F) → (⟨S300000x64, .f32⟩ : BufTy).Contents (Elt F) → (⟨S300000x64, .f32⟩ : BufTy).Contents (Elt F)),
    StableHlo.unary main_arg16 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S300000x64 ![0, 1] bcast_S1x64_S300000x64_0_1 : (⟨S1x64, .f32⟩ : BufTy).Contents (Elt F) → (⟨S300000x64, .f32⟩ : BufTy).Contents (Elt F)),
    StableHlo.binary main_v148 main_v150 main_v151 (mulf : (⟨S300000x64, .f32⟩ : BufTy).Contents (Elt F) → (⟨S300000x64, .f32⟩ : BufTy).Contents (Elt F) → (⟨S300000x64, .f32⟩ : BufTy).Contents (Elt F)),
    StableHlo.unary main_arg17 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S300000x64 ![0, 1] bcast_S1x64_S300000x64_0_1 : (⟨S1x64, .f32⟩ : BufTy).Contents (Elt F) → (⟨S300000x64, .f32⟩ : BufTy).Contents (Elt F)),
    StableHlo.binary main_v151 main_v153 main_v154 (addf : (⟨S300000x64, .f32⟩ : BufTy).Contents (Elt F) → (⟨S300000x64, .f32⟩ : BufTy).Contents (Elt F) → (⟨S300000x64, .f32⟩ : BufTy).Contents (Elt F)) ]
theorem S13c_sub : (S13c : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- The buffers these operations write. -/
abbrev S13c_W : List (Ref sig .tc) := [main_v142, main_v143, main_cst_17, main_v144, main_v145, main_v146, main_v147, main_v148, main_v149, main_v150, main_v151, main_v152, main_v153, main_v154]
theorem S13c_writes : (S13c : List (HloOp τ sig (Elt F))).Forall fun op => op.writes ⊆ (S13c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S13c_keep (V : Valuation τ sig (Elt F)) (r : Ref sig .tc) (h : r ∉ S13c_W) :
    after S13c V (no_index (Proc.devRef .tc r)) = V (Proc.devRef .tc r) :=
  after_of_writes_sub S13c _ S13c_writes h
set_option maxRecDepth 8192 in
set_option maxHeartbeats 4000000 in
theorem S13c_main_v154 (V : Valuation τ sig (Elt F)) :
    after S13c V (no_index (Proc.devRef .tc main_v154)) = bn64 (V (Proc.devRef .tc main_v136)) (V (Proc.devRef .tc main_v140)) (V (Proc.devRef .tc main_v141)) (V (Proc.devRef .tc main_arg16)) (V (Proc.devRef .tc main_arg17)) := by
  after_results_simp <;> rfl

/-- The last affine map, read back as pairs. -/
abbrev S14 : List (HloOp τ sig (Elt F)) :=
  [ StableHlo.binary main_v154 main_arg18 main_v155 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    StableHlo.unary main_arg19 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S300000x64 ![0, 1] bcast_S1x64_S300000x64_0_1 : (⟨S1x64, .f32⟩ : BufTy).Contents (Elt F) → (⟨S300000x64, .f32⟩ : BufTy).Contents (Elt F)),
    StableHlo.binary main_v155 main_v157 main_v158 (addf : (⟨S300000x64, .f32⟩ : BufTy).Contents (Elt F) → (⟨S300000x64, .f32⟩ : BufTy).Contents (Elt F) → (⟨S300000x64, .f32⟩ : BufTy).Contents (Elt F)),
    StableHlo.reshape main_v158 main_v159 rfl shapeCasts_S300000x64_S1000x300x64 ]
theorem S14_sub : (S14 : List (HloOp τ sig (Elt F))).Forall fun op => op.bufs ⊆ tcRefs τ sig :=
  ⟨binary_bufs_sub .., unary_bufs_sub .., unary_bufs_sub .., binary_bufs_sub .., reshape_bufs_sub ..⟩
/-- The buffers these operations write. -/
abbrev S14_W : List (Ref sig .tc) := [main_v155, main_v156, main_v157, main_v158, main_v159]
theorem S14_writes : (S14 : List (HloOp τ sig (Elt F))).Forall fun op => op.writes ⊆ (S14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer these operations do not write keeps its contents. -/
theorem S14_keep (V : Valuation τ sig (Elt F)) (r : Ref sig .tc) (h : r ∉ S14_W) :
    after S14 V (no_index (Proc.devRef .tc r)) = V (Proc.devRef .tc r) :=
  after_of_writes_sub S14 _ S14_writes h
set_option maxRecDepth 8192 in
set_option maxHeartbeats 4000000 in
theorem S14_main_v159 (V : Valuation τ sig (Elt F)) :
    after S14 V (no_index (Proc.devRef .tc main_v159)) = layer4 (V (Proc.devRef .tc main_v154)) (V (Proc.devRef .tc main_arg18)) (V (Proc.devRef .tc main_arg19)) := by
  after_results_simp <;> rfl

/-- The operations of the program's first window. -/
abbrev ops0 : List (HloOp τ sig (Elt F)) := S1 ++ (S23 ++ (S4 ++ (S5)))
/-- The operations of the program's second window. -/
abbrev ops1 : List (HloOp τ sig (Elt F)) := S6 ++ (S7a ++ (S7b ++ (S7c ++ (S8 ++ (S9a ++ (S9b ++ (S9c1)))))))
/-- The operations of the program's third window. -/
abbrev ops2 : List (HloOp τ sig (Elt F)) := S9c2 ++ (S10 ++ (S11a ++ (S11b ++ (S11c ++ (S12 ++ (S13a ++ (S13b ++ (S13c ++ (S14)))))))))
/-- The last window only returns. -/
abbrev ops3 : List (HloOp τ sig (Elt F)) := []
/-- All the operations of the program, in order. -/
abbrev ops : List (HloOp τ sig (Elt F)) := ops0 ++ (ops1 ++ (ops2 ++ ops3))

set_option maxRecDepth 16384 in
set_option maxHeartbeats 4000000 in
theorem main_part0_eq (c : Dev nD) : main_part0 (F := F) c = seq ops0 := by
  simp only [main_part0, fn_norm.body, fn_norm_0.body, fn_clip.body, bind_assoc, pure_bind]
  rfl
set_option maxRecDepth 16384 in
set_option maxHeartbeats 4000000 in
theorem main_part1_eq (c : Dev nD) : main_part1 (F := F) c = seq ops1 := by
  simp only [main_part1, fn_var.body, fn_where.body, fn_relu.body, fn_var_1.body, fn_where_2.body, bind_assoc, pure_bind]
  rfl
set_option maxRecDepth 16384 in
set_option maxHeartbeats 4000000 in
theorem main_part2_eq (c : Dev nD) : main_part2 (F := F) c = seq ops2 := by
  simp only [main_part2, fn_relu.body, fn_var_1.body, fn_where_2.body, fn_relu_3.body, fn_var_4.body, fn_where_5.body, bind_assoc, pure_bind]
  rfl
theorem main_part3_eq (c : Dev nD) : main_part3 (F := F) c = seq ops3 := rfl

/-- The program is the straight line of its operations: window by window, then joined. -/
theorem main_eq (c : Dev nD) : main (F := F) c = seq ops :=
  calc main (F := F) c
      = (main_part0 c >>= fun _ => main_part1 c >>= fun _ => main_part2 c >>= fun _ => main_part3 c) := rfl
    _ = (seq ops0 >>= fun _ => seq ops1 >>= fun _ => seq ops2 >>= fun _ => seq ops3) := by
        rw [main_part0_eq c, main_part1_eq c, main_part2_eq c, main_part3_eq c]
    _ = seq ops := by
        rw [show (ops : List (HloOp τ sig (Elt F))) = ops0 ++ (ops1 ++ (ops2 ++ ops3)) from rfl,
          seq_append ops0, seq_append ops1, seq_append ops2]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' (forall_append' S1_sub (forall_append' S23_sub (forall_append' S4_sub (S5_sub)))) (forall_append' (forall_append' S6_sub (forall_append' S7a_sub (forall_append' S7b_sub (forall_append' S7c_sub (forall_append' S8_sub (forall_append' S9a_sub (forall_append' S9b_sub (S9c1_sub)))))))) (forall_append' (forall_append' S9c2_sub (forall_append' S10_sub (forall_append' S11a_sub (forall_append' S11b_sub (forall_append' S11c_sub (forall_append' S12_sub (forall_append' S13a_sub (forall_append' S13b_sub (forall_append' S13c_sub (S14_sub)))))))))) trivial))

/-- The contents after all the operations are those after the twenty-two lists, one after the other. -/
theorem after_ops (V : Valuation τ sig (Elt F)) :
    after ops V = after S14 (after S13c (after S13b (after S13a (after S12 (after S11c (after S11b (after S11a (after S10 (after S9c2 (after S9c1 (after S9b (after S9a (after S8 (after S7c (after S7b (after S7a (after S6 (after S5 (after S4 (after S23 (after S1 (V)))))))))))))))))))))) := by
  simp only [ops, ops0, ops1, ops2, ops3, after_append', after_nil]

set_option maxRecDepth 16384 in
set_option maxHeartbeats 8000000 in
/-- The result buffer after all the operations: the composition of the stage functions at the argument arrays. -/
theorem out_eq (V : Valuation τ sig (Elt F)) :
    after ops V (Proc.devRef .tc main_v159)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops]
  simp (disch := decide) only [S1_main_v4, S23_main_v11, S4_main_v32, S5_main_v55, S5_main_v56, S6_main_v67, S7a_main_v71, S7b_main_v72, S7c_main_v85, S8_main_v90, S9a_main_v94, S9b_main_v95, S9c2_main_v108, S10_main_v113, S11a_main_v117, S11b_main_v118, S11c_main_v131, S12_main_v136, S13a_main_v140, S13b_main_v141, S13c_main_v154, S14_main_v159, S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
  rfl

set_option maxRecDepth 16384 in
theorem arg0_eq (V : Valuation τ sig (Elt F)) : after ops V (Proc.devRef .tc main_arg0) = V (Proc.devRef .tc main_arg0) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg1_eq (V : Valuation τ sig (Elt F)) : after ops V (Proc.devRef .tc main_arg1) = V (Proc.devRef .tc main_arg1) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg2_eq (V : Valuation τ sig (Elt F)) : after ops V (Proc.devRef .tc main_arg2) = V (Proc.devRef .tc main_arg2) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg3_eq (V : Valuation τ sig (Elt F)) : after ops V (Proc.devRef .tc main_arg3) = V (Proc.devRef .tc main_arg3) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg4_eq (V : Valuation τ sig (Elt F)) : after ops V (Proc.devRef .tc main_arg4) = V (Proc.devRef .tc main_arg4) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg5_eq (V : Valuation τ sig (Elt F)) : after ops V (Proc.devRef .tc main_arg5) = V (Proc.devRef .tc main_arg5) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg6_eq (V : Valuation τ sig (Elt F)) : after ops V (Proc.devRef .tc main_arg6) = V (Proc.devRef .tc main_arg6) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg7_eq (V : Valuation τ sig (Elt F)) : after ops V (Proc.devRef .tc main_arg7) = V (Proc.devRef .tc main_arg7) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg8_eq (V : Valuation τ sig (Elt F)) : after ops V (Proc.devRef .tc main_arg8) = V (Proc.devRef .tc main_arg8) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg9_eq (V : Valuation τ sig (Elt F)) : after ops V (Proc.devRef .tc main_arg9) = V (Proc.devRef .tc main_arg9) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg10_eq (V : Valuation τ sig (Elt F)) : after ops V (Proc.devRef .tc main_arg10) = V (Proc.devRef .tc main_arg10) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg11_eq (V : Valuation τ sig (Elt F)) : after ops V (Proc.devRef .tc main_arg11) = V (Proc.devRef .tc main_arg11) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg12_eq (V : Valuation τ sig (Elt F)) : after ops V (Proc.devRef .tc main_arg12) = V (Proc.devRef .tc main_arg12) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg13_eq (V : Valuation τ sig (Elt F)) : after ops V (Proc.devRef .tc main_arg13) = V (Proc.devRef .tc main_arg13) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg14_eq (V : Valuation τ sig (Elt F)) : after ops V (Proc.devRef .tc main_arg14) = V (Proc.devRef .tc main_arg14) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg15_eq (V : Valuation τ sig (Elt F)) : after ops V (Proc.devRef .tc main_arg15) = V (Proc.devRef .tc main_arg15) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg16_eq (V : Valuation τ sig (Elt F)) : after ops V (Proc.devRef .tc main_arg16) = V (Proc.devRef .tc main_arg16) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg17_eq (V : Valuation τ sig (Elt F)) : after ops V (Proc.devRef .tc main_arg17) = V (Proc.devRef .tc main_arg17) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg18_eq (V : Valuation τ sig (Elt F)) : after ops V (Proc.devRef .tc main_arg18) = V (Proc.devRef .tc main_arg18) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]
set_option maxRecDepth 16384 in
theorem arg19_eq (V : Valuation τ sig (Elt F)) : after ops V (Proc.devRef .tc main_arg19) = V (Proc.devRef .tc main_arg19) := by
  rw [after_ops]
  simp (disch := decide) only [S1_keep, S23_keep, S4_keep, S5_keep, S6_keep, S7a_keep, S7b_keep, S7c_keep, S8_keep, S9a_keep, S9b_keep, S9c1_keep, S9c2_keep, S10_keep, S11a_keep, S11b_keep, S11c_keep, S12_keep, S13a_keep, S13b_keep, S13c_keep, S14_keep]

/-- On every device, for any float values, from any memory with zero counters: every weakly fair execution of the
    program terminates with the result buffer at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v159).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c))⟩)
    (run_seq scopedRefs_eq scopedSems_eq defs main (fun _ => ops) main_eq (fun _ => ops_sub) m ρ)

end Cert.ReferenceIdeal.RefRun

end
-- ==== Proof.RefRead.lean ====
/-
  The stages of the reference computation read at one entry.

  Each stage function is an array expression; here each is read at an index as the plain formula of the entries of its
  operands: a row norm as the square root of a sum of squares, the inner-product matrix as a sum over the 64
  coordinates, the overlap ratio through maxima, minima and products of box corners, a column mean and a column
  variance as sums over the 300000 rows divided by their number, a normalisation as (x - m) / sqrt (v + ε) * g + b, and
  an affine map as a sum over the shared axis plus the bias. Pair (n, j) of the 1000 × 300 pairs is row 300 n + j.
-/
import proofs.«139309_g56014963475156_cont_9to1_m_1179_16_alg».proof.Proof.RefStages
import proofs.«139309_g56014963475156_cont_9to1_m_1179_16_alg».proof.Proof.LibLinearAt

noncomputable section

namespace Cert.ReferenceIdeal.RefRead

open Cert.ReferenceIdeal Cert.ReferenceIdeal.Gen Cert.ReferenceIdeal.RefRun Idealize.ShloMosaic Idealize.ShloMosaic.ValueIdx

/-- A number laid out over every entry of an array reads, at every entry, as that number. -/
theorem splat_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- The float word laid out over an array reads as the number the word denotes. -/
theorem splat_const_apply {t : Shape} (h : S_.BroadcastsInDim t (![] : Fin 0 → Fin t.rank)) (w : BitVec 32) (j : t.Idx) :
    broadcastInDim t ![] h (constant (F := Ideal) S_ .f32 w) j = Ideal.ofBits .f32 w :=
  splat_apply h _ j

/-- The sum of the rows' entries, from an initial value: at row `p`, the initial value plus the sum over the columns. -/
theorem rowSum_apply {M N : Nat} (x : FVec Ideal ⟨2, ![M, N]⟩ .f32) (w : BitVec 32)
    (h' : (⟨2, ![M, N]⟩ : Shape).ReducesTo [1] ⟨1, ![M]⟩) (h : (⟨2, ![M, N]⟩ : Shape).Reduces [1] ⟨1, ![M]⟩)
    (hu : 0 < S_.numel) (p : Fin M) :
    Host.reduceAdd x (constant (F := Ideal) S_ .f32 w) h' hu (ix1 p) = Ideal.ofBits .f32 w + ∑ k : Fin N, x (ix2 p k) := by
  show Ideal.hostReduceAdd h' x (Ideal.ofBits .f32 w) (ix1 p) = _
  rw [Ideal.hostReduceAdd_single h' h]
  refine congrArg (fun s => Ideal.ofBits .f32 w + s) (Finset.sum_congr rfl fun k _ => congrArg x ?_)
  funext a
  match a with
  | ⟨0, _⟩ => rfl
  | ⟨1, _⟩ => rfl

/-- The sum of the columns' entries, from an initial value: at column `q`, the initial value plus the sum over the rows. -/
theorem colSum_apply {M N : Nat} (x : FVec Ideal ⟨2, ![M, N]⟩ .f32) (w : BitVec 32)
    (h' : (⟨2, ![M, N]⟩ : Shape).ReducesTo [0] ⟨1, ![N]⟩) (h : (⟨2, ![M, N]⟩ : Shape).Reduces [0] ⟨1, ![N]⟩)
    (hu : 0 < S_.numel) (q : Fin N) :
    Host.reduceAdd x (constant (F := Ideal) S_ .f32 w) h' hu (ix1 q) = Ideal.ofBits .f32 w + ∑ p : Fin M, x (ix2 p q) := by
  show Ideal.hostReduceAdd h' x (Ideal.ofBits .f32 w) (ix1 q) = _
  rw [Ideal.hostReduceAdd_single h' h]
  refine congrArg (fun s => Ideal.ofBits .f32 w + s) (Finset.sum_congr rfl fun k _ => congrArg x ?_)
  funext a
  match a with
  | ⟨0, _⟩ => rfl
  | ⟨1, _⟩ => rfl

/-- A list of `M` numbers set up as a column reads at row `p` its entry `p`. -/
theorem asCol_apply {α : Type} {M : Nat} (x : (⟨1, ![M]⟩ : Shape).Idx → α)
    (h : (⟨1, ![M]⟩ : Shape).BroadcastsInDim ⟨2, ![M, 1]⟩ ![0]) (hM : M ≠ 1) (p : Fin M) :
    broadcastInDim ⟨2, ![M, 1]⟩ ![0] h x (ix2 p (0 : Fin 1)) = x (ix1 p) :=
  broadcastInDim_apply _ h x _ (ix1 p) fun a => by
    match a with
    | ⟨0, _⟩ => exact (if_neg hM).symm

/-- A list of `N` numbers set up as a row reads at column `q` its entry `q`. -/
theorem asRow_apply {α : Type} {N : Nat} (x : (⟨1, ![N]⟩ : Shape).Idx → α)
    (h : (⟨1, ![N]⟩ : Shape).BroadcastsInDim ⟨2, ![1, N]⟩ ![1]) (hN : N ≠ 1) (q : Fin N) :
    broadcastInDim ⟨2, ![1, N]⟩ ![1] h x (ix2 (0 : Fin 1) q) = x (ix1 q) :=
  broadcastInDim_apply _ h x _ (ix1 q) fun a => by
    match a with
    | ⟨0, _⟩ => exact (if_neg hN).symm

/-- A column repeated along the rows reads at (p, q) the column's entry p. -/
theorem colStretch_apply {α : Type} {M N : Nat} (x : (⟨2, ![M, 1]⟩ : Shape).Idx → α)
    (h : (⟨2, ![M, 1]⟩ : Shape).BroadcastsInDim ⟨2, ![M, N]⟩ ![0, 1]) (hM : M ≠ 1) (p : Fin M) (q : Fin N) :
    broadcastInDim ⟨2, ![M, N]⟩ ![0, 1] h x (ix2 p q) = x (ix2 p (0 : Fin 1)) :=
  broadcastInDim_apply _ h x _ _ fun a => by
    match a with
    | ⟨0, _⟩ => exact (if_neg hM).symm
    | ⟨1, _⟩ => exact (if_pos rfl).symm

/-- A row repeated down the rows reads at (p, q) the row's entry q. -/
theorem rowStretch_apply {α : Type} {M N : Nat} (x : (⟨2, ![1, N]⟩ : Shape).Idx → α)
    (h : (⟨2, ![1, N]⟩ : Shape).BroadcastsInDim ⟨2, ![M, N]⟩ ![0, 1]) (hN : N ≠ 1) (p : Fin M) (q : Fin N) :
    broadcastInDim ⟨2, ![M, N]⟩ ![0, 1] h x (ix2 p q) = x (ix2 (0 : Fin 1) q) :=
  broadcastInDim_apply _ h x _ _ fun a => by
    match a with
    | ⟨0, _⟩ => exact (if_pos rfl).symm
    | ⟨1, _⟩ => exact (if_neg hN).symm

/-- The square root taken entry by entry. -/
theorem hsqrt_apply {s : Shape} (x : FVec Ideal s .f32) (i : s.Idx) : Host.sqrt x i = Ideal.sqrt (x i) := rfl
/-- The quotient taken entry by entry. -/
theorem hdivf_apply {s : Shape} (x y : FVec Ideal s .f32) (i : s.Idx) : Host.divf x y i = Ideal.div (x i) (y i) := rfl

/-- A 1000-by-… array with a middle axis of extent one repeated along it: entry (n, j, k) is entry (n, 0, k). -/
theorem stretchMid_apply {α : Type} {A B C : Nat} (x : (⟨3, ![A, 1, C]⟩ : Shape).Idx → α)
    (h : (⟨3, ![A, 1, C]⟩ : Shape).BroadcastsInDim ⟨3, ![A, B, C]⟩ ![0, 1, 2]) (hA : A ≠ 1) (hC : C ≠ 1)
    (n : Fin A) (j : Fin B) (k : Fin C) :
    broadcastInDim ⟨3, ![A, B, C]⟩ ![0, 1, 2] h x (ix3 n j k) = x (ix3 n (0 : Fin 1) k) :=
  broadcastInDim_apply _ h x _ _ fun a => by
    match a with
    | ⟨0, _⟩ => exact (if_neg hA).symm
    | ⟨1, _⟩ => exact (if_pos rfl).symm
    | ⟨2, _⟩ => exact (if_neg hC).symm

/-- An array with a leading axis of extent one repeated along it: entry (n, j, k) is entry (0, j, k). -/
theorem stretchLead_apply {α : Type} {A B C : Nat} (x : (⟨3, ![1, B, C]⟩ : Shape).Idx → α)
    (h : (⟨3, ![1, B, C]⟩ : Shape).BroadcastsInDim ⟨3, ![A, B, C]⟩ ![0, 1, 2]) (hB : B ≠ 1) (hC : C ≠ 1)
    (n : Fin A) (j : Fin B) (k : Fin C) :
    broadcastInDim ⟨3, ![A, B, C]⟩ ![0, 1, 2] h x (ix3 n j k) = x (ix3 (0 : Fin 1) j k) :=
  broadcastInDim_apply _ h x _ _ fun a => by
    match a with
    | ⟨0, _⟩ => exact (if_pos rfl).symm
    | ⟨1, _⟩ => exact (if_neg hB).symm
    | ⟨2, _⟩ => exact (if_neg hC).symm

/-- A matrix given a middle axis of extent one: entry (n, 0, k) is the matrix's entry (n, k). -/
theorem addMid_apply {α : Type} {A C : Nat} (y : (⟨2, ![A, C]⟩ : Shape).Idx → α)
    (h : (⟨2, ![A, C]⟩ : Shape).BroadcastsInDim ⟨3, ![A, 1, C]⟩ ![0, 2]) (hA : A ≠ 1) (hC : C ≠ 1) (n : Fin A) (k : Fin C) :
    broadcastInDim ⟨3, ![A, 1, C]⟩ ![0, 2] h y (ix3 n (0 : Fin 1) k) = y (ix2 n k) :=
  broadcastInDim_apply _ h y _ _ fun a => by
    match a with
    | ⟨0, _⟩ => exact (if_neg hA).symm
    | ⟨1, _⟩ => exact (if_neg hC).symm

/-- A matrix given a leading axis of extent one: entry (0, j, k) is the matrix's entry (j, k). -/
theorem addLead_apply {α : Type} {B C : Nat} (y : (⟨2, ![B, C]⟩ : Shape).Idx → α)
    (h : (⟨2, ![B, C]⟩ : Shape).BroadcastsInDim ⟨3, ![1, B, C]⟩ ![1, 2]) (hB : B ≠ 1) (hC : C ≠ 1) (j : Fin B) (k : Fin C) :
    broadcastInDim ⟨3, ![1, B, C]⟩ ![1, 2] h y (ix3 (0 : Fin 1) j k) = y (ix2 j k) :=
  broadcastInDim_apply _ h y _ _ fun a => by
    match a with
    | ⟨0, _⟩ => exact (if_neg hB).symm
    | ⟨1, _⟩ => exact (if_neg hC).symm

/-- A matrix given a last axis of extent one: entry (n, j, 0) is the matrix's entry (n, j). -/
theorem addLast_apply {α : Type} {A B : Nat} (y : (⟨2, ![A, B]⟩ : Shape).Idx → α)
    (h : (⟨2, ![A, B]⟩ : Shape).BroadcastsInDim ⟨3, ![A, B, 1]⟩ ![0, 1]) (hA : A ≠ 1) (hB : B ≠ 1) (n : Fin A) (j : Fin B) :
    broadcastInDim ⟨3, ![A, B, 1]⟩ ![0, 1] h y (ix3 n j (0 : Fin 1)) = y (ix2 n j) :=
  broadcastInDim_apply _ h y _ _ fun a => by
    match a with
    | ⟨0, _⟩ => exact (if_neg hA).symm
    | ⟨1, _⟩ => exact (if_neg hB).symm

/-- A last axis of extent one dropped: entry (n, j) is entry (n, j, 0). -/
theorem dropLast_apply {α : Type} {A B : Nat} (x : (⟨3, ![A, B, 1]⟩ : Shape).Idx → α)
    (h : (⟨3, ![A, B, 1]⟩ : Shape).ShapeCasts ⟨2, ![A, B]⟩) (n : Fin A) (j : Fin B) :
    shapeCast ⟨2, ![A, B]⟩ x h (ix2 n j) = x (ix3 n j (0 : Fin 1)) :=
  shapeCast_apply x h _ _ (by
    rw [Shape.rowMajor_val_three, Shape.rowMajor_val_two]
    show (n.val * B + j.val) * 1 + 0 = n.val * B + j.val
    omega)

/-- One layer of the last axis cut out: entry (n, j, 0) of the cut is entry (n, j, k) with k the layer. -/
theorem sliceLast_apply {α : Type} {A B C : Nat} (c : Nat) (X : (⟨3, ![A, B, C]⟩ : Shape).Idx → α)
    (h : (⟨3, ![A, B, C]⟩ : Shape).Slices ![0, 0, c] ⟨3, ![A, B, 1]⟩) (n : Fin A) (j : Fin B) (k : Fin C) (hk : k.val = c) :
    extractStridedSlice ⟨3, ![A, B, 1]⟩ ![0, 0, c] X h (ix3 n j (0 : Fin 1)) = X (ix3 n j k) :=
  extractStridedSlice_apply _ _ _ _ _ fun ax => by
    match ax with
    | ⟨0, _⟩ => exact (Nat.zero_add _).symm
    | ⟨1, _⟩ => exact (Nat.zero_add _).symm
    | ⟨2, _⟩ => exact hk

/-- One column of a matrix as a list: entry n is the matrix's entry (n, k) with k the column. -/
theorem column_apply {α : Type} {A C : Nat} (c : Nat) (X : (⟨2, ![A, C]⟩ : Shape).Idx → α)
    (hs : (⟨2, ![A, C]⟩ : Shape).Slices ![0, c] ⟨2, ![A, 1]⟩) (hc : (⟨2, ![A, 1]⟩ : Shape).ShapeCasts ⟨1, ![A]⟩)
    (n : Fin A) (k : Fin C) (hk : k.val = c) :
    shapeCast ⟨1, ![A]⟩ (extractStridedSlice ⟨2, ![A, 1]⟩ ![0, c] X hs) hc (ix1 n) = X (ix2 n k) :=
  (shapeCast_apply _ hc (ix1 n) (ix2 n (0 : Fin 1)) (by
    rw [Shape.rowMajor_val_two, Shape.rowMajor_val_one]
    show n.val * 1 + 0 = n.val
    omega)).trans (slice2_axis1_apply c X hs n (0 : Fin 1) k (by rw [hk]; rfl))

/-- The row of the 300000-row layout that holds pair (n, j). -/
abbrev pairRow (n : Fin 1000) (j : Fin 300) : Fin 300000 := ⟨300 * n.val + j.val, by have := n.isLt; have := j.isLt; omega⟩

/-- The pairs laid out as rows: row 300 n + j, column k is entry (n, j, k). -/
theorem asRows_apply {α : Type} {C : Nat} (X : (⟨3, ![1000, 300, C]⟩ : Shape).Idx → α)
    (h : (⟨3, ![1000, 300, C]⟩ : Shape).ShapeCasts ⟨2, ![300000, C]⟩) (n : Fin 1000) (j : Fin 300) (k : Fin C) :
    shapeCast ⟨2, ![300000, C]⟩ X h (ix2 (pairRow n j) k) = X (ix3 n j k) :=
  shapeCast_apply X h _ _ (by
    rw [Shape.rowMajor_val_three, Shape.rowMajor_val_two]
    show (n.val * 300 + j.val) * C + k.val = (300 * n.val + j.val) * C + k.val
    rw [Nat.mul_comm 300 n.val])

/-- The rows read back as pairs: entry (n, j, k) is row 300 n + j, column k. -/
theorem asPairs_apply {α : Type} {C : Nat} (X : (⟨2, ![300000, C]⟩ : Shape).Idx → α)
    (h : (⟨2, ![300000, C]⟩ : Shape).ShapeCasts ⟨3, ![1000, 300, C]⟩) (n : Fin 1000) (j : Fin 300) (k : Fin C) :
    shapeCast ⟨3, ![1000, 300, C]⟩ X h (ix3 n j k) = X (ix2 (pairRow n j) k) :=
  shapeCast_apply X h _ _ (by
    rw [Shape.rowMajor_val_three, Shape.rowMajor_val_two]
    show (300 * n.val + j.val) * C + k.val = (n.val * 300 + j.val) * C + k.val
    rw [Nat.mul_comm 300 n.val])

/-- The zero word is the number zero. -/
theorem ofBits_zero' : Ideal.ofBits .f32 0x00000000#32 = 0 := by
  simp [Ideal.ofBits, Ideal.ieee]

/-- The word of the row count is the number 300000. -/
theorem ofBits_count' : Ideal.ofBits .f32 0x48927C00#32 = ((300000 : ℝ) : EReal) := by
  simp [Ideal.ofBits, Ideal.ieee, -EReal.coe_mul]; norm_num

/-! ## Row norms and the inner products -/

theorem rowNormQ_apply (e : FVec Ideal S1000x64 .f32) (n : Fin 1000) :
    rowNormQ e (ix2 n (0 : Fin 1))
      = Ideal.sqrt (Ideal.ofBits .f32 0x00000000#32 + ∑ d : Fin 64, e (ix2 n d) * e (ix2 n d)) := by
  unfold rowNormQ
  show Ideal.sqrt _ = _
  rw [asCol_apply _ bcast_S1000_S1000x1_0 (by decide) n,
    rowSum_apply _ _ reducesTo_S1000x64_S1000_d1 (by decide) h_S_ n]
  rfl

theorem unitQ_apply (e : FVec Ideal S1000x64 .f32) (n : Fin 1000) (d : Fin 64) :
    unitQ e (ix2 n d)
      = Ideal.div (e (ix2 n d)) (max (rowNormQ e (ix2 n (0 : Fin 1))) (Ideal.ofBits .f32 0x322BCC77#32)) := by
  unfold unitQ
  show Ideal.div (e (ix2 n d)) _ = _
  rw [colStretch_apply _ bcast_S1000x1_S1000x64_0_1 (by decide) n d]
  show Ideal.div _ (max _ _) = _
  rw [splat_const_apply]

theorem rowNormK_apply (r : FVec Ideal S300x64 .f32) (j : Fin 300) :
    rowNormK r (ix2 j (0 : Fin 1))
      = Ideal.sqrt (Ideal.ofBits .f32 0x00000000#32 + ∑ d : Fin 64, r (ix2 j d) * r (ix2 j d)) := by
  unfold rowNormK
  show Ideal.sqrt _ = _
  rw [asCol_apply _ bcast_S300_S300x1_0 (by decide) j,
    rowSum_apply _ _ reducesTo_S300x64_S300_d1 (by decide) h_S_ j]
  rfl

theorem unitK_apply (r : FVec Ideal S300x64 .f32) (j : Fin 300) (d : Fin 64) :
    unitK r (ix2 j d)
      = Ideal.div (r (ix2 j d)) (max (rowNormK r (ix2 j (0 : Fin 1))) (Ideal.ofBits .f32 0x322BCC77#32)) := by
  unfold unitK
  show Ideal.div (r (ix2 j d)) _ = _
  rw [colStretch_apply _ bcast_S300x1_S300x64_0_1 (by decide) j d]
  show Ideal.div _ (max _ _) = _
  rw [splat_const_apply]

/-- The inner product of row n of the first normalised set with row j of the second. -/
theorem cosOf_apply (qe : FVec Ideal S1000x64 .f32) (r : FVec Ideal S300x64 .f32) (n : Fin 1000) (j : Fin 300) :
    cosOf qe r (ix2 n j) = ∑ d : Fin 64, qe (ix2 n d) * unitK r (ix2 j d) := by
  unfold cosOf
  rw [Cert.LinearAt.dot_apply 1000 64 300 dot_S1000x64_S64x300_S1000x300_1_0_0_1_n_n rfl qe _ n j]
  refine Finset.sum_congr rfl fun d _ => congrArg (fun t => qe (ix2 n d) * t) ?_
  exact transpose_ix2_apply (unitK r) transposes_S300x64_S64x300_1_0 d j

/-! ## The overlap ratio -/

/-- Coordinate k (0: x, 1: y) of the lower corner of the overlap: the larger of the two boxes' lower corners. -/
theorem cornerLo_apply (a : FVec Ideal S1000x4 .f32) (b : FVec Ideal S300x4 .f32) (n : Fin 1000) (j : Fin 300) (k : Fin 2) :
    cornerLo a b (ix3 n j k)
      = max (a (ix2 n (⟨k.val, by omega⟩ : Fin 4))) (b (ix2 j (⟨k.val, by omega⟩ : Fin 4))) := by
  unfold cornerLo
  rw [maximumf_apply, stretchMid_apply _ bcast_S1000x1x2_S1000x300x2_0_1_2 (by decide) (by decide) n j k,
    addMid_apply _ bcast_S1000x2_S1000x1x2_0_2 (by decide) (by decide) n k,
    stretchLead_apply _ bcast_S1x300x2_S1000x300x2_0_1_2 (by decide) (by decide) n j k,
    addLead_apply _ bcast_S300x2_S1x300x2_1_2 (by decide) (by decide) j k,
    slice2_axis1_apply 0 a slices_S1000x4_S1000x2_0_0 n k (⟨k.val, by omega⟩ : Fin 4) (Nat.zero_add _).symm,
    slice2_axis1_apply 0 b slices_S300x4_S300x2_0_0 j k (⟨k.val, by omega⟩ : Fin 4) (Nat.zero_add _).symm]

/-- Coordinate k of the upper corner of the overlap: the smaller of the two boxes' upper corners. -/
theorem cornerHi_apply (a : FVec Ideal S1000x4 .f32) (b : FVec Ideal S300x4 .f32) (n : Fin 1000) (j : Fin 300) (k : Fin 2) :
    cornerHi a b (ix3 n j k)
      = min (a (ix2 n (⟨2 + k.val, by omega⟩ : Fin 4))) (b (ix2 j (⟨2 + k.val, by omega⟩ : Fin 4))) := by
  unfold cornerHi
  rw [minimumf_apply, stretchMid_apply _ bcast_S1000x1x2_S1000x300x2_0_1_2 (by decide) (by decide) n j k,
    addMid_apply _ bcast_S1000x2_S1000x1x2_0_2 (by decide) (by decide) n k,
    stretchLead_apply _ bcast_S1x300x2_S1000x300x2_0_1_2 (by decide) (by decide) n j k,
    addLead_apply _ bcast_S300x2_S1x300x2_1_2 (by decide) (by decide) j k,
    slice2_axis1_apply 2 a slices_S1000x4_S1000x2_0_2 n k (⟨2 + k.val, by omega⟩ : Fin 4) rfl,
    slice2_axis1_apply 2 b slices_S300x4_S300x2_0_2 j k (⟨2 + k.val, by omega⟩ : Fin 4) rfl]

/-- Width (k = 0) and height (k = 1) of the overlap, not below zero. -/
theorem overlapWH_apply (a : FVec Ideal S1000x4 .f32) (b : FVec Ideal S300x4 .f32) (n : Fin 1000) (j : Fin 300) (k : Fin 2) :
    overlapWH a b (ix3 n j k)
      = max (Ideal.ofBits .f32 0x00000000#32) (cornerHi a b (ix3 n j k) - cornerLo a b (ix3 n j k)) := by
  unfold overlapWH
  rw [maximumf_apply, splat_const_apply, subf_apply]

/-- The overlap area: width times height. -/
theorem interOf_apply (a : FVec Ideal S1000x4 .f32) (b : FVec Ideal S300x4 .f32) (n : Fin 1000) (j : Fin 300) :
    interOf a b (ix2 n j) = overlapWH a b (ix3 n j (0 : Fin 2)) * overlapWH a b (ix3 n j (1 : Fin 2)) := by
  unfold interOf
  rw [mulf_apply, dropLast_apply _ shapeCasts_S1000x300x1_S1000x300 n j, dropLast_apply _ shapeCasts_S1000x300x1_S1000x300 n j,
    sliceLast_apply 0 _ slices_S1000x300x2_S1000x300x1_0_0_0 n j (0 : Fin 2) rfl,
    sliceLast_apply 1 _ slices_S1000x300x2_S1000x300x1_0_0_1 n j (1 : Fin 2) rfl]

/-- The area of box n of the first set. -/
theorem areaA_apply (a : FVec Ideal S1000x4 .f32) (n : Fin 1000) :
    areaA a (ix1 n) = (a (ix2 n (2 : Fin 4)) - a (ix2 n (0 : Fin 4))) * (a (ix2 n (3 : Fin 4)) - a (ix2 n (1 : Fin 4))) := by
  unfold areaA
  rw [mulf_apply, subf_apply, subf_apply,
    column_apply 2 a slices_S1000x4_S1000x1_0_2 shapeCasts_S1000x1_S1000 n (2 : Fin 4) rfl,
    column_apply 0 a slices_S1000x4_S1000x1_0_0 shapeCasts_S1000x1_S1000 n (0 : Fin 4) rfl,
    column_apply 3 a slices_S1000x4_S1000x1_0_3 shapeCasts_S1000x1_S1000 n (3 : Fin 4) rfl,
    column_apply 1 a slices_S1000x4_S1000x1_0_1 shapeCasts_S1000x1_S1000 n (1 : Fin 4) rfl]

/-- The area of box j of the second set. -/
theorem areaB_apply (b : FVec Ideal S300x4 .f32) (j : Fin 300) :
    areaB b (ix1 j) = (b (ix2 j (2 : Fin 4)) - b (ix2 j (0 : Fin 4))) * (b (ix2 j (3 : Fin 4)) - b (ix2 j (1 : Fin 4))) := by
  unfold areaB
  rw [mulf_apply, subf_apply, subf_apply,
    column_apply 2 b slices_S300x4_S300x1_0_2 shapeCasts_S300x1_S300 j (2 : Fin 4) rfl,
    column_apply 0 b slices_S300x4_S300x1_0_0 shapeCasts_S300x1_S300 j (0 : Fin 4) rfl,
    column_apply 3 b slices_S300x4_S300x1_0_3 shapeCasts_S300x1_S300 j (3 : Fin 4) rfl,
    column_apply 1 b slices_S300x4_S300x1_0_1 shapeCasts_S300x1_S300 j (1 : Fin 4) rfl]

theorem areaColOf_apply (a : FVec Ideal S1000x4 .f32) (n : Fin 1000) :
    areaColOf a (ix2 n (0 : Fin 1)) = areaA a (ix1 n) := by
  unfold areaColOf
  rw [asCol_apply _ bcast_S1000_S1000x1_0 (by decide) n]

theorem areaRowOf_apply (b : FVec Ideal S300x4 .f32) (j : Fin 300) :
    areaRowOf b (ix2 (0 : Fin 1) j) = areaB b (ix1 j) := by
  unfold areaRowOf
  rw [asRow_apply _ bcast_S300_S1x300_1 (by decide) j]

/-- Overlap area over the two areas less the overlap plus the small constant. -/
theorem iouOf_apply (ac : FVec Ideal S1000x1 .f32) (ar : FVec Ideal S1x300 .f32) (inter : FVec Ideal S1000x300 .f32)
    (n : Fin 1000) (j : Fin 300) :
    iouOf ac ar inter (ix2 n j)
      = Ideal.div (inter (ix2 n j))
          (ac (ix2 n (0 : Fin 1)) + ar (ix2 (0 : Fin 1) j) - inter (ix2 n j) + Ideal.ofBits .f32 0x3089705F#32) := by
  unfold iouOf
  rw [hdivf_apply, addf_apply, subf_apply, addf_apply, splat_const_apply,
    colStretch_apply _ bcast_S1000x1_S1000x300_0_1 (by decide) n j,
    rowStretch_apply _ bcast_S1x300_S1000x300_0_1 (by decide) n j]

/-- Row 300 n + j of the feature array: the inner product in column 0. -/
theorem featOf_apply_cos (cos : FVec Ideal S1000x300 .f32) (ac : FVec Ideal S1000x1 .f32) (ar : FVec Ideal S1x300 .f32)
    (inter : FVec Ideal S1000x300 .f32) (n : Fin 1000) (j : Fin 300) :
    featOf cos ac ar inter (ix2 (pairRow n j) (0 : Fin 2)) = cos (ix2 n j) := by
  unfold featOf
  rw [asRows_apply _ shapeCasts_S1000x300x2_S300000x2 n j (0 : Fin 2)]
  refine (concatenate_pair_apply_left (t := S1000x300x2) (s₁ := S1000x300x1) (s₂ := S1000x300x1) (2 : Fin 3) _ _ concatenates_S1000x300x1_S1000x300x1_S1000x300x2_d2 (ix3 n j (0 : Fin 2)) rfl
    (ix3 n j (0 : Fin 1)) fun b => by
      match b with
      | ⟨0, _⟩ => rfl
      | ⟨1, _⟩ => rfl
      | ⟨2, _⟩ => rfl).trans ?_
  exact addLast_apply cos bcast_S1000x300_S1000x300x1_0_1 (by decide) (by decide) n j

/-- Row 300 n + j of the feature array: the overlap ratio in column 1. -/
theorem featOf_apply_iou (cos : FVec Ideal S1000x300 .f32) (ac : FVec Ideal S1000x1 .f32) (ar : FVec Ideal S1x300 .f32)
    (inter : FVec Ideal S1000x300 .f32) (n : Fin 1000) (j : Fin 300) :
    featOf cos ac ar inter (ix2 (pairRow n j) (1 : Fin 2)) = iouOf ac ar inter (ix2 n j) := by
  unfold featOf
  rw [asRows_apply _ shapeCasts_S1000x300x2_S300000x2 n j (1 : Fin 2)]
  refine (concatenate_pair_apply_right (t := S1000x300x2) (s₁ := S1000x300x1) (s₂ := S1000x300x1) (2 : Fin 3) _ _ concatenates_S1000x300x1_S1000x300x1_S1000x300x2_d2 (ix3 n j (1 : Fin 2)) rfl rfl
    (ix3 n j (0 : Fin 1)) (fun b hb => by
      match b with
      | ⟨0, _⟩ => rfl
      | ⟨1, _⟩ => rfl
      | ⟨2, _⟩ => exact absurd rfl hb) rfl).trans ?_
  exact addLast_apply (iouOf ac ar inter) bcast_S1000x300_S1000x300x1_0_1 (by decide) (by decide) n j

/-! ## Column statistics and the normalisations -/

/-- The divisor of the variances: the row count less the correction zero, that is, the row count. -/
theorem dofCount_apply : dofCount (F := Ideal) ix0 = Ideal.ofBits .f32 0x48927C00#32 := by
  show Ideal.ofBits .f32 0x48927C00#32 - (((0#32 : BitVec 32).toInt : ℝ) : EReal) = _
  simp

/-- The guard of the variances holds: the divisor is positive. -/
theorem guard_apply : cmpf .ogt (dofCount (F := Ideal)) (constant S_ .f32 0x00000000#32) ix0 = 1#1 := by
  show Ideal.cmp .ogt (dofCount (F := Ideal) ix0) (Ideal.ofBits .f32 0x00000000#32) = 1#1
  rw [dofCount_apply, ofBits_count', ofBits_zero']
  have h : (0 : EReal) < ((300000 : ℝ) : EReal) := by exact_mod_cast (by norm_num : (0 : ℝ) < 300000)
  simp [Ideal.cmp, h]

/-- The mean of column k over the 300000 rows. -/
theorem mean2_apply (x : FVec Ideal S300000x2 .f32) (k : Fin 2) :
    mean2 x (ix2 (0 : Fin 1) k) = Ideal.div (Ideal.ofBits .f32 0x00000000#32 + ∑ p : Fin 300000, x (ix2 p k)) (Ideal.ofBits .f32 0x48927C00#32) := by
  unfold mean2
  rw [hdivf_apply, splat_const_apply, asRow_apply _ bcast_S2_S1x2_1 (by decide) k,
    colSum_apply _ _ reducesTo_S300000x2_S2_d0 (by decide) h_S_ k]

/-- An entry less the mean of its column. -/
theorem dev2_apply (x : FVec Ideal S300000x2 .f32) (p : Fin 300000) (k : Fin 2) :
    dev2 x (ix2 p k) = x (ix2 p k) - mean2 x (ix2 (0 : Fin 1) k) := by
  unfold dev2
  rw [subf_apply, rowStretch_apply _ bcast_S1x2_S300000x2_0_1 (by decide) p k]

/-- The variance of column k: the guard on a positive divisor holds (the divisor is the row count less zero), so the value is
    the sum of the squared deviations over the row count. -/
theorem var2_apply (x : FVec Ideal S300000x2 .f32) (k : Fin 2) :
    var2 x (ix2 (0 : Fin 1) k)
      = Ideal.div (Ideal.ofBits .f32 0x00000000#32 + ∑ p : Fin 300000, dev2 x (ix2 p k) * dev2 x (ix2 p k)) (Ideal.ofBits .f32 0x48927C00#32) := by
  unfold var2
  rw [select_apply, splat_apply, guard_apply, select_one, hdivf_apply, splat_apply, dofCount_apply,
    asRow_apply _ bcast_S2_S1x2_1 (by decide) k, colSum_apply _ _ reducesTo_S300000x2_S2_d0 (by decide) h_S_ k]
  rfl

/-- The normalisation of an entry with its column's mean m and variance v. -/
theorem bn2_apply (x : FVec Ideal S300000x2 .f32) (m v : FVec Ideal S1x2 .f32) (g b : FVec Ideal S2 .f32)
    (p : Fin 300000) (k : Fin 2) :
    bn2 x m v g b (ix2 p k)
      = Ideal.div (x (ix2 p k) - m (ix2 (0 : Fin 1) k)) (Ideal.sqrt (v (ix2 (0 : Fin 1) k) + Ideal.ofBits .f32 0x3727C5AC#32)) * g (ix1 k)
          + b (ix1 k) := by
  unfold bn2
  rw [addf_apply, mulf_apply, hdivf_apply, subf_apply,
    rowStretch_apply m bcast_S1x2_S300000x2_0_1 (by decide) p k,
    rowStretch_apply (Host.sqrt _) bcast_S1x2_S300000x2_0_1 (by decide) p k,
    rowStretch_apply (broadcastInDim S1x2 ![1] bcast_S2_S1x2_1 g) bcast_S1x2_S300000x2_0_1 (by decide) p k,
    rowStretch_apply (broadcastInDim S1x2 ![1] bcast_S2_S1x2_1 b) bcast_S1x2_S300000x2_0_1 (by decide) p k,
    hsqrt_apply, addf_apply, splat_const_apply,
    asRow_apply g bcast_S2_S1x2_1 (by decide) k, asRow_apply b bcast_S2_S1x2_1 (by decide) k]

/-- The mean of column k over the 300000 rows. -/
theorem mean32_apply (x : FVec Ideal S300000x32 .f32) (k : Fin 32) :
    mean32 x (ix2 (0 : Fin 1) k) = Ideal.div (Ideal.ofBits .f32 0x00000000#32 + ∑ p : Fin 300000, x (ix2 p k)) (Ideal.ofBits .f32 0x48927C00#32) := by
  unfold mean32
  rw [hdivf_apply, splat_const_apply, asRow_apply _ bcast_S32_S1x32_1 (by decide) k,
    colSum_apply _ _ reducesTo_S300000x32_S32_d0 (by decide) h_S_ k]

/-- An entry less the mean of its column. -/
theorem dev32_apply (x : FVec Ideal S300000x32 .f32) (p : Fin 300000) (k : Fin 32) :
    dev32 x (ix2 p k) = x (ix2 p k) - mean32 x (ix2 (0 : Fin 1) k) := by
  unfold dev32
  rw [subf_apply, rowStretch_apply _ bcast_S1x32_S300000x32_0_1 (by decide) p k]

/-- The variance of column k: the guard on a positive divisor holds (the divisor is the row count less zero), so the value is
    the sum of the squared deviations over the row count. -/
theorem var32_apply (x : FVec Ideal S300000x32 .f32) (k : Fin 32) :
    var32 x (ix2 (0 : Fin 1) k)
      = Ideal.div (Ideal.ofBits .f32 0x00000000#32 + ∑ p : Fin 300000, dev32 x (ix2 p k) * dev32 x (ix2 p k)) (Ideal.ofBits .f32 0x48927C00#32) := by
  unfold var32
  rw [select_apply, splat_apply, guard_apply, select_one, hdivf_apply, splat_apply, dofCount_apply,
    asRow_apply _ bcast_S32_S1x32_1 (by decide) k, colSum_apply _ _ reducesTo_S300000x32_S32_d0 (by decide) h_S_ k]
  rfl

/-- The normalisation of an entry with its column's mean m and variance v. -/
theorem bn32_apply (x : FVec Ideal S300000x32 .f32) (m v : FVec Ideal S1x32 .f32) (g b : FVec Ideal S32 .f32)
    (p : Fin 300000) (k : Fin 32) :
    bn32 x m v g b (ix2 p k)
      = Ideal.div (x (ix2 p k) - m (ix2 (0 : Fin 1) k)) (Ideal.sqrt (v (ix2 (0 : Fin 1) k) + Ideal.ofBits .f32 0x3727C5AC#32)) * g (ix1 k)
          + b (ix1 k) := by
  unfold bn32
  rw [addf_apply, mulf_apply, hdivf_apply, subf_apply,
    rowStretch_apply m bcast_S1x32_S300000x32_0_1 (by decide) p k,
    rowStretch_apply (Host.sqrt _) bcast_S1x32_S300000x32_0_1 (by decide) p k,
    rowStretch_apply (broadcastInDim S1x32 ![1] bcast_S32_S1x32_1 g) bcast_S1x32_S300000x32_0_1 (by decide) p k,
    rowStretch_apply (broadcastInDim S1x32 ![1] bcast_S32_S1x32_1 b) bcast_S1x32_S300000x32_0_1 (by decide) p k,
    hsqrt_apply, addf_apply, splat_const_apply,
    asRow_apply g bcast_S32_S1x32_1 (by decide) k, asRow_apply b bcast_S32_S1x32_1 (by decide) k]

/-- The mean of column k over the 300000 rows. -/
theorem mean64_apply (x : FVec Ideal S300000x64 .f32) (k : Fin 64) :
    mean64 x (ix2 (0 : Fin 1) k) = Ideal.div (Ideal.ofBits .f32 0x00000000#32 + ∑ p : Fin 300000, x (ix2 p k)) (Ideal.ofBits .f32 0x48927C00#32) := by
  unfold mean64
  rw [hdivf_apply, splat_const_apply, asRow_apply _ bcast_S64_S1x64_1 (by decide) k,
    colSum_apply _ _ reducesTo_S300000x64_S64_d0 (by decide) h_S_ k]

/-- An entry less the mean of its column. -/
theorem dev64_apply (x : FVec Ideal S300000x64 .f32) (p : Fin 300000) (k : Fin 64) :
    dev64 x (ix2 p k) = x (ix2 p k) - mean64 x (ix2 (0 : Fin 1) k) := by
  unfold dev64
  rw [subf_apply, rowStretch_apply _ bcast_S1x64_S300000x64_0_1 (by decide) p k]

/-- The variance of column k: the guard on a positive divisor holds (the divisor is the row count less zero), so the value is
    the sum of the squared deviations over the row count. -/
theorem var64_apply (x : FVec Ideal S300000x64 .f32) (k : Fin 64) :
    var64 x (ix2 (0 : Fin 1) k)
      = Ideal.div (Ideal.ofBits .f32 0x00000000#32 + ∑ p : Fin 300000, dev64 x (ix2 p k) * dev64 x (ix2 p k)) (Ideal.ofBits .f32 0x48927C00#32) := by
  unfold var64
  rw [select_apply, splat_apply, guard_apply, select_one, hdivf_apply, splat_apply, dofCount_apply,
    asRow_apply _ bcast_S64_S1x64_1 (by decide) k, colSum_apply _ _ reducesTo_S300000x64_S64_d0 (by decide) h_S_ k]
  rfl

/-- The normalisation of an entry with its column's mean m and variance v. -/
theorem bn64_apply (x : FVec Ideal S300000x64 .f32) (m v : FVec Ideal S1x64 .f32) (g b : FVec Ideal S64 .f32)
    (p : Fin 300000) (k : Fin 64) :
    bn64 x m v g b (ix2 p k)
      = Ideal.div (x (ix2 p k) - m (ix2 (0 : Fin 1) k)) (Ideal.sqrt (v (ix2 (0 : Fin 1) k) + Ideal.ofBits .f32 0x3727C5AC#32)) * g (ix1 k)
          + b (ix1 k) := by
  unfold bn64
  rw [addf_apply, mulf_apply, hdivf_apply, subf_apply,
    rowStretch_apply m bcast_S1x64_S300000x64_0_1 (by decide) p k,
    rowStretch_apply (Host.sqrt _) bcast_S1x64_S300000x64_0_1 (by decide) p k,
    rowStretch_apply (broadcastInDim S1x64 ![1] bcast_S64_S1x64_1 g) bcast_S1x64_S300000x64_0_1 (by decide) p k,
    rowStretch_apply (broadcastInDim S1x64 ![1] bcast_S64_S1x64_1 b) bcast_S1x64_S300000x64_0_1 (by decide) p k,
    hsqrt_apply, addf_apply, splat_const_apply,
    asRow_apply g bcast_S64_S1x64_1 (by decide) k, asRow_apply b bcast_S64_S1x64_1 (by decide) k]

/-! ## The affine maps -/

/-- Row p of the array times column q of the weights, plus the bias, not below zero. -/
theorem layer1_apply (h : FVec Ideal S300000x2 .f32) (W : FVec Ideal S2x32 .f32) (c : FVec Ideal S32 .f32)
    (p : Fin 300000) (q : Fin 32) :
    layer1 h W c (ix2 p q) = max ((∑ k : Fin 2, h (ix2 p k) * W (ix2 k q)) + c (ix1 q)) (Ideal.ofBits .f32 0x00000000#32) := by
  unfold layer1
  rw [maximumf_apply, splat_const_apply,
    Cert.LinearAt.dot_bias_apply 300000 2 32 dot_S300000x2_S2x32_S300000x32_1_0_0_1_n_n rfl h W _ ![0, 1] rfl bcast_S1x32_S300000x32_0_1 p q,
    asRow_apply c bcast_S32_S1x32_1 (by decide) q]

/-- Row p of the array times column q of the weights, plus the bias, not below zero. -/
theorem layer2_apply (h : FVec Ideal S300000x32 .f32) (W : FVec Ideal S32x32 .f32) (c : FVec Ideal S32 .f32)
    (p : Fin 300000) (q : Fin 32) :
    layer2 h W c (ix2 p q) = max ((∑ k : Fin 32, h (ix2 p k) * W (ix2 k q)) + c (ix1 q)) (Ideal.ofBits .f32 0x00000000#32) := by
  unfold layer2
  rw [maximumf_apply, splat_const_apply,
    Cert.LinearAt.dot_bias_apply 300000 32 32 dot_S300000x32_S32x32_S300000x32_1_0_0_1_n_n rfl h W _ ![0, 1] rfl bcast_S1x32_S300000x32_0_1 p q,
    asRow_apply c bcast_S32_S1x32_1 (by decide) q]

/-- Row p of the array times column q of the weights, plus the bias, not below zero. -/
theorem layer3_apply (h : FVec Ideal S300000x32 .f32) (W : FVec Ideal S32x64 .f32) (c : FVec Ideal S64 .f32)
    (p : Fin 300000) (q : Fin 64) :
    layer3 h W c (ix2 p q) = max ((∑ k : Fin 32, h (ix2 p k) * W (ix2 k q)) + c (ix1 q)) (Ideal.ofBits .f32 0x00000000#32) := by
  unfold layer3
  rw [maximumf_apply, splat_const_apply,
    Cert.LinearAt.dot_bias_apply 300000 32 64 dot_S300000x32_S32x64_S300000x64_1_0_0_1_n_n rfl h W _ ![0, 1] rfl bcast_S1x64_S300000x64_0_1 p q,
    asRow_apply c bcast_S64_S1x64_1 (by decide) q]

/-- Pair (n, j), coordinate q of the result: row 300 n + j of the last array times column q of the weights, plus the bias. -/
theorem layer4_apply (h : FVec Ideal S300000x64 .f32) (W : FVec Ideal S64x64 .f32) (c : FVec Ideal S64 .f32)
    (n : Fin 1000) (j : Fin 300) (q : Fin 64) :
    layer4 h W c (ix3 n j q) = (∑ k : Fin 64, h (ix2 (pairRow n j) k) * W (ix2 k q)) + c (ix1 q) := by
  unfold layer4
  rw [asPairs_apply _ shapeCasts_S300000x64_S1000x300x64 n j q,
    Cert.LinearAt.dot_bias_apply 300000 64 64 dot_S300000x64_S64x64_S300000x64_1_0_0_1_n_n rfl h W _ ![0, 1] rfl bcast_S1x64_S300000x64_0_1 (pairRow n j) q,
    asRow_apply c bcast_S64_S1x64_1 (by decide) q]

/-! ## The stages composed -/

/-- A normalised entry in terms of the array's own column statistics. -/
theorem bnOf2_apply (x : FVec Ideal S300000x2 .f32) (g b : FVec Ideal S2 .f32) (p : Fin 300000) (k : Fin 2) :
    bnOf2 x g b (ix2 p k)
      = Ideal.div (x (ix2 p k) - mean2 x (ix2 (0 : Fin 1) k)) (Ideal.sqrt (var2 x (ix2 (0 : Fin 1) k) + Ideal.ofBits .f32 0x3727C5AC#32)) * g (ix1 k)
          + b (ix1 k) := by
  unfold bnOf2
  exact bn2_apply x _ _ g b p k

/-- A normalised entry in terms of the array's own column statistics. -/
theorem bnOf32_apply (x : FVec Ideal S300000x32 .f32) (g b : FVec Ideal S32 .f32) (p : Fin 300000) (k : Fin 32) :
    bnOf32 x g b (ix2 p k)
      = Ideal.div (x (ix2 p k) - mean32 x (ix2 (0 : Fin 1) k)) (Ideal.sqrt (var32 x (ix2 (0 : Fin 1) k) + Ideal.ofBits .f32 0x3727C5AC#32)) * g (ix1 k)
          + b (ix1 k) := by
  unfold bnOf32
  exact bn32_apply x _ _ g b p k

/-- A normalised entry in terms of the array's own column statistics. -/
theorem bnOf64_apply (x : FVec Ideal S300000x64 .f32) (g b : FVec Ideal S64 .f32) (p : Fin 300000) (k : Fin 64) :
    bnOf64 x g b (ix2 p k)
      = Ideal.div (x (ix2 p k) - mean64 x (ix2 (0 : Fin 1) k)) (Ideal.sqrt (var64 x (ix2 (0 : Fin 1) k) + Ideal.ofBits .f32 0x3727C5AC#32)) * g (ix1 k)
          + b (ix1 k) := by
  unfold bnOf64
  exact bn64_apply x _ _ g b p k

/-- Column 0 of row 300 n + j of the pair features: the cosine of embedding n of the first set and embedding j of the second. -/
theorem pairFeat_apply_cos (a : FVec Ideal S1000x4 .f32) (e : FVec Ideal S1000x64 .f32) (b : FVec Ideal S300x4 .f32) (r : FVec Ideal S300x64 .f32) (n : Fin 1000) (j : Fin 300) :
    pairFeat a e b r (ix2 (pairRow n j) (0 : Fin 2)) = ∑ d : Fin 64, unitQ e (ix2 n d) * unitK r (ix2 j d) := by
  unfold pairFeat
  rw [featOf_apply_cos, cosOf_apply]

/-- Column 1 of row 300 n + j of the pair features: the overlap ratio of box n of the first set and box j of the second. -/
theorem pairFeat_apply_iou (a : FVec Ideal S1000x4 .f32) (e : FVec Ideal S1000x64 .f32) (b : FVec Ideal S300x4 .f32) (r : FVec Ideal S300x64 .f32) (n : Fin 1000) (j : Fin 300) :
    pairFeat a e b r (ix2 (pairRow n j) (1 : Fin 2))
      = Ideal.div (interOf a b (ix2 n j))
          (areaA a (ix1 n) + areaB b (ix1 j) - interOf a b (ix2 n j) + Ideal.ofBits .f32 0x3089705F#32) := by
  unfold pairFeat
  rw [featOf_apply_iou, iouOf_apply, areaColOf_apply, areaRowOf_apply]

/-- The first hidden array: the pair features normalised, through the first affine map. -/
def hid1 (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) : FVec Ideal S300000x32 .f32 :=
  layer1 (bnOf2 (pairFeat a e b r) g0 b0) W1 c1

/-- The second hidden array. -/
def hid2 (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) (g1 : FVec Ideal S32 .f32) (b1 : FVec Ideal S32 .f32) (W2 : FVec Ideal S32x32 .f32) (c2 : FVec Ideal S32 .f32) : FVec Ideal S300000x32 .f32 :=
  layer2 (bnOf32 (hid1 a e b r g0 b0 W1 c1) g1 b1) W2 c2

/-- The third hidden array. -/
def hid3 (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) (g1 : FVec Ideal S32 .f32) (b1 : FVec Ideal S32 .f32) (W2 : FVec Ideal S32x32 .f32) (c2 : FVec Ideal S32 .f32) (g2 : FVec Ideal S32 .f32) (b2 : FVec Ideal S32 .f32) (W3 : FVec Ideal S32x64 .f32) (c3 : FVec Ideal S64 .f32) : FVec Ideal S300000x64 .f32 :=
  layer3 (bnOf32 (hid2 a e b r g0 b0 W1 c1 g1 b1 W2 c2) g2 b2) W3 c3

/-- The whole computation is the last affine map of the third hidden array normalised. -/
theorem refOut_eq (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) (g1 : FVec Ideal S32 .f32) (b1 : FVec Ideal S32 .f32) (W2 : FVec Ideal S32x32 .f32) (c2 : FVec Ideal S32 .f32) (g2 : FVec Ideal S32 .f32) (b2 : FVec Ideal S32 .f32) (W3 : FVec Ideal S32x64 .f32) (c3 : FVec Ideal S64 .f32) (g3 : FVec Ideal S64 .f32) (b3 : FVec Ideal S64 .f32) (W4 : FVec Ideal S64x64 .f32) (c4 : FVec Ideal S64 .f32) :
    refOut a e b r g0 b0 W1 c1 g1 b1 W2 c2 g2 b2 W3 c3 g3 b3 W4 c4 = layer4 (bnOf64 (hid3 a e b r g0 b0 W1 c1 g1 b1 W2 c2 g2 b2 W3 c3) g3 b3) W4 c4 := rfl

/-- The result at pair (n, j), coordinate q. -/
theorem refOut_apply (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) (g1 : FVec Ideal S32 .f32) (b1 : FVec Ideal S32 .f32) (W2 : FVec Ideal S32x32 .f32) (c2 : FVec Ideal S32 .f32) (g2 : FVec Ideal S32 .f32) (b2 : FVec Ideal S32 .f32) (W3 : FVec Ideal S32x64 .f32) (c3 : FVec Ideal S64 .f32) (g3 : FVec Ideal S64 .f32) (b3 : FVec Ideal S64 .f32) (W4 : FVec Ideal S64x64 .f32) (c4 : FVec Ideal S64 .f32) (n : Fin 1000) (j : Fin 300) (q : Fin 64) :
    refOut a e b r g0 b0 W1 c1 g1 b1 W2 c2 g2 b2 W3 c3 g3 b3 W4 c4 (ix3 n j q)
      = (∑ k : Fin 64, bnOf64 (hid3 a e b r g0 b0 W1 c1 g1 b1 W2 c2 g2 b2 W3 c3) g3 b3 (ix2 (pairRow n j) k) * W4 (ix2 k q)) + c4 (ix1 q) := by
  rw [refOut_eq, layer4_apply]

/-- Every row of the 300000-row layout is the row of one pair. -/
theorem pairRow_surj (p : Fin 300000) : ∃ (n : Fin 1000) (j : Fin 300), p = pairRow n j :=
  ⟨⟨p.val / 300, by have := p.isLt; omega⟩, ⟨p.val % 300, Nat.mod_lt _ (by decide)⟩, Fin.ext (by
    show p.val = 300 * (p.val / 300) + p.val % 300
    omega)⟩

/-- A sum over the 300000 rows is the sum over the pairs. -/
theorem sum_pairRow (f : Fin 300000 → EReal) : ∑ p : Fin 300000, f p = ∑ n : Fin 1000, ∑ j : Fin 300, f (pairRow n j) := by
  rw [← Fintype.sum_prod_type' (f := fun n j => f (pairRow n j))]
  refine (Equiv.sum_comp (finProdFinEquiv (m := 1000) (n := 300)) f).symm.trans (Finset.sum_congr rfl fun x _ => congrArg f ?_)
  exact Fin.ext (Nat.add_comm _ _)

end Cert.ReferenceIdeal.RefRead

end
-- ==== Proof.RefNet.lean ====
/-
  The reference computation, entry by entry, as the plain formula on the extended reals.

  Each affine map of a normalised array is, at one entry, the closed expression in the array's entries: the column mean
  and the mean squared deviation over the 300000 rows spelt as sums divided by the row count, the small constants as
  the numbers their words denote. The pair features are, at row 300 n + j, the cosine of the two embedding rows and the
  overlap ratio of the two boxes. Composing the four maps gives the result at pair (n, j), coordinate q.
-/
import proofs.«139309_g56014963475156_cont_9to1_m_1179_16_alg».proof.Proof.RefRead
import proofs.«139309_g56014963475156_cont_9to1_m_1179_16_alg».proof.Proof.Net

noncomputable section

namespace Cert.ReferenceIdeal.RefNet

open Cert.ReferenceIdeal Cert.ReferenceIdeal.Gen Cert.ReferenceIdeal.RefRun Cert.ReferenceIdeal.RefRead Idealize.ShloMosaic Idealize.ShloMosaic.ValueIdx

/-! ## The four affine maps of normalised arrays -/

/-- One normalisation followed by the affine map, at one entry, is the plain formula of the array's entries. -/
theorem layer1_net (x : FVec Ideal S300000x2 .f32) (g b : FVec Ideal S2 .f32) (W : FVec Ideal S2x32 .f32)
    (c : FVec Ideal S32 .f32) (i : Fin 300000) (q : Fin 32) :
    layer1 (bnOf2 x g b) W c (ix2 i q)
      = Cert.Net.bnlin Cert.Net.relu (fun i k => x (ix2 i k)) (fun k => g (ix1 k)) (fun k => b (ix1 k)) (fun k q => W (ix2 k q)) (fun q => c (ix1 q)) i q := by
  rw [layer1_apply]
  simp only [bnOf2_apply, mean2_apply, var2_apply, dev2_apply, Cert.Consts.ofBits_zero, zero_add,
    Cert.Consts.ofBits_count, Cert.Consts.ofBits_epsBn]
  rfl

/-- One normalisation followed by the affine map, at one entry, is the plain formula of the array's entries. -/
theorem layer2_net (x : FVec Ideal S300000x32 .f32) (g b : FVec Ideal S32 .f32) (W : FVec Ideal S32x32 .f32)
    (c : FVec Ideal S32 .f32) (i : Fin 300000) (q : Fin 32) :
    layer2 (bnOf32 x g b) W c (ix2 i q)
      = Cert.Net.bnlin Cert.Net.relu (fun i k => x (ix2 i k)) (fun k => g (ix1 k)) (fun k => b (ix1 k)) (fun k q => W (ix2 k q)) (fun q => c (ix1 q)) i q := by
  rw [layer2_apply]
  simp only [bnOf32_apply, mean32_apply, var32_apply, dev32_apply, Cert.Consts.ofBits_zero, zero_add,
    Cert.Consts.ofBits_count, Cert.Consts.ofBits_epsBn]
  rfl

/-- One normalisation followed by the affine map, at one entry, is the plain formula of the array's entries. -/
theorem layer3_net (x : FVec Ideal S300000x32 .f32) (g b : FVec Ideal S32 .f32) (W : FVec Ideal S32x64 .f32)
    (c : FVec Ideal S64 .f32) (i : Fin 300000) (q : Fin 64) :
    layer3 (bnOf32 x g b) W c (ix2 i q)
      = Cert.Net.bnlin Cert.Net.relu (fun i k => x (ix2 i k)) (fun k => g (ix1 k)) (fun k => b (ix1 k)) (fun k q => W (ix2 k q)) (fun q => c (ix1 q)) i q := by
  rw [layer3_apply]
  simp only [bnOf32_apply, mean32_apply, var32_apply, dev32_apply, Cert.Consts.ofBits_zero, zero_add,
    Cert.Consts.ofBits_count, Cert.Consts.ofBits_epsBn]
  rfl

/-- The last map, read back at pair (n, j): no floor at zero. -/
theorem layer4_net (x : FVec Ideal S300000x64 .f32) (g b : FVec Ideal S64 .f32) (W : FVec Ideal S64x64 .f32)
    (c : FVec Ideal S64 .f32) (n : Fin 1000) (j : Fin 300) (q : Fin 64) :
    layer4 (bnOf64 x g b) W c (ix3 n j q)
      = Cert.Net.bnlin id (fun i k => x (ix2 i k)) (fun k => g (ix1 k)) (fun k => b (ix1 k)) (fun k q => W (ix2 k q)) (fun q => c (ix1 q)) (pairRow n j) q := by
  rw [layer4_apply]
  simp only [bnOf64_apply, mean64_apply, var64_apply, dev64_apply, Cert.Consts.ofBits_zero, zero_add,
    Cert.Consts.ofBits_count, Cert.Consts.ofBits_epsBn]
  rfl

/-! ## The pair features -/

theorem detOf_pairRow (n : Fin 1000) (j : Fin 300) : Cert.Net.detOf (pairRow n j) = n :=
  Fin.ext (by show (300 * n.val + j.val) / 300 = n.val; have := j.isLt; omega)

theorem refOf_pairRow (n : Fin 1000) (j : Fin 300) : Cert.Net.refOf (pairRow n j) = j :=
  Fin.ext (by show (300 * n.val + j.val) % 300 = j.val; have := j.isLt; omega)

theorem unitQ_net (e : FVec Ideal S1000x64 .f32) (n : Fin 1000) (d : Fin 64) :
    unitQ e (ix2 n d) = Cert.Net.unit (fun n d => e (ix2 n d)) n d := by
  rw [unitQ_apply, rowNormQ_apply, Cert.Consts.ofBits_zero, zero_add, Cert.Consts.ofBits_epsNorm]
  rfl

theorem unitK_net (r : FVec Ideal S300x64 .f32) (j : Fin 300) (d : Fin 64) :
    unitK r (ix2 j d) = Cert.Net.unit (fun j d => r (ix2 j d)) j d := by
  rw [unitK_apply, rowNormK_apply, Cert.Consts.ofBits_zero, zero_add, Cert.Consts.ofBits_epsNorm]
  rfl

theorem cos_net (a : FVec Ideal S1000x4 .f32) (e : FVec Ideal S1000x64 .f32) (b : FVec Ideal S300x4 .f32) (r : FVec Ideal S300x64 .f32) (n : Fin 1000) (j : Fin 300) :
    pairFeat a e b r (ix2 (pairRow n j) (0 : Fin 2)) = Cert.Net.cosS (fun n d => e (ix2 n d)) (fun j d => r (ix2 j d)) n j := by
  rw [pairFeat_apply_cos]
  unfold Cert.Net.cosS
  exact Finset.sum_congr rfl fun d _ => by rw [unitQ_net, unitK_net]

theorem inter_net (a : FVec Ideal S1000x4 .f32) (b : FVec Ideal S300x4 .f32) (n : Fin 1000) (j : Fin 300) :
    interOf a b (ix2 n j)
      = Cert.Net.inter (a (ix2 n (0 : Fin 4))) (a (ix2 n (1 : Fin 4))) (a (ix2 n (2 : Fin 4))) (a (ix2 n (3 : Fin 4)))
          (b (ix2 j (0 : Fin 4))) (b (ix2 j (1 : Fin 4))) (b (ix2 j (2 : Fin 4))) (b (ix2 j (3 : Fin 4))) := by
  have hx : ∀ x : EReal, max (0 : EReal) x = max x 0 := fun x => max_comm _ _
  rw [interOf_apply, overlapWH_apply, overlapWH_apply, cornerHi_apply, cornerHi_apply, cornerLo_apply, cornerLo_apply,
    Cert.Consts.ofBits_zero, hx, hx]
  rfl

theorem iou_net (a : FVec Ideal S1000x4 .f32) (e : FVec Ideal S1000x64 .f32) (b : FVec Ideal S300x4 .f32) (r : FVec Ideal S300x64 .f32) (n : Fin 1000) (j : Fin 300) :
    pairFeat a e b r (ix2 (pairRow n j) (1 : Fin 2)) = Cert.Net.iouS (fun n k => a (ix2 n k)) (fun j k => b (ix2 j k)) n j := by
  rw [pairFeat_apply_iou, areaA_apply, areaB_apply, inter_net, Cert.Consts.ofBits_epsIou]
  rfl

/-- The pair features at any row and column. -/
theorem pairFeat_net (a : FVec Ideal S1000x4 .f32) (e : FVec Ideal S1000x64 .f32) (b : FVec Ideal S300x4 .f32) (r : FVec Ideal S300x64 .f32) (i : Fin 300000) (k : Fin 2) :
    pairFeat a e b r (ix2 i k) = (Cert.Net.feat (fun n k => a (ix2 n k)) (fun n d => e (ix2 n d)) (fun j k => b (ix2 j k)) (fun j d => r (ix2 j d))) i k := by
  obtain ⟨n, j, rfl⟩ := pairRow_surj i
  unfold Cert.Net.feat
  rw [detOf_pairRow, refOf_pairRow]
  match k with
  | ⟨0, _⟩ => exact (cos_net a e b r n j).trans (if_pos rfl).symm
  | ⟨1, _⟩ => exact (iou_net a e b r n j).trans (if_neg (Nat.succ_ne_zero 0)).symm

/-! ## The whole computation -/

/-- The result at pair (n, j), coordinate q, as the plain formula of the twenty arrays' entries. -/
theorem refOut_eq_net (a : FVec Ideal S1000x4 .f32) (e : FVec Ideal S1000x64 .f32) (b : FVec Ideal S300x4 .f32) (r : FVec Ideal S300x64 .f32) (g0 : FVec Ideal S2 .f32) (b0 : FVec Ideal S2 .f32) (W1 : FVec Ideal S2x32 .f32) (c1 : FVec Ideal S32 .f32) (g1 : FVec Ideal S32 .f32) (b1 : FVec Ideal S32 .f32) (W2 : FVec Ideal S32x32 .f32) (c2 : FVec Ideal S32 .f32) (g2 : FVec Ideal S32 .f32) (b2 : FVec Ideal S32 .f32) (W3 : FVec Ideal S32x64 .f32) (c3 : FVec Ideal S64 .f32) (g3 : FVec Ideal S64 .f32) (b3 : FVec Ideal S64 .f32) (W4 : FVec Ideal S64x64 .f32) (c4 : FVec Ideal S64 .f32) (n : Fin 1000) (j : Fin 300) (q : Fin 64) :
    refOut (F := Ideal) a e b r g0 b0 W1 c1 g1 b1 W2 c2 g2 b2 W3 c3 g3 b3 W4 c4 (ix3 n j q)
      = Cert.Net.net (Cert.Net.feat (fun n k => a (ix2 n k)) (fun n d => e (ix2 n d)) (fun j k => b (ix2 j k)) (fun j d => r (ix2 j d)))
          (fun k => g0 (ix1 k)) (fun k => b0 (ix1 k)) (fun k q => W1 (ix2 k q)) (fun q => c1 (ix1 q))
          (fun k => g1 (ix1 k)) (fun k => b1 (ix1 k)) (fun k q => W2 (ix2 k q)) (fun q => c2 (ix1 q))
          (fun k => g2 (ix1 k)) (fun k => b2 (ix1 k)) (fun k q => W3 (ix2 k q)) (fun q => c3 (ix1 q))
          (fun k => g3 (ix1 k)) (fun k => b3 (ix1 k)) (fun k q => W4 (ix2 k q)) (fun q => c4 (ix1 q))
          (⟨300 * n.val + j.val, by have := n.isLt; have := j.isLt; omega⟩ : Fin 300000) q := by
  have h0 : (fun i k => pairFeat a e b r (ix2 i k)) = (Cert.Net.feat (fun n k => a (ix2 n k)) (fun n d => e (ix2 n d)) (fun j k => b (ix2 j k)) (fun j d => r (ix2 j d))) :=
    funext fun i => funext fun k => pairFeat_net a e b r i k
  have h1 : (fun i k => hid1 a e b r g0 b0 W1 c1 (ix2 i k))
      = Cert.Net.bnlin Cert.Net.relu (Cert.Net.feat (fun n k => a (ix2 n k)) (fun n d => e (ix2 n d)) (fun j k => b (ix2 j k)) (fun j d => r (ix2 j d))) (fun k => g0 (ix1 k)) (fun k => b0 (ix1 k)) (fun k q => W1 (ix2 k q)) (fun q => c1 (ix1 q)) := by
    funext i k
    unfold hid1
    rw [layer1_net, h0]
  have h2 : (fun i k => hid2 a e b r g0 b0 W1 c1 g1 b1 W2 c2 (ix2 i k))
      = Cert.Net.bnlin Cert.Net.relu (Cert.Net.bnlin Cert.Net.relu (Cert.Net.feat (fun n k => a (ix2 n k)) (fun n d => e (ix2 n d)) (fun j k => b (ix2 j k)) (fun j d => r (ix2 j d))) (fun k => g0 (ix1 k)) (fun k => b0 (ix1 k)) (fun k q => W1 (ix2 k q)) (fun q => c1 (ix1 q)))
          (fun k => g1 (ix1 k)) (fun k => b1 (ix1 k)) (fun k q => W2 (ix2 k q)) (fun q => c2 (ix1 q)) := by
    funext i k
    unfold hid2
    rw [layer2_net, h1]
  have h3 : (fun i k => hid3 a e b r g0 b0 W1 c1 g1 b1 W2 c2 g2 b2 W3 c3 (ix2 i k))
      = Cert.Net.bnlin Cert.Net.relu (Cert.Net.bnlin Cert.Net.relu (Cert.Net.bnlin Cert.Net.relu (Cert.Net.feat (fun n k => a (ix2 n k)) (fun n d => e (ix2 n d)) (fun j k => b (ix2 j k)) (fun j d => r (ix2 j d))) (fun k => g0 (ix1 k)) (fun k => b0 (ix1 k)) (fun k q => W1 (ix2 k q)) (fun q => c1 (ix1 q)))
          (fun k => g1 (ix1 k)) (fun k => b1 (ix1 k)) (fun k q => W2 (ix2 k q)) (fun q => c2 (ix1 q))) (fun k => g2 (ix1 k)) (fun k => b2 (ix1 k)) (fun k q => W3 (ix2 k q)) (fun q => c3 (ix1 q)) := by
    funext i k
    unfold hid3
    rw [layer3_net, h2]
  rw [refOut_eq, layer4_net, h3]
  rfl

end Cert.ReferenceIdeal.RefNet

end
-- ==== Proof.Algebraic.lean ====
/-
  The two programs end with equal results, given what the kernel computes.

  The reference's run ends with its result array at the composition of its stages, and that composition is, entry by
  entry, the plain formula of the twenty argument arrays. If the kernel's result array is, entry by entry, the same
  formula of its own arguments, then from memories that agree on the arguments both runs end with equal result
  arrays and unchanged arguments.
-/
import proofs.«139309_g56014963475156_cont_9to1_m_1179_16_alg».proof.Defs
import proofs.«139309_g56014963475156_cont_9to1_m_1179_16_alg».proof.Proof.Gen.KernelIdeal
import proofs.«139309_g56014963475156_cont_9to1_m_1179_16_alg».proof.Proof.Gen.ReferenceIdeal
import proofs.«139309_g56014963475156_cont_9to1_m_1179_16_alg».proof.Proof.Gen.Pre_finite_inputs
import proofs.«139309_g56014963475156_cont_9to1_m_1179_16_alg».proof.Proof.KernelRun
import proofs.«139309_g56014963475156_cont_9to1_m_1179_16_alg».proof.Proof.RefRun
import proofs.«139309_g56014963475156_cont_9to1_m_1179_16_alg».proof.Proof.RefNet

noncomputable section

namespace Cert.Proof.Alg

open Idealize.ShloMosaic Idealize.SL.Sem Idealize.ShloMosaic.ValueIdx

/-- What the kernel computes: from a memory satisfying the precondition, its result array read at pair (n, j),
    coordinate q, is the plain formula of its twenty argument arrays. -/
def KernelFact : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.Pre_KernelIdeal m → ∀ (n : Fin 1000) (j : Fin 300) (q : Fin 64),
    Cert.KernelIdeal.Gen.W10 m ρ c (Proc.devRef .tc Cert.KernelIdeal.main_v0) (ix3 n j q)
      = Cert.Net.net (Cert.Net.feat (fun n k => (fun b => m ((c.tc : Thread Cert.KernelIdeal.nD Cert.KernelIdeal.τ).loc b)) Cert.KernelIdeal.main_arg0 (ix2 n k)) (fun n d => (fun b => m ((c.tc : Thread Cert.KernelIdeal.nD Cert.KernelIdeal.τ).loc b)) Cert.KernelIdeal.main_arg1 (ix2 n d)) (fun j k => (fun b => m ((c.tc : Thread Cert.KernelIdeal.nD Cert.KernelIdeal.τ).loc b)) Cert.KernelIdeal.main_arg2 (ix2 j k)) (fun j d => (fun b => m ((c.tc : Thread Cert.KernelIdeal.nD Cert.KernelIdeal.τ).loc b)) Cert.KernelIdeal.main_arg3 (ix2 j d)))
          (fun k => (fun b => m ((c.tc : Thread Cert.KernelIdeal.nD Cert.KernelIdeal.τ).loc b)) Cert.KernelIdeal.main_arg4 (ix1 k)) (fun k => (fun b => m ((c.tc : Thread Cert.KernelIdeal.nD Cert.KernelIdeal.τ).loc b)) Cert.KernelIdeal.main_arg5 (ix1 k)) (fun k q => (fun b => m ((c.tc : Thread Cert.KernelIdeal.nD Cert.KernelIdeal.τ).loc b)) Cert.KernelIdeal.main_arg6 (ix2 k q)) (fun q => (fun b => m ((c.tc : Thread Cert.KernelIdeal.nD Cert.KernelIdeal.τ).loc b)) Cert.KernelIdeal.main_arg7 (ix1 q))
          (fun k => (fun b => m ((c.tc : Thread Cert.KernelIdeal.nD Cert.KernelIdeal.τ).loc b)) Cert.KernelIdeal.main_arg8 (ix1 k)) (fun k => (fun b => m ((c.tc : Thread Cert.KernelIdeal.nD Cert.KernelIdeal.τ).loc b)) Cert.KernelIdeal.main_arg9 (ix1 k)) (fun k q => (fun b => m ((c.tc : Thread Cert.KernelIdeal.nD Cert.KernelIdeal.τ).loc b)) Cert.KernelIdeal.main_arg10 (ix2 k q)) (fun q => (fun b => m ((c.tc : Thread Cert.KernelIdeal.nD Cert.KernelIdeal.τ).loc b)) Cert.KernelIdeal.main_arg11 (ix1 q))
          (fun k => (fun b => m ((c.tc : Thread Cert.KernelIdeal.nD Cert.KernelIdeal.τ).loc b)) Cert.KernelIdeal.main_arg12 (ix1 k)) (fun k => (fun b => m ((c.tc : Thread Cert.KernelIdeal.nD Cert.KernelIdeal.τ).loc b)) Cert.KernelIdeal.main_arg13 (ix1 k)) (fun k q => (fun b => m ((c.tc : Thread Cert.KernelIdeal.nD Cert.KernelIdeal.τ).loc b)) Cert.KernelIdeal.main_arg14 (ix2 k q)) (fun q => (fun b => m ((c.tc : Thread Cert.KernelIdeal.nD Cert.KernelIdeal.τ).loc b)) Cert.KernelIdeal.main_arg15 (ix1 q))
          (fun k => (fun b => m ((c.tc : Thread Cert.KernelIdeal.nD Cert.KernelIdeal.τ).loc b)) Cert.KernelIdeal.main_arg16 (ix1 k)) (fun k => (fun b => m ((c.tc : Thread Cert.KernelIdeal.nD Cert.KernelIdeal.τ).loc b)) Cert.KernelIdeal.main_arg17 (ix1 k)) (fun k q => (fun b => m ((c.tc : Thread Cert.KernelIdeal.nD Cert.KernelIdeal.τ).loc b)) Cert.KernelIdeal.main_arg18 (ix2 k q)) (fun q => (fun b => m ((c.tc : Thread Cert.KernelIdeal.nD Cert.KernelIdeal.τ).loc b)) Cert.KernelIdeal.main_arg19 (ix1 q))
          (⟨300 * n.val + j.val, by have := n.isLt; have := j.isLt; omega⟩ : Fin 300000) q

/-- The reference program runs and leaves its arguments as they were. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories agreeing on the arguments, both programs run, end with equal result arrays, and leave their arguments
    unchanged — given the kernel's side. -/
theorem algebraic_of (hk : KernelFact) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.KernelIdeal.Gen.W10 m ρ c (Proc.devRef .tc Cert.KernelIdeal.main_v0), Cert.KernelIdeal.KRun.run (F := Ideal) m ρ, ?_⟩
  refine (θ_run Cert.ReferenceIdeal.defs _ _).mono (fun _ h c => ⟨(h c).1.trans ?_, (h c).2⟩) (Cert.ReferenceIdeal.RefRun.run (F := Ideal) m' ρ')
  show (Cert.ReferenceIdeal.RefRun.refOut (F := Ideal) _ _ _ _ _ _ _ _ _ _ _ _ _ _ _ _ _ _ _ _ : FVec Ideal Cert.ReferenceIdeal.S1000x300x64 .f32) = _
  funext (idx : Cert.ReferenceIdeal.S1000x300x64.Idx)
  obtain ⟨n, j, q, rfl⟩ : ∃ (n : Fin 1000) (j : Fin 300) (q : Fin 64), idx = ix3 n j q := ⟨idx 0, idx 1, idx 2, eq_ix3 idx⟩
  rw [Cert.ReferenceIdeal.RefNet.refOut_eq_net]
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact (hk m ρ c hpre n j q).symm

end Cert.Proof.Alg

end
-- ==== Proof.KNet.lean ====
/-
  The idealized kernel computes the specification.

  The three parts — what is known of the first hidden layer's array after the second launch, the step through the third
  launch, and the last two launches — compose: the result array at pair (n, j) is the four-stage head at pair row
  300·n + j, whenever the inputs are real numbers and the boxes are given by ordered corners.
-/
import proofs.«139309_g56014963475156_cont_9to1_m_1179_16_alg».proof.Proof.KNetHead
import proofs.«139309_g56014963475156_cont_9to1_m_1179_16_alg».proof.Proof.KNetMid
import proofs.«139309_g56014963475156_cont_9to1_m_1179_16_alg».proof.Proof.KNetTail
import proofs.«139309_g56014963475156_cont_9to1_m_1179_16_alg».proof.Proof.Algebraic

noncomputable section

namespace Cert.KernelIdeal.KNet

open Cert.KernelIdeal Cert.KernelIdeal.Gen
open Idealize.ShloMosaic Idealize.ShloMosaic.ValueIdx

theorem kernel_eq_net : Cert.Proof.Alg.KernelFact := by
  intro m ρ c hpre n j q
  obtain ⟨cp1, h1⟩ := F1 m ρ c hpre
  obtain ⟨cp2, h2⟩ := F2_of_F1 m ρ c hpre _ cp1 h1
  exact of_F2 m ρ c hpre _ cp2 h2 n j q

end Cert.KernelIdeal.KNet

end
-- ==== Proof.lean ====
/-
  The certificate of the pair-association head: five chained launches (cosine similarity and overlap ratio of every
  detection / reference pair with their first two moments; three layers of batch-statistics normalisation, affine map
  and ReLU, each launch accumulating the next normalisation's moments over real and padded pairs and correcting for the
  padded ones; the last layer) against the plain array program.

  The frames of the two kernel programs are the generated frame certificates; the reference's frame and result come from
  its run, written out operation by operation. The sixteen facts that the idealized kernel is the kernel's sanctioned
  idealization are the named reciprocal of the pair count and changes of number format that are the identity. The two
  results are equal because both are the same four-stage function of the 300000 real pairs: the reference by unfolding,
  the kernel because, for real inputs and boxes with ordered corners, its padded pairs are exactly zero at the first
  stage and one constant row afterwards, its corrected moments are the real pairs' sums, and scale-and-shift from raw
  moments is the centred normalisation.
-/
import proofs.«139309_g56014963475156_cont_9to1_m_1179_16_alg».proof.Defs
import proofs.«139309_g56014963475156_cont_9to1_m_1179_16_alg».proof.Proof.Gen.Kernel
import proofs.«139309_g56014963475156_cont_9to1_m_1179_16_alg».proof.Proof.Gen.Kernel.Skeleton
import proofs.«139309_g56014963475156_cont_9to1_m_1179_16_alg».proof.Proof.Gen.Kernel.Launch
import proofs.«139309_g56014963475156_cont_9to1_m_1179_16_alg».proof.Proof.Gen.Kernel.Points
import proofs.«139309_g56014963475156_cont_9to1_m_1179_16_alg».proof.Proof.Gen.Kernel.Frame
import proofs.«139309_g56014963475156_cont_9to1_m_1179_16_alg».proof.Proof.Gen.KernelIdeal
import proofs.«139309_g56014963475156_cont_9to1_m_1179_16_alg».proof.Proof.Gen.KernelIdeal.Skeleton
import proofs.«139309_g56014963475156_cont_9to1_m_1179_16_alg».proof.Proof.Gen.KernelIdeal.Launch
import proofs.«139309_g56014963475156_cont_9to1_m_1179_16_alg».proof.Proof.Gen.KernelIdeal.Points
import proofs.«139309_g56014963475156_cont_9to1_m_1179_16_alg».proof.Proof.Gen.KernelIdeal.Frame
import proofs.«139309_g56014963475156_cont_9to1_m_1179_16_alg».proof.Proof.Gen.ReferenceIdeal
import proofs.«139309_g56014963475156_cont_9to1_m_1179_16_alg».proof.Proof.Gen.Pre_finite_inputs
import proofs.«139309_g56014963475156_cont_9to1_m_1179_16_alg».proof.Proof.KNet
import Idealize.ShloMosaic.Adequacy
import Idealize.ShloMosaic.Init

noncomputable section

namespace Cert.Proof

open Idealize.ShloMosaic Idealize.SL.Sem Cert.Kernel

/-- The kernel's frame: the generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: the generated frame certificate. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The named reciprocal of the pair count: the table gives the name the rational 1/300000. -/
theorem named_inv : IdealRules.named_const.Statement Cert.KernelIdeal.κ "inv_300000" .f32 0x365FB23B#32 ((1 / 300000 : ℝ) : EReal) :=
  IdealRules.named_const.statement Cert.KernelIdeal.κ "inv_300000" .f32 0x365FB23B#32 ((1 / 300000 : ℝ) : EReal) rfl

/-- The idealized kernel is the kernel's sanctioned idealization: one fact per rewrite, in the order the rewrites were applied. -/
theorem preserves : Cert.preserves_Kernel_KernelIdeal :=
  ⟨named_inv, named_inv,
   IdealRules.truncf_extf.statement _ _ _, IdealRules.truncf_extf.statement _ _ _,
   IdealRules.truncf_extf.statement _ _ _, IdealRules.truncf_extf.statement _ _ _,
   IdealRules.truncf_extf.statement _ _ _, IdealRules.truncf_extf.statement _ _ _,
   named_inv, named_inv, named_inv, named_inv, named_inv, named_inv, named_inv, named_inv⟩

theorem claim : Cert.Claim := ⟨Cert.Kernel.Gen.facts, Cert.KernelIdeal.Gen.facts, Cert.ReferenceIdeal.Gen.facts, Cert.Pre_finite_inputs.Gen.facts,
  frame_k, frame_ki, Cert.Proof.Alg.frame_ri, preserves, Cert.Proof.Alg.algebraic_of Cert.KernelIdeal.KNet.kernel_eq_net⟩

end Cert.Proof

end
